-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)) →
    ∃ (v0 : (c : Dev Cert.KernelIdeal.nD) → Buf (Elt Ideal) ((c.tc : Thread Cert.KernelIdeal.nD Cert.KernelIdeal.τ).loc Cert.KernelIdeal.main_v16)) (v1 : (c : Dev Cert.KernelIdeal.nD) → Buf (Elt Ideal) ((c.tc : Thread Cert.KernelIdeal.nD Cert.KernelIdeal.τ).loc Cert.KernelIdeal.main_v17)) (v2 : (c : Dev Cert.KernelIdeal.nD) → Buf (Elt Ideal) ((c.tc : Thread Cert.KernelIdeal.nD Cert.KernelIdeal.τ).loc Cert.KernelIdeal.main_v13_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v16) = v0 c
          ∧ r.2.mem ((c.tc : Thread Cert.KernelIdeal.nD Cert.KernelIdeal.τ).loc Cert.KernelIdeal.main_v17) = v1 c
          ∧ r.2.mem ((c.tc : Thread Cert.KernelIdeal.nD Cert.KernelIdeal.τ).loc Cert.KernelIdeal.main_v13_1) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v71) = v0 c
          ∧ r.2.mem ((c.tc : Thread Cert.ReferenceIdeal.nD Cert.ReferenceIdeal.τ).loc Cert.ReferenceIdeal.main_v72) = v1 c
          ∧ r.2.mem ((c.tc : Thread Cert.ReferenceIdeal.nD Cert.ReferenceIdeal.τ).loc Cert.ReferenceIdeal.main_v23) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S1 : Shape := ⟨1, ![1]⟩
abbrev S1x1x1024 : Shape := ⟨3, ![1, 1, 1024]⟩
abbrev S512x1024 : Shape := ⟨2, ![512, 1024]⟩
abbrev S50257x1024 : Shape := ⟨2, ![50257, 1024]⟩
abbrev S512x2048 : Shape := ⟨2, ![512, 2048]⟩
abbrev S512 : Shape := ⟨1, ![512]⟩
abbrev S1024x2048 : Shape := ⟨2, ![1024, 2048]⟩
abbrev S1024 : Shape := ⟨1, ![1024]⟩
abbrev S3072x1024 : Shape := ⟨2, ![3072, 1024]⟩
abbrev S3072 : Shape := ⟨1, ![3072]⟩
abbrev S50257 : Shape := ⟨1, ![50257]⟩
abbrev S_ : Shape := ⟨0, ![]⟩

class Facts : Prop where
  bcast_S_S1x1x1024 : S_.BroadcastsInDim S1x1x1024 (![] : Fin 0 → Fin S1x1x1024.rank)
  reducesTo_S1x1x1024_S_d0_1_2 : S1x1x1024.ReducesTo [0, 1, 2] S_
  h_S_ : 0 < S_.numel
  bcast_S_S512x1024 : S_.BroadcastsInDim S512x1024 (![] : Fin 0 → Fin S512x1024.rank)
  reducesTo_S512x1024_S_d0_1 : S512x1024.ReducesTo [0, 1] S_
  bcast_S_S50257x1024 : S_.BroadcastsInDim S50257x1024 (![] : Fin 0 → Fin S50257x1024.rank)
  reducesTo_S50257x1024_S_d0_1 : S50257x1024.ReducesTo [0, 1] S_
  bcast_S_S512x2048 : S_.BroadcastsInDim S512x2048 (![] : Fin 0 → Fin S512x2048.rank)
  reducesTo_S512x2048_S_d0_1 : S512x2048.ReducesTo [0, 1] S_
  bcast_S_S512 : S_.BroadcastsInDim S512 (![] : Fin 0 → Fin S512.rank)
  reducesTo_S512_S_d0 : S512.ReducesTo [0] S_
  bcast_S_S1024x2048 : S_.BroadcastsInDim S1024x2048 (![] : Fin 0 → Fin S1024x2048.rank)
  reducesTo_S1024x2048_S_d0_1 : S1024x2048.ReducesTo [0, 1] S_
  bcast_S_S1024 : S_.BroadcastsInDim S1024 (![] : Fin 0 → Fin S1024.rank)
  reducesTo_S1024_S_d0 : S1024.ReducesTo [0] S_
  bcast_S_S3072x1024 : S_.BroadcastsInDim S3072x1024 (![] : Fin 0 → Fin S3072x1024.rank)
  reducesTo_S3072x1024_S_d0_1 : S3072x1024.ReducesTo [0, 1] S_
  bcast_S_S3072 : S_.BroadcastsInDim S3072 (![] : Fin 0 → Fin S3072.rank)
  reducesTo_S3072_S_d0 : S3072.ReducesTo [0] S_
  bcast_S_S50257 : S_.BroadcastsInDim S50257 (![] : Fin 0 → Fin S50257.rank)
  reducesTo_S50257_S_d0 : S50257.ReducesTo [0] S_

variable [Facts]

def fn_part3 {F : FTy → Type} [FloatOps F] (main_arg12 : FVec F S50257x1024 .f32) (main_arg13 : FVec F S50257 .f32) (main_v48 : IVec S_ 1) (main_v49 : FVec F S3072 .f32) (main_v50 : FVec F S3072 .f32) : IVec S_ 1 :=
  let main_v51 : IVec S3072 1 := cmpf .olt main_v49 main_v50
  let main_c_19 : IVec S_ 1 := constantI S_ 1 1#1
  let main_v52 : IVec S_ 1 := (fun x v => Host.reduce IntOp.andi x v reducesTo_S3072_S_d0 h_S_) main_v51 main_c_19
  let main_v53 : IVec S_ 1 := andi main_v48 main_v52
  let main_v54 : FVec F S50257x1024 .f32 := Host.absf main_arg12
  let main_cst_20 : FVec F S_ .f32 := constant S_ .f32 0x7F800000#32
  let main_v55 : FVec F S50257x1024 .f32 := broadcastInDim S50257x1024 ![] bcast_S_S50257x1024 main_cst_20
  let main_v56 : IVec S50257x1024 1 := cmpf .olt main_v54 main_v55
  let main_c_21 : IVec S_ 1 := constantI S_ 1 1#1
  let main_v57 : IVec S_ 1 := (fun x v => Host.reduce IntOp.andi x v reducesTo_S50257x1024_S_d0_1 h_S_) main_v56 main_c_21
  let main_v58 : IVec S_ 1 := andi main_v53 main_v57
  let main_v59 : FVec F S50257 .f32 := Host.absf main_arg13
  let main_cst_22 : FVec F S_ .f32 := constant S_ .f32 0x7F800000#32
  let main_v60 : FVec F S50257 .f32 := broadcastInDim S50257 ![] bcast_S_S50257 main_cst_22
  let main_v61 : IVec S50257 1 := cmpf .olt main_v59 main_v60
  let main_c_23 : IVec S_ 1 := constantI S_ 1 1#1
  let main_v62 : IVec S_ 1 := (fun x v => Host.reduce IntOp.andi x v reducesTo_S50257_S_d0 h_S_) main_v61 main_c_23
  let main_v63 : IVec S_ 1 := andi main_v58 main_v62
  main_v63

def fn_part2 {F : FTy → Type} [FloatOps F] (main_arg8 : FVec F S3072x1024 .f32) (main_arg9 : FVec F S3072x1024 .f32) (main_arg10 : FVec F S3072 .f32) (main_arg11 : FVec F S3072 .f32) (main_arg12 : FVec F S50257x1024 .f32) (main_arg13 : FVec F S50257 .f32) (main_v33 : IVec S_ 1) : IVec S_ 1 :=
  let main_v34 : FVec F S3072x1024 .f32 := Host.absf main_arg8
  let main_cst_12 : FVec F S_ .f32 := constant S_ .f32 0x7F800000#32
  let main_v35 : FVec F S3072x1024 .f32 := broadcastInDim S3072x1024 ![] bcast_S_S3072x1024 main_cst_12
  let main_v36 : IVec S3072x1024 1 := cmpf .olt main_v34 main_v35
  let main_c_13 : IVec S_ 1 := constantI S_ 1 1#1
  let main_v37 : IVec S_ 1 := (fun x v => Host.reduce IntOp.andi x v reducesTo_S3072x1024_S_d0_1 h_S_) main_v36 main_c_13
  let main_v38 : IVec S_ 1 := andi main_v33 main_v37
  let main_v39 : FVec F S3072x1024 .f32 := Host.absf main_arg9
  let main_cst_14 : FVec F S_ .f32 := constant S_ .f32 0x7F800000#32
  let main_v40 : FVec F S3072x1024 .f32 := broadcastInDim S3072x1024 ![] bcast_S_S3072x1024 main_cst_14
  let main_v41 : IVec S3072x1024 1 := cmpf .olt main_v39 main_v40
  let main_c_15 : IVec S_ 1 := constantI S_ 1 1#1
  let main_v42 : IVec S_ 1 := (fun x v => Host.reduce IntOp.andi x v reducesTo_S3072x1024_S_d0_1 h_S_) main_v41 main_c_15
  let main_v43 : IVec S_ 1 := andi main_v38 main_v42
  let main_v44 : FVec F S3072 .f32 := Host.absf main_arg10
  let main_cst_16 : FVec F S_ .f32 := constant S_ .f32 0x7F800000#32
  let main_v45 : FVec F S3072 .f32 := broadcastInDim S3072 ![] bcast_S_S3072 main_cst_16
  let main_v46 : IVec S3072 1 := cmpf .olt main_v44 main_v45
  let main_c_17 : IVec S_ 1 := constantI S_ 1 1#1
  let main_v47 : IVec S_ 1 := (fun x v => Host.reduce IntOp.andi x v reducesTo_S3072_S_d0 h_S_) main_v46 main_c_17
  let main_v48 : IVec S_ 1 := andi main_v43 main_v47
  let main_v49 : FVec F S3072 .f32 := Host.absf main_arg11
  let main_cst_18 : FVec F S_ .f32 := constant S_ .f32 0x7F800000#32
  let main_v50 : FVec F S3072 .f32 := broadcastInDim S3072 ![] bcast_S_S3072 main_cst_18
  fn_part3 (F := F) main_arg12 main_arg13 main_v48 main_v49 main_v50

def fn_part1 {F : FTy → Type} [FloatOps F] (main_arg5 : FVec F S512 .f32) (main_arg6 : FVec F S1024x2048 .f32) (main_arg7 : FVec F S1024 .f32) (main_arg8 : FVec F S3072x1024 .f32) (main_arg9 : FVec F S3072x1024 .f32) (main_arg10 : FVec F S3072 .f32) (main_arg11 : FVec F S3072 .f32) (main_arg12 : FVec F S50257x1024 .f32) (main_arg13 : FVec F S50257 .f32) (main_v13 : IVec S_ 1) (main_v16 : IVec S512x2048 1) : IVec S_ 1 :=
  let main_c_5 : IVec S_ 1 := constantI S_ 1 1#1
  let main_v17 : IVec S_ 1 := (fun x v => Host.reduce IntOp.andi x v reducesTo_S512x2048_S_d0_1 h_S_) main_v16 main_c_5
  let main_v18 : IVec S_ 1 := andi main_v13 main_v17
  let main_v19 : FVec F S512 .f32 := Host.absf main_arg5
  let main_cst_6 : FVec F S_ .f32 := constant S_ .f32 0x7F800000#32
  let main_v20 : FVec F S512 .f32 := broadcastInDim S512 ![] bcast_S_S512 main_cst_6
  let main_v21 : IVec S512 1 := cmpf .olt main_v19 main_v20
  let main_c_7 : IVec S_ 1 := constantI S_ 1 1#1
  let main_v22 : IVec S_ 1 := (fun x v => Host.reduce IntOp.andi x v reducesTo_S512_S_d0 h_S_) main_v21 main_c_7
  let main_v23 : IVec S_ 1 := andi main_v18 main_v22
  let main_v24 : FVec F S1024x2048 .f32 := Host.absf main_arg6
  let main_cst_8 : FVec F S_ .f32 := constant S_ .f32 0x7F800000#32
  let main_v25 : FVec F S1024x2048 .f32 := broadcastInDim S1024x2048 ![] bcast_S_S1024x2048 main_cst_8
  let main_v26 : IVec S1024x2048 1 := cmpf .olt main_v24 main_v25
  let main_c_9 : IVec S_ 1 := constantI S_ 1 1#1
  let main_v27 : IVec S_ 1 := (fun x v => Host.reduce IntOp.andi x v reducesTo_S1024x2048_S_d0_1 h_S_) main_v26 main_c_9
  let main_v28 : IVec S_ 1 := andi main_v23 main_v27
  let main_v29 : FVec F S1024 .f32 := Host.absf main_arg7
  let main_cst_10 : FVec F S_ .f32 := constant S_ .f32 0x7F800000#32
  let main_v30 : FVec F S1024 .f32 := broadcastInDim S1024 ![] bcast_S_S1024 main_cst_10
  let main_v31 : IVec S1024 1 := cmpf .olt main_v29 main_v30
  let main_c_11 : IVec S_ 1 := constantI S_ 1 1#1
  let main_v32 : IVec S_ 1 := (fun x v => Host.reduce IntOp.andi x v reducesTo_S1024_S_d0 h_S_) main_v31 main_c_11
  let main_v33 : IVec S_ 1 := andi main_v28 main_v32
  fn_part2 (F := F) main_arg8 main_arg9 main_arg10 main_arg11 main_arg12 main_arg13 main_v33

def fn {F : FTy → Type} [FloatOps F] (main_arg0 : IVec S1 32) (main_arg1 : FVec F S1x1x1024 .f32) (main_arg2 : FVec F S512x1024 .f32) (main_arg3 : FVec F S50257x1024 .f32) (main_arg4 : FVec F S512x2048 .f32) (main_arg5 : FVec F S512 .f32) (main_arg6 : FVec F S1024x2048 .f32) (main_arg7 : FVec F S1024 .f32) (main_arg8 : FVec F S3072x1024 .f32) (main_arg9 : FVec F S3072x1024 .f32) (main_arg10 : FVec F S3072 .f32) (main_arg11 : FVec F S3072 .f32) (main_arg12 : FVec F S50257x1024 .f32) (main_arg13 : FVec F S50257 .f32) : IVec S_ 1 :=
  let main_v0 : FVec F S1x1x1024 .f32 := Host.absf main_arg1
  let main_cst : FVec F S_ .f32 := constant S_ .f32 0x7F800000#32
  let main_v1 : FVec F S1x1x1024 .f32 := broadcastInDim S1x1x1024 ![] bcast_S_S1x1x1024 main_cst
  let main_v2 : IVec S1x1x1024 1 := cmpf .olt main_v0 main_v1
  let main_c : IVec S_ 1 := constantI S_ 1 1#1
  let main_v3 : IVec S_ 1 := (fun x v => Host.reduce IntOp.andi x v reducesTo_S1x1x1024_S_d0_1_2 h_S_) main_v2 main_c
  let main_v4 : FVec F S512x1024 .f32 := Host.absf main_arg2
  let main_cst_0 : FVec F S_ .f32 := constant S_ .f32 0x7F800000#32
  let main_v5 : FVec F S512x1024 .f32 := broadcastInDim S512x1024 ![] bcast_S_S512x1024 main_cst_0
  let main_v6 : IVec S512x1024 1 := cmpf .olt main_v4 main_v5
  let main_c_1 : IVec S_ 1 := constantI S_ 1 1#1
  let main_v7 : IVec S_ 1 := (fun x v => Host.reduce IntOp.andi x v reducesTo_S512x1024_S_d0_1 h_S_) main_v6 main_c_1
  let main_v8 : IVec S_ 1 := andi main_v3 main_v7
  let main_v9 : FVec F S50257x1024 .f32 := Host.absf main_arg3
  let main_cst_2 : FVec F S_ .f32 := constant S_ .f32 0x7F800000#32
  let main_v10 : FVec F S50257x1024 .f32 := broadcastInDim S50257x1024 ![] bcast_S_S50257x1024 main_cst_2
  let main_v11 : IVec S50257x1024 1 := cmpf .olt main_v9 main_v10
  let main_c_3 : IVec S_ 1 := constantI S_ 1 1#1
  let main_v12 : IVec S_ 1 := (fun x v => Host.reduce IntOp.andi x v reducesTo_S50257x1024_S_d0_1 h_S_) main_v11 main_c_3
  let main_v13 : IVec S_ 1 := andi main_v8 main_v12
  let main_v14 : FVec F S512x2048 .f32 := Host.absf main_arg4
  let main_cst_4 : FVec F S_ .f32 := constant S_ .f32 0x7F800000#32
  let main_v15 : FVec F S512x2048 .f32 := broadcastInDim S512x2048 ![] bcast_S_S512x2048 main_cst_4
  let main_v16 : IVec S512x2048 1 := cmpf .olt main_v14 main_v15
  fn_part1 (F := F) main_arg5 main_arg6 main_arg7 main_arg8 main_arg9 main_arg10 main_arg11 main_arg12 main_arg13 main_v13 main_v16
-- ==== Kernel.lean ====
abbrev S1 : Shape := ⟨1, ![1]⟩
abbrev S1x1x1024 : Shape := ⟨3, ![1, 1, 1024]⟩
abbrev S512x1024 : Shape := ⟨2, ![512, 1024]⟩
abbrev S50257x1024 : Shape := ⟨2, ![50257, 1024]⟩
abbrev S512x2048 : Shape := ⟨2, ![512, 2048]⟩
abbrev S512 : Shape := ⟨1, ![512]⟩
abbrev S1024x2048 : Shape := ⟨2, ![1024, 2048]⟩
abbrev S1024 : Shape := ⟨1, ![1024]⟩
abbrev S3072x1024 : Shape := ⟨2, ![3072, 1024]⟩
abbrev S3072 : Shape := ⟨1, ![3072]⟩
abbrev S50257 : Shape := ⟨1, ![50257]⟩
abbrev S_ : Shape := ⟨0, ![]⟩
abbrev S1x1 : Shape := ⟨2, ![1, 1]⟩
abbrev S1x1024 : Shape := ⟨2, ![1, 1024]⟩
abbrev S1x512 : Shape := ⟨2, ![1, 512]⟩
abbrev S1x3072 : Shape := ⟨2, ![1, 3072]⟩
abbrev S1x50257 : Shape := ⟨2, ![1, 50257]⟩
abbrev S1x2048 : Shape := ⟨2, ![1, 2048]⟩
abbrev S2048x1024 : Shape := ⟨2, ![2048, 1024]⟩

abbrev nBuf : Space → Nat
  | .hbm => 49
  | .vmem => 23
  | .smem => 0
  | _ => 0

abbrev bufTy : (tb : Table) → Fin (tcTables nBuf tb) → BufTy
  | .hbm, ⟨0, _⟩ => ⟨S1, .i32⟩
  | .hbm, ⟨1, _⟩ => ⟨S1x1x1024, .f32⟩
  | .hbm, ⟨2, _⟩ => ⟨S512x1024, .f32⟩
  | .hbm, ⟨3, _⟩ => ⟨S50257x1024, .f32⟩
  | .hbm, ⟨4, _⟩ => ⟨S512x2048, .f32⟩
  | .hbm, ⟨5, _⟩ => ⟨S512, .f32⟩
  | .hbm, ⟨6, _⟩ => ⟨S1024x2048, .f32⟩
  | .hbm, ⟨7, _⟩ => ⟨S1024, .f32⟩
  | .hbm, ⟨8, _⟩ => ⟨S3072x1024, .f32⟩
  | .hbm, ⟨9, _⟩ => ⟨S3072x1024, .f32⟩
  | .hbm, ⟨10, _⟩ => ⟨S3072, .f32⟩
  | .hbm, ⟨11, _⟩ => ⟨S3072, .f32⟩
  | .hbm, ⟨12, _⟩ => ⟨S50257x1024, .f32⟩
  | .hbm, ⟨13, _⟩ => ⟨S50257, .f32⟩
  | .hbm, ⟨14, _⟩ => ⟨S_, .i32⟩
  | .hbm, ⟨15, _⟩ => ⟨S1, .i32⟩
  | .hbm, ⟨16, _⟩ => ⟨S1, .i1⟩
  | .hbm, ⟨17, _⟩ => ⟨S_, .i32⟩
  | .hbm, ⟨18, _⟩ => ⟨S1, .i32⟩
  | .hbm, ⟨19, _⟩ => ⟨S1, .i32⟩
  | .hbm, ⟨20, _⟩ => ⟨S1, .i32⟩
  | .hbm, ⟨21, _⟩ => ⟨S1x1, .i32⟩
  | .hbm, ⟨22, _⟩ => ⟨S1x1024, .f32⟩
  | .hbm, ⟨23, _⟩ => ⟨S1x1024, .f32⟩
  | .hbm, ⟨24, _⟩ => ⟨S1x512, .f32⟩
  | .hbm, ⟨25, _⟩ => ⟨S1x1024, .f32⟩
  | .hbm, ⟨26, _⟩ => ⟨S1x3072, .f32⟩
  | .hbm, ⟨27, _⟩ => ⟨S1x3072, .f32⟩
  | .hbm, ⟨28, _⟩ => ⟨S1x50257, .f32⟩
  | .hbm, ⟨29, _⟩ => ⟨S1x1024, .f32⟩
  | .hbm, ⟨30, _⟩ => ⟨S1x512, .f32⟩
  | .hbm, ⟨31, _⟩ => ⟨S1x1024, .f32⟩
  | .hbm, ⟨32, _⟩ => ⟨S1x50257, .f32⟩
  | .hbm, ⟨33, _⟩ => ⟨S_, .f32⟩
  | .hbm, ⟨34, _⟩ => ⟨S1, .f32⟩
  | .hbm, ⟨35, _⟩ => ⟨S_, .f32⟩
  | .hbm, ⟨36, _⟩ => ⟨S1, .f32⟩
  | .hbm, ⟨37, _⟩ => ⟨S1, .f32⟩
  | .hbm, ⟨38, _⟩ => ⟨S1x1, .f32⟩
  | .hbm, ⟨39, _⟩ => ⟨S1x50257, .f32⟩
  | .hbm, ⟨40, _⟩ => ⟨S1x50257, .f32⟩
  | .hbm, ⟨41, _⟩ => ⟨S1x50257, .f32⟩
  | .hbm, ⟨42, _⟩ => ⟨S_, .f32⟩
  | .hbm, ⟨43, _⟩ => ⟨S1, .f32⟩
  | .hbm, ⟨44, _⟩ => ⟨S1x1, .f32⟩
  | .hbm, ⟨45, _⟩ => ⟨S1x1, .f32⟩
  | .hbm, ⟨46, _⟩ => ⟨S1x50257, .f32⟩
  | .hbm, ⟨47, _⟩ => ⟨S1x50257, .f32⟩
  | .hbm, ⟨48, _⟩ => ⟨S1x1x1024, .f32⟩
  | .local _ .vmem, ⟨0, _⟩ => ⟨S1x1024, .f32⟩
  | .local _ .vmem, ⟨1, _⟩ => ⟨S1x1024, .f32⟩
  | .local _ .vmem, ⟨2, _⟩ => ⟨S512x1024, .f32⟩
  | .local _ .vmem, ⟨3, _⟩ => ⟨S512x2048, .f32⟩
  | .local _ .vmem, ⟨4, _⟩ => ⟨S1x512, .f32⟩
  | .local _ .vmem, ⟨5, _⟩ => ⟨S1024x2048, .f32⟩
  | .local _ .vmem, ⟨6, _⟩ => ⟨S1x1024, .f32⟩
  | .local _ .vmem, ⟨7, _⟩ => ⟨S1x1024, .f32⟩
  | .local _ .vmem, ⟨8, _⟩ => ⟨S1x512, .f32⟩
  | .local _ .vmem, ⟨9, _⟩ => ⟨S1x1024, .f32⟩
  | .local _ .vmem, ⟨10, _⟩ => ⟨S1x1024, .f32⟩
  | .local _ .vmem, ⟨11, _⟩ => ⟨S3072x1024, .f32⟩
  | .local _ .vmem, ⟨12, _⟩ => ⟨S3072x1024, .f32⟩
  | .local _ .vmem, ⟨13, _⟩ => ⟨S1x3072, .f32⟩
  | .local _ .vmem, ⟨14, _⟩ => ⟨S1x3072, .f32⟩
  | .local _ .vmem, ⟨15, _⟩ => ⟨S1x1024, .f32⟩
  | .local _ .vmem, ⟨16, _⟩ => ⟨S1x1024, .f32⟩
  | .local _ .vmem, ⟨17, _⟩ => ⟨S2048x1024, .f32⟩
  | .local _ .vmem, ⟨18, _⟩ => ⟨S2048x1024, .f32⟩
  | .local _ .vmem, ⟨19, _⟩ => ⟨S1x2048, .f32⟩
  | .local _ .vmem, ⟨20, _⟩ => ⟨S1x2048, .f32⟩
  | .local _ .vmem, ⟨21, _⟩ => ⟨S1x2048, .f32⟩
  | .local _ .vmem, ⟨22, _⟩ => ⟨S1x2048, .f32⟩
  | _, _ => ⟨S1, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | _, _ => false

abbrev semScoped : Fin 0 → Bool
  | ⟨_, h⟩ => absurd h (Nat.not_lt_zero _)

abbrev dmaSemScoped : Fin 23 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | _ => false

abbrev sig : RefSig :=
  ofTc nBuf bufTy 0 23 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_c : Ref sig .tc := ⟨.hbm, 14, rfl⟩
abbrev main_v0 : Ref sig .tc := ⟨.hbm, 15, rfl⟩
abbrev main_v1 : Ref sig .tc := ⟨.hbm, 16, rfl⟩
abbrev main_c_0 : Ref sig .tc := ⟨.hbm, 17, rfl⟩
abbrev main_v2 : Ref sig .tc := ⟨.hbm, 18, rfl⟩
abbrev main_v3 : Ref sig .tc := ⟨.hbm, 19, rfl⟩
abbrev main_v4 : Ref sig .tc := ⟨.hbm, 20, rfl⟩
abbrev main_v5 : Ref sig .tc := ⟨.hbm, 21, rfl⟩
abbrev main_v6 : Ref sig .tc := ⟨.hbm, 22, rfl⟩
abbrev main_v7 : Ref sig .tc := ⟨.hbm, 23, rfl⟩
abbrev main_v8 : Ref sig .tc := ⟨.hbm, 24, rfl⟩
abbrev main_v9 : Ref sig .tc := ⟨.hbm, 25, rfl⟩
abbrev main_v10 : Ref sig .tc := ⟨.hbm, 26, rfl⟩
abbrev main_v11 : Ref sig .tc := ⟨.hbm, 27, rfl⟩
abbrev main_v12 : Ref sig .tc := ⟨.hbm, 28, rfl⟩
abbrev main_v13_0 : Ref sig .tc := ⟨.hbm, 29, rfl⟩
abbrev main_v13_1 : Ref sig .tc := ⟨.hbm, 30, rfl⟩
abbrev main_v14 : Ref sig .tc := ⟨.hbm, 31, rfl⟩
abbrev main_v15 : Ref sig .tc := ⟨.hbm, 32, rfl⟩
abbrev main_call0_cst : Ref sig .tc := ⟨.hbm, 33, rfl⟩
abbrev main_call0_v0 : Ref sig .tc := ⟨.hbm, 34, rfl⟩
abbrev main_call0_cst_0 : Ref sig .tc := ⟨.hbm, 35, rfl⟩
abbrev main_call0_v1 : Ref sig .tc := ⟨.hbm, 36, rfl⟩
abbrev main_call0_v2 : Ref sig .tc := ⟨.hbm, 37, rfl⟩
abbrev main_call0_v3 : Ref sig .tc := ⟨.hbm, 38, rfl⟩
abbrev main_call0_v4 : Ref sig .tc := ⟨.hbm, 39, rfl⟩
abbrev main_call0_v5 : Ref sig .tc := ⟨.hbm, 40, rfl⟩
abbrev main_call0_v6 : Ref sig .tc := ⟨.hbm, 41, rfl⟩
abbrev main_call0_cst_1 : Ref sig .tc := ⟨.hbm, 42, rfl⟩
abbrev main_call0_v7 : Ref sig .tc := ⟨.hbm, 43, rfl⟩
abbrev main_call0_v8 : Ref sig .tc := ⟨.hbm, 44, rfl⟩
abbrev main_call0_v9 : Ref sig .tc := ⟨.hbm, 45, rfl⟩
abbrev main_call0_v10 : Ref sig .tc := ⟨.hbm, 46, rfl⟩
abbrev main_v16 : Ref sig .tc := ⟨.hbm, 47, rfl⟩
abbrev main_v17 : Ref sig .tc := ⟨.hbm, 48, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc1_stg0_0 : Ref sig .tc := ⟨.vmem, 9, rfl⟩
abbrev cc1_stg1_0 : Ref sig .tc := ⟨.vmem, 10, rfl⟩
abbrev cc1_stg2_0 : Ref sig .tc := ⟨.vmem, 11, rfl⟩
abbrev cc1_stg3_0 : Ref sig .tc := ⟨.vmem, 12, rfl⟩
abbrev cc1_stg4_0 : Ref sig .tc := ⟨.vmem, 13, rfl⟩
abbrev cc1_stg5_0 : Ref sig .tc := ⟨.vmem, 14, rfl⟩
abbrev cc1_stg6_0 : Ref sig .tc := ⟨.vmem, 15, rfl⟩
abbrev cc2_stg0_0 : Ref sig .tc := ⟨.vmem, 16, rfl⟩
abbrev cc2_stg1_0 : Ref sig .tc := ⟨.vmem, 17, rfl⟩
abbrev cc2_stg1_1 : Ref sig .tc := ⟨.vmem, 18, rfl⟩
abbrev cc2_stg2_0 : Ref sig .tc := ⟨.vmem, 19, rfl⟩
abbrev cc2_stg2_1 : Ref sig .tc := ⟨.vmem, 20, rfl⟩
abbrev cc2_stg3_0 : Ref sig .tc := ⟨.vmem, 21, rfl⟩
abbrev cc2_stg3_1 : Ref sig .tc := ⟨.vmem, 22, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc1_sem0_0 : DmaSem sig := 9
abbrev cc1_sem1_0 : DmaSem sig := 10
abbrev cc1_sem2_0 : DmaSem sig := 11
abbrev cc1_sem3_0 : DmaSem sig := 12
abbrev cc1_sem4_0 : DmaSem sig := 13
abbrev cc1_sem5_0 : DmaSem sig := 14
abbrev cc1_sem6_0 : DmaSem sig := 15
abbrev cc2_sem0_0 : DmaSem sig := 16
abbrev cc2_sem1_0 : DmaSem sig := 17
abbrev cc2_sem1_1 : DmaSem sig := 18
abbrev cc2_sem2_0 : DmaSem sig := 19
abbrev cc2_sem2_1 : DmaSem sig := 20
abbrev cc2_sem3_0 : DmaSem sig := 21
abbrev cc2_sem3_1 : DmaSem sig := 22

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .vmem S1x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S512x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S512x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1024x2048 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x512 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev grid1 : Pipeline.Grid := ⟨1, ![1], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage1_0 : Fin 1 → Memref sig .tc .vmem S1x1024 .f32 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))
abbrev reads1_0 : Fin grid1.rank → Bool := ![false]

abbrev stage1_1 : Fin 1 → Memref sig .tc .vmem S1x1024 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S3072x1024 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S3072x1024 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x3072 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S1x3072 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S1x1024 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev grid2 : Pipeline.Grid := ⟨1, ![25], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  ![c0_i32.toNat, arg0.toNat]

def cc2_transform_3 (i : grid2.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage2_0 : Fin 1 → Memref sig .tc .vmem S1x1024 .f32 := fun | 0 => Memref.whole cc2_stg0_0 | ⟨_ + 1, h⟩ => absurd h (Nat.not_lt.2 (Nat.le_add_left _ _))
abbrev sem2_0 : Fin 1 → DmaSem sig := fun | 0 => cc2_sem0_0 | ⟨_ + 1, h⟩ => absurd h (Nat.not_lt.2 (Nat.le_add_left _ _))
abbrev reads2_0 : Fin grid2.rank → Bool := ![false]

abbrev stage2_1 : Fin 2 → Memref sig .tc .vmem S2048x1024 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 2 → Memref sig .tc .vmem S1x2048 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev stage2_3 : Fin 2 → Memref sig .tc .vmem S1x2048 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

class Facts₀ : Prop where
  bcast_S_S1 : S_.BroadcastsInDim S1 (![] : Fin 0 → Fin S1.rank)
  bcast_S1_S1x1_0 : S1.BroadcastsInDim S1x1 (![0] : Fin 1 → Fin S1x1.rank)
  shapeCasts_S1x1x1024_S1x1024 : S1x1x1024.ShapeCasts S1x1024
  shapeCasts_S512_S1x512 : S512.ShapeCasts S1x512
  shapeCasts_S1024_S1x1024 : S1024.ShapeCasts S1x1024
  shapeCasts_S3072_S1x3072 : S3072.ShapeCasts S1x3072
  shapeCasts_S50257_S1x50257 : S50257.ShapeCasts S1x50257
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  bitsLt_bf16_f32 : FTy.bits .bf16 < FTy.bits .f32
  concatenates_S1x1024_S1x1024_S1x2048_d1 : Shape.Concatenates [S1x1024, S1x1024] S1x2048 1
  inb_S512x2048_S512x2048_0_0 : ∀ a, (![0, 0] : Fin 2 → Nat) a + S512x2048.size a ≤ S512x2048.size a
  h_S512x2048 : 0 < S512x2048.numel
  inb_S1x512_S1x512_0_0 : ∀ a, (![0, 0] : Fin 2 → Nat) a + S1x512.size a ≤ S1x512.size a
  h_S1x512 : 0 < S1x512.numel
  shapeCasts_S1x512_S1x512 : S1x512.ShapeCasts S1x512
  reduces_S1x512_S1 : S1x512.Reduces [1] S1
  shapeCasts_S1_S1x1 : S1.ShapeCasts S1x1
  broadcasts_S1x1_S1x512 : S1x1.Broadcasts S1x512
  inb_S512x1024_S512x1024_0_0 : ∀ a, (![0, 0] : Fin 2 → Nat) a + S512x1024.size a ≤ S512x1024.size a
  h_S512x1024 : 0 < S512x1024.numel
  inb_S1024x2048_S1024x2048_0_0 : ∀ a, (![0, 0] : Fin 2 → Nat) a + S1024x2048.size a ≤ S1024x2048.size a
  h_S1024x2048 : 0 < S1024x2048.numel
  inb_S3072x1024_S3072x1024_0_0 : ∀ a, (![0, 0] : Fin 2 → Nat) a + S3072x1024.size a ≤ S3072x1024.size a
  h_S3072x1024 : 0 < S3072x1024.numel
  inb_S1x3072_S1x3072_0_0 : ∀ a, (![0, 0] : Fin 2 → Nat) a + S1x3072.size a ≤ S1x3072.size a
  h_S1x3072 : 0 < S1x3072.numel
  shapeCasts_S1x3072_S1x3072 : S1x3072.ShapeCasts S1x3072
  slices_S1x3072_o0_0_S1x1024 : S1x3072.Slices ![0, 0] S1x1024
  slices_S1x3072_o0_1024_S1x1024 : S1x3072.Slices ![0, 1024] S1x1024
  slices_S1x3072_o0_2048_S1x1024 : S1x3072.Slices ![0, 2048] S1x1024
  inb_S2048x1024_S2048x1024_0_0 : ∀ a, (![0, 0] : Fin 2 → Nat) a + S2048x1024.size a ≤ S2048x1024.size a
  h_S2048x1024 : 0 < S2048x1024.numel
  inb_S1x2048_S1x2048_0_0 : ∀ a, (![0, 0] : Fin 2 → Nat) a + S1x2048.size a ≤ S1x2048.size a
  h_S1x2048 : 0 < S1x2048.numel
  shapeCasts_S1x2048_S1x2048 : S1x2048.ShapeCasts S1x2048
  reducesTo_S1x50257_S1_d1 : S1x50257.ReducesTo [1] S1
  h_S_ : 0 < S_.numel
  bcast_S1x1_S1x50257_0_1 : S1x1.BroadcastsInDim S1x50257 (![0, 1] : Fin 2 → Fin S1x50257.rank)
  bcast_S1x1024_S1x1x1024_1_2 : S1x1024.BroadcastsInDim S1x1x1024 (![1, 2] : Fin 2 → Fin S1x1x1024.rank)
  gather_S50257x1024_S1x1_S1x1024_1_0_n_n_0_1_11024_wf : GatherDims.WF S50257x1024 S1x1 S1x1024 [1] [0] [] [0] [] 1 ![1, 1024]
  dot_S1x2048_S512x2048_S1x512_1_1_0_0_n_n_wf : DotDims.WF S1x2048 S512x2048 S1x512 [1] [1] [0] [0] [] []
  dot_S1x512_S512x1024_S1x1024_1_0_0_1_n_n_wf : DotDims.WF S1x512 S512x1024 S1x1024 [1] [0] [0] [1] [] []
  dot_S1x2048_S1024x2048_S1x1024_1_1_0_0_n_n_wf : DotDims.WF S1x2048 S1024x2048 S1x1024 [1] [1] [0] [0] [] []
  dot_S1x1024_S3072x1024_S1x3072_1_1_0_0_n_n_wf : DotDims.WF S1x1024 S3072x1024 S1x3072 [1] [1] [0] [0] [] []
  dot_S1x1024_S2048x1024_S1x2048_1_1_0_0_n_n_wf : DotDims.WF S1x1024 S2048x1024 S1x2048 [1] [1] [0] [0] [] []
  hrank0 : 0 < grid0.rank
  hstage0_0 : ∀ j, (stage0_0 j).IsWhole
  nbuf0_0 : grid0.bufCount reads0_0 true = 1
  hreads0_0 : ∀ i i' : grid0.Coords, (∀ a, reads0_0 a = true → i a = i' a) → cc0_transform_0 i = cc0_transform_0 i'
  hinb0_0 : ∀ (i : grid0.Coords) a, (cc0_transform_0 i a + 1) * S1x1024.size a ≤ S1x1024.size a
  hwx0_0 : ∀ i : grid0.Coords, EltTy.bits .f32 = 32 ∨ (Rect.block (s := S1x1024) S1x1024.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1x1024.size a ≤ S1x1024.size a
  hwx0_1 : ∀ i : grid0.Coords, EltTy.bits .f32 = 32 ∨ (Rect.block (s := S1x1024) S1x1024.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S512x1024.size a ≤ S512x1024.size a
  hwx0_2 : ∀ i : grid0.Coords, EltTy.bits .f32 = 32 ∨ (Rect.block (s := S512x1024) S512x1024.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S512x2048.size a ≤ S512x2048.size a
  hwx0_3 : ∀ i : grid0.Coords, EltTy.bits .f32 = 32 ∨ (Rect.block (s := S512x2048) S512x2048.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x512.size a ≤ S1x512.size a
  hwx0_4 : ∀ i : grid0.Coords, EltTy.bits .f32 = 32 ∨ (Rect.block (s := S1x512) S1x512.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1024x2048.size a ≤ S1024x2048.size a
  hwx0_5 : ∀ i : grid0.Coords, EltTy.bits .f32 = 32 ∨ (Rect.block (s := S1024x2048) S1024x2048.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x1024.size a ≤ S1x1024.size a
  hwx0_6 : ∀ i : grid0.Coords, EltTy.bits .f32 = 32 ∨ (Rect.block (s := S1x1024) S1x1024.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S1x1024.size a ≤ S1x1024.size a
  hwx0_7 : ∀ i : grid0.Coords, EltTy.bits .f32 = 32 ∨ (Rect.block (s := S1x1024) S1x1024.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S1x512.size a ≤ S1x512.size a
  hwx0_8 : ∀ i : grid0.Coords, EltTy.bits .f32 = 32 ∨ (Rect.block (s := S1x512) S1x512.size (cc0_transform_8 i) (hinb0_8 i)).WholeWords (EltTy.packing .f32)
  hrank1 : 0 < grid1.rank
  hstage1_0 : ∀ j, (stage1_0 j).IsWhole
  nbuf1_0 : grid1.bufCount reads1_0 true = 1
  hreads1_0 : ∀ i i' : grid1.Coords, (∀ a, reads1_0 a = true → i a = i' a) → cc1_transform_0 i = cc1_transform_0 i'
  hinb1_0 : ∀ (i : grid1.Coords) a, (cc1_transform_0 i a + 1) * S1x1024.size a ≤ S1x1024.size a
  hwx1_0 : ∀ i : grid1.Coords, EltTy.bits .f32 = 32 ∨ (Rect.block (s := S1x1024) S1x1024.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x1024.size a ≤ S1x1024.size a
  hwx1_1 : ∀ i : grid1.Coords, EltTy.bits .f32 = 32 ∨ (Rect.block (s := S1x1024) S1x1024.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S3072x1024.size a ≤ S3072x1024.size a
  hwx1_2 : ∀ i : grid1.Coords, EltTy.bits .f32 = 32 ∨ (Rect.block (s := S3072x1024) S3072x1024.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S3072x1024.size a ≤ S3072x1024.size a
  hwx1_3 : ∀ i : grid1.Coords, EltTy.bits .f32 = 32 ∨ (Rect.block (s := S3072x1024) S3072x1024.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x3072.size a ≤ S1x3072.size a
  hwx1_4 : ∀ i : grid1.Coords, EltTy.bits .f32 = 32 ∨ (Rect.block (s := S1x3072) S1x3072.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S1x3072.size a ≤ S1x3072.size a
  hwx1_5 : ∀ i : grid1.Coords, EltTy.bits .f32 = 32 ∨ (Rect.block (s := S1x3072) S1x3072.size (cc1_transform_5 i) (hinb1_5 i)).WholeWords (EltTy.packing .f32)
  hstage1_6 : ∀ j, (stage1_6 j).IsWhole
  nbuf1_6 : grid1.bufCount reads1_6 true = 1
  hreads1_6 : ∀ i i' : grid1.Coords, (∀ a, reads1_6 a = true → i a = i' a) → cc1_transform_6 i = cc1_transform_6 i'
  hinb1_6 : ∀ (i : grid1.Coords) a, (cc1_transform_6 i a + 1) * S1x1024.size a ≤ S1x1024.size a
  hwx1_6 : ∀ i : grid1.Coords, EltTy.bits .f32 = 32 ∨ (Rect.block (s := S1x1024) S1x1024.size (cc1_transform_6 i) (hinb1_6 i)).WholeWords (EltTy.packing .f32)
  hrank2 : 0 < grid2.rank
  hstage2_0 : ∀ j, (stage2_0 j).IsWhole
  nbuf2_0 : grid2.bufCount reads2_0 true = 1
  hreads2_0 : ∀ i i' : grid2.Coords, (∀ a, reads2_0 a = true → i a = i' a) → cc2_transform_0 i = cc2_transform_0 i'
  hinb2_0 : ∀ (i : grid2.Coords) a, (cc2_transform_0 i a + 1) * S1x1024.size a ≤ S1x1024.size a
  hwx2_0 : ∀ i : grid2.Coords, EltTy.bits .f32 = 32 ∨ (Rect.block (s := S1x1024) S1x1024.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hstart2_1 : ∀ (i : grid2.Coords) a, cc2_transform_1 i a * S2048x1024.size a < S50257x1024.size a
  hwx2_1 : ∀ i : grid2.Coords, EltTy.bits .f32 = 32 ∨ (Rect.unit (s := S50257x1024) (fun a => cc2_transform_1 i a * S2048x1024.size a) (fun a => (Pipeline.Clip.of (cc2_transform_1 i a) (S2048x1024.size a) (S50257x1024.size a)).extent (S2048x1024.size a)) fun a => Pipeline.Clip.inb (Pipeline.Clip.ok_of (hstart2_1 i a))).WholeWords (EltTy.packing .f32)
  hwxs2_1 : ∀ i : grid2.Coords, EltTy.bits .f32 = 32 ∨ (Rect.unit (s := S2048x1024) (fun _ => 0) (fun a => (Pipeline.Clip.of (cc2_transform_1 i a) (S2048x1024.size a) (S50257x1024.size a)).extent (S2048x1024.size a)) fun a => (Nat.zero_add _).trans_le (Pipeline.Clip.extent_le (Pipeline.Clip.ok_of (hstart2_1 i a)))).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hstart2_2 : ∀ (i : grid2.Coords) a, cc2_transform_2 i a * S1x2048.size a < S1x50257.size a
  hwx2_2 : ∀ i : grid2.Coords, EltTy.bits .f32 = 32 ∨ (Rect.unit (s := S1x50257) (fun a => cc2_transform_2 i a * S1x2048.size a) (fun a => (Pipeline.Clip.of (cc2_transform_2 i a) (S1x2048.size a) (S1x50257.size a)).extent (S1x2048.size a)) fun a => Pipeline.Clip.inb (Pipeline.Clip.ok_of (hstart2_2 i a))).WholeWords (EltTy.packing .f32)
  hwxs2_2 : ∀ i : grid2.Coords, EltTy.bits .f32 = 32 ∨ (Rect.unit (s := S1x2048) (fun _ => 0) (fun a => (Pipeline.Clip.of (cc2_transform_2 i a) (S1x2048.size a) (S1x50257.size a)).extent (S1x2048.size a)) fun a => (Nat.zero_add _).trans_le (Pipeline.Clip.extent_le (Pipeline.Clip.ok_of (hstart2_2 i a)))).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hstart2_3 : ∀ (i : grid2.Coords) a, cc2_transform_3 i a * S1x2048.size a < S1x50257.size a
  hwx2_3 : ∀ i : grid2.Coords, EltTy.bits .f32 = 32 ∨ (Rect.unit (s := S1x50257) (fun a => cc2_transform_3 i a * S1x2048.size a) (fun a => (Pipeline.Clip.of (cc2_transform_3 i a) (S1x2048.size a) (S1x50257.size a)).extent (S1x2048.size a)) fun a => Pipeline.Clip.inb (Pipeline.Clip.ok_of (hstart2_3 i a))).WholeWords (EltTy.packing .f32)
  hwxs2_3 : ∀ i : grid2.Coords, EltTy.bits .f32 = 32 ∨ (Rect.unit (s := S1x2048) (fun _ => 0) (fun a => (Pipeline.Clip.of (cc2_transform_3 i a) (S1x2048.size a) (S1x50257.size a)).extent (S1x2048.size a)) fun a => (Nat.zero_add _).trans_le (Pipeline.Clip.extent_le (Pipeline.Clip.ok_of (hstart2_3 i a)))).WholeWords (EltTy.packing .f32)

variable [Facts₀]

def gather_S50257x1024_S1x1_S1x1024_1_0_n_n_0_1_11024 : GatherDims S50257x1024 S1x1 S1x1024 where
  offsetDims := [1]
  collapsedSliceDims := [0]
  operandBatchingDims := []
  startIndicesBatchingDims := []
  startIndexMap := [0]
  indexVectorDim := 1
  sliceSizes := ![1, 1024]
  wf := gather_S50257x1024_S1x1_S1x1024_1_0_n_n_0_1_11024_wf
def dot_S1x2048_S512x2048_S1x512_1_1_0_0_n_n : DotDims S1x2048 S512x2048 S1x512 where
  lhsContracting := [1]
  rhsContracting := [1]
  lhsNonContracting := [0]
  rhsNonContracting := [0]
  lhsBatch := []
  rhsBatch := []
  wf := dot_S1x2048_S512x2048_S1x512_1_1_0_0_n_n_wf
def dot_S1x512_S512x1024_S1x1024_1_0_0_1_n_n : DotDims S1x512 S512x1024 S1x1024 where
  lhsContracting := [1]
  rhsContracting := [0]
  lhsNonContracting := [0]
  rhsNonContracting := [1]
  lhsBatch := []
  rhsBatch := []
  wf := dot_S1x512_S512x1024_S1x1024_1_0_0_1_n_n_wf
def dot_S1x2048_S1024x2048_S1x1024_1_1_0_0_n_n : DotDims S1x2048 S1024x2048 S1x1024 where
  lhsContracting := [1]
  rhsContracting := [1]
  lhsNonContracting := [0]
  rhsNonContracting := [0]
  lhsBatch := []
  rhsBatch := []
  wf := dot_S1x2048_S1024x2048_S1x1024_1_1_0_0_n_n_wf
def dot_S1x1024_S3072x1024_S1x3072_1_1_0_0_n_n : DotDims S1x1024 S3072x1024 S1x3072 where
  lhsContracting := [1]
  rhsContracting := [1]
  lhsNonContracting := [0]
  rhsNonContracting := [0]
  lhsBatch := []
  rhsBatch := []
  wf := dot_S1x1024_S3072x1024_S1x3072_1_1_0_0_n_n_wf
def dot_S1x1024_S2048x1024_S1x2048_1_1_0_0_n_n : DotDims S1x1024 S2048x1024 S1x2048 where
  lhsContracting := [1]
  rhsContracting := [1]
  lhsNonContracting := [0]
  rhsNonContracting := [0]
  lhsBatch := []
  rhsBatch := []
  wf := dot_S1x1024_S2048x1024_S1x2048_1_1_0_0_n_n_wf

abbrev win0_0 : Pipeline.Window sig grid0 :=
  Pipeline.Window.ofSpec (Memref.whole main_v6) S1x1024.size cc0_transform_0 reads0_0 false true 1 stage0_0 sem0_0
    hrank0 hreads0_0 hinb0_0 nbuf0_0 (Memref.isWhole_whole _) hwx0_0 hstage0_0

abbrev win0_1 : Pipeline.Window sig grid0 :=
  Pipeline.Window.ofSpec (Memref.whole main_v7) S1x1024.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S512x1024.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg4) S512x2048.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v8) S1x512.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg6) S1024x2048.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v9) S1x1024.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v13_0) S1x1024.size cc0_transform_7 reads0_7 true true 1 stage0_7 sem0_7
    hrank0 hreads0_7 hinb0_7 nbuf0_7 (Memref.isWhole_whole _) hwx0_7 hstage0_7

abbrev win0_8 : Pipeline.Window sig grid0 :=
  Pipeline.Window.ofSpec (Memref.whole main_v13_1) S1x512.size cc0_transform_8 reads0_8 true true 1 stage0_8 sem0_8
    hrank0 hreads0_8 hinb0_8 nbuf0_8 (Memref.isWhole_whole _) hwx0_8 hstage0_8

abbrev win0 : Fin 9 → Pipeline.Window sig grid0 := fun | 0 => win0_0 | 1 => win0_1 | 2 => win0_2 | 3 => win0_3 | 4 => win0_4 | 5 => win0_5 | 6 => win0_6 | 7 => win0_7 | 8 => win0_8 | ⟨_ + 9, h⟩ => absurd h (Nat.not_lt.2 (Nat.le_add_left _ _))
abbrev spec0 : Fin 9 → Pipeline.WinSpec sig grid0.rank := fun w => (win0 w).toWinSpec

abbrev win1_0 : Pipeline.Window sig grid1 :=
  Pipeline.Window.ofSpec (Memref.whole main_v13_0) S1x1024.size cc1_transform_0 reads1_0 false true 1 stage1_0 sem1_0
    hrank1 hreads1_0 hinb1_0 nbuf1_0 (Memref.isWhole_whole _) hwx1_0 hstage1_0

abbrev win1_1 : Pipeline.Window sig grid1 :=
  Pipeline.Window.ofSpec (Memref.whole main_v7) S1x1024.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_arg8) S3072x1024.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_arg9) S3072x1024.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v10) S1x3072.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v11) S1x3072.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v14) S1x1024.size cc1_transform_6 reads1_6 true true 1 stage1_6 sem1_6
    hrank1 hreads1_6 hinb1_6 nbuf1_6 (Memref.isWhole_whole _) hwx1_6 hstage1_6

abbrev win1 : Fin 7 → Pipeline.Window sig grid1 := fun | 0 => win1_0 | 1 => win1_1 | 2 => win1_2 | 3 => win1_3 | 4 => win1_4 | 5 => win1_5 | 6 => win1_6 | ⟨_ + 7, h⟩ => absurd h (Nat.not_lt.2 (Nat.le_add_left _ _))
abbrev spec1 : Fin 7 → Pipeline.WinSpec sig grid1.rank := fun w => (win1 w).toWinSpec

abbrev win2_0 : Pipeline.Window sig grid2 :=
  Pipeline.Window.ofSpec (Memref.whole main_v14) S1x1024.size cc2_transform_0 reads2_0 false true 1 stage2_0 sem2_0
    hrank2 hreads2_0 hinb2_0 nbuf2_0 (Memref.isWhole_whole _) hwx2_0 hstage2_0

abbrev win2_1 : Pipeline.Window sig grid2 :=
  Pipeline.Window.ofSpecClip (Memref.whole main_arg12) S2048x1024.size cc2_transform_1 reads2_1 false false 2 stage2_1 sem2_1
    hrank2 hreads2_1 hstart2_1 nbuf2_1 (Memref.isWhole_whole _) hwx2_1 hwxs2_1 hstage2_1

abbrev win2_2 : Pipeline.Window sig grid2 :=
  Pipeline.Window.ofSpecClip (Memref.whole main_v12) S1x2048.size cc2_transform_2 reads2_2 false false 2 stage2_2 sem2_2
    hrank2 hreads2_2 hstart2_2 nbuf2_2 (Memref.isWhole_whole _) hwx2_2 hwxs2_2 hstage2_2

abbrev win2_3 : Pipeline.Window sig grid2 :=
  Pipeline.Window.ofSpecClip (Memref.whole main_v15) S1x2048.size cc2_transform_3 reads2_3 true false 2 stage2_3 sem2_3
    hrank2 hreads2_3 hstart2_3 nbuf2_3 (Memref.isWhole_whole _) hwx2_3 hwxs2_3 hstage2_3

abbrev win2 : Fin 4 → Pipeline.Window sig grid2 := fun | 0 => win2_0 | 1 => win2_1 | 2 => win2_2 | 3 => win2_3 | ⟨_ + 4, h⟩ => absurd h (Nat.not_lt.2 (Nat.le_add_left _ _))
abbrev spec2 : Fin 4 → Pipeline.WinSpec sig grid2.rank := fun w => (win2 w).toWinSpec

class Facts : Prop extends Facts₀ where

variable [Facts]
-- ==== ReferenceIdeal.lean ====
abbrev S1 : Shape := ⟨1, ![1]⟩
abbrev S1x1x1024 : Shape := ⟨3, ![1, 1, 1024]⟩
abbrev S512x1024 : Shape := ⟨2, ![512, 1024]⟩
abbrev S50257x1024 : Shape := ⟨2, ![50257, 1024]⟩
abbrev S512x2048 : Shape := ⟨2, ![512, 2048]⟩
abbrev S512 : Shape := ⟨1, ![512]⟩
abbrev S1024x2048 : Shape := ⟨2, ![1024, 2048]⟩
abbrev S1024 : Shape := ⟨1, ![1024]⟩
abbrev S3072x1024 : Shape := ⟨2, ![3072, 1024]⟩
abbrev S3072 : Shape := ⟨1, ![3072]⟩
abbrev S50257 : Shape := ⟨1, ![50257]⟩
abbrev S_ : Shape := ⟨0, ![]⟩
abbrev S1x1 : Shape := ⟨2, ![1, 1]⟩
abbrev S1x1024 : Shape := ⟨2, ![1, 1024]⟩
abbrev S1x2048 : Shape := ⟨2, ![1, 2048]⟩
abbrev S2048x512 : Shape := ⟨2, ![2048, 512]⟩
abbrev S1x512 : Shape := ⟨2, ![1, 512]⟩
abbrev S2048x1024 : Shape := ⟨2, ![2048, 1024]⟩
abbrev S1024x3072 : Shape := ⟨2, ![1024, 3072]⟩
abbrev S1x3072 : Shape := ⟨2, ![1, 3072]⟩
abbrev S1024x50257 : Shape := ⟨2, ![1024, 50257]⟩
abbrev S1x50257 : Shape := ⟨2, ![1, 50257]⟩

abbrev nBuf : Space → Nat
  | .hbm => 113
  | .vmem => 0
  | .smem => 0
  | _ => 0

abbrev bufTy : (tb : Table) → Fin (tcTables nBuf tb) → BufTy
  | .hbm, ⟨0, _⟩ => ⟨S1, .i32⟩
  | .hbm, ⟨1, _⟩ => ⟨S1x1x1024, .f32⟩
  | .hbm, ⟨2, _⟩ => ⟨S512x1024, .f32⟩
  | .hbm, ⟨3, _⟩ => ⟨S50257x1024, .f32⟩
  | .hbm, ⟨4, _⟩ => ⟨S512x2048, .f32⟩
  | .hbm, ⟨5, _⟩ => ⟨S512, .f32⟩
  | .hbm, ⟨6, _⟩ => ⟨S1024x2048, .f32⟩
  | .hbm, ⟨7, _⟩ => ⟨S1024, .f32⟩
  | .hbm, ⟨8, _⟩ => ⟨S3072x1024, .f32⟩
  | .hbm, ⟨9, _⟩ => ⟨S3072x1024, .f32⟩
  | .hbm, ⟨10, _⟩ => ⟨S3072, .f32⟩
  | .hbm, ⟨11, _⟩ => ⟨S3072, .f32⟩
  | .hbm, ⟨12, _⟩ => ⟨S50257x1024, .f32⟩
  | .hbm, ⟨13, _⟩ => ⟨S50257, .f32⟩
  | .hbm, ⟨14, _⟩ => ⟨S_, .i32⟩
  | .hbm, ⟨15, _⟩ => ⟨S1, .i32⟩
  | .hbm, ⟨16, _⟩ => ⟨S1, .i1⟩
  | .hbm, ⟨17, _⟩ => ⟨S_, .i32⟩
  | .hbm, ⟨18, _⟩ => ⟨S1, .i32⟩
  | .hbm, ⟨19, _⟩ => ⟨S1, .i32⟩
  | .hbm, ⟨20, _⟩ => ⟨S1, .i32⟩
  | .hbm, ⟨21, _⟩ => ⟨S1x1, .i32⟩
  | .hbm, ⟨22, _⟩ => ⟨S1x1024, .f32⟩
  | .hbm, ⟨23, _⟩ => ⟨S1x1024, .f32⟩
  | .hbm, ⟨24, _⟩ => ⟨S1x2048, .f32⟩
  | .hbm, ⟨25, _⟩ => ⟨S2048x512, .f32⟩
  | .hbm, ⟨26, _⟩ => ⟨S1x512, .f32⟩
  | .hbm, ⟨27, _⟩ => ⟨S1x512, .f32⟩
  | .hbm, ⟨28, _⟩ => ⟨S1x512, .f32⟩
  | .hbm, ⟨29, _⟩ => ⟨S_, .f32⟩
  | .hbm, ⟨30, _⟩ => ⟨S1, .f32⟩
  | .hbm, ⟨31, _⟩ => ⟨S_, .f32⟩
  | .hbm, ⟨32, _⟩ => ⟨S1, .f32⟩
  | .hbm, ⟨33, _⟩ => ⟨S1, .f32⟩
  | .hbm, ⟨34, _⟩ => ⟨S1x1, .f32⟩
  | .hbm, ⟨35, _⟩ => ⟨S1x512, .f32⟩
  | .hbm, ⟨36, _⟩ => ⟨S1x512, .f32⟩
  | .hbm, ⟨37, _⟩ => ⟨S1x512, .f32⟩
  | .hbm, ⟨38, _⟩ => ⟨S_, .f32⟩
  | .hbm, ⟨39, _⟩ => ⟨S1, .f32⟩
  | .hbm, ⟨40, _⟩ => ⟨S1x1, .f32⟩
  | .hbm, ⟨41, _⟩ => ⟨S1x512, .f32⟩
  | .hbm, ⟨42, _⟩ => ⟨S1x512, .f32⟩
  | .hbm, ⟨43, _⟩ => ⟨S1x1024, .f32⟩
  | .hbm, ⟨44, _⟩ => ⟨S1x2048, .f32⟩
  | .hbm, ⟨45, _⟩ => ⟨S2048x1024, .f32⟩
  | .hbm, ⟨46, _⟩ => ⟨S1x1024, .f32⟩
  | .hbm, ⟨47, _⟩ => ⟨S1x1024, .f32⟩
  | .hbm, ⟨48, _⟩ => ⟨S1x1024, .f32⟩
  | .hbm, ⟨49, _⟩ => ⟨S_, .f32⟩
  | .hbm, ⟨50, _⟩ => ⟨S1x1024, .f32⟩
  | .hbm, ⟨51, _⟩ => ⟨S1x1024, .f32⟩
  | .hbm, ⟨52, _⟩ => ⟨S1024x3072, .f32⟩
  | .hbm, ⟨53, _⟩ => ⟨S1x3072, .f32⟩
  | .hbm, ⟨54, _⟩ => ⟨S1x3072, .f32⟩
  | .hbm, ⟨55, _⟩ => ⟨S1x3072, .f32⟩
  | .hbm, ⟨56, _⟩ => ⟨S1024x3072, .f32⟩
  | .hbm, ⟨57, _⟩ => ⟨S1x3072, .f32⟩
  | .hbm, ⟨58, _⟩ => ⟨S1x3072, .f32⟩
  | .hbm, ⟨59, _⟩ => ⟨S1x3072, .f32⟩
  | .hbm, ⟨60, _⟩ => ⟨S1x1024, .f32⟩
  | .hbm, ⟨61, _⟩ => ⟨S1x1024, .f32⟩
  | .hbm, ⟨62, _⟩ => ⟨S1x1024, .f32⟩
  | .hbm, ⟨63, _⟩ => ⟨S1x1024, .f32⟩
  | .hbm, ⟨64, _⟩ => ⟨S1x1024, .f32⟩
  | .hbm, ⟨65, _⟩ => ⟨S1x1024, .f32⟩
  | .hbm, ⟨66, _⟩ => ⟨S1x1024, .f32⟩
  | .hbm, ⟨67, _⟩ => ⟨S1x1024, .f32⟩
  | .hbm, ⟨68, _⟩ => ⟨S1x1024, .f32⟩
  | .hbm, ⟨69, _⟩ => ⟨S_, .f32⟩
  | .hbm, ⟨70, _⟩ => ⟨S1x1024, .f32⟩
  | .hbm, ⟨71, _⟩ => ⟨S1x1024, .f32⟩
  | .hbm, ⟨72, _⟩ => ⟨S_, .f32⟩
  | .hbm, ⟨73, _⟩ => ⟨S1x1024, .f32⟩
  | .hbm, ⟨74, _⟩ => ⟨S1x1024, .f32⟩
  | .hbm, ⟨75, _⟩ => ⟨S1x1024, .f32⟩
  | .hbm, ⟨76, _⟩ => ⟨S1x1024, .f32⟩
  | .hbm, ⟨77, _⟩ => ⟨S1x1024, .f32⟩
  | .hbm, ⟨78, _⟩ => ⟨S_, .f32⟩
  | .hbm, ⟨79, _⟩ => ⟨S1x1024, .f32⟩
  | .hbm, ⟨80, _⟩ => ⟨S1x1024, .f32⟩
  | .hbm, ⟨81, _⟩ => ⟨S_, .f32⟩
  | .hbm, ⟨82, _⟩ => ⟨S1x1024, .f32⟩
  | .hbm, ⟨83, _⟩ => ⟨S1x1024, .f32⟩
  | .hbm, ⟨84, _⟩ => ⟨S1x1024, .f32⟩
  | .hbm, ⟨85, _⟩ => ⟨S1x1024, .f32⟩
  | .hbm, ⟨86, _⟩ => ⟨S1x1024, .f32⟩
  | .hbm, ⟨87, _⟩ => ⟨S_, .f32⟩
  | .hbm, ⟨88, _⟩ => ⟨S1x1024, .f32⟩
  | .hbm, ⟨89, _⟩ => ⟨S1x1024, .f32⟩
  | .hbm, ⟨90, _⟩ => ⟨S1x1024, .f32⟩
  | .hbm, ⟨91, _⟩ => ⟨S1x1024, .f32⟩
  | .hbm, ⟨92, _⟩ => ⟨S1x1024, .f32⟩
  | .hbm, ⟨93, _⟩ => ⟨S1024x50257, .f32⟩
  | .hbm, ⟨94, _⟩ => ⟨S1x50257, .f32⟩
  | .hbm, ⟨95, _⟩ => ⟨S1x50257, .f32⟩
  | .hbm, ⟨96, _⟩ => ⟨S1x50257, .f32⟩
  | .hbm, ⟨97, _⟩ => ⟨S_, .f32⟩
  | .hbm, ⟨98, _⟩ => ⟨S1, .f32⟩
  | .hbm, ⟨99, _⟩ => ⟨S_, .f32⟩
  | .hbm, ⟨100, _⟩ => ⟨S1, .f32⟩
  | .hbm, ⟨101, _⟩ => ⟨S1, .f32⟩
  | .hbm, ⟨102, _⟩ => ⟨S1x1, .f32⟩
  | .hbm, ⟨103, _⟩ => ⟨S1x50257, .f32⟩
  | .hbm, ⟨104, _⟩ => ⟨S1x50257, .f32⟩
  | .hbm, ⟨105, _⟩ => ⟨S1x50257, .f32⟩
  | .hbm, ⟨106, _⟩ => ⟨S_, .f32⟩
  | .hbm, ⟨107, _⟩ => ⟨S1, .f32⟩
  | .hbm, ⟨108, _⟩ => ⟨S1x1, .f32⟩
  | .hbm, ⟨109, _⟩ => ⟨S1x1, .f32⟩
  | .hbm, ⟨110, _⟩ => ⟨S1x50257, .f32⟩
  | .hbm, ⟨111, _⟩ => ⟨S1x50257, .f32⟩
  | .hbm, ⟨112, _⟩ => ⟨S1x1x1024, .f32⟩
  | _, _ => ⟨S1, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_c : Ref sig .tc := ⟨.hbm, 14, rfl⟩
abbrev main_v0 : Ref sig .tc := ⟨.hbm, 15, rfl⟩
abbrev main_v1 : Ref sig .tc := ⟨.hbm, 16, rfl⟩
abbrev main_c_0 : Ref sig .tc := ⟨.hbm, 17, rfl⟩
abbrev main_v2 : Ref sig .tc := ⟨.hbm, 18, rfl⟩
abbrev main_v3 : Ref sig .tc := ⟨.hbm, 19, rfl⟩
abbrev main_v4 : Ref sig .tc := ⟨.hbm, 20, rfl⟩
abbrev main_v5 : Ref sig .tc := ⟨.hbm, 21, rfl⟩
abbrev main_v6 : Ref sig .tc := ⟨.hbm, 22, rfl⟩
abbrev main_v7 : Ref sig .tc := ⟨.hbm, 23, rfl⟩
abbrev main_v8 : Ref sig .tc := ⟨.hbm, 24, rfl⟩
abbrev main_v9 : Ref sig .tc := ⟨.hbm, 25, rfl⟩
abbrev main_v10 : Ref sig .tc := ⟨.hbm, 26, rfl⟩
abbrev main_v11 : Ref sig .tc := ⟨.hbm, 27, rfl⟩
abbrev main_v12 : Ref sig .tc := ⟨.hbm, 28, rfl⟩
abbrev main_cst : Ref sig .tc := ⟨.hbm, 29, rfl⟩
abbrev main_v13 : Ref sig .tc := ⟨.hbm, 30, rfl⟩
abbrev main_cst_1 : Ref sig .tc := ⟨.hbm, 31, rfl⟩
abbrev main_v14 : Ref sig .tc := ⟨.hbm, 32, rfl⟩
abbrev main_v15 : Ref sig .tc := ⟨.hbm, 33, rfl⟩
abbrev main_v16 : Ref sig .tc := ⟨.hbm, 34, rfl⟩
abbrev main_v17 : Ref sig .tc := ⟨.hbm, 35, rfl⟩
abbrev main_v18 : Ref sig .tc := ⟨.hbm, 36, rfl⟩
abbrev main_v19 : Ref sig .tc := ⟨.hbm, 37, rfl⟩
abbrev main_cst_2 : Ref sig .tc := ⟨.hbm, 38, rfl⟩
abbrev main_v20 : Ref sig .tc := ⟨.hbm, 39, rfl⟩
abbrev main_v21 : Ref sig .tc := ⟨.hbm, 40, rfl⟩
abbrev main_v22 : Ref sig .tc := ⟨.hbm, 41, rfl⟩
abbrev main_v23 : Ref sig .tc := ⟨.hbm, 42, rfl⟩
abbrev main_v24 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_call0_cst : Ref sig .tc := ⟨.hbm, 49, rfl⟩
abbrev main_call0_v0 : Ref sig .tc := ⟨.hbm, 50, rfl⟩
abbrev main_v30 : Ref sig .tc := ⟨.hbm, 51, rfl⟩
abbrev main_v31 : Ref sig .tc := ⟨.hbm, 52, rfl⟩
abbrev main_v32 : Ref sig .tc := ⟨.hbm, 53, rfl⟩
abbrev main_v33 : Ref sig .tc := ⟨.hbm, 54, rfl⟩
abbrev main_v34 : Ref sig .tc := ⟨.hbm, 55, rfl⟩
abbrev main_v35 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩
abbrev main_v47 : Ref sig .tc := ⟨.hbm, 68, rfl⟩
abbrev main_cst_3 : Ref sig .tc := ⟨.hbm, 69, rfl⟩
abbrev main_v48 : Ref sig .tc := ⟨.hbm, 70, rfl⟩
abbrev main_v49 : Ref sig .tc := ⟨.hbm, 71, rfl⟩
abbrev main_cst_4 : Ref sig .tc := ⟨.hbm, 72, rfl⟩
abbrev main_v50 : Ref sig .tc := ⟨.hbm, 73, rfl⟩
abbrev main_v51 : Ref sig .tc := ⟨.hbm, 74, rfl⟩
abbrev main_v52 : Ref sig .tc := ⟨.hbm, 75, rfl⟩
abbrev main_v53 : Ref sig .tc := ⟨.hbm, 76, rfl⟩
abbrev main_v54 : Ref sig .tc := ⟨.hbm, 77, rfl⟩
abbrev main_cst_5 : Ref sig .tc := ⟨.hbm, 78, rfl⟩
abbrev main_v55 : Ref sig .tc := ⟨.hbm, 79, rfl⟩
abbrev main_v56 : Ref sig .tc := ⟨.hbm, 80, rfl⟩
abbrev main_cst_6 : Ref sig .tc := ⟨.hbm, 81, rfl⟩
abbrev main_v57 : Ref sig .tc := ⟨.hbm, 82, rfl⟩
abbrev main_v58 : Ref sig .tc := ⟨.hbm, 83, rfl⟩
abbrev main_v59 : Ref sig .tc := ⟨.hbm, 84, rfl⟩
abbrev main_v60 : Ref sig .tc := ⟨.hbm, 85, rfl⟩
abbrev main_v61 : Ref sig .tc := ⟨.hbm, 86, rfl⟩
abbrev main_cst_7 : Ref sig .tc := ⟨.hbm, 87, rfl⟩
abbrev main_v62 : Ref sig .tc := ⟨.hbm, 88, rfl⟩
abbrev main_v63 : Ref sig .tc := ⟨.hbm, 89, rfl⟩
abbrev main_v64 : Ref sig .tc := ⟨.hbm, 90, rfl⟩
abbrev main_v65 : Ref sig .tc := ⟨.hbm, 91, rfl⟩
abbrev main_v66 : Ref sig .tc := ⟨.hbm, 92, rfl⟩
abbrev main_v67 : Ref sig .tc := ⟨.hbm, 93, rfl⟩
abbrev main_v68 : Ref sig .tc := ⟨.hbm, 94, rfl⟩
abbrev main_v69 : Ref sig .tc := ⟨.hbm, 95, rfl⟩
abbrev main_v70 : Ref sig .tc := ⟨.hbm, 96, rfl⟩
abbrev main_call1_cst : Ref sig .tc := ⟨.hbm, 97, rfl⟩
abbrev main_call1_v0 : Ref sig .tc := ⟨.hbm, 98, rfl⟩
abbrev main_call1_cst_0 : Ref sig .tc := ⟨.hbm, 99, rfl⟩
abbrev main_call1_v1 : Ref sig .tc := ⟨.hbm, 100, rfl⟩
abbrev main_call1_v2 : Ref sig .tc := ⟨.hbm, 101, rfl⟩
abbrev main_call1_v3 : Ref sig .tc := ⟨.hbm, 102, rfl⟩
abbrev main_call1_v4 : Ref sig .tc := ⟨.hbm, 103, rfl⟩
abbrev main_call1_v5 : Ref sig .tc := ⟨.hbm, 104, rfl⟩
abbrev main_call1_v6 : Ref sig .tc := ⟨.hbm, 105, rfl⟩
abbrev main_call1_cst_1 : Ref sig .tc := ⟨.hbm, 106, rfl⟩
abbrev main_call1_v7 : Ref sig .tc := ⟨.hbm, 107, rfl⟩
abbrev main_call1_v8 : Ref sig .tc := ⟨.hbm, 108, rfl⟩
abbrev main_call1_v9 : Ref sig .tc := ⟨.hbm, 109, rfl⟩
abbrev main_call1_v10 : Ref sig .tc := ⟨.hbm, 110, rfl⟩
abbrev main_v71 : Ref sig .tc := ⟨.hbm, 111, rfl⟩
abbrev main_v72 : Ref sig .tc := ⟨.hbm, 112, rfl⟩

abbrev nD : Nat := 1
abbrev τ : Topo := Topo.v7x

variable {F : FTy → Type} [FloatOps F]

class Facts₀ : Prop where
  bcast_S_S1 : S_.BroadcastsInDim S1 (![] : Fin 0 → Fin S1.rank)
  bcast_S1_S1x1_0 : S1.BroadcastsInDim S1x1 (![0] : Fin 1 → Fin S1x1.rank)
  shapeCasts_S1x1x1024_S1x1024 : S1x1x1024.ShapeCasts S1x1024
  concatenates_S1x1024_S1x1024_S1x2048_d1 : Shape.Concatenates [S1x1024, S1x1024] S1x2048 1
  transposes_S512x2048_S2048x512_1_0 : S512x2048.Transposes [1, 0] S2048x512
  bcast_S512_S1x512_1 : S512.BroadcastsInDim S1x512 (![1] : Fin 1 → Fin S1x512.rank)
  reducesTo_S1x512_S1_d1 : S1x512.ReducesTo [1] S1
  h_S_ : 0 < S_.numel
  bcast_S1x1_S1x512_0_1 : S1x1.BroadcastsInDim S1x512 (![0, 1] : Fin 2 → Fin S1x512.rank)
  transposes_S1024x2048_S2048x1024_1_0 : S1024x2048.Transposes [1, 0] S2048x1024
  bcast_S1024_S1x1024_1 : S1024.BroadcastsInDim S1x1024 (![1] : Fin 1 → Fin S1x1024.rank)
  bcast_S_S1x1024 : S_.BroadcastsInDim S1x1024 (![] : Fin 0 → Fin S1x1024.rank)
  transposes_S3072x1024_S1024x3072_1_0 : S3072x1024.Transposes [1, 0] S1024x3072
  bcast_S3072_S1x3072_1 : S3072.BroadcastsInDim S1x3072 (![1] : Fin 1 → Fin S1x3072.rank)
  slices_S1x3072_S1x1024_0_0 : S1x3072.Slices ![0, 0] S1x1024
  slices_S1x3072_S1x1024_0_1024 : S1x3072.Slices ![0, 1024] S1x1024
  slices_S1x3072_S1x1024_0_2048 : S1x3072.Slices ![0, 2048] S1x1024
  transposes_S50257x1024_S1024x50257_1_0 : S50257x1024.Transposes [1, 0] S1024x50257
  bcast_S50257_S1x50257_1 : S50257.BroadcastsInDim S1x50257 (![1] : Fin 1 → Fin S1x50257.rank)
  reducesTo_S1x50257_S1_d1 : S1x50257.ReducesTo [1] S1
  bcast_S1x1_S1x50257_0_1 : S1x1.BroadcastsInDim S1x50257 (![0, 1] : Fin 2 → Fin S1x50257.rank)
  bcast_S1x1024_S1x1x1024_1_2 : S1x1024.BroadcastsInDim S1x1x1024 (![1, 2] : Fin 2 → Fin S1x1x1024.rank)
  gather_S50257x1024_S1x1_S1x1024_1_0_n_n_0_1_11024_wf : GatherDims.WF S50257x1024 S1x1 S1x1024 [1] [0] [] [0] [] 1 ![1, 1024]
  dot_S1x2048_S2048x512_S1x512_1_0_0_1_n_n_wf : DotDims.WF S1x2048 S2048x512 S1x512 [1] [0] [0] [1] [] []
  dot_S1x512_S512x1024_S1x1024_1_0_0_1_n_n_wf : DotDims.WF S1x512 S512x1024 S1x1024 [1] [0] [0] [1] [] []
  dot_S1x2048_S2048x1024_S1x1024_1_0_0_1_n_n_wf : DotDims.WF S1x2048 S2048x1024 S1x1024 [1] [0] [0] [1] [] []
  dot_S1x1024_S1024x3072_S1x3072_1_0_0_1_n_n_wf : DotDims.WF S1x1024 S1024x3072 S1x3072 [1] [0] [0] [1] [] []
  dot_S1x1024_S1024x50257_S1x50257_1_0_0_1_n_n_wf : DotDims.WF S1x1024 S1024x50257 S1x50257 [1] [0] [0] [1] [] []

variable [Facts₀]

def gather_S50257x1024_S1x1_S1x1024_1_0_n_n_0_1_11024 : GatherDims S50257x1024 S1x1 S1x1024 where
  offsetDims := [1]
  collapsedSliceDims := [0]
  operandBatchingDims := []
  startIndicesBatchingDims := []
  startIndexMap := [0]
  indexVectorDim := 1
  sliceSizes := ![1, 1024]
  wf := gather_S50257x1024_S1x1_S1x1024_1_0_n_n_0_1_11024_wf
def dot_S1x2048_S2048x512_S1x512_1_0_0_1_n_n : DotDims S1x2048 S2048x512 S1x512 where
  lhsContracting := [1]
  rhsContracting := [0]
  lhsNonContracting := [0]
  rhsNonContracting := [1]
  lhsBatch := []
  rhsBatch := []
  wf := dot_S1x2048_S2048x512_S1x512_1_0_0_1_n_n_wf
def dot_S1x512_S512x1024_S1x1024_1_0_0_1_n_n : DotDims S1x512 S512x1024 S1x1024 where
  lhsContracting := [1]
  rhsContracting := [0]
  lhsNonContracting := [0]
  rhsNonContracting := [1]
  lhsBatch := []
  rhsBatch := []
  wf := dot_S1x512_S512x1024_S1x1024_1_0_0_1_n_n_wf
def dot_S1x2048_S2048x1024_S1x1024_1_0_0_1_n_n : DotDims S1x2048 S2048x1024 S1x1024 where
  lhsContracting := [1]
  rhsContracting := [0]
  lhsNonContracting := [0]
  rhsNonContracting := [1]
  lhsBatch := []
  rhsBatch := []
  wf := dot_S1x2048_S2048x1024_S1x1024_1_0_0_1_n_n_wf
def dot_S1x1024_S1024x3072_S1x3072_1_0_0_1_n_n : DotDims S1x1024 S1024x3072 S1x3072 where
  lhsContracting := [1]
  rhsContracting := [0]
  lhsNonContracting := [0]
  rhsNonContracting := [1]
  lhsBatch := []
  rhsBatch := []
  wf := dot_S1x1024_S1024x3072_S1x3072_1_0_0_1_n_n_wf
def dot_S1x1024_S1024x50257_S1x50257_1_0_0_1_n_n : DotDims S1x1024 S1024x50257 S1x50257 where
  lhsContracting := [1]
  rhsContracting := [0]
  lhsNonContracting := [0]
  rhsNonContracting := [1]
  lhsBatch := []
  rhsBatch := []
  wf := dot_S1x1024_S1024x50257_S1x50257_1_0_0_1_n_n_wf

class Facts : Prop extends Facts₀ where

variable [Facts]
-- ==== Proof.KRegion0.lean ====
import proofs.«149668_j82532091560494_2_alg».proof.Proof.Gen.Kernel.Launch
import proofs.«149668_j82532091560494_2_alg».proof.Proof.Gen.Kernel.Skeleton
import proofs.«149668_j82532091560494_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

-- membership in a rectangle of long extents recurses once per coordinate of the long axes
set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the core's buffer contents when the region is entered: every statement below is at this parameter
variable (V : (c : Dev nD) → (b : Ref sig .tc) → Buf (Elt F) ((c : Thread nD τ).loc b))

/-! # Region 0: one grid point, every window's block the whole array -/

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0's current staging buffer holds its block at every point, for any proof data whose
    array is the entry contents and whose body leaves the block in place. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- Input window 1's current staging buffer holds its block at every point, for any proof data whose
    array is the entry contents and whose body leaves the block in place. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-- Input window 2's current staging buffer holds its block at every point, for any proof data whose
    array is the entry contents and whose body leaves the block in place. -/
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-- Input window 3's current staging buffer holds its block at every point, for any proof data whose
    array is the entry contents and whose body leaves the block in place. -/
theorem before0_3_of {c : Dev nD} (dat : Dat τ (Elt F) Unit ℕ (UR sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)

/-- Input window 4's current staging buffer holds its block at every point, for any proof data whose
    array is the entry contents and whose body leaves the block in place. -/
theorem before0_4_of {c : Dev nD} (dat : Dat τ (Elt F) Unit ℕ (UR sig nD τ) ℕ cfg0 c) (hA : dat.A 4 = V c (Pipeline.arrRef spec0 4))
    (hafter : ∀ t, dat.after 4 t = iblk0 V c 4 t) (t : Fin cfg0.N) (d) : dat.before 4 t d = iblk0 V c 4 t :=
  (dat.before_in_eq_fetched 4 rfl (fun _ => rfl) (fun _ _ _ => rfl) (fun t => by rw [hafter]; unfold Dat.blockOf iblk0; rw [hA]; try rfl) t d).trans
    (by unfold Dat.fetched Dat.blockOf iblk0; rw [hA]; try rfl)

/-- Input window 5's current staging buffer holds its block at every point, for any proof data whose
    array is the entry contents and whose body leaves the block in place. -/
theorem before0_5_of {c : Dev nD} (dat : Dat τ (Elt F) Unit ℕ (UR sig nD τ) ℕ cfg0 c) (hA : dat.A 5 = V c (Pipeline.arrRef spec0 5))
    (hafter : ∀ t, dat.after 5 t = iblk0 V c 5 t) (t : Fin cfg0.N) (d) : dat.before 5 t d = iblk0 V c 5 t :=
  (dat.before_in_eq_fetched 5 rfl (fun _ => rfl) (fun _ _ _ => rfl) (fun t => by rw [hafter]; unfold Dat.blockOf iblk0; rw [hA]; try rfl) t d).trans
    (by unfold Dat.fetched Dat.blockOf iblk0; rw [hA]; try rfl)

/-- Input window 6's current staging buffer holds its block at every point, for any proof data whose
    array is the entry contents and whose body leaves the block in place. -/
theorem before0_6_of {c : Dev nD} (dat : Dat τ (Elt F) Unit ℕ (UR sig nD τ) ℕ cfg0 c) (hA : dat.A 6 = V c (Pipeline.arrRef spec0 6))
    (hafter : ∀ t, dat.after 6 t = iblk0 V c 6 t) (t : Fin cfg0.N) (d) : dat.before 6 t d = iblk0 V c 6 t :=
  (dat.before_in_eq_fetched 6 rfl (fun _ => rfl) (fun _ _ _ => rfl) (fun t => by rw [hafter]; unfold Dat.blockOf iblk0; rw [hA]; try rfl) t d).trans
    (by unfold Dat.fetched Dat.blockOf iblk0; rw [hA]; try rfl)

/-! ## The body's accesses: each is the whole buffer -/

abbrev r0_0 : Rect S1x1024 := Rect.unit (s := S1x1024) ![0, 0] S1x1024.size inb_S1x1024_S1x1024_0_0
abbrev r0_1 : Rect S512x1024 := Rect.unit (s := S512x1024) ![0, 0] S512x1024.size inb_S512x1024_S512x1024_0_0
abbrev r0_2 : Rect S512x2048 := Rect.unit (s := S512x2048) ![0, 0] S512x2048.size inb_S512x2048_S512x2048_0_0
abbrev r0_3 : Rect S1x512 := Rect.unit (s := S1x512) ![0, 0] S1x512.size inb_S1x512_S1x512_0_0
abbrev r0_4 : Rect S1024x2048 := Rect.unit (s := S1024x2048) ![0, 0] S1024x2048.size inb_S1024x2048_S1024x2048_0_0

/-! ## What the body leaves in each output window's buffer -/

/-- Window 7's staging buffer after the body: its one store, of the whole buffer, over the payload of the loaded blocks. -/
def out0_7 (x0 : Vec F S1x1024 .f32) (x1 : Vec F S1x1024 .f32) (x2 : Vec F S512x1024 .f32) (x3 : Vec F S512x2048 .f32) (x4 : Vec F S1x512 .f32) (x5 : Vec F S1024x2048 .f32) (x6 : Vec F S1x1024 .f32) : Vec F S1x1024 .f32 :=
  View.canon [⟨r0_0, k0_pay3 (View.ld x0 r0_0) (View.ld x1 r0_0) (View.ld x3 r0_2) (View.ld x4 r0_3) (View.ld x2 r0_1) (View.ld x5 r0_4) (View.ld x6 r0_0)⟩]

/-- The one store covers the buffer. -/
theorem cover0_7 (p0 : Vec F S1x1024 .f32) (y : S1x1024.Idx) :
    ∃ pc ∈ ([⟨r0_0, p0⟩] : List (View.Piece (Elt F) S1x1024 .f32)), y ∈ pc.1.set :=
  View.cover_of_tiled [⟨r0_0, p0⟩] S1x1024.size (by rfl) y

/-- Window 8's staging buffer after the body: its one store, of the whole buffer, over the payload of the loaded blocks. -/
def out0_8 (x0 : Vec F S1x1024 .f32) (x1 : Vec F S1x1024 .f32) (x2 : Vec F S512x1024 .f32) (x3 : Vec F S512x2048 .f32) (x4 : Vec F S1x512 .f32) (x5 : Vec F S1024x2048 .f32) (x6 : Vec F S1x1024 .f32) : Vec F S1x512 .f32 :=
  View.canon [⟨r0_3, k0_pay2 (View.ld x0 r0_0) (View.ld x1 r0_0) (View.ld x3 r0_2) (View.ld x4 r0_3)⟩]

/-- The one store covers the buffer. -/
theorem cover0_8 (p0 : Vec F S1x512 .f32) (y : S1x512.Idx) :
    ∃ pc ∈ ([⟨r0_3, p0⟩] : List (View.Piece (Elt F) S1x512 .f32)), y ∈ pc.1.set :=
  View.cover_of_tiled [⟨r0_3, p0⟩] S1x512.size (by rfl) y

/-! ## The body's triple -/

set_option maxHeartbeats 1000000 in
/-- The kernel body on whole staging memrefs, the inputs' at contents `xW` and the outputs' at anything, runs to the
    continuation holding the inputs' as they were and each output's at `out0_W` of the inputs'. -/
theorem sound_kernel0 (c : Dev nD) (E : Set ℕ) (i : grid0.Coords) (arg1 : Memref sig .tc .vmem S1x1024 .f32) (harg1 : arg1.IsWhole) (arg2 : Memref sig .tc .vmem S1x1024 .f32) (harg2 : arg2.IsWhole) (arg3 : Memref sig .tc .vmem S512x1024 .f32) (harg3 : arg3.IsWhole) (arg4 : Memref sig .tc .vmem S512x2048 .f32) (harg4 : arg4.IsWhole) (arg5 : Memref sig .tc .vmem S1x512 .f32) (harg5 : arg5.IsWhole) (arg6 : Memref sig .tc .vmem S1024x2048 .f32) (harg6 : arg6.IsWhole) (arg7 : Memref sig .tc .vmem S1x1024 .f32) (harg7 : arg7.IsWhole) (arg8 : Memref sig .tc .vmem S1x1024 .f32) (harg8 : arg8.IsWhole) (arg9 : Memref sig .tc .vmem S1x512 .f32) (harg9 : arg9.IsWhole)
    (x0 : Vec F S1x1024 .f32) (x1 : Vec F S1x1024 .f32) (x2 : Vec F S512x1024 .f32) (x3 : Vec F S512x2048 .f32) (x4 : Vec F S1x512 .f32) (x5 : Vec F S1024x2048 .f32) (x6 : Vec F S1x1024 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ (∃ d, owns (c : Thread nD τ) arg8 fullShare d) ∗ (∃ d, owns (c : Thread nD τ) arg9 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare (out0_7 x0 x1 x2 x3 x4 x5 x6) ∗ owns (c : Thread nD τ) arg9 fullShare (out0_8 x0 x1 x2 x3 x4 x5 x6)) -∗ K ⟨⟩))
      ⊢ wp frame (wpE (defs₀ (F := F)) Variants.none c none) E (cc0__attn_comb_kernel i arg1 harg1 arg2 harg2 arg3 harg3 arg4 harg4 arg5 harg5 arg6 harg6 arg7 harg7 arg8 harg8 arg9 harg9) K := by
  simp only [cc0__attn_comb_kernel_eq_skeleton]; unfold cc0__attn_comb_kernel_skel
  simp only [k0_part1_eq_skeleton]; unfold k0_part1_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, ⟨%d8, %f8, -, H8⟩, Hk⟩
  subst hf0 hf1 hf2 hf3 hf4 hf5 hf6
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists _; isplitr
    swap; · iexact H7
    ipureintro
    exact View.read_writes_eq_canon _ _ _ (cover0_7 _)
  iexists _; isplitr
  swap; · iexact H8
  ipureintro
  exact View.read_writes_eq_canon _ _ _ (cover0_8 _)

/-! ## The pipeline's proof data -/

/-- The proof data of the pipeline on core `c`: the arrays as the region finds them; after the body each input's
    buffer at its block and each output's at `out0_W` of the input blocks; the invariant the scoped rest and the
    generator register, untouched; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => iblk0 V c 5 t
    | ⟨6, _⟩ => iblk0 V c 6 t
    | ⟨7, _⟩ => out0_7 (iblk0 V c 0 t) (iblk0 V c 1 t) (iblk0 V c 2 t) (iblk0 V c 3 t) (iblk0 V c 4 t) (iblk0 V c 5 t) (iblk0 V c 6 t)
    | ⟨8, _⟩ => out0_8 (iblk0 V c 0 t) (iblk0 V c 1 t) (iblk0 V c 2 t) (iblk0 V c 3 t) (iblk0 V c 4 t) (iblk0 V c 5 t) (iblk0 V c 6 t)
  Φ _ := Pipeline.ΦA spec0 c
  q _ := fullShare
  owed _ := 0

/-- The proof data's arrays are the region-entry contents. -/
theorem A_eq0 (c : Dev nD) (w : Fin cfg0.W) : (dat0 V c).A w = V c (Pipeline.arrRef spec0 w) := by
  dsimp only [dat0]

/-- What the body leaves, window by window. -/
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = iblk0 V c 4 t := by dsimp only [dat0]
theorem after0_5 (c : Dev nD) (t : Fin cfg0.N) : (dat0 V c).after 5 t = iblk0 V c 5 t := by dsimp only [dat0]
theorem after0_6 (c : Dev nD) (t : Fin cfg0.N) : (dat0 V c).after 6 t = iblk0 V c 6 t := by dsimp only [dat0]
theorem after0_7 (c : Dev nD) (t : Fin cfg0.N) : (dat0 V c).after 7 t = out0_7 (iblk0 V c 0 t) (iblk0 V c 1 t) (iblk0 V c 2 t) (iblk0 V c 3 t) (iblk0 V c 4 t) (iblk0 V c 5 t) (iblk0 V c 6 t) := by dsimp only [dat0]
theorem after0_8 (c : Dev nD) (t : Fin cfg0.N) : (dat0 V c).after 8 t = out0_8 (iblk0 V c 0 t) (iblk0 V c 1 t) (iblk0 V c 2 t) (iblk0 V c 3 t) (iblk0 V c 4 t) (iblk0 V c 5 t) (iblk0 V c 6 t) := by dsimp only [dat0]

/-- Each input's current staging buffer holds its block at every point. -/
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d
theorem before0_3 (c : Dev nD) (t : Fin cfg0.N) (d) : (dat0 V c).before 3 t d = iblk0 V c 3 t :=
  before0_3_of V (dat0 V c) (A_eq0 V c 3) (after0_3 V c) t d
theorem before0_4 (c : Dev nD) (t : Fin cfg0.N) (d) : (dat0 V c).before 4 t d = iblk0 V c 4 t :=
  before0_4_of V (dat0 V c) (A_eq0 V c 4) (after0_4 V c) t d
theorem before0_5 (c : Dev nD) (t : Fin cfg0.N) (d) : (dat0 V c).before 5 t d = iblk0 V c 5 t :=
  before0_5_of V (dat0 V c) (A_eq0 V c 5) (after0_5 V c) t d
theorem before0_6 (c : Dev nD) (t : Fin cfg0.N) (d) : (dat0 V c).before 6 t d = iblk0 V c 6 t :=
  before0_6_of V (dat0 V c) (A_eq0 V c 6) (after0_6 V c) t d

/-! ## The body obligation -/

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d))
    ∗ (∃ d, owns (c : Thread nD τ) (st0_5 t) fullShare ((dat0 V c).before 5 t d))
    ∗ (∃ d, owns (c : Thread nD τ) (st0_6 t) fullShare ((dat0 V c).before 6 t d))
    ∗ (∃ d, owns (c : Thread nD τ) (st0_7 t) fullShare ((dat0 V c).before 7 t d))
    ∗ (∃ d, owns (c : Thread nD τ) (st0_8 t) fullShare ((dat0 V c).before 8 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t)
    ∗ owns (c : Thread nD τ) (st0_5 t) fullShare ((dat0 V c).after 5 t)
    ∗ owns (c : Thread nD τ) (st0_6 t) fullShare ((dat0 V c).after 6 t)
    ∗ owns (c : Thread nD τ) (st0_7 t) fullShare ((dat0 V c).after 7 t)
    ∗ owns (c : Thread nD τ) (st0_8 t) fullShare ((dat0 V c).after 8 t))

/-- The body at any point: the inputs' memrefs hold their blocks, so `sound_kernel0` applies; the invariant and
    the core's obligations pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3, before0_4, before0_5, before0_6]
  rw [show (dat0 V c).Φ t.succ = (dat0 V c).Φ t.castSucc from rfl,
    show (dat0 V c).owesAt () t.succ = (dat0 V c).owesAt () t.castSucc from rfl,
    after0_0, after0_1, after0_2, after0_3, after0_4, after0_5, after0_6, after0_7, after0_8]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
  iapply (sound_kernel0 c Set.univ (grid0.coords t) _ _ _ _ _ _ _ _ _ _ _ _ _ _ _ _ _ _ (iblk0 V c 0 t) (iblk0 V c 1 t) (iblk0 V c 2 t) (iblk0 V c 3 t) (iblk0 V c 4 t) (iblk0 V c 5 t) (iblk0 V c 6 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexists _; iexact H7
  isplitl [H8]; · iexists _; iexact H8
  iintro ⟨H0, H1, H2, H3, H4, H5, H6, H7, H8⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  iexact H8

/-- The library's body obligation, at every point. -/
theorem body_obligation0 (c : Dev nD) : BodyObligation (dat0 (F := F) V c) (defs₀ (F := F)) Variants.none () Set.univ := fun t => by
  rw [bigSep_W0, bigSep_W0]
  exact sound_body0 V c t

/-! ## The output arrays after the run -/

/-- The zero offset of every access. -/
theorem hz0 : (![0, 0] : Fin 2 → Nat) = fun _ => 0 := funext fun a => by fin_cases a <;> rfl

/-- The index maps at the grid's points: every window's block index is 0 on both axes. -/
theorem idx0 : ∀ t : Fin cfg0.N, win0_0.index t (0 : Fin 2) = 0
    ∧ win0_0.index t (1 : Fin 2) = 0
    ∧ win0_1.index t (0 : Fin 2) = 0
    ∧ win0_1.index t (1 : Fin 2) = 0
    ∧ win0_2.index t (0 : Fin 2) = 0
    ∧ win0_2.index t (1 : Fin 2) = 0
    ∧ win0_3.index t (0 : Fin 2) = 0
    ∧ win0_3.index t (1 : Fin 2) = 0
    ∧ win0_4.index t (0 : Fin 2) = 0
    ∧ win0_4.index t (1 : Fin 2) = 0
    ∧ win0_5.index t (0 : Fin 2) = 0
    ∧ win0_5.index t (1 : Fin 2) = 0
    ∧ win0_6.index t (0 : Fin 2) = 0
    ∧ win0_6.index t (1 : Fin 2) = 0
    ∧ win0_7.index t (0 : Fin 2) = 0
    ∧ win0_7.index t (1 : Fin 2) = 0
    ∧ win0_8.index t (0 : Fin 2) = 0
    ∧ win0_8.index t (1 : Fin 2) = 0 :=
  (by decide +kernel : ∀ t : Fin grid0.N, _)

/-- Window 0's block is its whole array. -/
theorem iblk0_0 (c : Dev nD) (t : Fin cfg0.N) :
    (iblk0 V c 0 t : Vec F S1x1024 .f32) = (V c (Pipeline.arrRef spec0 0) : Vec F S1x1024 .f32) := by
  obtain ⟨e0, e1, e2, e3, e4, e5, e6, e7, e8, e9, e10, e11, e12, e13, e14, e15, e16, e17⟩ := idx0 t
  funext j
  have h : (((cfg0.win 0).blk t).view.emb j : S1x1024.Idx) = j := by
    funext a; apply Fin.ext
    match a with
    | ⟨0, _⟩ => show win0_0.index t (0 : Fin 2) * 1 + 1 * (j 0).val = (j 0).val; omega
    | ⟨1, _⟩ => show win0_0.index t (1 : Fin 2) * 1024 + 1 * (j 1).val = (j 1).val; omega
  show (V c (Pipeline.arrRef spec0 0) : Vec F S1x1024 .f32) (((cfg0.win 0).blk t).view.emb j) = _
  rw [h]

/-- Window 1's block is its whole array. -/
theorem iblk0_1 (c : Dev nD) (t : Fin cfg0.N) :
    (iblk0 V c 1 t : Vec F S1x1024 .f32) = (V c (Pipeline.arrRef spec0 1) : Vec F S1x1024 .f32) := by
  obtain ⟨e0, e1, e2, e3, e4, e5, e6, e7, e8, e9, e10, e11, e12, e13, e14, e15, e16, e17⟩ := idx0 t
  funext j
  have h : (((cfg0.win 1).blk t).view.emb j : S1x1024.Idx) = j := by
    funext a; apply Fin.ext
    match a with
    | ⟨0, _⟩ => show win0_1.index t (0 : Fin 2) * 1 + 1 * (j 0).val = (j 0).val; omega
    | ⟨1, _⟩ => show win0_1.index t (1 : Fin 2) * 1024 + 1 * (j 1).val = (j 1).val; omega
  show (V c (Pipeline.arrRef spec0 1) : Vec F S1x1024 .f32) (((cfg0.win 1).blk t).view.emb j) = _
  rw [h]

/-- Window 2's block is its whole array. -/
theorem iblk0_2 (c : Dev nD) (t : Fin cfg0.N) :
    (iblk0 V c 2 t : Vec F S512x1024 .f32) = (V c (Pipeline.arrRef spec0 2) : Vec F S512x1024 .f32) := by
  obtain ⟨e0, e1, e2, e3, e4, e5, e6, e7, e8, e9, e10, e11, e12, e13, e14, e15, e16, e17⟩ := idx0 t
  funext j
  have h : (((cfg0.win 2).blk t).view.emb j : S512x1024.Idx) = j := by
    funext a; apply Fin.ext
    match a with
    | ⟨0, _⟩ => show win0_2.index t (0 : Fin 2) * 512 + 1 * (j 0).val = (j 0).val; omega
    | ⟨1, _⟩ => show win0_2.index t (1 : Fin 2) * 1024 + 1 * (j 1).val = (j 1).val; omega
  show (V c (Pipeline.arrRef spec0 2) : Vec F S512x1024 .f32) (((cfg0.win 2).blk t).view.emb j) = _
  rw [h]

/-- Window 3's block is its whole array. -/
theorem iblk0_3 (c : Dev nD) (t : Fin cfg0.N) :
    (iblk0 V c 3 t : Vec F S512x2048 .f32) = (V c (Pipeline.arrRef spec0 3) : Vec F S512x2048 .f32) := by
  obtain ⟨e0, e1, e2, e3, e4, e5, e6, e7, e8, e9, e10, e11, e12, e13, e14, e15, e16, e17⟩ := idx0 t
  funext j
  have h : (((cfg0.win 3).blk t).view.emb j : S512x2048.Idx) = j := by
    funext a; apply Fin.ext
    match a with
    | ⟨0, _⟩ => show win0_3.index t (0 : Fin 2) * 512 + 1 * (j 0).val = (j 0).val; omega
    | ⟨1, _⟩ => show win0_3.index t (1 : Fin 2) * 2048 + 1 * (j 1).val = (j 1).val; omega
  show (V c (Pipeline.arrRef spec0 3) : Vec F S512x2048 .f32) (((cfg0.win 3).blk t).view.emb j) = _
  rw [h]

/-- Window 4's block is its whole array. -/
theorem iblk0_4 (c : Dev nD) (t : Fin cfg0.N) :
    (iblk0 V c 4 t : Vec F S1x512 .f32) = (V c (Pipeline.arrRef spec0 4) : Vec F S1x512 .f32) := by
  obtain ⟨e0, e1, e2, e3, e4, e5, e6, e7, e8, e9, e10, e11, e12, e13, e14, e15, e16, e17⟩ := idx0 t
  funext j
  have h : (((cfg0.win 4).blk t).view.emb j : S1x512.Idx) = j := by
    funext a; apply Fin.ext
    match a with
    | ⟨0, _⟩ => show win0_4.index t (0 : Fin 2) * 1 + 1 * (j 0).val = (j 0).val; omega
    | ⟨1, _⟩ => show win0_4.index t (1 : Fin 2) * 512 + 1 * (j 1).val = (j 1).val; omega
  show (V c (Pipeline.arrRef spec0 4) : Vec F S1x512 .f32) (((cfg0.win 4).blk t).view.emb j) = _
  rw [h]

/-- Window 5's block is its whole array. -/
theorem iblk0_5 (c : Dev nD) (t : Fin cfg0.N) :
    (iblk0 V c 5 t : Vec F S1024x2048 .f32) = (V c (Pipeline.arrRef spec0 5) : Vec F S1024x2048 .f32) := by
  obtain ⟨e0, e1, e2, e3, e4, e5, e6, e7, e8, e9, e10, e11, e12, e13, e14, e15, e16, e17⟩ := idx0 t
  funext j
  have h : (((cfg0.win 5).blk t).view.emb j : S1024x2048.Idx) = j := by
    funext a; apply Fin.ext
    match a with
    | ⟨0, _⟩ => show win0_5.index t (0 : Fin 2) * 1024 + 1 * (j 0).val = (j 0).val; omega
    | ⟨1, _⟩ => show win0_5.index t (1 : Fin 2) * 2048 + 1 * (j 1).val = (j 1).val; omega
  show (V c (Pipeline.arrRef spec0 5) : Vec F S1024x2048 .f32) (((cfg0.win 5).blk t).view.emb j) = _
  rw [h]

/-- Window 6's block is its whole array. -/
theorem iblk0_6 (c : Dev nD) (t : Fin cfg0.N) :
    (iblk0 V c 6 t : Vec F S1x1024 .f32) = (V c (Pipeline.arrRef spec0 6) : Vec F S1x1024 .f32) := by
  obtain ⟨e0, e1, e2, e3, e4, e5, e6, e7, e8, e9, e10, e11, e12, e13, e14, e15, e16, e17⟩ := idx0 t
  funext j
  have h : (((cfg0.win 6).blk t).view.emb j : S1x1024.Idx) = j := by
    funext a; apply Fin.ext
    match a with
    | ⟨0, _⟩ => show win0_6.index t (0 : Fin 2) * 1 + 1 * (j 0).val = (j 0).val; omega
    | ⟨1, _⟩ => show win0_6.index t (1 : Fin 2) * 1024 + 1 * (j 1).val = (j 1).val; omega
  show (V c (Pipeline.arrRef spec0 6) : Vec F S1x1024 .f32) (((cfg0.win 6).blk t).view.emb j) = _
  rw [h]

/-- What the one point writes back to window 7 is the payload of the entry arrays, read through the block. -/
theorem flushed0_7_eq (c : Dev nD) (t : Fin cfg0.N) :
    (dat0 V c).flushed 7 t = ((cfg0.win 7).blk t).view.read (Elt F) (k0_pay3 (V c (Pipeline.arrRef spec0 0)) (V c (Pipeline.arrRef spec0 1)) (V c (Pipeline.arrRef spec0 3)) (V c (Pipeline.arrRef spec0 4)) (V c (Pipeline.arrRef spec0 2)) (V c (Pipeline.arrRef spec0 5)) (V c (Pipeline.arrRef spec0 6))) := by
  show (cfg0.win 7).cut (grid0.coords t) ((dat0 V c).after 7 t) = _
  rw [after0_7]
  unfold out0_7
  rw [View.canon_unit_zero hz0]
  simp only [View.ld_unit_zero (S := S1x1024) hz0, View.ld_unit_zero (S := S512x1024) hz0, View.ld_unit_zero (S := S512x2048) hz0, View.ld_unit_zero (S := S1x512) hz0, View.ld_unit_zero (S := S1024x2048) hz0]
  rw [iblk0_0, iblk0_1, iblk0_2, iblk0_3, iblk0_4, iblk0_5, iblk0_6]
  obtain ⟨e0, e1, e2, e3, e4, e5, e6, e7, e8, e9, e10, e11, e12, e13, e14, e15, e16, e17⟩ := idx0 t
  funext j
  have h : (((cfg0.win 7).blk t).view.emb j : S1x1024.Idx) = j := by
    funext a; apply Fin.ext
    match a with
    | ⟨0, _⟩ => show win0_7.index t (0 : Fin 2) * 1 + 1 * (j 0).val = (j 0).val; omega
    | ⟨1, _⟩ => show win0_7.index t (1 : Fin 2) * 1024 + 1 * (j 1).val = (j 1).val; omega
  show (k0_pay3 (V c (Pipeline.arrRef spec0 0)) (V c (Pipeline.arrRef spec0 1)) (V c (Pipeline.arrRef spec0 3)) (V c (Pipeline.arrRef spec0 4)) (V c (Pipeline.arrRef spec0 2)) (V c (Pipeline.arrRef spec0 5)) (V c (Pipeline.arrRef spec0 6))) j = (k0_pay3 (V c (Pipeline.arrRef spec0 0)) (V c (Pipeline.arrRef spec0 1)) (V c (Pipeline.arrRef spec0 3)) (V c (Pipeline.arrRef spec0 4)) (V c (Pipeline.arrRef spec0 2)) (V c (Pipeline.arrRef spec0 5)) (V c (Pipeline.arrRef spec0 6))) (((cfg0.win 7).blk t).view.emb j)
  rw [h]

/-- An index of window 7's array is in a point's block iff each coordinate is in the block's range. -/
theorem mem_blk0_7 (t : Fin cfg0.N) (i : S1x1024.Idx) :
    i ∈ ((cfg0.win 7).blk t).view.set ↔ ∀ a : Fin 2, win0_7.index t a * S1x1024.size a ≤ (i a).val ∧ (i a).val < win0_7.index t a * S1x1024.size a + S1x1024.size a := by
  show i ∈ ((View.whole main_v13_0).slice (win0_7.rect t)).set ↔ _
  rw [View.set_slice_whole, Rect.mem_set_unit]
  exact Iff.rfl

/-- The one point's block is the whole of window 7's array. -/
theorem covered0_7 (i : S1x1024.Idx) :
    ∃ t : Fin cfg0.N, (cfg0.win 7).flush t = true ∧ i ∈ ((cfg0.win 7).blk t).view.set := by
  refine ⟨t0_0, flush0_7 t0_0, ?_⟩
  obtain ⟨e0, e1, e2, e3, e4, e5, e6, e7, e8, e9, e10, e11, e12, e13, e14, e15, e16, e17⟩ := idx0 t0_0
  rw [mem_blk0_7]
  intro a
  match a with
  | ⟨0, _⟩ => show win0_7.index t0_0 (0 : Fin 2) * 1 ≤ (i 0).val ∧ (i 0).val < win0_7.index t0_0 (0 : Fin 2) * 1 + 1; have hi : (i 0).val < 1 := (i 0).isLt; omega
  | ⟨1, _⟩ => show win0_7.index t0_0 (1 : Fin 2) * 1024 ≤ (i 1).val ∧ (i 1).val < win0_7.index t0_0 (1 : Fin 2) * 1024 + 1024; have hi : (i 1).val < 1024 := (i 1).isLt; omega

/-- Window 7's array after the run: the payload of the region-entry arrays. -/
theorem final0_7 (c : Dev nD) : (dat0 V c).arrAt 7 cfg0.N = k0_pay3 (V c (Pipeline.arrRef spec0 0)) (V c (Pipeline.arrRef spec0 1)) (V c (Pipeline.arrRef spec0 3)) (V c (Pipeline.arrRef spec0 4)) (V c (Pipeline.arrRef spec0 2)) (V c (Pipeline.arrRef spec0 5)) (V c (Pipeline.arrRef spec0 6)) :=
  (dat0 V c).arrAt_eq_of_cover 7 (k0_pay3 (V c (Pipeline.arrRef spec0 0)) (V c (Pipeline.arrRef spec0 1)) (V c (Pipeline.arrRef spec0 3)) (V c (Pipeline.arrRef spec0 4)) (V c (Pipeline.arrRef spec0 2)) (V c (Pipeline.arrRef spec0 5)) (V c (Pipeline.arrRef spec0 6))) (fun t _ => flushed0_7_eq V c t) (covered0_7)

/-- What the one point writes back to window 8 is the payload of the entry arrays, read through the block. -/
theorem flushed0_8_eq (c : Dev nD) (t : Fin cfg0.N) :
    (dat0 V c).flushed 8 t = ((cfg0.win 8).blk t).view.read (Elt F) (k0_pay2 (V c (Pipeline.arrRef spec0 0)) (V c (Pipeline.arrRef spec0 1)) (V c (Pipeline.arrRef spec0 3)) (V c (Pipeline.arrRef spec0 4))) := by
  show (cfg0.win 8).cut (grid0.coords t) ((dat0 V c).after 8 t) = _
  rw [after0_8]
  unfold out0_8
  rw [View.canon_unit_zero hz0]
  simp only [View.ld_unit_zero (S := S1x1024) hz0, View.ld_unit_zero (S := S512x1024) hz0, View.ld_unit_zero (S := S512x2048) hz0, View.ld_unit_zero (S := S1x512) hz0, View.ld_unit_zero (S := S1024x2048) hz0]
  rw [iblk0_0, iblk0_1, iblk0_3, iblk0_4]
  obtain ⟨e0, e1, e2, e3, e4, e5, e6, e7, e8, e9, e10, e11, e12, e13, e14, e15, e16, e17⟩ := idx0 t
  funext j
  have h : (((cfg0.win 8).blk t).view.emb j : S1x512.Idx) = j := by
    funext a; apply Fin.ext
    match a with
    | ⟨0, _⟩ => show win0_8.index t (0 : Fin 2) * 1 + 1 * (j 0).val = (j 0).val; omega
    | ⟨1, _⟩ => show win0_8.index t (1 : Fin 2) * 512 + 1 * (j 1).val = (j 1).val; omega
  show (k0_pay2 (V c (Pipeline.arrRef spec0 0)) (V c (Pipeline.arrRef spec0 1)) (V c (Pipeline.arrRef spec0 3)) (V c (Pipeline.arrRef spec0 4))) j = (k0_pay2 (V c (Pipeline.arrRef spec0 0)) (V c (Pipeline.arrRef spec0 1)) (V c (Pipeline.arrRef spec0 3)) (V c (Pipeline.arrRef spec0 4))) (((cfg0.win 8).blk t).view.emb j)
  rw [h]

/-- An index of window 8's array is in a point's block iff each coordinate is in the block's range. -/
theorem mem_blk0_8 (t : Fin cfg0.N) (i : S1x512.Idx) :
    i ∈ ((cfg0.win 8).blk t).view.set ↔ ∀ a : Fin 2, win0_8.index t a * S1x512.size a ≤ (i a).val ∧ (i a).val < win0_8.index t a * S1x512.size a + S1x512.size a := by
  show i ∈ ((View.whole main_v13_1).slice (win0_8.rect t)).set ↔ _
  rw [View.set_slice_whole, Rect.mem_set_unit]
  exact Iff.rfl

/-- The one point's block is the whole of window 8's array. -/
theorem covered0_8 (i : S1x512.Idx) :
    ∃ t : Fin cfg0.N, (cfg0.win 8).flush t = true ∧ i ∈ ((cfg0.win 8).blk t).view.set := by
  refine ⟨t0_0, flush0_8 t0_0, ?_⟩
  obtain ⟨e0, e1, e2, e3, e4, e5, e6, e7, e8, e9, e10, e11, e12, e13, e14, e15, e16, e17⟩ := idx0 t0_0
  rw [mem_blk0_8]
  intro a
  match a with
  | ⟨0, _⟩ => show win0_8.index t0_0 (0 : Fin 2) * 1 ≤ (i 0).val ∧ (i 0).val < win0_8.index t0_0 (0 : Fin 2) * 1 + 1; have hi : (i 0).val < 1 := (i 0).isLt; omega
  | ⟨1, _⟩ => show win0_8.index t0_0 (1 : Fin 2) * 512 ≤ (i 1).val ∧ (i 1).val < win0_8.index t0_0 (1 : Fin 2) * 512 + 512; have hi : (i 1).val < 512 := (i 1).isLt; omega

/-- Window 8's array after the run: the payload of the region-entry arrays. -/
theorem final0_8 (c : Dev nD) : (dat0 V c).arrAt 8 cfg0.N = k0_pay2 (V c (Pipeline.arrRef spec0 0)) (V c (Pipeline.arrRef spec0 1)) (V c (Pipeline.arrRef spec0 3)) (V c (Pipeline.arrRef spec0 4)) :=
  (dat0 V c).arrAt_eq_of_cover 8 (k0_pay2 (V c (Pipeline.arrRef spec0 0)) (V c (Pipeline.arrRef spec0 1)) (V c (Pipeline.arrRef spec0 3)) (V c (Pipeline.arrRef spec0 4))) (fun t _ => flushed0_8_eq V c t) (covered0_8)

end Cert.Kernel.Hand

end
-- ==== Proof.KRegion1.lean ====
import proofs.«149668_j82532091560494_2_alg».proof.Proof.Gen.Kernel.Launch
import proofs.«149668_j82532091560494_2_alg».proof.Proof.Gen.Kernel.Skeleton
import proofs.«149668_j82532091560494_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

-- membership in a rectangle of long extents recurses once per coordinate of the long axes
set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the core's buffer contents when the region is entered: every statement below is at this parameter
variable (V : (c : Dev nD) → (b : Ref sig .tc) → Buf (Elt F) ((c : Thread nD τ).loc b))

/-! # Region 1: one grid point, every window's block the whole array -/

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0's current staging buffer holds its block at every point, for any proof data whose
    array is the entry contents and whose body leaves the block in place. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- Input window 1's current staging buffer holds its block at every point, for any proof data whose
    array is the entry contents and whose body leaves the block in place. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-- Input window 2's current staging buffer holds its block at every point, for any proof data whose
    array is the entry contents and whose body leaves the block in place. -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-- Input window 3's current staging buffer holds its block at every point, for any proof data whose
    array is the entry contents and whose body leaves the block in place. -/
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)

/-- Input window 4's current staging buffer holds its block at every point, for any proof data whose
    array is the entry contents and whose body leaves the block in place. -/
theorem before1_4_of {c : Dev nD} (dat : Dat τ (Elt F) Unit ℕ (UR sig nD τ) ℕ cfg1 c) (hA : dat.A 4 = V c (Pipeline.arrRef spec1 4))
    (hafter : ∀ t, dat.after 4 t = iblk1 V c 4 t) (t : Fin cfg1.N) (d) : dat.before 4 t d = iblk1 V c 4 t :=
  (dat.before_in_eq_fetched 4 rfl (fun _ => rfl) (fun _ _ _ => rfl) (fun t => by rw [hafter]; unfold Dat.blockOf iblk1; rw [hA]; try rfl) t d).trans
    (by unfold Dat.fetched Dat.blockOf iblk1; rw [hA]; try rfl)

/-- Input window 5's current staging buffer holds its block at every point, for any proof data whose
    array is the entry contents and whose body leaves the block in place. -/
theorem before1_5_of {c : Dev nD} (dat : Dat τ (Elt F) Unit ℕ (UR sig nD τ) ℕ cfg1 c) (hA : dat.A 5 = V c (Pipeline.arrRef spec1 5))
    (hafter : ∀ t, dat.after 5 t = iblk1 V c 5 t) (t : Fin cfg1.N) (d) : dat.before 5 t d = iblk1 V c 5 t :=
  (dat.before_in_eq_fetched 5 rfl (fun _ => rfl) (fun _ _ _ => rfl) (fun t => by rw [hafter]; unfold Dat.blockOf iblk1; rw [hA]; try rfl) t d).trans
    (by unfold Dat.fetched Dat.blockOf iblk1; rw [hA]; try rfl)

/-! ## The body's accesses: each is the whole buffer -/

abbrev r1_0 : Rect S1x1024 := Rect.unit (s := S1x1024) ![0, 0] S1x1024.size inb_S1x1024_S1x1024_0_0
abbrev r1_1 : Rect S3072x1024 := Rect.unit (s := S3072x1024) ![0, 0] S3072x1024.size inb_S3072x1024_S3072x1024_0_0
abbrev r1_2 : Rect S1x3072 := Rect.unit (s := S1x3072) ![0, 0] S1x3072.size inb_S1x3072_S1x3072_0_0

/-! ## What the body leaves in each output window's buffer -/

/-- Window 6's staging buffer after the body: its one store, of the whole buffer, over the payload of the loaded blocks. -/
def out1_6 (x0 : Vec F S1x1024 .f32) (x1 : Vec F S1x1024 .f32) (x2 : Vec F S3072x1024 .f32) (x3 : Vec F S3072x1024 .f32) (x4 : Vec F S1x3072 .f32) (x5 : Vec F S1x3072 .f32) : Vec F S1x1024 .f32 :=
  View.canon [⟨r1_0, k1_pay1 (View.ld x0 r1_0) (View.ld x1 r1_0) (View.ld x2 r1_1) (View.ld x3 r1_1) (View.ld x4 r1_2) (View.ld x5 r1_2)⟩]

/-- The one store covers the buffer. -/
theorem cover1_6 (p0 : Vec F S1x1024 .f32) (y : S1x1024.Idx) :
    ∃ pc ∈ ([⟨r1_0, p0⟩] : List (View.Piece (Elt F) S1x1024 .f32)), y ∈ pc.1.set :=
  View.cover_of_tiled [⟨r1_0, p0⟩] S1x1024.size (by rfl) y

/-! ## The body's triple -/

set_option maxHeartbeats 1000000 in
/-- The kernel body on whole staging memrefs, the inputs' at contents `xW` and the outputs' at anything, runs to the
    continuation holding the inputs' as they were and each output's at `out1_W` of the inputs'. -/
theorem sound_kernel1 (c : Dev nD) (E : Set ℕ) (i : grid1.Coords) (arg1 : Memref sig .tc .vmem S1x1024 .f32) (harg1 : arg1.IsWhole) (arg2 : Memref sig .tc .vmem S1x1024 .f32) (harg2 : arg2.IsWhole) (arg3 : Memref sig .tc .vmem S3072x1024 .f32) (harg3 : arg3.IsWhole) (arg4 : Memref sig .tc .vmem S3072x1024 .f32) (harg4 : arg4.IsWhole) (arg5 : Memref sig .tc .vmem S1x3072 .f32) (harg5 : arg5.IsWhole) (arg6 : Memref sig .tc .vmem S1x3072 .f32) (harg6 : arg6.IsWhole) (arg7 : Memref sig .tc .vmem S1x1024 .f32) (harg7 : arg7.IsWhole)
    (x0 : Vec F S1x1024 .f32) (x1 : Vec F S1x1024 .f32) (x2 : Vec F S3072x1024 .f32) (x3 : Vec F S3072x1024 .f32) (x4 : Vec F S1x3072 .f32) (x5 : Vec F S1x3072 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ d, owns (c : Thread nD τ) arg7 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare (out1_6 x0 x1 x2 x3 x4 x5)) -∗ K ⟨⟩))
      ⊢ wp frame (wpE (defs₀ (F := F)) Variants.none c none) E (cc1__gru_kernel i arg1 harg1 arg2 harg2 arg3 harg3 arg4 harg4 arg5 harg5 arg6 harg6 arg7 harg7) K := by
  simp only [cc1__gru_kernel_eq_skeleton]; unfold cc1__gru_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, Hk⟩
  subst hf0 hf1 hf2 hf3 hf4 hf5
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  iexists _; isplitr
  swap; · iexact H6
  ipureintro
  exact View.read_writes_eq_canon _ _ _ (cover1_6 _)

/-! ## The pipeline's proof data -/

/-- The proof data of the pipeline on core `c`: the arrays as the region finds them; after the body each input's
    buffer at its block and each output's at `out1_W` of the input blocks; the invariant the scoped rest and the
    generator register, untouched; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => iblk1 V c 5 t
    | ⟨6, _⟩ => out1_6 (iblk1 V c 0 t) (iblk1 V c 1 t) (iblk1 V c 2 t) (iblk1 V c 3 t) (iblk1 V c 4 t) (iblk1 V c 5 t)
  Φ _ := Pipeline.ΦA spec1 c
  q _ := fullShare
  owed _ := 0

/-- The proof data's arrays are the region-entry contents. -/
theorem A_eq1 (c : Dev nD) (w : Fin cfg1.W) : (dat1 V c).A w = V c (Pipeline.arrRef spec1 w) := by
  dsimp only [dat1]

/-- What the body leaves, window by window. -/
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t = iblk1 V c 5 t := by dsimp only [dat1]
theorem after1_6 (c : Dev nD) (t : Fin cfg1.N) : (dat1 V c).after 6 t = out1_6 (iblk1 V c 0 t) (iblk1 V c 1 t) (iblk1 V c 2 t) (iblk1 V c 3 t) (iblk1 V c 4 t) (iblk1 V c 5 t) := by dsimp only [dat1]

/-- Each input's current staging buffer holds its block at every point. -/
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d
theorem before1_4 (c : Dev nD) (t : Fin cfg1.N) (d) : (dat1 V c).before 4 t d = iblk1 V c 4 t :=
  before1_4_of V (dat1 V c) (A_eq1 V c 4) (after1_4 V c) t d
theorem before1_5 (c : Dev nD) (t : Fin cfg1.N) (d) : (dat1 V c).before 5 t d = iblk1 V c 5 t :=
  before1_5_of V (dat1 V c) (A_eq1 V c 5) (after1_5 V c) t d

/-! ## The body obligation -/

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d))
    ∗ (∃ d, owns (c : Thread nD τ) (st1_5 t) fullShare ((dat1 V c).before 5 t d))
    ∗ (∃ d, owns (c : Thread nD τ) (st1_6 t) fullShare ((dat1 V c).before 6 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t)
    ∗ owns (c : Thread nD τ) (st1_5 t) fullShare ((dat1 V c).after 5 t)
    ∗ owns (c : Thread nD τ) (st1_6 t) fullShare ((dat1 V c).after 6 t))

/-- The body at any point: the inputs' memrefs hold their blocks, so `sound_kernel1` applies; the invariant and
    the core's obligations pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4, before1_5]
  rw [show (dat1 V c).Φ t.succ = (dat1 V c).Φ t.castSucc from rfl,
    show (dat1 V c).owesAt () t.succ = (dat1 V c).owesAt () t.castSucc from rfl,
    after1_0, after1_1, after1_2, after1_3, after1_4, after1_5, after1_6]
  iintro ⟨HΦ, Ho, ⟨%d0, H0⟩, ⟨%d1, H1⟩, ⟨%d2, H2⟩, ⟨%d3, H3⟩, ⟨%d4, H4⟩, ⟨%d5, H5⟩, ⟨%d6, H6⟩⟩
  iapply (sound_kernel1 c Set.univ (grid1.coords t) _ _ _ _ _ _ _ _ _ _ _ _ _ _ (iblk1 V c 0 t) (iblk1 V c 1 t) (iblk1 V c 2 t) (iblk1 V c 3 t) (iblk1 V c 4 t) (iblk1 V c 5 t) _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  iintro ⟨H0, H1, H2, H3, H4, H5, H6⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

/-- The library's body obligation, at every point. -/
theorem body_obligation1 (c : Dev nD) : BodyObligation (dat1 (F := F) V c) (defs₀ (F := F)) Variants.none () Set.univ := fun t => by
  rw [bigSep_W1, bigSep_W1]
  exact sound_body1 V c t

/-! ## The output arrays after the run -/

/-- The zero offset of every access. -/
theorem hz1 : (![0, 0] : Fin 2 → Nat) = fun _ => 0 := funext fun a => by fin_cases a <;> rfl

/-- The index maps at the grid's points: every window's block index is 0 on both axes. -/
theorem idx1 : ∀ t : Fin cfg1.N, win1_0.index t (0 : Fin 2) = 0
    ∧ win1_0.index t (1 : Fin 2) = 0
    ∧ win1_1.index t (0 : Fin 2) = 0
    ∧ win1_1.index t (1 : Fin 2) = 0
    ∧ win1_2.index t (0 : Fin 2) = 0
    ∧ win1_2.index t (1 : Fin 2) = 0
    ∧ win1_3.index t (0 : Fin 2) = 0
    ∧ win1_3.index t (1 : Fin 2) = 0
    ∧ win1_4.index t (0 : Fin 2) = 0
    ∧ win1_4.index t (1 : Fin 2) = 0
    ∧ win1_5.index t (0 : Fin 2) = 0
    ∧ win1_5.index t (1 : Fin 2) = 0
    ∧ win1_6.index t (0 : Fin 2) = 0
    ∧ win1_6.index t (1 : Fin 2) = 0 :=
  (by decide +kernel : ∀ t : Fin grid1.N, _)

/-- Window 0's block is its whole array. -/
theorem iblk1_0 (c : Dev nD) (t : Fin cfg1.N) :
    (iblk1 V c 0 t : Vec F S1x1024 .f32) = (V c (Pipeline.arrRef spec1 0) : Vec F S1x1024 .f32) := by
  obtain ⟨e0, e1, e2, e3, e4, e5, e6, e7, e8, e9, e10, e11, e12, e13⟩ := idx1 t
  funext j
  have h : (((cfg1.win 0).blk t).view.emb j : S1x1024.Idx) = j := by
    funext a; apply Fin.ext
    match a with
    | ⟨0, _⟩ => show win1_0.index t (0 : Fin 2) * 1 + 1 * (j 0).val = (j 0).val; omega
    | ⟨1, _⟩ => show win1_0.index t (1 : Fin 2) * 1024 + 1 * (j 1).val = (j 1).val; omega
  show (V c (Pipeline.arrRef spec1 0) : Vec F S1x1024 .f32) (((cfg1.win 0).blk t).view.emb j) = _
  rw [h]

/-- Window 1's block is its whole array. -/
theorem iblk1_1 (c : Dev nD) (t : Fin cfg1.N) :
    (iblk1 V c 1 t : Vec F S1x1024 .f32) = (V c (Pipeline.arrRef spec1 1) : Vec F S1x1024 .f32) := by
  obtain ⟨e0, e1, e2, e3, e4, e5, e6, e7, e8, e9, e10, e11, e12, e13⟩ := idx1 t
  funext j
  have h : (((cfg1.win 1).blk t).view.emb j : S1x1024.Idx) = j := by
    funext a; apply Fin.ext
    match a with
    | ⟨0, _⟩ => show win1_1.index t (0 : Fin 2) * 1 + 1 * (j 0).val = (j 0).val; omega
    | ⟨1, _⟩ => show win1_1.index t (1 : Fin 2) * 1024 + 1 * (j 1).val = (j 1).val; omega
  show (V c (Pipeline.arrRef spec1 1) : Vec F S1x1024 .f32) (((cfg1.win 1).blk t).view.emb j) = _
  rw [h]

/-- Window 2's block is its whole array. -/
theorem iblk1_2 (c : Dev nD) (t : Fin cfg1.N) :
    (iblk1 V c 2 t : Vec F S3072x1024 .f32) = (V c (Pipeline.arrRef spec1 2) : Vec F S3072x1024 .f32) := by
  obtain ⟨e0, e1, e2, e3, e4, e5, e6, e7, e8, e9, e10, e11, e12, e13⟩ := idx1 t
  funext j
  have h : (((cfg1.win 2).blk t).view.emb j : S3072x1024.Idx) = j := by
    funext a; apply Fin.ext
    match a with
    | ⟨0, _⟩ => show win1_2.index t (0 : Fin 2) * 3072 + 1 * (j 0).val = (j 0).val; omega
    | ⟨1, _⟩ => show win1_2.index t (1 : Fin 2) * 1024 + 1 * (j 1).val = (j 1).val; omega
  show (V c (Pipeline.arrRef spec1 2) : Vec F S3072x1024 .f32) (((cfg1.win 2).blk t).view.emb j) = _
  rw [h]

/-- Window 3's block is its whole array. -/
theorem iblk1_3 (c : Dev nD) (t : Fin cfg1.N) :
    (iblk1 V c 3 t : Vec F S3072x1024 .f32) = (V c (Pipeline.arrRef spec1 3) : Vec F S3072x1024 .f32) := by
  obtain ⟨e0, e1, e2, e3, e4, e5, e6, e7, e8, e9, e10, e11, e12, e13⟩ := idx1 t
  funext j
  have h : (((cfg1.win 3).blk t).view.emb j : S3072x1024.Idx) = j := by
    funext a; apply Fin.ext
    match a with
    | ⟨0, _⟩ => show win1_3.index t (0 : Fin 2) * 3072 + 1 * (j 0).val = (j 0).val; omega
    | ⟨1, _⟩ => show win1_3.index t (1 : Fin 2) * 1024 + 1 * (j 1).val = (j 1).val; omega
  show (V c (Pipeline.arrRef spec1 3) : Vec F S3072x1024 .f32) (((cfg1.win 3).blk t).view.emb j) = _
  rw [h]

/-- Window 4's block is its whole array. -/
theorem iblk1_4 (c : Dev nD) (t : Fin cfg1.N) :
    (iblk1 V c 4 t : Vec F S1x3072 .f32) = (V c (Pipeline.arrRef spec1 4) : Vec F S1x3072 .f32) := by
  obtain ⟨e0, e1, e2, e3, e4, e5, e6, e7, e8, e9, e10, e11, e12, e13⟩ := idx1 t
  funext j
  have h : (((cfg1.win 4).blk t).view.emb j : S1x3072.Idx) = j := by
    funext a; apply Fin.ext
    match a with
    | ⟨0, _⟩ => show win1_4.index t (0 : Fin 2) * 1 + 1 * (j 0).val = (j 0).val; omega
    | ⟨1, _⟩ => show win1_4.index t (1 : Fin 2) * 3072 + 1 * (j 1).val = (j 1).val; omega
  show (V c (Pipeline.arrRef spec1 4) : Vec F S1x3072 .f32) (((cfg1.win 4).blk t).view.emb j) = _
  rw [h]

/-- Window 5's block is its whole array. -/
theorem iblk1_5 (c : Dev nD) (t : Fin cfg1.N) :
    (iblk1 V c 5 t : Vec F S1x3072 .f32) = (V c (Pipeline.arrRef spec1 5) : Vec F S1x3072 .f32) := by
  obtain ⟨e0, e1, e2, e3, e4, e5, e6, e7, e8, e9, e10, e11, e12, e13⟩ := idx1 t
  funext j
  have h : (((cfg1.win 5).blk t).view.emb j : S1x3072.Idx) = j := by
    funext a; apply Fin.ext
    match a with
    | ⟨0, _⟩ => show win1_5.index t (0 : Fin 2) * 1 + 1 * (j 0).val = (j 0).val; omega
    | ⟨1, _⟩ => show win1_5.index t (1 : Fin 2) * 3072 + 1 * (j 1).val = (j 1).val; omega
  show (V c (Pipeline.arrRef spec1 5) : Vec F S1x3072 .f32) (((cfg1.win 5).blk t).view.emb j) = _
  rw [h]

/-- What the one point writes back to window 6 is the payload of the entry arrays, read through the block. -/
theorem flushed1_6_eq (c : Dev nD) (t : Fin cfg1.N) :
    (dat1 V c).flushed 6 t = ((cfg1.win 6).blk t).view.read (Elt F) (k1_pay1 (V c (Pipeline.arrRef spec1 0)) (V c (Pipeline.arrRef spec1 1)) (V c (Pipeline.arrRef spec1 2)) (V c (Pipeline.arrRef spec1 3)) (V c (Pipeline.arrRef spec1 4)) (V c (Pipeline.arrRef spec1 5))) := by
  show (cfg1.win 6).cut (grid1.coords t) ((dat1 V c).after 6 t) = _
  rw [after1_6]
  unfold out1_6
  rw [View.canon_unit_zero hz1]
  simp only [View.ld_unit_zero (S := S1x1024) hz1, View.ld_unit_zero (S := S3072x1024) hz1, View.ld_unit_zero (S := S1x3072) hz1]
  rw [iblk1_0, iblk1_1, iblk1_2, iblk1_3, iblk1_4, iblk1_5]
  obtain ⟨e0, e1, e2, e3, e4, e5, e6, e7, e8, e9, e10, e11, e12, e13⟩ := idx1 t
  funext j
  have h : (((cfg1.win 6).blk t).view.emb j : S1x1024.Idx) = j := by
    funext a; apply Fin.ext
    match a with
    | ⟨0, _⟩ => show win1_6.index t (0 : Fin 2) * 1 + 1 * (j 0).val = (j 0).val; omega
    | ⟨1, _⟩ => show win1_6.index t (1 : Fin 2) * 1024 + 1 * (j 1).val = (j 1).val; omega
  show (k1_pay1 (V c (Pipeline.arrRef spec1 0)) (V c (Pipeline.arrRef spec1 1)) (V c (Pipeline.arrRef spec1 2)) (V c (Pipeline.arrRef spec1 3)) (V c (Pipeline.arrRef spec1 4)) (V c (Pipeline.arrRef spec1 5))) j = (k1_pay1 (V c (Pipeline.arrRef spec1 0)) (V c (Pipeline.arrRef spec1 1)) (V c (Pipeline.arrRef spec1 2)) (V c (Pipeline.arrRef spec1 3)) (V c (Pipeline.arrRef spec1 4)) (V c (Pipeline.arrRef spec1 5))) (((cfg1.win 6).blk t).view.emb j)
  rw [h]

/-- An index of window 6's array is in a point's block iff each coordinate is in the block's range. -/
theorem mem_blk1_6 (t : Fin cfg1.N) (i : S1x1024.Idx) :
    i ∈ ((cfg1.win 6).blk t).view.set ↔ ∀ a : Fin 2, win1_6.index t a * S1x1024.size a ≤ (i a).val ∧ (i a).val < win1_6.index t a * S1x1024.size a + S1x1024.size a := by
  show i ∈ ((View.whole main_v14).slice (win1_6.rect t)).set ↔ _
  rw [View.set_slice_whole, Rect.mem_set_unit]
  exact Iff.rfl

/-- The one point's block is the whole of window 6's array. -/
theorem covered1_6 (i : S1x1024.Idx) :
    ∃ t : Fin cfg1.N, (cfg1.win 6).flush t = true ∧ i ∈ ((cfg1.win 6).blk t).view.set := by
  refine ⟨t1_0, flush1_6 t1_0, ?_⟩
  obtain ⟨e0, e1, e2, e3, e4, e5, e6, e7, e8, e9, e10, e11, e12, e13⟩ := idx1 t1_0
  rw [mem_blk1_6]
  intro a
  match a with
  | ⟨0, _⟩ => show win1_6.index t1_0 (0 : Fin 2) * 1 ≤ (i 0).val ∧ (i 0).val < win1_6.index t1_0 (0 : Fin 2) * 1 + 1; have hi : (i 0).val < 1 := (i 0).isLt; omega
  | ⟨1, _⟩ => show win1_6.index t1_0 (1 : Fin 2) * 1024 ≤ (i 1).val ∧ (i 1).val < win1_6.index t1_0 (1 : Fin 2) * 1024 + 1024; have hi : (i 1).val < 1024 := (i 1).isLt; omega

/-- Window 6's array after the run: the payload of the region-entry arrays. -/
theorem final1_6 (c : Dev nD) : (dat1 V c).arrAt 6 cfg1.N = k1_pay1 (V c (Pipeline.arrRef spec1 0)) (V c (Pipeline.arrRef spec1 1)) (V c (Pipeline.arrRef spec1 2)) (V c (Pipeline.arrRef spec1 3)) (V c (Pipeline.arrRef spec1 4)) (V c (Pipeline.arrRef spec1 5)) :=
  (dat1 V c).arrAt_eq_of_cover 6 (k1_pay1 (V c (Pipeline.arrRef spec1 0)) (V c (Pipeline.arrRef spec1 1)) (V c (Pipeline.arrRef spec1 2)) (V c (Pipeline.arrRef spec1 3)) (V c (Pipeline.arrRef spec1 4)) (V c (Pipeline.arrRef spec1 5))) (fun t _ => flushed1_6_eq V c t) (covered1_6)

end Cert.Kernel.Hand

end
-- ==== Proof.KBody2.lean ====
/- The output projection's body as a triple on whole staging buffers, at any float instance. -/
import proofs.«149668_j82532091560494_2_alg».proof.Proof.Gen.Kernel.Launch
import proofs.«149668_j82532091560494_2_alg».proof.Proof.Gen.Kernel.Skeleton
import proofs.«149668_j82532091560494_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window BodyObligation cellOf)

variable {F : FTy → Type} [FloatOps F]

local notation "𝕄" => MT nD τ sig Unit (Elt F) ℕ (UR sig nD τ) ℕ

/-! # The output projection's body on whole staging buffers

One grid point computes a block of 2048 logits: the hidden row against a block of 2048 rows of the output
matrix, plus the matching block of the bias row. The body loads its three input buffers whole, stores the
block whole, and touches nothing else. -/

abbrev r2_0 : Rect S1x1024 := Rect.unit (s := S1x1024) ![0, 0] S1x1024.size inb_S1x1024_S1x1024_0_0
abbrev r2_1 : Rect S2048x1024 := Rect.unit (s := S2048x1024) ![0, 0] S2048x1024.size inb_S2048x1024_S2048x1024_0_0
abbrev r2_2 : Rect S1x2048 := Rect.unit (s := S1x2048) ![0, 0] S1x2048.size inb_S1x2048_S1x2048_0_0

/-- What the body leaves in the output buffer, from the contents of the three input buffers: its one whole
    store. -/
def out2_3 (x0 : Vec F S1x1024 .f32) (x1 : Vec F S2048x1024 .f32) (x2 : Vec F S1x2048 .f32) : Vec F S1x2048 .f32 :=
  View.canon [⟨r2_2, k2_pay1 (View.ld x0 r2_0) (View.ld x1 r2_1) (View.ld x2 r2_2)⟩]

/-- The one store covers the buffer. -/
theorem cover2_3 (p0 : Vec F S1x2048 .f32) (y : S1x2048.Idx) :
    ∃ pc ∈ ([⟨r2_2, p0⟩] : List (View.Piece (Elt F) S1x2048 .f32)), y ∈ pc.1.set :=
  View.cover_of_tiled [⟨r2_2, p0⟩] S1x2048.size (by rfl) y

set_option maxHeartbeats 1000000 in
/-- The body on whole staging memrefs: the inputs' at contents `x0 x1 x2`, the output's at anything, runs to
    the continuation with the inputs unchanged and the output's buffer at `out2_3` of them. -/
theorem sound_kernel2 (c : Dev nD) (E : Set ℕ) (i : grid2.Coords)
    (arg1 : Memref sig .tc .vmem S1x1024 .f32) (harg1 : arg1.IsWhole) (arg2 : Memref sig .tc .vmem S2048x1024 .f32) (harg2 : arg2.IsWhole)
    (arg3 : Memref sig .tc .vmem S1x2048 .f32) (harg3 : arg3.IsWhole) (arg4 : Memref sig .tc .vmem S1x2048 .f32) (harg4 : arg4.IsWhole)
    (x0 : Vec F S1x1024 .f32) (x1 : Vec F S2048x1024 .f32) (x2 : Vec F S1x2048 .f32) (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d)
        ∗ (iprop(owns (c : Thread nD τ) arg1 fullShare x0 ∗ owns (c : Thread nD τ) arg2 fullShare x1 ∗ owns (c : Thread nD τ) arg3 fullShare x2
            ∗ owns (c : Thread nD τ) arg4 fullShare (out2_3 x0 x1 x2)) -∗ K ⟨⟩))
      ⊢ wp frame (wpE (defs₀ (F := F)) Variants.none c none) E (cc2__out_proj_kernel i arg1 harg1 arg2 harg2 arg3 harg3 arg4 harg4) K := by
  simp only [cc2__out_proj_kernel_eq_skeleton]; unfold cc2__out_proj_kernel_skel
  unfold owns
  iintro ⟨⟨%f0, %hf0, H0⟩, ⟨%f1, %hf1, H1⟩, ⟨%f2, %hf2, H2⟩, ⟨%d3, %f3, -, H3⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover2_3 _)

end Cert.Kernel.Hand

end
-- ==== Proof.KRegion2.lean ====
/- The output projection's region: relational proof data for clipped blocks, and the body obligation, at any float instance. -/
import proofs.«149668_j82532091560494_2_alg».proof.Proof.KBody2
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! # The output projection's proof data, relational

The vocabulary axis has 50257 entries and the blocks are 2048 wide, so the last of the 25 blocks overhangs its
arrays: the fetch of the matrix block and of the bias block at that point fills only the leading part of the staging
buffer, and what the rest holds is not determined. The body computes from the whole buffers, so what it leaves in
the output buffer is determined only up to those undetermined words; the proof data therefore RELATE what the body
finds to what it leaves: each input buffer is left as found, and the output buffer holds the body's function of the
hidden row's block and of the two fetched blocks filled out by SOME words. -/

/-- Window `w`'s block at point `t`, its part inside the array, read off the array as the region finds it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- What the output buffer may hold after the body at point `t`. -/
def Leaves2 (c : Dev nD) (t : Fin cfg2.N) (X : S1x2048.Idx → Elt F .f32) : Prop :=
  ∃ (d1 : S2048x1024.Idx → Elt F .f32) (d2 : S1x2048.Idx → Elt F .f32),
    X = out2_3 (iblk2 V c 0 t) (win2_1.fill (grid2.coords t) d1 (iblk2 V c 1 t)) (win2_2.fill (grid2.coords t) d2 (iblk2 V c 2 t))

/-- The proof data of the third pipeline on core `c`. -/
def rd2 (c : Dev nD) : RDat τ (Elt F) Unit ℕ (UR sig nD τ) ℕ cfg2 c where
  A w := V c (Pipeline.arrRef spec2 w)
  after w t Y X := match w with
    | ⟨0, _⟩ => X = Y
    | ⟨1, _⟩ => X = Y
    | ⟨2, _⟩ => X = Y
    | ⟨3, _⟩ => Leaves2 V c t X
  Φ _ := Pipeline.ΦA spec2 c
  q _ := fullShare
  owed _ := 0

theorem A_eq2 (c : Dev nD) (w : Fin cfg2.W) : (rd2 V c).A w = V c (Pipeline.arrRef spec2 w) := by
  dsimp only [rd2]

theorem after2_0 (c : Dev nD) (t : Fin cfg2.N) (Y X) : (rd2 V c).after 0 t Y X ↔ X = Y := by dsimp only [rd2]; exact Iff.rfl
theorem after2_1 (c : Dev nD) (t : Fin cfg2.N) (Y X) : (rd2 V c).after 1 t Y X ↔ X = Y := by dsimp only [rd2]; exact Iff.rfl
theorem after2_2 (c : Dev nD) (t : Fin cfg2.N) (Y X) : (rd2 V c).after 2 t Y X ↔ X = Y := by dsimp only [rd2]; exact Iff.rfl
theorem after2_3 (c : Dev nD) (t : Fin cfg2.N) (Y X) : (rd2 V c).after 3 t Y X ↔ Leaves2 V c t X := by dsimp only [rd2]; exact Iff.rfl

/-- The hidden row's buffer holds its block at every point, fetched there or not: it is fetched at the first point
    and every later body leaves it as found. -/
theorem finds2_0 (c : Dev nD) (t : Fin cfg2.N) (Y) (h : (rd2 V c).Finds 0 t Y) : Y = iblk2 V c 0 t := by
  obtain ⟨d, rfl⟩ := (rd2 V c).finds_in_eq_fetched 0 rfl (fun _ _ _ => rfl) (fun t Y X h => (after2_0 V c t Y X).mp h) t Y h
  unfold RDat.fetched RDat.blockOf iblk2; rw [A_eq2]; rfl

/-- The matrix block's buffer, fetched at every point, holds the block on the part the fetch fills. -/
theorem finds2_1 (c : Dev nD) (t : Fin cfg2.N) (Y) (h : (rd2 V c).Finds 1 t Y) :
    ∃ d, Y = win2_1.fill (grid2.coords t) d (iblk2 V c 1 t) := by
  obtain ⟨d, rfl⟩ := ((rd2 V c).finds_of_fetch (fetch2_1 t) Y).mp h
  exact ⟨d, by unfold RDat.fetched RDat.blockOf iblk2; rw [A_eq2]⟩

/-- The bias block's likewise. -/
theorem finds2_2 (c : Dev nD) (t : Fin cfg2.N) (Y) (h : (rd2 V c).Finds 2 t Y) :
    ∃ d, Y = win2_2.fill (grid2.coords t) d (iblk2 V c 2 t) := by
  obtain ⟨d, rfl⟩ := ((rd2 V c).finds_of_fetch (fetch2_2 t) Y).mp h
  exact ⟨d, by unfold RDat.fetched RDat.blockOf iblk2; rw [A_eq2]⟩

/-! ## The body obligation -/

/-- The body at any point, whatever the buffers may hold: the three input buffers are as `finds2_W` says, the
    triple `sound_kernel2` applies, each input buffer comes back as found and the output buffer at the body's
    function of them. -/
theorem sound_body2 (c : Dev nD) (t : Fin cfg2.N) (Y : (w : Fin cfg2.W) → (cfg2.win w).block.Idx → Elt F (cfg2.win w).elt)
    (hY : ∀ w, (rd2 V c).Finds w t (Y w)) :
    iprop((rd2 V c).Φ t.castSucc ∗ (rd2 V c).owesAt () t.castSucc
        ∗ owns (c : Thread nD τ) (st2_0 t) fullShare (Y 0) ∗ owns (c : Thread nD τ) (st2_1 t) fullShare (Y 1)
        ∗ owns (c : Thread nD τ) (st2_2 t) fullShare (Y 2) ∗ owns (c : Thread nD τ) (st2_3 t) fullShare (Y 3))
      ⊢ wp frame (wpE (defs₀ (F := F)) Variants.none c none) Set.univ (bodyAt2 t) (fun _ =>
          iprop((rd2 V c).Φ t.succ ∗ (rd2 V c).owesAt () t.succ
            ∗ (∃ X, ⌜(rd2 V c).after 0 t (Y 0) X⌝ ∗ owns (c : Thread nD τ) (st2_0 t) fullShare X)
            ∗ (∃ X, ⌜(rd2 V c).after 1 t (Y 1) X⌝ ∗ owns (c : Thread nD τ) (st2_1 t) fullShare X)
            ∗ (∃ X, ⌜(rd2 V c).after 2 t (Y 2) X⌝ ∗ owns (c : Thread nD τ) (st2_2 t) fullShare X)
            ∗ (∃ X, ⌜(rd2 V c).after 3 t (Y 3) X⌝ ∗ owns (c : Thread nD τ) (st2_3 t) fullShare X))) := by
  have h0 := finds2_0 V c t (Y 0) (hY 0)
  obtain ⟨d1, h1⟩ := finds2_1 V c t (Y 1) (hY 1)
  obtain ⟨d2, h2⟩ := finds2_2 V c t (Y 2) (hY 2)
  unfold bodyAt2
  rw [show (rd2 V c).Φ t.succ = (rd2 V c).Φ t.castSucc from rfl,
    show (rd2 V c).owesAt () t.succ = (rd2 V c).owesAt () t.castSucc from rfl]
  iintro ⟨HΦ, Ho, H0, H1, H2, H3⟩
  iapply (sound_kernel2 c Set.univ _ _ _ _ _ _ _ _ _ (Y 0) (Y 1) (Y 2) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]
  · iexists (Y 0); isplitr; · ipureintro; exact (after2_0 V c t _ _).mpr rfl
    iexact H0
  isplitl [H1]
  · iexists (Y 1); isplitr; · ipureintro; exact (after2_1 V c t _ _).mpr rfl
    iexact H1
  isplitl [H2]
  · iexists (Y 2); isplitr; · ipureintro; exact (after2_2 V c t _ _).mpr rfl
    iexact H2
  iexists (out2_3 (Y 0) (Y 1) (Y 2)); isplitr
  · ipureintro; exact (after2_3 V c t _ _).mpr ⟨d1, d2, by rw [h0, h1, h2]⟩
  iexact H3

/-- The relational body obligation, at every point. -/
theorem body_obligation2 (c : Dev nD) : (rd2 (F := F) V c).BodyObligation (defs₀ (F := F)) Variants.none () Set.univ := fun t Y hY => by
  rw [bigSep_W2, bigSep_W2]
  exact sound_body2 V c t Y hY

end Cert.Kernel.Hand

end
-- ==== Proof.KRun.lean ====
/- The run of the whole program through its three kernel regions, at any float instance: the buffers' contents at every boundary, the regions as segments of the run, and what every execution ends with. -/
import proofs.«149668_j82532091560494_2_alg».proof.Proof.KRegion0
import proofs.«149668_j82532091560494_2_alg».proof.Proof.KRegion1
import proofs.«149668_j82532091560494_2_alg».proof.Proof.KRegion2
import proofs.«149668_j82532091560494_2_alg».proof.Proof.Gen.Kernel.Regions
import Idealize.ShloMosaic.Lib.Pipeline.Kit
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! # The buffers' contents at each boundary of @main

@main is a stretch of host operations, the three kernel regions back to back, and two stretches of host operations.
The first two regions leave determined contents in their output arrays. The third leaves in the logits array SOME
contents `G` its 25 write-backs may produce (its last blocks overhang the arrays, so the body computes from words
nothing determines): from there on the contents are a function of `G`. -/

abbrev W0 : Dev nD → Valuation τ sig (Elt F) := fun c b => m (c, b)
abbrev W1 : Dev nD → Valuation τ sig (Elt F) := fun c => StableHlo.after hostOps0 (W0 m c)
abbrev V1 : (c : Dev nD) → (b : Ref sig .tc) → Buf (Elt F) ((c : Thread nD τ).loc b) := fun c b => W1 m c b
def W2 (c : Dev nD) : Valuation τ sig (Elt F) :=
  Pipeline.withArrays spec0 c (W1 m c) fun w => (dat0 (V1 m) c).arrAt w cfg0.N
theorem W2_arr (c : Dev nD) (w : Fin cfg0.W) :
    W2 m c (Proc.devRef .tc (Pipeline.arrRef spec0 w)) = (dat0 (V1 m) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m c (Proc.devRef .tc b) = W1 m c (Proc.devRef .tc b) := by
  unfold W2; exact Pipeline.withArrays_of_ne spec0 c _ _ b hb
abbrev V2 : (c : Dev nD) → (b : Ref sig .tc) → Buf (Elt F) ((c : Thread nD τ).loc b) := fun c b => W2 m c b
theorem hF0 (c : Dev nD) (w : Fin cfg0.W) : (dat0 (V1 m) c).arrAt w cfg0.N = V2 m c (Pipeline.arrRef spec0 w) :=
  (W2_arr m c w).symm
theorem hrest0 (c : Dev nD) : ∀ b, b ∉ Finset.univ.image (Pipeline.arrRef spec0) → V2 m c b = V1 m c b :=
  fun b hb => W2_of_ne m c b fun w e => hb (Finset.mem_image.mpr ⟨w, Finset.mem_univ _, e⟩)

def W3 (c : Dev nD) : Valuation τ sig (Elt F) :=
  Pipeline.withArrays spec1 c (W2 m c) fun w => (dat1 (V2 m) c).arrAt w cfg1.N
theorem W3_arr (c : Dev nD) (w : Fin cfg1.W) :
    W3 m c (Proc.devRef .tc (Pipeline.arrRef spec1 w)) = (dat1 (V2 m) c).arrAt w cfg1.N := by
  unfold W3; exact Pipeline.withArrays_arr spec1 launch1.win.arr_inj c _ _ w
theorem W3_of_ne (c : Dev nD) (b : Ref sig .tc) (hb : ∀ w, Pipeline.arrRef spec1 w ≠ b) :
    W3 m c (Proc.devRef .tc b) = W2 m c (Proc.devRef .tc b) := by
  unfold W3; exact Pipeline.withArrays_of_ne spec1 c _ _ b hb
abbrev V3 : (c : Dev nD) → (b : Ref sig .tc) → Buf (Elt F) ((c : Thread nD τ).loc b) := fun c b => W3 m c b
theorem hF1 (c : Dev nD) (w : Fin cfg1.W) : (dat1 (V2 m) c).arrAt w cfg1.N = V3 m c (Pipeline.arrRef spec1 w) :=
  (W3_arr m c w).symm
theorem hrest1 (c : Dev nD) : ∀ b, b ∉ Finset.univ.image (Pipeline.arrRef spec1) → V3 m c b = V2 m c b :=
  fun b hb => W3_of_ne m c b fun w e => hb (Finset.mem_image.mpr ⟨w, Finset.mem_univ _, e⟩)

/-- The contents of the logits array a run of the third region may end with. -/
abbrev Out2 (c : Dev nD) : Type := Buf (Elt F) ((cfg2.win 3).arr.view.loc (c.tc : Thread nD τ))
/-- What the 25 write-backs may leave there. -/
def Good (c : Dev nD) (G : Out2 (F := F) c) : Prop := (rd2 (V3 m) c).ArrAt 3 cfg2.N G

/-- The third region's arrays at its exit: the inputs as entered, the logits array at `G`. -/
def F2 (c : Dev nD) (G : Out2 (F := F) c) : (w : Fin cfg2.W) → Buf (Elt F) ((spec2 w).arr.view.loc (c.tc : Thread nD τ)) :=
  Function.update (fun w => V3 m c (Pipeline.arrRef spec2 w)) 3 G
def W4 (c : Dev nD) (G : Out2 (F := F) c) : Valuation τ sig (Elt F) :=
  Pipeline.withArrays spec2 c (W3 m c) (F2 m c G)
theorem W4_arr (c : Dev nD) (G : Out2 (F := F) c) (w : Fin cfg2.W) :
    W4 m c G (Proc.devRef .tc (Pipeline.arrRef spec2 w)) = F2 m c G w := by
  unfold W4; exact Pipeline.withArrays_arr spec2 launch2.win.arr_inj c _ _ w
theorem W4_of_ne (c : Dev nD) (G : Out2 (F := F) c) (b : Ref sig .tc) (hb : ∀ w, Pipeline.arrRef spec2 w ≠ b) :
    W4 m c G (Proc.devRef .tc b) = W3 m c (Proc.devRef .tc b) := by
  unfold W4; exact Pipeline.withArrays_of_ne spec2 c _ _ b hb
abbrev V4 (c : Dev nD) (G : Out2 (F := F) c) : (b : Ref sig .tc) → Buf (Elt F) ((c : Thread nD τ).loc b) := fun b => W4 m c G b
theorem hF2 (c : Dev nD) (G : Out2 (F := F) c) (w : Fin cfg2.W) : F2 m c G w = V4 m c G (Pipeline.arrRef spec2 w) :=
  (W4_arr m c G w).symm
theorem hrest2 (c : Dev nD) (G : Out2 (F := F) c) : ∀ b, b ∉ Finset.univ.image (Pipeline.arrRef spec2) → V4 m c G b = V3 m c b :=
  fun b hb => W4_of_ne m c G b fun w e => hb (Finset.mem_image.mpr ⟨w, Finset.mem_univ _, e⟩)
abbrev W5 (c : Dev nD) (G : Out2 (F := F) c) : Valuation τ sig (Elt F) := StableHlo.after hostOps3 (W4 m c G)
abbrev W6 (c : Dev nD) (G : Out2 (F := F) c) : Valuation τ sig (Elt F) := StableHlo.after hostOps3_1 (W5 m c G)

/-! # The proof data family and the thread state -/

/-- No pipeline has a prefetched table. -/
abbrev adm : (p : Fin 3) → (pcfgs (F := F) p).Adm := fun p => (cfgs p).toPCfg_adm

/-- Exact proof data standing in for the third pipeline's where only the arrays' shares are read (its `after` is
    never used). -/
def dat2s (c : Dev nD) : Dat τ (Elt F) Unit ℕ (UR sig nD τ) ℕ cfg2 c where
  A w := V3 m c (Pipeline.arrRef spec2 w)
  after w t := Dat.unnamed (cfg := cfg2) w t
  Φ _ := Pipeline.ΦA spec2 c
  q _ := fullShare
  owed _ := 0

/-- The exact proof data of the first two pipelines (and the stand-in), each at its region's entry contents. -/
def pdats : (p : Fin 3) → (c : Dev nD) → Dat τ (Elt F) Unit ℕ (UR sig nD τ) ℕ (Pipeline.pin (pcfgs (F := F)) adm p) c
  | ⟨0, _⟩ => fun c => dat0 (V1 m) c
  | ⟨1, _⟩ => fun c => dat1 (V2 m) c
  | ⟨2, _⟩ => fun c => dat2s m c
/-- Every pipeline's relational proof data: the first two read off their exact data, the third `rd2`. -/
def rdats : (p : Fin 3) → (c : Dev nD) → RDat τ (Elt F) Unit ℕ (UR sig nD τ) ℕ (Pipeline.pin (pcfgs (F := F)) adm p) c
  | ⟨0, _⟩ => fun c => (dat0 (V1 m) c).toR
  | ⟨1, _⟩ => fun c => (dat1 (V2 m) c).toR
  | ⟨2, _⟩ => fun c => rd2 (V3 m) c
abbrev 𝒱₀ : Variants := Variants.none
abbrev L : GSem nD τ sig → Finset Unit := fun _ => ∅
abbrev lv : GSem nD τ sig → Unit → ℕ := fun _ _ => 0
/-- What rides beside the buffers: the generator register at some state, and nothing owed. -/
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

/-- A stretch of host operations run from contents that depend on what the third region left: for whichever `G` the
    state holds, it is the stretch run from `Wf c G`. -/
def hsegE (ops : List (HloOp τ sig (Elt F))) (hsub : ops.Forall fun op => op.bufs ⊆ StableHlo.tcRefs τ sig)
    (hfresh : ops.Forall fun op => op.fresh = ∅) (Wf : (c : Dev nD) → Out2 (F := F) c → Valuation τ sig (Elt F)) :
    Pipeline.HostSeg (Name := ℕ) (U := UR sig nD τ) (pcfgs (F := F)) defs₀ 𝒱₀ L lv where
  prog := StableHlo.seq ops
  pre c := iprop(∃ G, ⌜Good m c G⌝ ∗ StableHlo.held (c : Thread nD τ) (Pipeline.ucRefs τ sig) (Wf c G) ∗ R c)
  post c := iprop(∃ G, ⌜Good m c G⌝ ∗ StableHlo.held (c : Thread nD τ) (Pipeline.ucRefs τ sig) (StableHlo.after ops (Wf c G)) ∗ R c)
  run c {β} k K := by
    iintro ⟨Hk, Hbd, ⟨%G, %hG, Hh, HR⟩, -⟩
    have hseq := StableHlo.wp_seq (defs := Pipeline.defs (pcfgs (F := F)) defs₀) (Variants.lift 𝒱₀) none Set.univ c (Pipeline.ucRefs τ sig) k (K := K) ops
      (fun op h => Pipeline.sub_ucRefs op ((List.forall_iff_forall_mem.mp hsub) op h))
      (fun op h => (List.forall_iff_forall_mem.mp hfresh) op h) (Wf c G)
    iapply hseq $$ [Hbd Hh]
    · isplitl [Hbd] <;> iassumption
    iintro ⟨Hbd, Hh⟩
    iapply Hk
    isplitl [Hbd]; · iexact Hbd
    iexists G; isplitr; · ipureintro; exact hG
    isplitl [Hh]; · iexact Hh
    iexact HR

theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

/-! # The regions as segments -/

set_option backward.isDefEq.respectTransparency.types false in
/-- Region 0: entered from every unscoped buffer at its entry contents, left at those with its arrays at what the
    write-backs leave. Its arrays are split out of the unscoped buffers at entry and put back at exit; the generator
    register goes into the invariant and comes back; nothing is owed; the kernel has no semaphore of its own. -/
def reg0 : Pipeline.RDat.RegionSeg (pcfgs (F := F)) adm (rdats m) () defs₀ 𝒱₀ L lv 0 where
  win := launch0.win.to₀
  block_pos := launch0.block_pos
  stage_whole := launch0.stage_whole
  K := PEmpty
  osem k := k.elim
  ho := Pipeline.OwnSemFacts.none _
  hbody c := ((body_obligation0 (V1 m) c).loose).toR
  hwaits := Pipeline.RDat.hwaits_of_owed_zero _ _ _ _ L lv 0 fun _ _ => rfl
  pre c := iprop(StableHlo.held (c : Thread nD τ) (Pipeline.ucRefs τ sig) (W1 m c) ∗ R c)
  post c := iprop(StableHlo.held (c : Thread nD τ) (Pipeline.ucRefs τ sig) (W2 m c) ∗ R c)
  X c := iprop(∃ r, prngReg c r)
  Y c := iprop(∃ r, prngReg c r)
  Z c := Pipeline.unscopedRest (Ix := Unit) (Name := ℕ) (U := UR sig nD τ) (Lvl := ℕ) spec0 c (V1 m c)
  hentry c := by
    rw [Pipeline.ownSems0_none]
    have hsplit := Pipeline.RDat.arrays_of_unscopedBufs (p := 0) (pcfgs (F := F)) adm (rdats m) launch0.win launch0.arr_whole c
      ((rdats m 0 c).share_full fun _ => rfl) (V1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.RDat.owesAt Pipeline.owesWithin
      icases HO with ⟨%W, HO⟩; iexists W; isplitr; · ipureintro; exact fun _ _ => Or.inl trivial
      iexact HO
    isplitl [Hp]; · iexact Hp
    iexact Hrest
  hin c := by
    rw [show (rdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (rdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (V1 m c) (V2 m c) ((pdats m 0 c).arrAt · cfg0.N) (hF0 m c) (hrest0 m c)
    rw [Pipeline.unscopedBufs_held] at hjoin
    refine (sep_mono (Entails.of_eq ((pdats m 0 c).toR_arraysAt_eq (Pipeline.pin (pcfgs (F := F)) adm 0).N)) .rfl).trans ?_
    iintro ⟨Ha, HO, HY, Hrest⟩
    imodintro
    isplitl [Ha Hrest]
    · iapply hjoin; isplitl [Ha] <;> iassumption
    isplitl [HY]; · iexact HY
    unfold Pipeline.RDat.owesAt Pipeline.owesWithin
    icases HO with ⟨%W, -, HO⟩; iexists W; iexact HO

set_option backward.isDefEq.respectTransparency.types false in
/-- Region 1: entered from every unscoped buffer at its entry contents, left at those with its arrays at what the
    write-backs leave. Its arrays are split out of the unscoped buffers at entry and put back at exit; the generator
    register goes into the invariant and comes back; nothing is owed; the kernel has no semaphore of its own. -/
def reg1 : Pipeline.RDat.RegionSeg (pcfgs (F := F)) adm (rdats m) () defs₀ 𝒱₀ L lv 1 where
  win := launch1.win.to₀
  block_pos := launch1.block_pos
  stage_whole := launch1.stage_whole
  K := PEmpty
  osem k := k.elim
  ho := Pipeline.OwnSemFacts.none _
  hbody c := ((body_obligation1 (V2 m) c).loose).toR
  hwaits := Pipeline.RDat.hwaits_of_owed_zero _ _ _ _ L lv 1 fun _ _ => rfl
  pre c := iprop(StableHlo.held (c : Thread nD τ) (Pipeline.ucRefs τ sig) (W2 m c) ∗ R c)
  post c := iprop(StableHlo.held (c : Thread nD τ) (Pipeline.ucRefs τ sig) (W3 m c) ∗ R c)
  X c := iprop(∃ r, prngReg c r)
  Y c := iprop(∃ r, prngReg c r)
  Z c := Pipeline.unscopedRest (Ix := Unit) (Name := ℕ) (U := UR sig nD τ) (Lvl := ℕ) spec1 c (V2 m c)
  hentry c := by
    rw [Pipeline.ownSems0_none]
    have hsplit := Pipeline.RDat.arrays_of_unscopedBufs (p := 1) (pcfgs (F := F)) adm (rdats m) launch1.win launch1.arr_whole c
      ((rdats m 1 c).share_full fun _ => rfl) (V2 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.RDat.owesAt Pipeline.owesWithin
      icases HO with ⟨%W, HO⟩; iexists W; isplitr; · ipureintro; exact fun _ _ => Or.inl trivial
      iexact HO
    isplitl [Hp]; · iexact Hp
    iexact Hrest
  hin c := by
    rw [show (rdats m 1 c).Φ 0 = Pipeline.ΦA spec1 c from rfl]; unfold Pipeline.ΦA
    iintro ⟨Hp, -, Hr⟩
    isplitl [Hr]; · iexact Hr
    iexact Hp
  hout c := by
    rw [Pipeline.ownSems0_none, show (rdats m 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (V2 m c) (V3 m c) ((pdats m 1 c).arrAt · cfg1.N) (hF1 m c) (hrest1 m c)
    rw [Pipeline.unscopedBufs_held] at hjoin
    refine (sep_mono (Entails.of_eq ((pdats m 1 c).toR_arraysAt_eq (Pipeline.pin (pcfgs (F := F)) adm 1).N)) .rfl).trans ?_
    iintro ⟨Ha, HO, HY, Hrest⟩
    imodintro
    isplitl [Ha Hrest]
    · iapply hjoin; isplitl [Ha] <;> iassumption
    isplitl [HY]; · iexact HY
    unfold Pipeline.RDat.owesAt Pipeline.owesWithin
    icases HO with ⟨%W, -, HO⟩; iexists W; iexact HO

theorem isOut2 : ∀ w : Fin cfg2.W, w ≠ 3 → (cfg2.win w).isOut = false := by decide

set_option backward.isDefEq.respectTransparency.types false in
/-- Region 2 (the gridded output projection): entered from every unscoped buffer at `W3`, left — for SOME contents
    `G` of the logits array that its write-backs may produce — at `W4 G`. -/
def reg2 : Pipeline.RDat.RegionSeg (pcfgs (F := F)) adm (rdats m) () defs₀ 𝒱₀ L lv 2 where
  win := launch2.win.to₀
  block_pos := launch2.block_pos
  stage_whole := launch2.stage_whole
  K := PEmpty
  osem k := k.elim
  ho := Pipeline.OwnSemFacts.none _
  hbody c := body_obligation2 (V3 m) c
  hwaits := Pipeline.RDat.hwaits_of_owed_zero _ _ _ _ L lv 2 fun _ _ => rfl
  pre c := iprop(StableHlo.held (c : Thread nD τ) (Pipeline.ucRefs τ sig) (W3 m c) ∗ R c)
  post c := iprop(∃ G, ⌜Good m c G⌝ ∗ StableHlo.held (c : Thread nD τ) (Pipeline.ucRefs τ sig) (W4 m c G) ∗ R c)
  X c := iprop(∃ r, prngReg c r)
  Y c := iprop(∃ r, prngReg c r)
  Z c := Pipeline.unscopedRest (Ix := Unit) (Name := ℕ) (U := UR sig nD τ) (Lvl := ℕ) spec2 c (V3 m c)
  hentry c := by
    rw [Pipeline.ownSems0_none]
    have hsplit := Pipeline.RDat.arrays_of_unscopedBufs (p := 2) (pcfgs (F := F)) adm (rdats m) launch2.win launch2.arr_whole c
      ((rdats m 2 c).share_full fun _ => rfl) (V3 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.RDat.owesAt Pipeline.owesWithin
      icases HO with ⟨%W, HO⟩; iexists W; isplitr; · ipureintro; exact fun _ _ => Or.inl trivial
      iexact HO
    isplitl [Hp]; · iexact Hp
    iexact Hrest
  hin c := by
    rw [show (rdats m 2 c).Φ 0 = Pipeline.ΦA spec2 c from rfl]; unfold Pipeline.ΦA
    iintro ⟨Hp, -, Hr⟩
    isplitl [Hr]; · iexact Hr
    iexact Hp
  hout c := by
    rw [Pipeline.ownSems0_none, show (rdats m 2 c).Φ (Fin.last _) = Pipeline.ΦA spec2 c from rfl]; unfold Pipeline.ΦA
    iintro ⟨Hr, Hp⟩
    isplitl [Hp]; · iexact Hp
    isplitr; · iempintro
    iexact Hr
  hexit c := by
    -- each array is held at some contents its write-backs may leave: an input's are its entry contents
    have hin : ∀ (w : Fin cfg2.W), w ≠ 3 → ∀ Fw, (rd2 (V3 m) c).ArrAt w cfg2.N Fw → Fw = V3 m c (Pipeline.arrRef spec2 w) := by
      intro w hw Fw h
      have hio : (cfg2.win w).isOut = false := isOut2 w hw
      rw [(rd2 (V3 m) c).ArrAt_in w hio] at h
      exact h.trans (A_eq2 (V3 m) c w)
    refine (sep_mono (Entails.of_eq (show (rdats m 2 c).arraysAt (Pipeline.pin (pcfgs (F := F)) adm 2).N = (rd2 (V3 m) c).arraysAt cfg2.N from rfl)) .rfl).trans ?_
    unfold Pipeline.RDat.arraysAt
    rw [bigSep_W2]
    iintro ⟨⟨⟨%F0, %h0, H0⟩, ⟨%F1, %h1, H1⟩, ⟨%F2', %h2, H2⟩, ⟨%G, %hG, H3⟩⟩, HO, HY, Hrest⟩
    obtain rfl := hin 0 (by decide) F0 h0
    obtain rfl := hin 1 (by decide) F1 h1
    obtain rfl := hin 2 (by decide) F2' h2
    have hjoin := Pipeline.unscopedBufs_of_arrays (p := 2) (pcfgs (F := F)) adm (Ix := Unit) (Name := ℕ) (U := UR sig nD τ) (Lvl := ℕ)
      launch2.win launch2.arr_whole c (pdats m) ((pdats m 2 c).share_full fun _ => rfl)
      (V3 m c) (V4 m c G) (F2 m c G) (hF2 m c G) (hrest2 m c G)
    rw [Pipeline.unscopedBufs_held] at hjoin
    imodintro
    iexists G
    isplitr; · ipureintro; exact hG
    isplitl [H0 H1 H2 H3 Hrest]
    · iapply hjoin
      isplitr [Hrest]
      · rw [show (pdats m 2 c).arrays (F2 m c G) = ((rd2 (V3 m) c).arrays (F2 m c G) : sProp 𝕄) from rfl]
        unfold Pipeline.RDat.arrays
        rw [bigSep_W2]
        isplitl [H0]; · iexact H0
        isplitl [H1]; · iexact H1
        isplitl [H2]; · iexact H2
        iexact H3
      iexact Hrest
    isplitl [HY]; · iexact HY
    unfold Pipeline.RDat.owesAt Pipeline.owesWithin
    icases HO with ⟨%W, -, HO⟩; iexists W; iexact HO

/-! # @main as segments, and the run -/

abbrev segs : List (Pipeline.RDat.Seg (pcfgs (F := F)) adm (rdats m) () defs₀ 𝒱₀ L lv) :=
  [ .host (hseg hostOps0 hostOps0_sub hostOps0_fresh (W0 m)),
    .region (reg0 m),
    .region (reg1 m),
    .region (reg2 m),
    .host (hsegE m hostOps3 hostOps3_sub hostOps3_fresh (W4 m)),
    .host (hsegE m hostOps3_1 hostOps3_1_sub hostOps3_1_fresh (W5 m)) ]

/-- What the run ends with on core `c`: for some contents `G` the third region may leave, every unscoped buffer holds
    the last boundary's contents `W6 G`. -/
def Ends (c : Dev nD) (s : MemSt nD τ sig (Elt F)) : Prop :=
  ∃ G : Out2 (F := F) c, Good m c G ∧ ∀ b ∈ Pipeline.ucRefs τ sig, s.mem (((c : Thread nD τ)).1, b) = W6 m c G b

abbrev Tₙ (c : Dev nD) : sProp 𝕄 :=
  iprop(∃ G, ⌜Good m c G⌝ ∗ StableHlo.held (c : Thread nD τ) (Pipeline.ucRefs τ sig) (W6 m c G) ∗ ∃ r, prngReg c r)

set_option backward.isDefEq.respectTransparency.types false in
/-- THE RUN, at any float instance: from any memory with zero counters every weakly fair execution of @main
    terminates, nothing faulting, and every final memory satisfies whatever follows from `Ends` on every core. -/
theorem run_main {Q : PUnit × MemSt nD τ sig (Elt F) → Prop}
    (hQ : ∀ s : MemSt nD τ sig (Elt F), (∀ c : Dev nD, Ends m c s) → Q (⟨⟩, s)) :
    θ_run defs (onTc (τ := τ) (main (F := F))) ⟨m, fun _ => 0, ρ⟩ Q :=
  Pipeline.RDat.θ_run_regions_kit (pcfgs (F := F)) adm (rdats m) () cellOf_inj emb₁ defs₀ 𝒱₀ L lv m ρ main (segs m)
    (fun c Q => by
      rewrite [main_chain c, Pipeline.RDat.Seg.run_eq_chain,
        show (segs m).map Pipeline.RDat.Seg.prog = [
          StableHlo.seq hostOps0,
          Prog.lift (.customCall (Pipeline.entry 0) ()),
          Prog.lift (.customCall (Pipeline.entry 1) ()),
          Prog.lift (.customCall (Pipeline.entry 2) ()),
          StableHlo.seq hostOps3,
          StableHlo.seq hostOps3_1 ] from rfl]
      exact .rfl)
    (by simp only [segs, Pipeline.RDat.Seg.pipes_host, Pipeline.RDat.Seg.pipes_region, Pipeline.RDat.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ R c)) (Tₙ := Tₙ m)
    (hch := ⟨fun _ => .rfl, fun _ => .rfl, fun _ => .rfl, fun _ => .rfl, fun _ => .rfl, fun _ => .rfl, fun c => by
      show (iprop(∃ G, ⌜Good m c G⌝ ∗ StableHlo.held (c : Thread nD τ) (Pipeline.ucRefs τ sig) (W6 m c G) ∗ R c) : sProp 𝕄) ⊢ _
      iintro ⟨%G, %hG, Hh, Hp, HO⟩
      isplitr [HO]
      · iexists G; isplitr; · ipureintro; exact hG
        isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := Ends m)
    (hfin := fun c s' => by
      iintro ⟨⟨%G, %hG, Hh, -⟩, HSI⟩
      unfold StableHlo.held
      ihave Hr := (pointsTo_read_all (Pipeline.ucRefs τ sig) (fun b => (((c : Thread nD τ)).1, b)) (W6 m c G) s') $$ [Hh HSI]
      · isplitl [Hh] <;> iassumption
      icases Hr with ⟨%h, HSI⟩
      imodintro
      isplitr
      · ipureintro; exact ⟨G, hG, h⟩
      · iexact HSI)
    (hQ := hQ)

end Cert.Kernel.Hand

end
-- ==== Proof.KFrame.lean ====
/- Every argument array ends holding its launch contents, at any float instance. -/
import proofs.«149668_j82532091560494_2_alg».proof.Proof.KRun
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! # What no item of @main writes ends as launched

A buffer that no stretch of host operations writes and that is no output array of a region holds its launch contents
at every boundary: a region leaves its input arrays and every buffer it does not window as it found them. -/

theorem isOut0 : ∀ w : Fin cfg0.W, w ≠ 7 → w ≠ 8 → (cfg0.win w).isOut = false := by decide
theorem isOut1 : ∀ w : Fin cfg1.W, w ≠ 6 → (cfg1.win w).isOut = false := by decide

theorem W2_keep (c : Dev nD) (r : Ref sig .tc) (h7 : r ≠ main_v13_0) (h8 : r ≠ main_v13_1) :
    W2 m c (Proc.devRef .tc r) = W1 m c (Proc.devRef .tc r) := by
  by_cases h : ∃ w, Pipeline.arrRef spec0 w = r
  · obtain ⟨w, rfl⟩ := h
    have hw7 : w ≠ 7 := fun e => h7 (e ▸ rfl)
    have hw8 : w ≠ 8 := fun e => h8 (e ▸ rfl)
    exact (W2_arr m c w).trans (((dat0 (V1 m) c).arrAt_in w (isOut0 w hw7 hw8) _).trans (A_eq0 (V1 m) c w))
  · exact W2_of_ne m c r fun w e => h ⟨w, e⟩

theorem W3_keep (c : Dev nD) (r : Ref sig .tc) (h6 : r ≠ main_v14) :
    W3 m c (Proc.devRef .tc r) = W2 m c (Proc.devRef .tc r) := by
  by_cases h : ∃ w, Pipeline.arrRef spec1 w = r
  · obtain ⟨w, rfl⟩ := h
    have hw6 : w ≠ 6 := fun e => h6 (e ▸ rfl)
    exact (W3_arr m c w).trans (((dat1 (V2 m) c).arrAt_in w (isOut1 w hw6) _).trans (A_eq1 (V2 m) c w))
  · exact W3_of_ne m c r fun w e => h ⟨w, e⟩

theorem W4_keep (c : Dev nD) (G : Out2 (F := F) c) (r : Ref sig .tc) (h3 : r ≠ main_v15) :
    W4 m c G (Proc.devRef .tc r) = W3 m c (Proc.devRef .tc r) := by
  by_cases h : ∃ w, Pipeline.arrRef spec2 w = r
  · obtain ⟨w, rfl⟩ := h
    have hw3 : w ≠ 3 := fun e => h3 (e ▸ rfl)
    rw [W4_arr]; unfold F2; rw [Function.update_of_ne hw3]
  · exact W4_of_ne m c G r fun w e => h ⟨w, e⟩

/-- The logits array after the third region is what the region left. -/
theorem W4_out (c : Dev nD) (G : Out2 (F := F) c) : W4 m c G (Proc.devRef .tc main_v15) = G := by
  refine (W4_arr m c G 3).trans ?_
  unfold F2; rw [Function.update_self]

theorem W6_keep (c : Dev nD) (G : Out2 (F := F) c) (r : Ref sig .tc) (h5 : r ∉ hostOps3_1_W) (h4 : r ∉ hostOps3_W)
    (h3 : r ≠ main_v15) (h2 : r ≠ main_v14) (h1a : r ≠ main_v13_0) (h1b : r ≠ main_v13_1) (h0 : r ∉ hostOps0_W) :
    W6 m c G (Proc.devRef .tc r) = m ((c : Thread nD τ).loc r) :=
  (StableHlo.after_of_writes_sub hostOps3_1 _ hostOps3_1_writes h5).trans <|
  (StableHlo.after_of_writes_sub hostOps3 _ hostOps3_writes h4).trans <|
  (W4_keep m c G r h3).trans <| (W3_keep m c r h2).trans <| (W2_keep m c r h1a h1b).trans <|
  (StableHlo.after_of_writes_sub hostOps0 _ hostOps0_writes h0).trans rfl

/-- THE FRAME, at any float instance: every argument array ends as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧       r.2.mem ((c.tc : Thread nD τ).loc main_arg1) = m ((c.tc : Thread nD τ).loc main_arg1)
      ∧       r.2.mem ((c.tc : Thread nD τ).loc main_arg2) = m ((c.tc : Thread nD τ).loc main_arg2)
      ∧       r.2.mem ((c.tc : Thread nD τ).loc main_arg3) = m ((c.tc : Thread nD τ).loc main_arg3)
      ∧       r.2.mem ((c.tc : Thread nD τ).loc main_arg4) = m ((c.tc : Thread nD τ).loc main_arg4)
      ∧       r.2.mem ((c.tc : Thread nD τ).loc main_arg5) = m ((c.tc : Thread nD τ).loc main_arg5)
      ∧       r.2.mem ((c.tc : Thread nD τ).loc main_arg6) = m ((c.tc : Thread nD τ).loc main_arg6)
      ∧       r.2.mem ((c.tc : Thread nD τ).loc main_arg7) = m ((c.tc : Thread nD τ).loc main_arg7)
      ∧       r.2.mem ((c.tc : Thread nD τ).loc main_arg8) = m ((c.tc : Thread nD τ).loc main_arg8)
      ∧       r.2.mem ((c.tc : Thread nD τ).loc main_arg9) = m ((c.tc : Thread nD τ).loc main_arg9)
      ∧       r.2.mem ((c.tc : Thread nD τ).loc main_arg10) = m ((c.tc : Thread nD τ).loc main_arg10)
      ∧       r.2.mem ((c.tc : Thread nD τ).loc main_arg11) = m ((c.tc : Thread nD τ).loc main_arg11)
      ∧       r.2.mem ((c.tc : Thread nD τ).loc main_arg12) = m ((c.tc : Thread nD τ).loc main_arg12)
      ∧       r.2.mem ((c.tc : Thread nD τ).loc main_arg13) = m ((c.tc : Thread nD τ).loc main_arg13)) :=
  run_main m ρ fun s h c => by
    obtain ⟨G, -, hs⟩ := h c
    exact ⟨(hs _ (mem_uc main_arg0 (by decide))).trans (W6_keep m c G main_arg0 (by decide) (by decide) (by decide) (by decide) (by decide) (by decide) (by decide)),
      (hs _ (mem_uc main_arg1 (by decide))).trans (W6_keep m c G main_arg1 (by decide) (by decide) (by decide) (by decide) (by decide) (by decide) (by decide)),
      (hs _ (mem_uc main_arg2 (by decide))).trans (W6_keep m c G main_arg2 (by decide) (by decide) (by decide) (by decide) (by decide) (by decide) (by decide)),
      (hs _ (mem_uc main_arg3 (by decide))).trans (W6_keep m c G main_arg3 (by decide) (by decide) (by decide) (by decide) (by decide) (by decide) (by decide)),
      (hs _ (mem_uc main_arg4 (by decide))).trans (W6_keep m c G main_arg4 (by decide) (by decide) (by decide) (by decide) (by decide) (by decide) (by decide)),
      (hs _ (mem_uc main_arg5 (by decide))).trans (W6_keep m c G main_arg5 (by decide) (by decide) (by decide) (by decide) (by decide) (by decide) (by decide)),
      (hs _ (mem_uc main_arg6 (by decide))).trans (W6_keep m c G main_arg6 (by decide) (by decide) (by decide) (by decide) (by decide) (by decide) (by decide)),
      (hs _ (mem_uc main_arg7 (by decide))).trans (W6_keep m c G main_arg7 (by decide) (by decide) (by decide) (by decide) (by decide) (by decide) (by decide)),
      (hs _ (mem_uc main_arg8 (by decide))).trans (W6_keep m c G main_arg8 (by decide) (by decide) (by decide) (by decide) (by decide) (by decide) (by decide)),
      (hs _ (mem_uc main_arg9 (by decide))).trans (W6_keep m c G main_arg9 (by decide) (by decide) (by decide) (by decide) (by decide) (by decide) (by decide)),
      (hs _ (mem_uc main_arg10 (by decide))).trans (W6_keep m c G main_arg10 (by decide) (by decide) (by decide) (by decide) (by decide) (by decide) (by decide)),
      (hs _ (mem_uc main_arg11 (by decide))).trans (W6_keep m c G main_arg11 (by decide) (by decide) (by decide) (by decide) (by decide) (by decide) (by decide)),
      (hs _ (mem_uc main_arg12 (by decide))).trans (W6_keep m c G main_arg12 (by decide) (by decide) (by decide) (by decide) (by decide) (by decide) (by decide)),
      (hs _ (mem_uc main_arg13 (by decide))).trans (W6_keep m c G main_arg13 (by decide) (by decide) (by decide) (by decide) (by decide) (by decide) (by decide))⟩

end Cert.Kernel.Hand

end
-- ==== Proof.KIRegion0.lean ====
import proofs.«149668_j82532091560494_2_alg».proof.Proof.Gen.KernelIdeal.Launch
import proofs.«149668_j82532091560494_2_alg».proof.Proof.Gen.KernelIdeal.Skeleton
import proofs.«149668_j82532091560494_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

-- membership in a rectangle of long extents recurses once per coordinate of the long axes
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the core's buffer contents when the region is entered: every statement below is at this parameter
variable (V : (c : Dev nD) → (b : Ref sig .tc) → Buf (Elt F) ((c : Thread nD τ).loc b))

/-! # Region 0: one grid point, every window's block the whole array -/

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0's current staging buffer holds its block at every point, for any proof data whose
    array is the entry contents and whose body leaves the block in place. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- Input window 1's current staging buffer holds its block at every point, for any proof data whose
    array is the entry contents and whose body leaves the block in place. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-- Input window 2's current staging buffer holds its block at every point, for any proof data whose
    array is the entry contents and whose body leaves the block in place. -/
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-- Input window 3's current staging buffer holds its block at every point, for any proof data whose
    array is the entry contents and whose body leaves the block in place. -/
theorem before0_3_of {c : Dev nD} (dat : Dat τ (Elt F) Unit ℕ (UR sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)

/-- Input window 4's current staging buffer holds its block at every point, for any proof data whose
    array is the entry contents and whose body leaves the block in place. -/
theorem before0_4_of {c : Dev nD} (dat : Dat τ (Elt F) Unit ℕ (UR sig nD τ) ℕ cfg0 c) (hA : dat.A 4 = V c (Pipeline.arrRef spec0 4))
    (hafter : ∀ t, dat.after 4 t = iblk0 V c 4 t) (t : Fin cfg0.N) (d) : dat.before 4 t d = iblk0 V c 4 t :=
  (dat.before_in_eq_fetched 4 rfl (fun _ => rfl) (fun _ _ _ => rfl) (fun t => by rw [hafter]; unfold Dat.blockOf iblk0; rw [hA]; try rfl) t d).trans
    (by unfold Dat.fetched Dat.blockOf iblk0; rw [hA]; try rfl)

/-- Input window 5's current staging buffer holds its block at every point, for any proof data whose
    array is the entry contents and whose body leaves the block in place. -/
theorem before0_5_of {c : Dev nD} (dat : Dat τ (Elt F) Unit ℕ (UR sig nD τ) ℕ cfg0 c) (hA : dat.A 5 = V c (Pipeline.arrRef spec0 5))
    (hafter : ∀ t, dat.after 5 t = iblk0 V c 5 t) (t : Fin cfg0.N) (d) : dat.before 5 t d = iblk0 V c 5 t :=
  (dat.before_in_eq_fetched 5 rfl (fun _ => rfl) (fun _ _ _ => rfl) (fun t => by rw [hafter]; unfold Dat.blockOf iblk0; rw [hA]; try rfl) t d).trans
    (by unfold Dat.fetched Dat.blockOf iblk0; rw [hA]; try rfl)

/-- Input window 6's current staging buffer holds its block at every point, for any proof data whose
    array is the entry contents and whose body leaves the block in place. -/
theorem before0_6_of {c : Dev nD} (dat : Dat τ (Elt F) Unit ℕ (UR sig nD τ) ℕ cfg0 c) (hA : dat.A 6 = V c (Pipeline.arrRef spec0 6))
    (hafter : ∀ t, dat.after 6 t = iblk0 V c 6 t) (t : Fin cfg0.N) (d) : dat.before 6 t d = iblk0 V c 6 t :=
  (dat.before_in_eq_fetched 6 rfl (fun _ => rfl) (fun _ _ _ => rfl) (fun t => by rw [hafter]; unfold Dat.blockOf iblk0; rw [hA]; try rfl) t d).trans
    (by unfold Dat.fetched Dat.blockOf iblk0; rw [hA]; try rfl)

/-! ## The body's accesses: each is the whole buffer -/

abbrev r0_0 : Rect S1x1024 := Rect.unit (s := S1x1024) ![0, 0] S1x1024.size inb_S1x1024_S1x1024_0_0
abbrev r0_1 : Rect S512x1024 := Rect.unit (s := S512x1024) ![0, 0] S512x1024.size inb_S512x1024_S512x1024_0_0
abbrev r0_2 : Rect S512x2048 := Rect.unit (s := S512x2048) ![0, 0] S512x2048.size inb_S512x2048_S512x2048_0_0
abbrev r0_3 : Rect S1x512 := Rect.unit (s := S1x512) ![0, 0] S1x512.size inb_S1x512_S1x512_0_0
abbrev r0_4 : Rect S1024x2048 := Rect.unit (s := S1024x2048) ![0, 0] S1024x2048.size inb_S1024x2048_S1024x2048_0_0

/-! ## What the body leaves in each output window's buffer -/

/-- Window 7's staging buffer after the body: its one store, of the whole buffer, over the payload of the loaded blocks. -/
def out0_7 (x0 : Vec F S1x1024 .f32) (x1 : Vec F S1x1024 .f32) (x2 : Vec F S512x1024 .f32) (x3 : Vec F S512x2048 .f32) (x4 : Vec F S1x512 .f32) (x5 : Vec F S1024x2048 .f32) (x6 : Vec F S1x1024 .f32) : Vec F S1x1024 .f32 :=
  View.canon [⟨r0_0, k0_pay3 (View.ld x0 r0_0) (View.ld x1 r0_0) (View.ld x3 r0_2) (View.ld x4 r0_3) (View.ld x2 r0_1) (View.ld x5 r0_4) (View.ld x6 r0_0)⟩]

/-- The one store covers the buffer. -/
theorem cover0_7 (p0 : Vec F S1x1024 .f32) (y : S1x1024.Idx) :
    ∃ pc ∈ ([⟨r0_0, p0⟩] : List (View.Piece (Elt F) S1x1024 .f32)), y ∈ pc.1.set :=
  View.cover_of_tiled [⟨r0_0, p0⟩] S1x1024.size (by rfl) y

/-- Window 8's staging buffer after the body: its one store, of the whole buffer, over the payload of the loaded blocks. -/
def out0_8 (x0 : Vec F S1x1024 .f32) (x1 : Vec F S1x1024 .f32) (x2 : Vec F S512x1024 .f32) (x3 : Vec F S512x2048 .f32) (x4 : Vec F S1x512 .f32) (x5 : Vec F S1024x2048 .f32) (x6 : Vec F S1x1024 .f32) : Vec F S1x512 .f32 :=
  View.canon [⟨r0_3, k0_pay2 (View.ld x0 r0_0) (View.ld x1 r0_0) (View.ld x3 r0_2) (View.ld x4 r0_3)⟩]

/-- The one store covers the buffer. -/
theorem cover0_8 (p0 : Vec F S1x512 .f32) (y : S1x512.Idx) :
    ∃ pc ∈ ([⟨r0_3, p0⟩] : List (View.Piece (Elt F) S1x512 .f32)), y ∈ pc.1.set :=
  View.cover_of_tiled [⟨r0_3, p0⟩] S1x512.size (by rfl) y

/-! ## The body's triple -/

set_option maxHeartbeats 1000000 in
/-- The kernel body on whole staging memrefs, the inputs' at contents `xW` and the outputs' at anything, runs to the
    continuation holding the inputs' as they were and each output's at `out0_W` of the inputs'. -/
theorem sound_kernel0 (c : Dev nD) (E : Set ℕ) (i : grid0.Coords) (arg1 : Memref sig .tc .vmem S1x1024 .f32) (harg1 : arg1.IsWhole) (arg2 : Memref sig .tc .vmem S1x1024 .f32) (harg2 : arg2.IsWhole) (arg3 : Memref sig .tc .vmem S512x1024 .f32) (harg3 : arg3.IsWhole) (arg4 : Memref sig .tc .vmem S512x2048 .f32) (harg4 : arg4.IsWhole) (arg5 : Memref sig .tc .vmem S1x512 .f32) (harg5 : arg5.IsWhole) (arg6 : Memref sig .tc .vmem S1024x2048 .f32) (harg6 : arg6.IsWhole) (arg7 : Memref sig .tc .vmem S1x1024 .f32) (harg7 : arg7.IsWhole) (arg8 : Memref sig .tc .vmem S1x1024 .f32) (harg8 : arg8.IsWhole) (arg9 : Memref sig .tc .vmem S1x512 .f32) (harg9 : arg9.IsWhole)
    (x0 : Vec F S1x1024 .f32) (x1 : Vec F S1x1024 .f32) (x2 : Vec F S512x1024 .f32) (x3 : Vec F S512x2048 .f32) (x4 : Vec F S1x512 .f32) (x5 : Vec F S1024x2048 .f32) (x6 : Vec F S1x1024 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ (∃ d, owns (c : Thread nD τ) arg8 fullShare d) ∗ (∃ d, owns (c : Thread nD τ) arg9 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare (out0_7 x0 x1 x2 x3 x4 x5 x6) ∗ owns (c : Thread nD τ) arg9 fullShare (out0_8 x0 x1 x2 x3 x4 x5 x6)) -∗ K ⟨⟩))
      ⊢ wp frame (wpE (defs₀ (F := F)) Variants.none c none) E (cc0__attn_comb_kernel i arg1 harg1 arg2 harg2 arg3 harg3 arg4 harg4 arg5 harg5 arg6 harg6 arg7 harg7 arg8 harg8 arg9 harg9) K := by
  simp only [cc0__attn_comb_kernel_eq_skeleton]; unfold cc0__attn_comb_kernel_skel
  simp only [k0_part1_eq_skeleton]; unfold k0_part1_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, ⟨%d8, %f8, -, H8⟩, Hk⟩
  subst hf0 hf1 hf2 hf3 hf4 hf5 hf6
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists _; isplitr
    swap; · iexact H7
    ipureintro
    exact View.read_writes_eq_canon _ _ _ (cover0_7 _)
  iexists _; isplitr
  swap; · iexact H8
  ipureintro
  exact View.read_writes_eq_canon _ _ _ (cover0_8 _)

/-! ## The pipeline's proof data -/

/-- The proof data of the pipeline on core `c`: the arrays as the region finds them; after the body each input's
    buffer at its block and each output's at `out0_W` of the input blocks; the invariant the scoped rest and the
    generator register, untouched; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => iblk0 V c 5 t
    | ⟨6, _⟩ => iblk0 V c 6 t
    | ⟨7, _⟩ => out0_7 (iblk0 V c 0 t) (iblk0 V c 1 t) (iblk0 V c 2 t) (iblk0 V c 3 t) (iblk0 V c 4 t) (iblk0 V c 5 t) (iblk0 V c 6 t)
    | ⟨8, _⟩ => out0_8 (iblk0 V c 0 t) (iblk0 V c 1 t) (iblk0 V c 2 t) (iblk0 V c 3 t) (iblk0 V c 4 t) (iblk0 V c 5 t) (iblk0 V c 6 t)
  Φ _ := Pipeline.ΦA spec0 c
  q _ := fullShare
  owed _ := 0

/-- The proof data's arrays are the region-entry contents. -/
theorem A_eq0 (c : Dev nD) (w : Fin cfg0.W) : (dat0 V c).A w = V c (Pipeline.arrRef spec0 w) := by
  dsimp only [dat0]

/-- What the body leaves, window by window. -/
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = iblk0 V c 4 t := by dsimp only [dat0]
theorem after0_5 (c : Dev nD) (t : Fin cfg0.N) : (dat0 V c).after 5 t = iblk0 V c 5 t := by dsimp only [dat0]
theorem after0_6 (c : Dev nD) (t : Fin cfg0.N) : (dat0 V c).after 6 t = iblk0 V c 6 t := by dsimp only [dat0]
theorem after0_7 (c : Dev nD) (t : Fin cfg0.N) : (dat0 V c).after 7 t = out0_7 (iblk0 V c 0 t) (iblk0 V c 1 t) (iblk0 V c 2 t) (iblk0 V c 3 t) (iblk0 V c 4 t) (iblk0 V c 5 t) (iblk0 V c 6 t) := by dsimp only [dat0]
theorem after0_8 (c : Dev nD) (t : Fin cfg0.N) : (dat0 V c).after 8 t = out0_8 (iblk0 V c 0 t) (iblk0 V c 1 t) (iblk0 V c 2 t) (iblk0 V c 3 t) (iblk0 V c 4 t) (iblk0 V c 5 t) (iblk0 V c 6 t) := by dsimp only [dat0]

/-- Each input's current staging buffer holds its block at every point. -/
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d
theorem before0_3 (c : Dev nD) (t : Fin cfg0.N) (d) : (dat0 V c).before 3 t d = iblk0 V c 3 t :=
  before0_3_of V (dat0 V c) (A_eq0 V c 3) (after0_3 V c) t d
theorem before0_4 (c : Dev nD) (t : Fin cfg0.N) (d) : (dat0 V c).before 4 t d = iblk0 V c 4 t :=
  before0_4_of V (dat0 V c) (A_eq0 V c 4) (after0_4 V c) t d
theorem before0_5 (c : Dev nD) (t : Fin cfg0.N) (d) : (dat0 V c).before 5 t d = iblk0 V c 5 t :=
  before0_5_of V (dat0 V c) (A_eq0 V c 5) (after0_5 V c) t d
theorem before0_6 (c : Dev nD) (t : Fin cfg0.N) (d) : (dat0 V c).before 6 t d = iblk0 V c 6 t :=
  before0_6_of V (dat0 V c) (A_eq0 V c 6) (after0_6 V c) t d

/-! ## The body obligation -/

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d))
    ∗ (∃ d, owns (c : Thread nD τ) (st0_5 t) fullShare ((dat0 V c).before 5 t d))
    ∗ (∃ d, owns (c : Thread nD τ) (st0_6 t) fullShare ((dat0 V c).before 6 t d))
    ∗ (∃ d, owns (c : Thread nD τ) (st0_7 t) fullShare ((dat0 V c).before 7 t d))
    ∗ (∃ d, owns (c : Thread nD τ) (st0_8 t) fullShare ((dat0 V c).before 8 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t)
    ∗ owns (c : Thread nD τ) (st0_5 t) fullShare ((dat0 V c).after 5 t)
    ∗ owns (c : Thread nD τ) (st0_6 t) fullShare ((dat0 V c).after 6 t)
    ∗ owns (c : Thread nD τ) (st0_7 t) fullShare ((dat0 V c).after 7 t)
    ∗ owns (c : Thread nD τ) (st0_8 t) fullShare ((dat0 V c).after 8 t))

/-- The body at any point: the inputs' memrefs hold their blocks, so `sound_kernel0` applies; the invariant and
    the core's obligations pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3, before0_4, before0_5, before0_6]
  rw [show (dat0 V c).Φ t.succ = (dat0 V c).Φ t.castSucc from rfl,
    show (dat0 V c).owesAt () t.succ = (dat0 V c).owesAt () t.castSucc from rfl,
    after0_0, after0_1, after0_2, after0_3, after0_4, after0_5, after0_6, after0_7, after0_8]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
  iapply (sound_kernel0 c Set.univ (grid0.coords t) _ _ _ _ _ _ _ _ _ _ _ _ _ _ _ _ _ _ (iblk0 V c 0 t) (iblk0 V c 1 t) (iblk0 V c 2 t) (iblk0 V c 3 t) (iblk0 V c 4 t) (iblk0 V c 5 t) (iblk0 V c 6 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexists _; iexact H7
  isplitl [H8]; · iexists _; iexact H8
  iintro ⟨H0, H1, H2, H3, H4, H5, H6, H7, H8⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  iexact H8

/-- The library's body obligation, at every point. -/
theorem body_obligation0 (c : Dev nD) : BodyObligation (dat0 (F := F) V c) (defs₀ (F := F)) Variants.none () Set.univ := fun t => by
  rw [bigSep_W0, bigSep_W0]
  exact sound_body0 V c t

/-! ## The output arrays after the run -/

/-- The zero offset of every access. -/
theorem hz0 : (![0, 0] : Fin 2 → Nat) = fun _ => 0 := funext fun a => by fin_cases a <;> rfl

/-- The index maps at the grid's points: every window's block index is 0 on both axes. -/
theorem idx0 : ∀ t : Fin cfg0.N, win0_0.index t (0 : Fin 2) = 0
    ∧ win0_0.index t (1 : Fin 2) = 0
    ∧ win0_1.index t (0 : Fin 2) = 0
    ∧ win0_1.index t (1 : Fin 2) = 0
    ∧ win0_2.index t (0 : Fin 2) = 0
    ∧ win0_2.index t (1 : Fin 2) = 0
    ∧ win0_3.index t (0 : Fin 2) = 0
    ∧ win0_3.index t (1 : Fin 2) = 0
    ∧ win0_4.index t (0 : Fin 2) = 0
    ∧ win0_4.index t (1 : Fin 2) = 0
    ∧ win0_5.index t (0 : Fin 2) = 0
    ∧ win0_5.index t (1 : Fin 2) = 0
    ∧ win0_6.index t (0 : Fin 2) = 0
    ∧ win0_6.index t (1 : Fin 2) = 0
    ∧ win0_7.index t (0 : Fin 2) = 0
    ∧ win0_7.index t (1 : Fin 2) = 0
    ∧ win0_8.index t (0 : Fin 2) = 0
    ∧ win0_8.index t (1 : Fin 2) = 0 :=
  (by decide +kernel : ∀ t : Fin grid0.N, _)

/-- Window 0's block is its whole array. -/
theorem iblk0_0 (c : Dev nD) (t : Fin cfg0.N) :
    (iblk0 V c 0 t : Vec F S1x1024 .f32) = (V c (Pipeline.arrRef spec0 0) : Vec F S1x1024 .f32) := by
  obtain ⟨e0, e1, e2, e3, e4, e5, e6, e7, e8, e9, e10, e11, e12, e13, e14, e15, e16, e17⟩ := idx0 t
  funext j
  have h : (((cfg0.win 0).blk t).view.emb j : S1x1024.Idx) = j := by
    funext a; apply Fin.ext
    match a with
    | ⟨0, _⟩ => show win0_0.index t (0 : Fin 2) * 1 + 1 * (j 0).val = (j 0).val; omega
    | ⟨1, _⟩ => show win0_0.index t (1 : Fin 2) * 1024 + 1 * (j 1).val = (j 1).val; omega
  show (V c (Pipeline.arrRef spec0 0) : Vec F S1x1024 .f32) (((cfg0.win 0).blk t).view.emb j) = _
  rw [h]

/-- Window 1's block is its whole array. -/
theorem iblk0_1 (c : Dev nD) (t : Fin cfg0.N) :
    (iblk0 V c 1 t : Vec F S1x1024 .f32) = (V c (Pipeline.arrRef spec0 1) : Vec F S1x1024 .f32) := by
  obtain ⟨e0, e1, e2, e3, e4, e5, e6, e7, e8, e9, e10, e11, e12, e13, e14, e15, e16, e17⟩ := idx0 t
  funext j
  have h : (((cfg0.win 1).blk t).view.emb j : S1x1024.Idx) = j := by
    funext a; apply Fin.ext
    match a with
    | ⟨0, _⟩ => show win0_1.index t (0 : Fin 2) * 1 + 1 * (j 0).val = (j 0).val; omega
    | ⟨1, _⟩ => show win0_1.index t (1 : Fin 2) * 1024 + 1 * (j 1).val = (j 1).val; omega
  show (V c (Pipeline.arrRef spec0 1) : Vec F S1x1024 .f32) (((cfg0.win 1).blk t).view.emb j) = _
  rw [h]

/-- Window 2's block is its whole array. -/
theorem iblk0_2 (c : Dev nD) (t : Fin cfg0.N) :
    (iblk0 V c 2 t : Vec F S512x1024 .f32) = (V c (Pipeline.arrRef spec0 2) : Vec F S512x1024 .f32) := by
  obtain ⟨e0, e1, e2, e3, e4, e5, e6, e7, e8, e9, e10, e11, e12, e13, e14, e15, e16, e17⟩ := idx0 t
  funext j
  have h : (((cfg0.win 2).blk t).view.emb j : S512x1024.Idx) = j := by
    funext a; apply Fin.ext
    match a with
    | ⟨0, _⟩ => show win0_2.index t (0 : Fin 2) * 512 + 1 * (j 0).val = (j 0).val; omega
    | ⟨1, _⟩ => show win0_2.index t (1 : Fin 2) * 1024 + 1 * (j 1).val = (j 1).val; omega
  show (V c (Pipeline.arrRef spec0 2) : Vec F S512x1024 .f32) (((cfg0.win 2).blk t).view.emb j) = _
  rw [h]

/-- Window 3's block is its whole array. -/
theorem iblk0_3 (c : Dev nD) (t : Fin cfg0.N) :
    (iblk0 V c 3 t : Vec F S512x2048 .f32) = (V c (Pipeline.arrRef spec0 3) : Vec F S512x2048 .f32) := by
  obtain ⟨e0, e1, e2, e3, e4, e5, e6, e7, e8, e9, e10, e11, e12, e13, e14, e15, e16, e17⟩ := idx0 t
  funext j
  have h : (((cfg0.win 3).blk t).view.emb j : S512x2048.Idx) = j := by
    funext a; apply Fin.ext
    match a with
    | ⟨0, _⟩ => show win0_3.index t (0 : Fin 2) * 512 + 1 * (j 0).val = (j 0).val; omega
    | ⟨1, _⟩ => show win0_3.index t (1 : Fin 2) * 2048 + 1 * (j 1).val = (j 1).val; omega
  show (V c (Pipeline.arrRef spec0 3) : Vec F S512x2048 .f32) (((cfg0.win 3).blk t).view.emb j) = _
  rw [h]

/-- Window 4's block is its whole array. -/
theorem iblk0_4 (c : Dev nD) (t : Fin cfg0.N) :
    (iblk0 V c 4 t : Vec F S1x512 .f32) = (V c (Pipeline.arrRef spec0 4) : Vec F S1x512 .f32) := by
  obtain ⟨e0, e1, e2, e3, e4, e5, e6, e7, e8, e9, e10, e11, e12, e13, e14, e15, e16, e17⟩ := idx0 t
  funext j
  have h : (((cfg0.win 4).blk t).view.emb j : S1x512.Idx) = j := by
    funext a; apply Fin.ext
    match a with
    | ⟨0, _⟩ => show win0_4.index t (0 : Fin 2) * 1 + 1 * (j 0).val = (j 0).val; omega
    | ⟨1, _⟩ => show win0_4.index t (1 : Fin 2) * 512 + 1 * (j 1).val = (j 1).val; omega
  show (V c (Pipeline.arrRef spec0 4) : Vec F S1x512 .f32) (((cfg0.win 4).blk t).view.emb j) = _
  rw [h]

/-- Window 5's block is its whole array. -/
theorem iblk0_5 (c : Dev nD) (t : Fin cfg0.N) :
    (iblk0 V c 5 t : Vec F S1024x2048 .f32) = (V c (Pipeline.arrRef spec0 5) : Vec F S1024x2048 .f32) := by
  obtain ⟨e0, e1, e2, e3, e4, e5, e6, e7, e8, e9, e10, e11, e12, e13, e14, e15, e16, e17⟩ := idx0 t
  funext j
  have h : (((cfg0.win 5).blk t).view.emb j : S1024x2048.Idx) = j := by
    funext a; apply Fin.ext
    match a with
    | ⟨0, _⟩ => show win0_5.index t (0 : Fin 2) * 1024 + 1 * (j 0).val = (j 0).val; omega
    | ⟨1, _⟩ => show win0_5.index t (1 : Fin 2) * 2048 + 1 * (j 1).val = (j 1).val; omega
  show (V c (Pipeline.arrRef spec0 5) : Vec F S1024x2048 .f32) (((cfg0.win 5).blk t).view.emb j) = _
  rw [h]

/-- Window 6's block is its whole array. -/
theorem iblk0_6 (c : Dev nD) (t : Fin cfg0.N) :
    (iblk0 V c 6 t : Vec F S1x1024 .f32) = (V c (Pipeline.arrRef spec0 6) : Vec F S1x1024 .f32) := by
  obtain ⟨e0, e1, e2, e3, e4, e5, e6, e7, e8, e9, e10, e11, e12, e13, e14, e15, e16, e17⟩ := idx0 t
  funext j
  have h : (((cfg0.win 6).blk t).view.emb j : S1x1024.Idx) = j := by
    funext a; apply Fin.ext
    match a with
    | ⟨0, _⟩ => show win0_6.index t (0 : Fin 2) * 1 + 1 * (j 0).val = (j 0).val; omega
    | ⟨1, _⟩ => show win0_6.index t (1 : Fin 2) * 1024 + 1 * (j 1).val = (j 1).val; omega
  show (V c (Pipeline.arrRef spec0 6) : Vec F S1x1024 .f32) (((cfg0.win 6).blk t).view.emb j) = _
  rw [h]

/-- What the one point writes back to window 7 is the payload of the entry arrays, read through the block. -/
theorem flushed0_7_eq (c : Dev nD) (t : Fin cfg0.N) :
    (dat0 V c).flushed 7 t = ((cfg0.win 7).blk t).view.read (Elt F) (k0_pay3 (V c (Pipeline.arrRef spec0 0)) (V c (Pipeline.arrRef spec0 1)) (V c (Pipeline.arrRef spec0 3)) (V c (Pipeline.arrRef spec0 4)) (V c (Pipeline.arrRef spec0 2)) (V c (Pipeline.arrRef spec0 5)) (V c (Pipeline.arrRef spec0 6))) := by
  show (cfg0.win 7).cut (grid0.coords t) ((dat0 V c).after 7 t) = _
  rw [after0_7]
  unfold out0_7
  rw [View.canon_unit_zero hz0]
  simp only [View.ld_unit_zero (S := S1x1024) hz0, View.ld_unit_zero (S := S512x1024) hz0, View.ld_unit_zero (S := S512x2048) hz0, View.ld_unit_zero (S := S1x512) hz0, View.ld_unit_zero (S := S1024x2048) hz0]
  rw [iblk0_0, iblk0_1, iblk0_2, iblk0_3, iblk0_4, iblk0_5, iblk0_6]
  obtain ⟨e0, e1, e2, e3, e4, e5, e6, e7, e8, e9, e10, e11, e12, e13, e14, e15, e16, e17⟩ := idx0 t
  funext j
  have h : (((cfg0.win 7).blk t).view.emb j : S1x1024.Idx) = j := by
    funext a; apply Fin.ext
    match a with
    | ⟨0, _⟩ => show win0_7.index t (0 : Fin 2) * 1 + 1 * (j 0).val = (j 0).val; omega
    | ⟨1, _⟩ => show win0_7.index t (1 : Fin 2) * 1024 + 1 * (j 1).val = (j 1).val; omega
  show (k0_pay3 (V c (Pipeline.arrRef spec0 0)) (V c (Pipeline.arrRef spec0 1)) (V c (Pipeline.arrRef spec0 3)) (V c (Pipeline.arrRef spec0 4)) (V c (Pipeline.arrRef spec0 2)) (V c (Pipeline.arrRef spec0 5)) (V c (Pipeline.arrRef spec0 6))) j = (k0_pay3 (V c (Pipeline.arrRef spec0 0)) (V c (Pipeline.arrRef spec0 1)) (V c (Pipeline.arrRef spec0 3)) (V c (Pipeline.arrRef spec0 4)) (V c (Pipeline.arrRef spec0 2)) (V c (Pipeline.arrRef spec0 5)) (V c (Pipeline.arrRef spec0 6))) (((cfg0.win 7).blk t).view.emb j)
  rw [h]

/-- An index of window 7's array is in a point's block iff each coordinate is in the block's range. -/
theorem mem_blk0_7 (t : Fin cfg0.N) (i : S1x1024.Idx) :
    i ∈ ((cfg0.win 7).blk t).view.set ↔ ∀ a : Fin 2, win0_7.index t a * S1x1024.size a ≤ (i a).val ∧ (i a).val < win0_7.index t a * S1x1024.size a + S1x1024.size a := by
  show i ∈ ((View.whole main_v13_0).slice (win0_7.rect t)).set ↔ _
  rw [View.set_slice_whole, Rect.mem_set_unit]
  exact Iff.rfl

/-- The one point's block is the whole of window 7's array. -/
theorem covered0_7 (i : S1x1024.Idx) :
    ∃ t : Fin cfg0.N, (cfg0.win 7).flush t = true ∧ i ∈ ((cfg0.win 7).blk t).view.set := by
  refine ⟨t0_0, flush0_7 t0_0, ?_⟩
  obtain ⟨e0, e1, e2, e3, e4, e5, e6, e7, e8, e9, e10, e11, e12, e13, e14, e15, e16, e17⟩ := idx0 t0_0
  rw [mem_blk0_7]
  intro a
  match a with
  | ⟨0, _⟩ => show win0_7.index t0_0 (0 : Fin 2) * 1 ≤ (i 0).val ∧ (i 0).val < win0_7.index t0_0 (0 : Fin 2) * 1 + 1; have hi : (i 0).val < 1 := (i 0).isLt; omega
  | ⟨1, _⟩ => show win0_7.index t0_0 (1 : Fin 2) * 1024 ≤ (i 1).val ∧ (i 1).val < win0_7.index t0_0 (1 : Fin 2) * 1024 + 1024; have hi : (i 1).val < 1024 := (i 1).isLt; omega

/-- Window 7's array after the run: the payload of the region-entry arrays. -/
theorem final0_7 (c : Dev nD) : (dat0 V c).arrAt 7 cfg0.N = k0_pay3 (V c (Pipeline.arrRef spec0 0)) (V c (Pipeline.arrRef spec0 1)) (V c (Pipeline.arrRef spec0 3)) (V c (Pipeline.arrRef spec0 4)) (V c (Pipeline.arrRef spec0 2)) (V c (Pipeline.arrRef spec0 5)) (V c (Pipeline.arrRef spec0 6)) :=
  (dat0 V c).arrAt_eq_of_cover 7 (k0_pay3 (V c (Pipeline.arrRef spec0 0)) (V c (Pipeline.arrRef spec0 1)) (V c (Pipeline.arrRef spec0 3)) (V c (Pipeline.arrRef spec0 4)) (V c (Pipeline.arrRef spec0 2)) (V c (Pipeline.arrRef spec0 5)) (V c (Pipeline.arrRef spec0 6))) (fun t _ => flushed0_7_eq V c t) (covered0_7)

/-- What the one point writes back to window 8 is the payload of the entry arrays, read through the block. -/
theorem flushed0_8_eq (c : Dev nD) (t : Fin cfg0.N) :
    (dat0 V c).flushed 8 t = ((cfg0.win 8).blk t).view.read (Elt F) (k0_pay2 (V c (Pipeline.arrRef spec0 0)) (V c (Pipeline.arrRef spec0 1)) (V c (Pipeline.arrRef spec0 3)) (V c (Pipeline.arrRef spec0 4))) := by
  show (cfg0.win 8).cut (grid0.coords t) ((dat0 V c).after 8 t) = _
  rw [after0_8]
  unfold out0_8
  rw [View.canon_unit_zero hz0]
  simp only [View.ld_unit_zero (S := S1x1024) hz0, View.ld_unit_zero (S := S512x1024) hz0, View.ld_unit_zero (S := S512x2048) hz0, View.ld_unit_zero (S := S1x512) hz0, View.ld_unit_zero (S := S1024x2048) hz0]
  rw [iblk0_0, iblk0_1, iblk0_3, iblk0_4]
  obtain ⟨e0, e1, e2, e3, e4, e5, e6, e7, e8, e9, e10, e11, e12, e13, e14, e15, e16, e17⟩ := idx0 t
  funext j
  have h : (((cfg0.win 8).blk t).view.emb j : S1x512.Idx) = j := by
    funext a; apply Fin.ext
    match a with
    | ⟨0, _⟩ => show win0_8.index t (0 : Fin 2) * 1 + 1 * (j 0).val = (j 0).val; omega
    | ⟨1, _⟩ => show win0_8.index t (1 : Fin 2) * 512 + 1 * (j 1).val = (j 1).val; omega
  show (k0_pay2 (V c (Pipeline.arrRef spec0 0)) (V c (Pipeline.arrRef spec0 1)) (V c (Pipeline.arrRef spec0 3)) (V c (Pipeline.arrRef spec0 4))) j = (k0_pay2 (V c (Pipeline.arrRef spec0 0)) (V c (Pipeline.arrRef spec0 1)) (V c (Pipeline.arrRef spec0 3)) (V c (Pipeline.arrRef spec0 4))) (((cfg0.win 8).blk t).view.emb j)
  rw [h]

/-- An index of window 8's array is in a point's block iff each coordinate is in the block's range. -/
theorem mem_blk0_8 (t : Fin cfg0.N) (i : S1x512.Idx) :
    i ∈ ((cfg0.win 8).blk t).view.set ↔ ∀ a : Fin 2, win0_8.index t a * S1x512.size a ≤ (i a).val ∧ (i a).val < win0_8.index t a * S1x512.size a + S1x512.size a := by
  show i ∈ ((View.whole main_v13_1).slice (win0_8.rect t)).set ↔ _
  rw [View.set_slice_whole, Rect.mem_set_unit]
  exact Iff.rfl

/-- The one point's block is the whole of window 8's array. -/
theorem covered0_8 (i : S1x512.Idx) :
    ∃ t : Fin cfg0.N, (cfg0.win 8).flush t = true ∧ i ∈ ((cfg0.win 8).blk t).view.set := by
  refine ⟨t0_0, flush0_8 t0_0, ?_⟩
  obtain ⟨e0, e1, e2, e3, e4, e5, e6, e7, e8, e9, e10, e11, e12, e13, e14, e15, e16, e17⟩ := idx0 t0_0
  rw [mem_blk0_8]
  intro a
  match a with
  | ⟨0, _⟩ => show win0_8.index t0_0 (0 : Fin 2) * 1 ≤ (i 0).val ∧ (i 0).val < win0_8.index t0_0 (0 : Fin 2) * 1 + 1; have hi : (i 0).val < 1 := (i 0).isLt; omega
  | ⟨1, _⟩ => show win0_8.index t0_0 (1 : Fin 2) * 512 ≤ (i 1).val ∧ (i 1).val < win0_8.index t0_0 (1 : Fin 2) * 512 + 512; have hi : (i 1).val < 512 := (i 1).isLt; omega

/-- Window 8's array after the run: the payload of the region-entry arrays. -/
theorem final0_8 (c : Dev nD) : (dat0 V c).arrAt 8 cfg0.N = k0_pay2 (V c (Pipeline.arrRef spec0 0)) (V c (Pipeline.arrRef spec0 1)) (V c (Pipeline.arrRef spec0 3)) (V c (Pipeline.arrRef spec0 4)) :=
  (dat0 V c).arrAt_eq_of_cover 8 (k0_pay2 (V c (Pipeline.arrRef spec0 0)) (V c (Pipeline.arrRef spec0 1)) (V c (Pipeline.arrRef spec0 3)) (V c (Pipeline.arrRef spec0 4))) (fun t _ => flushed0_8_eq V c t) (covered0_8)

end Cert.KernelIdeal.Hand

end
-- ==== Proof.KIRegion1.lean ====
import proofs.«149668_j82532091560494_2_alg».proof.Proof.Gen.KernelIdeal.Launch
import proofs.«149668_j82532091560494_2_alg».proof.Proof.Gen.KernelIdeal.Skeleton
import proofs.«149668_j82532091560494_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

-- membership in a rectangle of long extents recurses once per coordinate of the long axes
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the core's buffer contents when the region is entered: every statement below is at this parameter
variable (V : (c : Dev nD) → (b : Ref sig .tc) → Buf (Elt F) ((c : Thread nD τ).loc b))

/-! # Region 1: one grid point, every window's block the whole array -/

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0's current staging buffer holds its block at every point, for any proof data whose
    array is the entry contents and whose body leaves the block in place. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- Input window 1's current staging buffer holds its block at every point, for any proof data whose
    array is the entry contents and whose body leaves the block in place. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-- Input window 2's current staging buffer holds its block at every point, for any proof data whose
    array is the entry contents and whose body leaves the block in place. -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-- Input window 3's current staging buffer holds its block at every point, for any proof data whose
    array is the entry contents and whose body leaves the block in place. -/
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)

/-- Input window 4's current staging buffer holds its block at every point, for any proof data whose
    array is the entry contents and whose body leaves the block in place. -/
theorem before1_4_of {c : Dev nD} (dat : Dat τ (Elt F) Unit ℕ (UR sig nD τ) ℕ cfg1 c) (hA : dat.A 4 = V c (Pipeline.arrRef spec1 4))
    (hafter : ∀ t, dat.after 4 t = iblk1 V c 4 t) (t : Fin cfg1.N) (d) : dat.before 4 t d = iblk1 V c 4 t :=
  (dat.before_in_eq_fetched 4 rfl (fun _ => rfl) (fun _ _ _ => rfl) (fun t => by rw [hafter]; unfold Dat.blockOf iblk1; rw [hA]; try rfl) t d).trans
    (by unfold Dat.fetched Dat.blockOf iblk1; rw [hA]; try rfl)

/-- Input window 5's current staging buffer holds its block at every point, for any proof data whose
    array is the entry contents and whose body leaves the block in place. -/
theorem before1_5_of {c : Dev nD} (dat : Dat τ (Elt F) Unit ℕ (UR sig nD τ) ℕ cfg1 c) (hA : dat.A 5 = V c (Pipeline.arrRef spec1 5))
    (hafter : ∀ t, dat.after 5 t = iblk1 V c 5 t) (t : Fin cfg1.N) (d) : dat.before 5 t d = iblk1 V c 5 t :=
  (dat.before_in_eq_fetched 5 rfl (fun _ => rfl) (fun _ _ _ => rfl) (fun t => by rw [hafter]; unfold Dat.blockOf iblk1; rw [hA]; try rfl) t d).trans
    (by unfold Dat.fetched Dat.blockOf iblk1; rw [hA]; try rfl)

/-! ## The body's accesses: each is the whole buffer -/

abbrev r1_0 : Rect S1x1024 := Rect.unit (s := S1x1024) ![0, 0] S1x1024.size inb_S1x1024_S1x1024_0_0
abbrev r1_1 : Rect S3072x1024 := Rect.unit (s := S3072x1024) ![0, 0] S3072x1024.size inb_S3072x1024_S3072x1024_0_0
abbrev r1_2 : Rect S1x3072 := Rect.unit (s := S1x3072) ![0, 0] S1x3072.size inb_S1x3072_S1x3072_0_0

/-! ## What the body leaves in each output window's buffer -/

/-- Window 6's staging buffer after the body: its one store, of the whole buffer, over the payload of the loaded blocks. -/
def out1_6 (x0 : Vec F S1x1024 .f32) (x1 : Vec F S1x1024 .f32) (x2 : Vec F S3072x1024 .f32) (x3 : Vec F S3072x1024 .f32) (x4 : Vec F S1x3072 .f32) (x5 : Vec F S1x3072 .f32) : Vec F S1x1024 .f32 :=
  View.canon [⟨r1_0, k1_pay1 (View.ld x0 r1_0) (View.ld x1 r1_0) (View.ld x2 r1_1) (View.ld x3 r1_1) (View.ld x4 r1_2) (View.ld x5 r1_2)⟩]

/-- The one store covers the buffer. -/
theorem cover1_6 (p0 : Vec F S1x1024 .f32) (y : S1x1024.Idx) :
    ∃ pc ∈ ([⟨r1_0, p0⟩] : List (View.Piece (Elt F) S1x1024 .f32)), y ∈ pc.1.set :=
  View.cover_of_tiled [⟨r1_0, p0⟩] S1x1024.size (by rfl) y

/-! ## The body's triple -/

set_option maxHeartbeats 1000000 in
/-- The kernel body on whole staging memrefs, the inputs' at contents `xW` and the outputs' at anything, runs to the
    continuation holding the inputs' as they were and each output's at `out1_W` of the inputs'. -/
theorem sound_kernel1 (c : Dev nD) (E : Set ℕ) (i : grid1.Coords) (arg1 : Memref sig .tc .vmem S1x1024 .f32) (harg1 : arg1.IsWhole) (arg2 : Memref sig .tc .vmem S1x1024 .f32) (harg2 : arg2.IsWhole) (arg3 : Memref sig .tc .vmem S3072x1024 .f32) (harg3 : arg3.IsWhole) (arg4 : Memref sig .tc .vmem S3072x1024 .f32) (harg4 : arg4.IsWhole) (arg5 : Memref sig .tc .vmem S1x3072 .f32) (harg5 : arg5.IsWhole) (arg6 : Memref sig .tc .vmem S1x3072 .f32) (harg6 : arg6.IsWhole) (arg7 : Memref sig .tc .vmem S1x1024 .f32) (harg7 : arg7.IsWhole)
    (x0 : Vec F S1x1024 .f32) (x1 : Vec F S1x1024 .f32) (x2 : Vec F S3072x1024 .f32) (x3 : Vec F S3072x1024 .f32) (x4 : Vec F S1x3072 .f32) (x5 : Vec F S1x3072 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ d, owns (c : Thread nD τ) arg7 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare (out1_6 x0 x1 x2 x3 x4 x5)) -∗ K ⟨⟩))
      ⊢ wp frame (wpE (defs₀ (F := F)) Variants.none c none) E (cc1__gru_kernel i arg1 harg1 arg2 harg2 arg3 harg3 arg4 harg4 arg5 harg5 arg6 harg6 arg7 harg7) K := by
  simp only [cc1__gru_kernel_eq_skeleton]; unfold cc1__gru_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, Hk⟩
  subst hf0 hf1 hf2 hf3 hf4 hf5
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  iexists _; isplitr
  swap; · iexact H6
  ipureintro
  exact View.read_writes_eq_canon _ _ _ (cover1_6 _)

/-! ## The pipeline's proof data -/

/-- The proof data of the pipeline on core `c`: the arrays as the region finds them; after the body each input's
    buffer at its block and each output's at `out1_W` of the input blocks; the invariant the scoped rest and the
    generator register, untouched; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => iblk1 V c 5 t
    | ⟨6, _⟩ => out1_6 (iblk1 V c 0 t) (iblk1 V c 1 t) (iblk1 V c 2 t) (iblk1 V c 3 t) (iblk1 V c 4 t) (iblk1 V c 5 t)
  Φ _ := Pipeline.ΦA spec1 c
  q _ := fullShare
  owed _ := 0

/-- The proof data's arrays are the region-entry contents. -/
theorem A_eq1 (c : Dev nD) (w : Fin cfg1.W) : (dat1 V c).A w = V c (Pipeline.arrRef spec1 w) := by
  dsimp only [dat1]

/-- What the body leaves, window by window. -/
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t = iblk1 V c 5 t := by dsimp only [dat1]
theorem after1_6 (c : Dev nD) (t : Fin cfg1.N) : (dat1 V c).after 6 t = out1_6 (iblk1 V c 0 t) (iblk1 V c 1 t) (iblk1 V c 2 t) (iblk1 V c 3 t) (iblk1 V c 4 t) (iblk1 V c 5 t) := by dsimp only [dat1]

/-- Each input's current staging buffer holds its block at every point. -/
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d
theorem before1_4 (c : Dev nD) (t : Fin cfg1.N) (d) : (dat1 V c).before 4 t d = iblk1 V c 4 t :=
  before1_4_of V (dat1 V c) (A_eq1 V c 4) (after1_4 V c) t d
theorem before1_5 (c : Dev nD) (t : Fin cfg1.N) (d) : (dat1 V c).before 5 t d = iblk1 V c 5 t :=
  before1_5_of V (dat1 V c) (A_eq1 V c 5) (after1_5 V c) t d

/-! ## The body obligation -/

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d))
    ∗ (∃ d, owns (c : Thread nD τ) (st1_5 t) fullShare ((dat1 V c).before 5 t d))
    ∗ (∃ d, owns (c : Thread nD τ) (st1_6 t) fullShare ((dat1 V c).before 6 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t)
    ∗ owns (c : Thread nD τ) (st1_5 t) fullShare ((dat1 V c).after 5 t)
    ∗ owns (c : Thread nD τ) (st1_6 t) fullShare ((dat1 V c).after 6 t))

/-- The body at any point: the inputs' memrefs hold their blocks, so `sound_kernel1` applies; the invariant and
    the core's obligations pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4, before1_5]
  rw [show (dat1 V c).Φ t.succ = (dat1 V c).Φ t.castSucc from rfl,
    show (dat1 V c).owesAt () t.succ = (dat1 V c).owesAt () t.castSucc from rfl,
    after1_0, after1_1, after1_2, after1_3, after1_4, after1_5, after1_6]
  iintro ⟨HΦ, Ho, ⟨%d0, H0⟩, ⟨%d1, H1⟩, ⟨%d2, H2⟩, ⟨%d3, H3⟩, ⟨%d4, H4⟩, ⟨%d5, H5⟩, ⟨%d6, H6⟩⟩
  iapply (sound_kernel1 c Set.univ (grid1.coords t) _ _ _ _ _ _ _ _ _ _ _ _ _ _ (iblk1 V c 0 t) (iblk1 V c 1 t) (iblk1 V c 2 t) (iblk1 V c 3 t) (iblk1 V c 4 t) (iblk1 V c 5 t) _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  iintro ⟨H0, H1, H2, H3, H4, H5, H6⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

/-- The library's body obligation, at every point. -/
theorem body_obligation1 (c : Dev nD) : BodyObligation (dat1 (F := F) V c) (defs₀ (F := F)) Variants.none () Set.univ := fun t => by
  rw [bigSep_W1, bigSep_W1]
  exact sound_body1 V c t

/-! ## The output arrays after the run -/

/-- The zero offset of every access. -/
theorem hz1 : (![0, 0] : Fin 2 → Nat) = fun _ => 0 := funext fun a => by fin_cases a <;> rfl

/-- The index maps at the grid's points: every window's block index is 0 on both axes. -/
theorem idx1 : ∀ t : Fin cfg1.N, win1_0.index t (0 : Fin 2) = 0
    ∧ win1_0.index t (1 : Fin 2) = 0
    ∧ win1_1.index t (0 : Fin 2) = 0
    ∧ win1_1.index t (1 : Fin 2) = 0
    ∧ win1_2.index t (0 : Fin 2) = 0
    ∧ win1_2.index t (1 : Fin 2) = 0
    ∧ win1_3.index t (0 : Fin 2) = 0
    ∧ win1_3.index t (1 : Fin 2) = 0
    ∧ win1_4.index t (0 : Fin 2) = 0
    ∧ win1_4.index t (1 : Fin 2) = 0
    ∧ win1_5.index t (0 : Fin 2) = 0
    ∧ win1_5.index t (1 : Fin 2) = 0
    ∧ win1_6.index t (0 : Fin 2) = 0
    ∧ win1_6.index t (1 : Fin 2) = 0 :=
  (by decide +kernel : ∀ t : Fin grid1.N, _)

/-- Window 0's block is its whole array. -/
theorem iblk1_0 (c : Dev nD) (t : Fin cfg1.N) :
    (iblk1 V c 0 t : Vec F S1x1024 .f32) = (V c (Pipeline.arrRef spec1 0) : Vec F S1x1024 .f32) := by
  obtain ⟨e0, e1, e2, e3, e4, e5, e6, e7, e8, e9, e10, e11, e12, e13⟩ := idx1 t
  funext j
  have h : (((cfg1.win 0).blk t).view.emb j : S1x1024.Idx) = j := by
    funext a; apply Fin.ext
    match a with
    | ⟨0, _⟩ => show win1_0.index t (0 : Fin 2) * 1 + 1 * (j 0).val = (j 0).val; omega
    | ⟨1, _⟩ => show win1_0.index t (1 : Fin 2) * 1024 + 1 * (j 1).val = (j 1).val; omega
  show (V c (Pipeline.arrRef spec1 0) : Vec F S1x1024 .f32) (((cfg1.win 0).blk t).view.emb j) = _
  rw [h]

/-- Window 1's block is its whole array. -/
theorem iblk1_1 (c : Dev nD) (t : Fin cfg1.N) :
    (iblk1 V c 1 t : Vec F S1x1024 .f32) = (V c (Pipeline.arrRef spec1 1) : Vec F S1x1024 .f32) := by
  obtain ⟨e0, e1, e2, e3, e4, e5, e6, e7, e8, e9, e10, e11, e12, e13⟩ := idx1 t
  funext j
  have h : (((cfg1.win 1).blk t).view.emb j : S1x1024.Idx) = j := by
    funext a; apply Fin.ext
    match a with
    | ⟨0, _⟩ => show win1_1.index t (0 : Fin 2) * 1 + 1 * (j 0).val = (j 0).val; omega
    | ⟨1, _⟩ => show win1_1.index t (1 : Fin 2) * 1024 + 1 * (j 1).val = (j 1).val; omega
  show (V c (Pipeline.arrRef spec1 1) : Vec F S1x1024 .f32) (((cfg1.win 1).blk t).view.emb j) = _
  rw [h]

/-- Window 2's block is its whole array. -/
theorem iblk1_2 (c : Dev nD) (t : Fin cfg1.N) :
    (iblk1 V c 2 t : Vec F S3072x1024 .f32) = (V c (Pipeline.arrRef spec1 2) : Vec F S3072x1024 .f32) := by
  obtain ⟨e0, e1, e2, e3, e4, e5, e6, e7, e8, e9, e10, e11, e12, e13⟩ := idx1 t
  funext j
  have h : (((cfg1.win 2).blk t).view.emb j : S3072x1024.Idx) = j := by
    funext a; apply Fin.ext
    match a with
    | ⟨0, _⟩ => show win1_2.index t (0 : Fin 2) * 3072 + 1 * (j 0).val = (j 0).val; omega
    | ⟨1, _⟩ => show win1_2.index t (1 : Fin 2) * 1024 + 1 * (j 1).val = (j 1).val; omega
  show (V c (Pipeline.arrRef spec1 2) : Vec F S3072x1024 .f32) (((cfg1.win 2).blk t).view.emb j) = _
  rw [h]

/-- Window 3's block is its whole array. -/
theorem iblk1_3 (c : Dev nD) (t : Fin cfg1.N) :
    (iblk1 V c 3 t : Vec F S3072x1024 .f32) = (V c (Pipeline.arrRef spec1 3) : Vec F S3072x1024 .f32) := by
  obtain ⟨e0, e1, e2, e3, e4, e5, e6, e7, e8, e9, e10, e11, e12, e13⟩ := idx1 t
  funext j
  have h : (((cfg1.win 3).blk t).view.emb j : S3072x1024.Idx) = j := by
    funext a; apply Fin.ext
    match a with
    | ⟨0, _⟩ => show win1_3.index t (0 : Fin 2) * 3072 + 1 * (j 0).val = (j 0).val; omega
    | ⟨1, _⟩ => show win1_3.index t (1 : Fin 2) * 1024 + 1 * (j 1).val = (j 1).val; omega
  show (V c (Pipeline.arrRef spec1 3) : Vec F S3072x1024 .f32) (((cfg1.win 3).blk t).view.emb j) = _
  rw [h]

/-- Window 4's block is its whole array. -/
theorem iblk1_4 (c : Dev nD) (t : Fin cfg1.N) :
    (iblk1 V c 4 t : Vec F S1x3072 .f32) = (V c (Pipeline.arrRef spec1 4) : Vec F S1x3072 .f32) := by
  obtain ⟨e0, e1, e2, e3, e4, e5, e6, e7, e8, e9, e10, e11, e12, e13⟩ := idx1 t
  funext j
  have h : (((cfg1.win 4).blk t).view.emb j : S1x3072.Idx) = j := by
    funext a; apply Fin.ext
    match a with
    | ⟨0, _⟩ => show win1_4.index t (0 : Fin 2) * 1 + 1 * (j 0).val = (j 0).val; omega
    | ⟨1, _⟩ => show win1_4.index t (1 : Fin 2) * 3072 + 1 * (j 1).val = (j 1).val; omega
  show (V c (Pipeline.arrRef spec1 4) : Vec F S1x3072 .f32) (((cfg1.win 4).blk t).view.emb j) = _
  rw [h]

/-- Window 5's block is its whole array. -/
theorem iblk1_5 (c : Dev nD) (t : Fin cfg1.N) :
    (iblk1 V c 5 t : Vec F S1x3072 .f32) = (V c (Pipeline.arrRef spec1 5) : Vec F S1x3072 .f32) := by
  obtain ⟨e0, e1, e2, e3, e4, e5, e6, e7, e8, e9, e10, e11, e12, e13⟩ := idx1 t
  funext j
  have h : (((cfg1.win 5).blk t).view.emb j : S1x3072.Idx) = j := by
    funext a; apply Fin.ext
    match a with
    | ⟨0, _⟩ => show win1_5.index t (0 : Fin 2) * 1 + 1 * (j 0).val = (j 0).val; omega
    | ⟨1, _⟩ => show win1_5.index t (1 : Fin 2) * 3072 + 1 * (j 1).val = (j 1).val; omega
  show (V c (Pipeline.arrRef spec1 5) : Vec F S1x3072 .f32) (((cfg1.win 5).blk t).view.emb j) = _
  rw [h]

/-- What the one point writes back to window 6 is the payload of the entry arrays, read through the block. -/
theorem flushed1_6_eq (c : Dev nD) (t : Fin cfg1.N) :
    (dat1 V c).flushed 6 t = ((cfg1.win 6).blk t).view.read (Elt F) (k1_pay1 (V c (Pipeline.arrRef spec1 0)) (V c (Pipeline.arrRef spec1 1)) (V c (Pipeline.arrRef spec1 2)) (V c (Pipeline.arrRef spec1 3)) (V c (Pipeline.arrRef spec1 4)) (V c (Pipeline.arrRef spec1 5))) := by
  show (cfg1.win 6).cut (grid1.coords t) ((dat1 V c).after 6 t) = _
  rw [after1_6]
  unfold out1_6
  rw [View.canon_unit_zero hz1]
  simp only [View.ld_unit_zero (S := S1x1024) hz1, View.ld_unit_zero (S := S3072x1024) hz1, View.ld_unit_zero (S := S1x3072) hz1]
  rw [iblk1_0, iblk1_1, iblk1_2, iblk1_3, iblk1_4, iblk1_5]
  obtain ⟨e0, e1, e2, e3, e4, e5, e6, e7, e8, e9, e10, e11, e12, e13⟩ := idx1 t
  funext j
  have h : (((cfg1.win 6).blk t).view.emb j : S1x1024.Idx) = j := by
    funext a; apply Fin.ext
    match a with
    | ⟨0, _⟩ => show win1_6.index t (0 : Fin 2) * 1 + 1 * (j 0).val = (j 0).val; omega
    | ⟨1, _⟩ => show win1_6.index t (1 : Fin 2) * 1024 + 1 * (j 1).val = (j 1).val; omega
  show (k1_pay1 (V c (Pipeline.arrRef spec1 0)) (V c (Pipeline.arrRef spec1 1)) (V c (Pipeline.arrRef spec1 2)) (V c (Pipeline.arrRef spec1 3)) (V c (Pipeline.arrRef spec1 4)) (V c (Pipeline.arrRef spec1 5))) j = (k1_pay1 (V c (Pipeline.arrRef spec1 0)) (V c (Pipeline.arrRef spec1 1)) (V c (Pipeline.arrRef spec1 2)) (V c (Pipeline.arrRef spec1 3)) (V c (Pipeline.arrRef spec1 4)) (V c (Pipeline.arrRef spec1 5))) (((cfg1.win 6).blk t).view.emb j)
  rw [h]

/-- An index of window 6's array is in a point's block iff each coordinate is in the block's range. -/
theorem mem_blk1_6 (t : Fin cfg1.N) (i : S1x1024.Idx) :
    i ∈ ((cfg1.win 6).blk t).view.set ↔ ∀ a : Fin 2, win1_6.index t a * S1x1024.size a ≤ (i a).val ∧ (i a).val < win1_6.index t a * S1x1024.size a + S1x1024.size a := by
  show i ∈ ((View.whole main_v14).slice (win1_6.rect t)).set ↔ _
  rw [View.set_slice_whole, Rect.mem_set_unit]
  exact Iff.rfl

/-- The one point's block is the whole of window 6's array. -/
theorem covered1_6 (i : S1x1024.Idx) :
    ∃ t : Fin cfg1.N, (cfg1.win 6).flush t = true ∧ i ∈ ((cfg1.win 6).blk t).view.set := by
  refine ⟨t1_0, flush1_6 t1_0, ?_⟩
  obtain ⟨e0, e1, e2, e3, e4, e5, e6, e7, e8, e9, e10, e11, e12, e13⟩ := idx1 t1_0
  rw [mem_blk1_6]
  intro a
  match a with
  | ⟨0, _⟩ => show win1_6.index t1_0 (0 : Fin 2) * 1 ≤ (i 0).val ∧ (i 0).val < win1_6.index t1_0 (0 : Fin 2) * 1 + 1; have hi : (i 0).val < 1 := (i 0).isLt; omega
  | ⟨1, _⟩ => show win1_6.index t1_0 (1 : Fin 2) * 1024 ≤ (i 1).val ∧ (i 1).val < win1_6.index t1_0 (1 : Fin 2) * 1024 + 1024; have hi : (i 1).val < 1024 := (i 1).isLt; omega

/-- Window 6's array after the run: the payload of the region-entry arrays. -/
theorem final1_6 (c : Dev nD) : (dat1 V c).arrAt 6 cfg1.N = k1_pay1 (V c (Pipeline.arrRef spec1 0)) (V c (Pipeline.arrRef spec1 1)) (V c (Pipeline.arrRef spec1 2)) (V c (Pipeline.arrRef spec1 3)) (V c (Pipeline.arrRef spec1 4)) (V c (Pipeline.arrRef spec1 5)) :=
  (dat1 V c).arrAt_eq_of_cover 6 (k1_pay1 (V c (Pipeline.arrRef spec1 0)) (V c (Pipeline.arrRef spec1 1)) (V c (Pipeline.arrRef spec1 2)) (V c (Pipeline.arrRef spec1 3)) (V c (Pipeline.arrRef spec1 4)) (V c (Pipeline.arrRef spec1 5))) (fun t _ => flushed1_6_eq V c t) (covered1_6)

end Cert.KernelIdeal.Hand

end
-- ==== Proof.KIBody2.lean ====
/- The output projection's body as a triple on whole staging buffers, at any float instance. -/
import proofs.«149668_j82532091560494_2_alg».proof.Proof.Gen.KernelIdeal.Launch
import proofs.«149668_j82532091560494_2_alg».proof.Proof.Gen.KernelIdeal.Skeleton
import proofs.«149668_j82532091560494_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window BodyObligation cellOf)

variable {F : FTy → Type} [FloatOps F]

local notation "𝕄" => MT nD τ sig Unit (Elt F) ℕ (UR sig nD τ) ℕ

/-! # The output projection's body on whole staging buffers

One grid point computes a block of 2048 logits: the hidden row against a block of 2048 rows of the output
matrix, plus the matching block of the bias row. The body loads its three input buffers whole, stores the
block whole, and touches nothing else. -/

abbrev r2_0 : Rect S1x1024 := Rect.unit (s := S1x1024) ![0, 0] S1x1024.size inb_S1x1024_S1x1024_0_0
abbrev r2_1 : Rect S2048x1024 := Rect.unit (s := S2048x1024) ![0, 0] S2048x1024.size inb_S2048x1024_S2048x1024_0_0
abbrev r2_2 : Rect S1x2048 := Rect.unit (s := S1x2048) ![0, 0] S1x2048.size inb_S1x2048_S1x2048_0_0

/-- What the body leaves in the output buffer, from the contents of the three input buffers: its one whole
    store. -/
def out2_3 (x0 : Vec F S1x1024 .f32) (x1 : Vec F S2048x1024 .f32) (x2 : Vec F S1x2048 .f32) : Vec F S1x2048 .f32 :=
  View.canon [⟨r2_2, k2_pay1 (View.ld x0 r2_0) (View.ld x1 r2_1) (View.ld x2 r2_2)⟩]

/-- The one store covers the buffer. -/
theorem cover2_3 (p0 : Vec F S1x2048 .f32) (y : S1x2048.Idx) :
    ∃ pc ∈ ([⟨r2_2, p0⟩] : List (View.Piece (Elt F) S1x2048 .f32)), y ∈ pc.1.set :=
  View.cover_of_tiled [⟨r2_2, p0⟩] S1x2048.size (by rfl) y

set_option maxHeartbeats 1000000 in
/-- The body on whole staging memrefs: the inputs' at contents `x0 x1 x2`, the output's at anything, runs to
    the continuation with the inputs unchanged and the output's buffer at `out2_3` of them. -/
theorem sound_kernel2 (c : Dev nD) (E : Set ℕ) (i : grid2.Coords)
    (arg1 : Memref sig .tc .vmem S1x1024 .f32) (harg1 : arg1.IsWhole) (arg2 : Memref sig .tc .vmem S2048x1024 .f32) (harg2 : arg2.IsWhole)
    (arg3 : Memref sig .tc .vmem S1x2048 .f32) (harg3 : arg3.IsWhole) (arg4 : Memref sig .tc .vmem S1x2048 .f32) (harg4 : arg4.IsWhole)
    (x0 : Vec F S1x1024 .f32) (x1 : Vec F S2048x1024 .f32) (x2 : Vec F S1x2048 .f32) (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d)
        ∗ (iprop(owns (c : Thread nD τ) arg1 fullShare x0 ∗ owns (c : Thread nD τ) arg2 fullShare x1 ∗ owns (c : Thread nD τ) arg3 fullShare x2
            ∗ owns (c : Thread nD τ) arg4 fullShare (out2_3 x0 x1 x2)) -∗ K ⟨⟩))
      ⊢ wp frame (wpE (defs₀ (F := F)) Variants.none c none) E (cc2__out_proj_kernel i arg1 harg1 arg2 harg2 arg3 harg3 arg4 harg4) K := by
  simp only [cc2__out_proj_kernel_eq_skeleton]; unfold cc2__out_proj_kernel_skel
  unfold owns
  iintro ⟨⟨%f0, %hf0, H0⟩, ⟨%f1, %hf1, H1⟩, ⟨%f2, %hf2, H2⟩, ⟨%d3, %f3, -, H3⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover2_3 _)

end Cert.KernelIdeal.Hand

end
-- ==== Proof.KIRegion2.lean ====
/- The output projection's region: relational proof data for clipped blocks, and the body obligation, at any float instance. -/
import proofs.«149668_j82532091560494_2_alg».proof.Proof.KIBody2
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! # The output projection's proof data, relational

The vocabulary axis has 50257 entries and the blocks are 2048 wide, so the last of the 25 blocks overhangs its
arrays: the fetch of the matrix block and of the bias block at that point fills only the leading part of the staging
buffer, and what the rest holds is not determined. The body computes from the whole buffers, so what it leaves in
the output buffer is determined only up to those undetermined words; the proof data therefore RELATE what the body
finds to what it leaves: each input buffer is left as found, and the output buffer holds the body's function of the
hidden row's block and of the two fetched blocks filled out by SOME words. -/

/-- Window `w`'s block at point `t`, its part inside the array, read off the array as the region finds it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- What the output buffer may hold after the body at point `t`. -/
def Leaves2 (c : Dev nD) (t : Fin cfg2.N) (X : S1x2048.Idx → Elt F .f32) : Prop :=
  ∃ (d1 : S2048x1024.Idx → Elt F .f32) (d2 : S1x2048.Idx → Elt F .f32),
    X = out2_3 (iblk2 V c 0 t) (win2_1.fill (grid2.coords t) d1 (iblk2 V c 1 t)) (win2_2.fill (grid2.coords t) d2 (iblk2 V c 2 t))

/-- The proof data of the third pipeline on core `c`. -/
def rd2 (c : Dev nD) : RDat τ (Elt F) Unit ℕ (UR sig nD τ) ℕ cfg2 c where
  A w := V c (Pipeline.arrRef spec2 w)
  after w t Y X := match w with
    | ⟨0, _⟩ => X = Y
    | ⟨1, _⟩ => X = Y
    | ⟨2, _⟩ => X = Y
    | ⟨3, _⟩ => Leaves2 V c t X
  Φ _ := Pipeline.ΦA spec2 c
  q _ := fullShare
  owed _ := 0

theorem A_eq2 (c : Dev nD) (w : Fin cfg2.W) : (rd2 V c).A w = V c (Pipeline.arrRef spec2 w) := by
  dsimp only [rd2]

theorem after2_0 (c : Dev nD) (t : Fin cfg2.N) (Y X) : (rd2 V c).after 0 t Y X ↔ X = Y := by dsimp only [rd2]; exact Iff.rfl
theorem after2_1 (c : Dev nD) (t : Fin cfg2.N) (Y X) : (rd2 V c).after 1 t Y X ↔ X = Y := by dsimp only [rd2]; exact Iff.rfl
theorem after2_2 (c : Dev nD) (t : Fin cfg2.N) (Y X) : (rd2 V c).after 2 t Y X ↔ X = Y := by dsimp only [rd2]; exact Iff.rfl
theorem after2_3 (c : Dev nD) (t : Fin cfg2.N) (Y X) : (rd2 V c).after 3 t Y X ↔ Leaves2 V c t X := by dsimp only [rd2]; exact Iff.rfl

/-- The hidden row's buffer holds its block at every point, fetched there or not: it is fetched at the first point
    and every later body leaves it as found. -/
theorem finds2_0 (c : Dev nD) (t : Fin cfg2.N) (Y) (h : (rd2 V c).Finds 0 t Y) : Y = iblk2 V c 0 t := by
  obtain ⟨d, rfl⟩ := (rd2 V c).finds_in_eq_fetched 0 rfl (fun _ _ _ => rfl) (fun t Y X h => (after2_0 V c t Y X).mp h) t Y h
  unfold RDat.fetched RDat.blockOf iblk2; rw [A_eq2]; rfl

/-- The matrix block's buffer, fetched at every point, holds the block on the part the fetch fills. -/
theorem finds2_1 (c : Dev nD) (t : Fin cfg2.N) (Y) (h : (rd2 V c).Finds 1 t Y) :
    ∃ d, Y = win2_1.fill (grid2.coords t) d (iblk2 V c 1 t) := by
  obtain ⟨d, rfl⟩ := ((rd2 V c).finds_of_fetch (fetch2_1 t) Y).mp h
  exact ⟨d, by unfold RDat.fetched RDat.blockOf iblk2; rw [A_eq2]⟩

/-- The bias block's likewise. -/
theorem finds2_2 (c : Dev nD) (t : Fin cfg2.N) (Y) (h : (rd2 V c).Finds 2 t Y) :
    ∃ d, Y = win2_2.fill (grid2.coords t) d (iblk2 V c 2 t) := by
  obtain ⟨d, rfl⟩ := ((rd2 V c).finds_of_fetch (fetch2_2 t) Y).mp h
  exact ⟨d, by unfold RDat.fetched RDat.blockOf iblk2; rw [A_eq2]⟩

/-! ## The body obligation -/

/-- The body at any point, whatever the buffers may hold: the three input buffers are as `finds2_W` says, the
    triple `sound_kernel2` applies, each input buffer comes back as found and the output buffer at the body's
    function of them. -/
theorem sound_body2 (c : Dev nD) (t : Fin cfg2.N) (Y : (w : Fin cfg2.W) → (cfg2.win w).block.Idx → Elt F (cfg2.win w).elt)
    (hY : ∀ w, (rd2 V c).Finds w t (Y w)) :
    iprop((rd2 V c).Φ t.castSucc ∗ (rd2 V c).owesAt () t.castSucc
        ∗ owns (c : Thread nD τ) (st2_0 t) fullShare (Y 0) ∗ owns (c : Thread nD τ) (st2_1 t) fullShare (Y 1)
        ∗ owns (c : Thread nD τ) (st2_2 t) fullShare (Y 2) ∗ owns (c : Thread nD τ) (st2_3 t) fullShare (Y 3))
      ⊢ wp frame (wpE (defs₀ (F := F)) Variants.none c none) Set.univ (bodyAt2 t) (fun _ =>
          iprop((rd2 V c).Φ t.succ ∗ (rd2 V c).owesAt () t.succ
            ∗ (∃ X, ⌜(rd2 V c).after 0 t (Y 0) X⌝ ∗ owns (c : Thread nD τ) (st2_0 t) fullShare X)
            ∗ (∃ X, ⌜(rd2 V c).after 1 t (Y 1) X⌝ ∗ owns (c : Thread nD τ) (st2_1 t) fullShare X)
            ∗ (∃ X, ⌜(rd2 V c).after 2 t (Y 2) X⌝ ∗ owns (c : Thread nD τ) (st2_2 t) fullShare X)
            ∗ (∃ X, ⌜(rd2 V c).after 3 t (Y 3) X⌝ ∗ owns (c : Thread nD τ) (st2_3 t) fullShare X))) := by
  have h0 := finds2_0 V c t (Y 0) (hY 0)
  obtain ⟨d1, h1⟩ := finds2_1 V c t (Y 1) (hY 1)
  obtain ⟨d2, h2⟩ := finds2_2 V c t (Y 2) (hY 2)
  unfold bodyAt2
  rw [show (rd2 V c).Φ t.succ = (rd2 V c).Φ t.castSucc from rfl,
    show (rd2 V c).owesAt () t.succ = (rd2 V c).owesAt () t.castSucc from rfl]
  iintro ⟨HΦ, Ho, H0, H1, H2, H3⟩
  iapply (sound_kernel2 c Set.univ _ _ _ _ _ _ _ _ _ (Y 0) (Y 1) (Y 2) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]
  · iexists (Y 0); isplitr; · ipureintro; exact (after2_0 V c t _ _).mpr rfl
    iexact H0
  isplitl [H1]
  · iexists (Y 1); isplitr; · ipureintro; exact (after2_1 V c t _ _).mpr rfl
    iexact H1
  isplitl [H2]
  · iexists (Y 2); isplitr; · ipureintro; exact (after2_2 V c t _ _).mpr rfl
    iexact H2
  iexists (out2_3 (Y 0) (Y 1) (Y 2)); isplitr
  · ipureintro; exact (after2_3 V c t _ _).mpr ⟨d1, d2, by rw [h0, h1, h2]⟩
  iexact H3

/-- The relational body obligation, at every point. -/
theorem body_obligation2 (c : Dev nD) : (rd2 (F := F) V c).BodyObligation (defs₀ (F := F)) Variants.none () Set.univ := fun t Y hY => by
  rw [bigSep_W2, bigSep_W2]
  exact sound_body2 V c t Y hY

end Cert.KernelIdeal.Hand

end
-- ==== Proof.KIRun.lean ====
/- The run of the whole program through its three kernel regions, at any float instance: the buffers' contents at every boundary, the regions as segments of the run, and what every execution ends with. -/
import proofs.«149668_j82532091560494_2_alg».proof.Proof.KIRegion0
import proofs.«149668_j82532091560494_2_alg».proof.Proof.KIRegion1
import proofs.«149668_j82532091560494_2_alg».proof.Proof.KIRegion2
import proofs.«149668_j82532091560494_2_alg».proof.Proof.Gen.KernelIdeal.Regions
import Idealize.ShloMosaic.Lib.Pipeline.Kit
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! # The buffers' contents at each boundary of @main

@main is a stretch of host operations, the three kernel regions back to back, and two stretches of host operations.
The first two regions leave determined contents in their output arrays. The third leaves in the logits array SOME
contents `G` its 25 write-backs may produce (its last blocks overhang the arrays, so the body computes from words
nothing determines): from there on the contents are a function of `G`. -/

abbrev W0 : Dev nD → Valuation τ sig (Elt F) := fun c b => m (c, b)
abbrev W1 : Dev nD → Valuation τ sig (Elt F) := fun c => StableHlo.after hostOps0 (W0 m c)
abbrev V1 : (c : Dev nD) → (b : Ref sig .tc) → Buf (Elt F) ((c : Thread nD τ).loc b) := fun c b => W1 m c b
def W2 (c : Dev nD) : Valuation τ sig (Elt F) :=
  Pipeline.withArrays spec0 c (W1 m c) fun w => (dat0 (V1 m) c).arrAt w cfg0.N
theorem W2_arr (c : Dev nD) (w : Fin cfg0.W) :
    W2 m c (Proc.devRef .tc (Pipeline.arrRef spec0 w)) = (dat0 (V1 m) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m c (Proc.devRef .tc b) = W1 m c (Proc.devRef .tc b) := by
  unfold W2; exact Pipeline.withArrays_of_ne spec0 c _ _ b hb
abbrev V2 : (c : Dev nD) → (b : Ref sig .tc) → Buf (Elt F) ((c : Thread nD τ).loc b) := fun c b => W2 m c b
theorem hF0 (c : Dev nD) (w : Fin cfg0.W) : (dat0 (V1 m) c).arrAt w cfg0.N = V2 m c (Pipeline.arrRef spec0 w) :=
  (W2_arr m c w).symm
theorem hrest0 (c : Dev nD) : ∀ b, b ∉ Finset.univ.image (Pipeline.arrRef spec0) → V2 m c b = V1 m c b :=
  fun b hb => W2_of_ne m c b fun w e => hb (Finset.mem_image.mpr ⟨w, Finset.mem_univ _, e⟩)

def W3 (c : Dev nD) : Valuation τ sig (Elt F) :=
  Pipeline.withArrays spec1 c (W2 m c) fun w => (dat1 (V2 m) c).arrAt w cfg1.N
theorem W3_arr (c : Dev nD) (w : Fin cfg1.W) :
    W3 m c (Proc.devRef .tc (Pipeline.arrRef spec1 w)) = (dat1 (V2 m) c).arrAt w cfg1.N := by
  unfold W3; exact Pipeline.withArrays_arr spec1 launch1.win.arr_inj c _ _ w
theorem W3_of_ne (c : Dev nD) (b : Ref sig .tc) (hb : ∀ w, Pipeline.arrRef spec1 w ≠ b) :
    W3 m c (Proc.devRef .tc b) = W2 m c (Proc.devRef .tc b) := by
  unfold W3; exact Pipeline.withArrays_of_ne spec1 c _ _ b hb
abbrev V3 : (c : Dev nD) → (b : Ref sig .tc) → Buf (Elt F) ((c : Thread nD τ).loc b) := fun c b => W3 m c b
theorem hF1 (c : Dev nD) (w : Fin cfg1.W) : (dat1 (V2 m) c).arrAt w cfg1.N = V3 m c (Pipeline.arrRef spec1 w) :=
  (W3_arr m c w).symm
theorem hrest1 (c : Dev nD) : ∀ b, b ∉ Finset.univ.image (Pipeline.arrRef spec1) → V3 m c b = V2 m c b :=
  fun b hb => W3_of_ne m c b fun w e => hb (Finset.mem_image.mpr ⟨w, Finset.mem_univ _, e⟩)

/-- The contents of the logits array a run of the third region may end with. -/
abbrev Out2 (c : Dev nD) : Type := Buf (Elt F) ((cfg2.win 3).arr.view.loc (c.tc : Thread nD τ))
/-- What the 25 write-backs may leave there. -/
def Good (c : Dev nD) (G : Out2 (F := F) c) : Prop := (rd2 (V3 m) c).ArrAt 3 cfg2.N G

/-- The third region's arrays at its exit: the inputs as entered, the logits array at `G`. -/
def F2 (c : Dev nD) (G : Out2 (F := F) c) : (w : Fin cfg2.W) → Buf (Elt F) ((spec2 w).arr.view.loc (c.tc : Thread nD τ)) :=
  Function.update (fun w => V3 m c (Pipeline.arrRef spec2 w)) 3 G
def W4 (c : Dev nD) (G : Out2 (F := F) c) : Valuation τ sig (Elt F) :=
  Pipeline.withArrays spec2 c (W3 m c) (F2 m c G)
theorem W4_arr (c : Dev nD) (G : Out2 (F := F) c) (w : Fin cfg2.W) :
    W4 m c G (Proc.devRef .tc (Pipeline.arrRef spec2 w)) = F2 m c G w := by
  unfold W4; exact Pipeline.withArrays_arr spec2 launch2.win.arr_inj c _ _ w
theorem W4_of_ne (c : Dev nD) (G : Out2 (F := F) c) (b : Ref sig .tc) (hb : ∀ w, Pipeline.arrRef spec2 w ≠ b) :
    W4 m c G (Proc.devRef .tc b) = W3 m c (Proc.devRef .tc b) := by
  unfold W4; exact Pipeline.withArrays_of_ne spec2 c _ _ b hb
abbrev V4 (c : Dev nD) (G : Out2 (F := F) c) : (b : Ref sig .tc) → Buf (Elt F) ((c : Thread nD τ).loc b) := fun b => W4 m c G b
theorem hF2 (c : Dev nD) (G : Out2 (F := F) c) (w : Fin cfg2.W) : F2 m c G w = V4 m c G (Pipeline.arrRef spec2 w) :=
  (W4_arr m c G w).symm
theorem hrest2 (c : Dev nD) (G : Out2 (F := F) c) : ∀ b, b ∉ Finset.univ.image (Pipeline.arrRef spec2) → V4 m c G b = V3 m c b :=
  fun b hb => W4_of_ne m c G b fun w e => hb (Finset.mem_image.mpr ⟨w, Finset.mem_univ _, e⟩)
abbrev W5 (c : Dev nD) (G : Out2 (F := F) c) : Valuation τ sig (Elt F) := StableHlo.after hostOps3 (W4 m c G)
abbrev W6 (c : Dev nD) (G : Out2 (F := F) c) : Valuation τ sig (Elt F) := StableHlo.after hostOps3_1 (W5 m c G)

/-! # The proof data family and the thread state -/

/-- No pipeline has a prefetched table. -/
abbrev adm : (p : Fin 3) → (pcfgs (F := F) p).Adm := fun p => (cfgs p).toPCfg_adm

/-- Exact proof data standing in for the third pipeline's where only the arrays' shares are read (its `after` is
    never used). -/
def dat2s (c : Dev nD) : Dat τ (Elt F) Unit ℕ (UR sig nD τ) ℕ cfg2 c where
  A w := V3 m c (Pipeline.arrRef spec2 w)
  after w t := Dat.unnamed (cfg := cfg2) w t
  Φ _ := Pipeline.ΦA spec2 c
  q _ := fullShare
  owed _ := 0

/-- The exact proof data of the first two pipelines (and the stand-in), each at its region's entry contents. -/
def pdats : (p : Fin 3) → (c : Dev nD) → Dat τ (Elt F) Unit ℕ (UR sig nD τ) ℕ (Pipeline.pin (pcfgs (F := F)) adm p) c
  | ⟨0, _⟩ => fun c => dat0 (V1 m) c
  | ⟨1, _⟩ => fun c => dat1 (V2 m) c
  | ⟨2, _⟩ => fun c => dat2s m c
/-- Every pipeline's relational proof data: the first two read off their exact data, the third `rd2`. -/
def rdats : (p : Fin 3) → (c : Dev nD) → RDat τ (Elt F) Unit ℕ (UR sig nD τ) ℕ (Pipeline.pin (pcfgs (F := F)) adm p) c
  | ⟨0, _⟩ => fun c => (dat0 (V1 m) c).toR
  | ⟨1, _⟩ => fun c => (dat1 (V2 m) c).toR
  | ⟨2, _⟩ => fun c => rd2 (V3 m) c
abbrev 𝒱₀ : Variants := Variants.none
abbrev L : GSem nD τ sig → Finset Unit := fun _ => ∅
abbrev lv : GSem nD τ sig → Unit → ℕ := fun _ _ => 0
/-- What rides beside the buffers: the generator register at some state, and nothing owed. -/
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

/-- A stretch of host operations run from contents that depend on what the third region left: for whichever `G` the
    state holds, it is the stretch run from `Wf c G`. -/
def hsegE (ops : List (HloOp τ sig (Elt F))) (hsub : ops.Forall fun op => op.bufs ⊆ StableHlo.tcRefs τ sig)
    (hfresh : ops.Forall fun op => op.fresh = ∅) (Wf : (c : Dev nD) → Out2 (F := F) c → Valuation τ sig (Elt F)) :
    Pipeline.HostSeg (Name := ℕ) (U := UR sig nD τ) (pcfgs (F := F)) defs₀ 𝒱₀ L lv where
  prog := StableHlo.seq ops
  pre c := iprop(∃ G, ⌜Good m c G⌝ ∗ StableHlo.held (c : Thread nD τ) (Pipeline.ucRefs τ sig) (Wf c G) ∗ R c)
  post c := iprop(∃ G, ⌜Good m c G⌝ ∗ StableHlo.held (c : Thread nD τ) (Pipeline.ucRefs τ sig) (StableHlo.after ops (Wf c G)) ∗ R c)
  run c {β} k K := by
    iintro ⟨Hk, Hbd, ⟨%G, %hG, Hh, HR⟩, -⟩
    have hseq := StableHlo.wp_seq (defs := Pipeline.defs (pcfgs (F := F)) defs₀) (Variants.lift 𝒱₀) none Set.univ c (Pipeline.ucRefs τ sig) k (K := K) ops
      (fun op h => Pipeline.sub_ucRefs op ((List.forall_iff_forall_mem.mp hsub) op h))
      (fun op h => (List.forall_iff_forall_mem.mp hfresh) op h) (Wf c G)
    iapply hseq $$ [Hbd Hh]
    · isplitl [Hbd] <;> iassumption
    iintro ⟨Hbd, Hh⟩
    iapply Hk
    isplitl [Hbd]; · iexact Hbd
    iexists G; isplitr; · ipureintro; exact hG
    isplitl [Hh]; · iexact Hh
    iexact HR

theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

/-! # The regions as segments -/

set_option backward.isDefEq.respectTransparency.types false in
/-- Region 0: entered from every unscoped buffer at its entry contents, left at those with its arrays at what the
    write-backs leave. Its arrays are split out of the unscoped buffers at entry and put back at exit; the generator
    register goes into the invariant and comes back; nothing is owed; the kernel has no semaphore of its own. -/
def reg0 : Pipeline.RDat.RegionSeg (pcfgs (F := F)) adm (rdats m) () defs₀ 𝒱₀ L lv 0 where
  win := launch0.win.to₀
  block_pos := launch0.block_pos
  stage_whole := launch0.stage_whole
  K := PEmpty
  osem k := k.elim
  ho := Pipeline.OwnSemFacts.none _
  hbody c := ((body_obligation0 (V1 m) c).loose).toR
  hwaits := Pipeline.RDat.hwaits_of_owed_zero _ _ _ _ L lv 0 fun _ _ => rfl
  pre c := iprop(StableHlo.held (c : Thread nD τ) (Pipeline.ucRefs τ sig) (W1 m c) ∗ R c)
  post c := iprop(StableHlo.held (c : Thread nD τ) (Pipeline.ucRefs τ sig) (W2 m c) ∗ R c)
  X c := iprop(∃ r, prngReg c r)
  Y c := iprop(∃ r, prngReg c r)
  Z c := Pipeline.unscopedRest (Ix := Unit) (Name := ℕ) (U := UR sig nD τ) (Lvl := ℕ) spec0 c (V1 m c)
  hentry c := by
    rw [Pipeline.ownSems0_none]
    have hsplit := Pipeline.RDat.arrays_of_unscopedBufs (p := 0) (pcfgs (F := F)) adm (rdats m) launch0.win launch0.arr_whole c
      ((rdats m 0 c).share_full fun _ => rfl) (V1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.RDat.owesAt Pipeline.owesWithin
      icases HO with ⟨%W, HO⟩; iexists W; isplitr; · ipureintro; exact fun _ _ => Or.inl trivial
      iexact HO
    isplitl [Hp]; · iexact Hp
    iexact Hrest
  hin c := by
    rw [show (rdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (rdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (V1 m c) (V2 m c) ((pdats m 0 c).arrAt · cfg0.N) (hF0 m c) (hrest0 m c)
    rw [Pipeline.unscopedBufs_held] at hjoin
    refine (sep_mono (Entails.of_eq ((pdats m 0 c).toR_arraysAt_eq (Pipeline.pin (pcfgs (F := F)) adm 0).N)) .rfl).trans ?_
    iintro ⟨Ha, HO, HY, Hrest⟩
    imodintro
    isplitl [Ha Hrest]
    · iapply hjoin; isplitl [Ha] <;> iassumption
    isplitl [HY]; · iexact HY
    unfold Pipeline.RDat.owesAt Pipeline.owesWithin
    icases HO with ⟨%W, -, HO⟩; iexists W; iexact HO

set_option backward.isDefEq.respectTransparency.types false in
/-- Region 1: entered from every unscoped buffer at its entry contents, left at those with its arrays at what the
    write-backs leave. Its arrays are split out of the unscoped buffers at entry and put back at exit; the generator
    register goes into the invariant and comes back; nothing is owed; the kernel has no semaphore of its own. -/
def reg1 : Pipeline.RDat.RegionSeg (pcfgs (F := F)) adm (rdats m) () defs₀ 𝒱₀ L lv 1 where
  win := launch1.win.to₀
  block_pos := launch1.block_pos
  stage_whole := launch1.stage_whole
  K := PEmpty
  osem k := k.elim
  ho := Pipeline.OwnSemFacts.none _
  hbody c := ((body_obligation1 (V2 m) c).loose).toR
  hwaits := Pipeline.RDat.hwaits_of_owed_zero _ _ _ _ L lv 1 fun _ _ => rfl
  pre c := iprop(StableHlo.held (c : Thread nD τ) (Pipeline.ucRefs τ sig) (W2 m c) ∗ R c)
  post c := iprop(StableHlo.held (c : Thread nD τ) (Pipeline.ucRefs τ sig) (W3 m c) ∗ R c)
  X c := iprop(∃ r, prngReg c r)
  Y c := iprop(∃ r, prngReg c r)
  Z c := Pipeline.unscopedRest (Ix := Unit) (Name := ℕ) (U := UR sig nD τ) (Lvl := ℕ) spec1 c (V2 m c)
  hentry c := by
    rw [Pipeline.ownSems0_none]
    have hsplit := Pipeline.RDat.arrays_of_unscopedBufs (p := 1) (pcfgs (F := F)) adm (rdats m) launch1.win launch1.arr_whole c
      ((rdats m 1 c).share_full fun _ => rfl) (V2 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.RDat.owesAt Pipeline.owesWithin
      icases HO with ⟨%W, HO⟩; iexists W; isplitr; · ipureintro; exact fun _ _ => Or.inl trivial
      iexact HO
    isplitl [Hp]; · iexact Hp
    iexact Hrest
  hin c := by
    rw [show (rdats m 1 c).Φ 0 = Pipeline.ΦA spec1 c from rfl]; unfold Pipeline.ΦA
    iintro ⟨Hp, -, Hr⟩
    isplitl [Hr]; · iexact Hr
    iexact Hp
  hout c := by
    rw [Pipeline.ownSems0_none, show (rdats m 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (V2 m c) (V3 m c) ((pdats m 1 c).arrAt · cfg1.N) (hF1 m c) (hrest1 m c)
    rw [Pipeline.unscopedBufs_held] at hjoin
    refine (sep_mono (Entails.of_eq ((pdats m 1 c).toR_arraysAt_eq (Pipeline.pin (pcfgs (F := F)) adm 1).N)) .rfl).trans ?_
    iintro ⟨Ha, HO, HY, Hrest⟩
    imodintro
    isplitl [Ha Hrest]
    · iapply hjoin; isplitl [Ha] <;> iassumption
    isplitl [HY]; · iexact HY
    unfold Pipeline.RDat.owesAt Pipeline.owesWithin
    icases HO with ⟨%W, -, HO⟩; iexists W; iexact HO

theorem isOut2 : ∀ w : Fin cfg2.W, w ≠ 3 → (cfg2.win w).isOut = false := by decide

set_option backward.isDefEq.respectTransparency.types false in
/-- Region 2 (the gridded output projection): entered from every unscoped buffer at `W3`, left — for SOME contents
    `G` of the logits array that its write-backs may produce — at `W4 G`. -/
def reg2 : Pipeline.RDat.RegionSeg (pcfgs (F := F)) adm (rdats m) () defs₀ 𝒱₀ L lv 2 where
  win := launch2.win.to₀
  block_pos := launch2.block_pos
  stage_whole := launch2.stage_whole
  K := PEmpty
  osem k := k.elim
  ho := Pipeline.OwnSemFacts.none _
  hbody c := body_obligation2 (V3 m) c
  hwaits := Pipeline.RDat.hwaits_of_owed_zero _ _ _ _ L lv 2 fun _ _ => rfl
  pre c := iprop(StableHlo.held (c : Thread nD τ) (Pipeline.ucRefs τ sig) (W3 m c) ∗ R c)
  post c := iprop(∃ G, ⌜Good m c G⌝ ∗ StableHlo.held (c : Thread nD τ) (Pipeline.ucRefs τ sig) (W4 m c G) ∗ R c)
  X c := iprop(∃ r, prngReg c r)
  Y c := iprop(∃ r, prngReg c r)
  Z c := Pipeline.unscopedRest (Ix := Unit) (Name := ℕ) (U := UR sig nD τ) (Lvl := ℕ) spec2 c (V3 m c)
  hentry c := by
    rw [Pipeline.ownSems0_none]
    have hsplit := Pipeline.RDat.arrays_of_unscopedBufs (p := 2) (pcfgs (F := F)) adm (rdats m) launch2.win launch2.arr_whole c
      ((rdats m 2 c).share_full fun _ => rfl) (V3 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.RDat.owesAt Pipeline.owesWithin
      icases HO with ⟨%W, HO⟩; iexists W; isplitr; · ipureintro; exact fun _ _ => Or.inl trivial
      iexact HO
    isplitl [Hp]; · iexact Hp
    iexact Hrest
  hin c := by
    rw [show (rdats m 2 c).Φ 0 = Pipeline.ΦA spec2 c from rfl]; unfold Pipeline.ΦA
    iintro ⟨Hp, -, Hr⟩
    isplitl [Hr]; · iexact Hr
    iexact Hp
  hout c := by
    rw [Pipeline.ownSems0_none, show (rdats m 2 c).Φ (Fin.last _) = Pipeline.ΦA spec2 c from rfl]; unfold Pipeline.ΦA
    iintro ⟨Hr, Hp⟩
    isplitl [Hp]; · iexact Hp
    isplitr; · iempintro
    iexact Hr
  hexit c := by
    -- each array is held at some contents its write-backs may leave: an input's are its entry contents
    have hin : ∀ (w : Fin cfg2.W), w ≠ 3 → ∀ Fw, (rd2 (V3 m) c).ArrAt w cfg2.N Fw → Fw = V3 m c (Pipeline.arrRef spec2 w) := by
      intro w hw Fw h
      have hio : (cfg2.win w).isOut = false := isOut2 w hw
      rw [(rd2 (V3 m) c).ArrAt_in w hio] at h
      exact h.trans (A_eq2 (V3 m) c w)
    refine (sep_mono (Entails.of_eq (show (rdats m 2 c).arraysAt (Pipeline.pin (pcfgs (F := F)) adm 2).N = (rd2 (V3 m) c).arraysAt cfg2.N from rfl)) .rfl).trans ?_
    unfold Pipeline.RDat.arraysAt
    rw [bigSep_W2]
    iintro ⟨⟨⟨%F0, %h0, H0⟩, ⟨%F1, %h1, H1⟩, ⟨%F2', %h2, H2⟩, ⟨%G, %hG, H3⟩⟩, HO, HY, Hrest⟩
    obtain rfl := hin 0 (by decide) F0 h0
    obtain rfl := hin 1 (by decide) F1 h1
    obtain rfl := hin 2 (by decide) F2' h2
    have hjoin := Pipeline.unscopedBufs_of_arrays (p := 2) (pcfgs (F := F)) adm (Ix := Unit) (Name := ℕ) (U := UR sig nD τ) (Lvl := ℕ)
      launch2.win launch2.arr_whole c (pdats m) ((pdats m 2 c).share_full fun _ => rfl)
      (V3 m c) (V4 m c G) (F2 m c G) (hF2 m c G) (hrest2 m c G)
    rw [Pipeline.unscopedBufs_held] at hjoin
    imodintro
    iexists G
    isplitr; · ipureintro; exact hG
    isplitl [H0 H1 H2 H3 Hrest]
    · iapply hjoin
      isplitr [Hrest]
      · rw [show (pdats m 2 c).arrays (F2 m c G) = ((rd2 (V3 m) c).arrays (F2 m c G) : sProp 𝕄) from rfl]
        unfold Pipeline.RDat.arrays
        rw [bigSep_W2]
        isplitl [H0]; · iexact H0
        isplitl [H1]; · iexact H1
        isplitl [H2]; · iexact H2
        iexact H3
      iexact Hrest
    isplitl [HY]; · iexact HY
    unfold Pipeline.RDat.owesAt Pipeline.owesWithin
    icases HO with ⟨%W, -, HO⟩; iexists W; iexact HO

/-! # @main as segments, and the run -/

abbrev segs : List (Pipeline.RDat.Seg (pcfgs (F := F)) adm (rdats m) () defs₀ 𝒱₀ L lv) :=
  [ .host (hseg hostOps0 hostOps0_sub hostOps0_fresh (W0 m)),
    .region (reg0 m),
    .region (reg1 m),
    .region (reg2 m),
    .host (hsegE m hostOps3 hostOps3_sub hostOps3_fresh (W4 m)),
    .host (hsegE m hostOps3_1 hostOps3_1_sub hostOps3_1_fresh (W5 m)) ]

/-- What the run ends with on core `c`: for some contents `G` the third region may leave, every unscoped buffer holds
    the last boundary's contents `W6 G`. -/
def Ends (c : Dev nD) (s : MemSt nD τ sig (Elt F)) : Prop :=
  ∃ G : Out2 (F := F) c, Good m c G ∧ ∀ b ∈ Pipeline.ucRefs τ sig, s.mem (((c : Thread nD τ)).1, b) = W6 m c G b

abbrev Tₙ (c : Dev nD) : sProp 𝕄 :=
  iprop(∃ G, ⌜Good m c G⌝ ∗ StableHlo.held (c : Thread nD τ) (Pipeline.ucRefs τ sig) (W6 m c G) ∗ ∃ r, prngReg c r)

set_option backward.isDefEq.respectTransparency.types false in
/-- THE RUN, at any float instance: from any memory with zero counters every weakly fair execution of @main
    terminates, nothing faulting, and every final memory satisfies whatever follows from `Ends` on every core. -/
theorem run_main {Q : PUnit × MemSt nD τ sig (Elt F) → Prop}
    (hQ : ∀ s : MemSt nD τ sig (Elt F), (∀ c : Dev nD, Ends m c s) → Q (⟨⟩, s)) :
    θ_run defs (onTc (τ := τ) (main (F := F))) ⟨m, fun _ => 0, ρ⟩ Q :=
  Pipeline.RDat.θ_run_regions_kit (pcfgs (F := F)) adm (rdats m) () cellOf_inj emb₁ defs₀ 𝒱₀ L lv m ρ main (segs m)
    (fun c Q => by
      rewrite [main_chain c, Pipeline.RDat.Seg.run_eq_chain,
        show (segs m).map Pipeline.RDat.Seg.prog = [
          StableHlo.seq hostOps0,
          Prog.lift (.customCall (Pipeline.entry 0) ()),
          Prog.lift (.customCall (Pipeline.entry 1) ()),
          Prog.lift (.customCall (Pipeline.entry 2) ()),
          StableHlo.seq hostOps3,
          StableHlo.seq hostOps3_1 ] from rfl]
      exact .rfl)
    (by simp only [segs, Pipeline.RDat.Seg.pipes_host, Pipeline.RDat.Seg.pipes_region, Pipeline.RDat.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ R c)) (Tₙ := Tₙ m)
    (hch := ⟨fun _ => .rfl, fun _ => .rfl, fun _ => .rfl, fun _ => .rfl, fun _ => .rfl, fun _ => .rfl, fun c => by
      show (iprop(∃ G, ⌜Good m c G⌝ ∗ StableHlo.held (c : Thread nD τ) (Pipeline.ucRefs τ sig) (W6 m c G) ∗ R c) : sProp 𝕄) ⊢ _
      iintro ⟨%G, %hG, Hh, Hp, HO⟩
      isplitr [HO]
      · iexists G; isplitr; · ipureintro; exact hG
        isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := Ends m)
    (hfin := fun c s' => by
      iintro ⟨⟨%G, %hG, Hh, -⟩, HSI⟩
      unfold StableHlo.held
      ihave Hr := (pointsTo_read_all (Pipeline.ucRefs τ sig) (fun b => (((c : Thread nD τ)).1, b)) (W6 m c G) s') $$ [Hh HSI]
      · isplitl [Hh] <;> iassumption
      icases Hr with ⟨%h, HSI⟩
      imodintro
      isplitr
      · ipureintro; exact ⟨G, hG, h⟩
      · iexact HSI)
    (hQ := hQ)

end Cert.KernelIdeal.Hand

end
-- ==== Proof.KIFrame.lean ====
/- Every argument array ends holding its launch contents, at any float instance. -/
import proofs.«149668_j82532091560494_2_alg».proof.Proof.KIRun
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! # What no item of @main writes ends as launched

A buffer that no stretch of host operations writes and that is no output array of a region holds its launch contents
at every boundary: a region leaves its input arrays and every buffer it does not window as it found them. -/

theorem isOut0 : ∀ w : Fin cfg0.W, w ≠ 7 → w ≠ 8 → (cfg0.win w).isOut = false := by decide
theorem isOut1 : ∀ w : Fin cfg1.W, w ≠ 6 → (cfg1.win w).isOut = false := by decide

theorem W2_keep (c : Dev nD) (r : Ref sig .tc) (h7 : r ≠ main_v13_0) (h8 : r ≠ main_v13_1) :
    W2 m c (Proc.devRef .tc r) = W1 m c (Proc.devRef .tc r) := by
  by_cases h : ∃ w, Pipeline.arrRef spec0 w = r
  · obtain ⟨w, rfl⟩ := h
    have hw7 : w ≠ 7 := fun e => h7 (e ▸ rfl)
    have hw8 : w ≠ 8 := fun e => h8 (e ▸ rfl)
    exact (W2_arr m c w).trans (((dat0 (V1 m) c).arrAt_in w (isOut0 w hw7 hw8) _).trans (A_eq0 (V1 m) c w))
  · exact W2_of_ne m c r fun w e => h ⟨w, e⟩

theorem W3_keep (c : Dev nD) (r : Ref sig .tc) (h6 : r ≠ main_v14) :
    W3 m c (Proc.devRef .tc r) = W2 m c (Proc.devRef .tc r) := by
  by_cases h : ∃ w, Pipeline.arrRef spec1 w = r
  · obtain ⟨w, rfl⟩ := h
    have hw6 : w ≠ 6 := fun e => h6 (e ▸ rfl)
    exact (W3_arr m c w).trans (((dat1 (V2 m) c).arrAt_in w (isOut1 w hw6) _).trans (A_eq1 (V2 m) c w))
  · exact W3_of_ne m c r fun w e => h ⟨w, e⟩

theorem W4_keep (c : Dev nD) (G : Out2 (F := F) c) (r : Ref sig .tc) (h3 : r ≠ main_v15) :
    W4 m c G (Proc.devRef .tc r) = W3 m c (Proc.devRef .tc r) := by
  by_cases h : ∃ w, Pipeline.arrRef spec2 w = r
  · obtain ⟨w, rfl⟩ := h
    have hw3 : w ≠ 3 := fun e => h3 (e ▸ rfl)
    rw [W4_arr]; unfold F2; rw [Function.update_of_ne hw3]
  · exact W4_of_ne m c G r fun w e => h ⟨w, e⟩

/-- The logits array after the third region is what the region left. -/
theorem W4_out (c : Dev nD) (G : Out2 (F := F) c) : W4 m c G (Proc.devRef .tc main_v15) = G := by
  refine (W4_arr m c G 3).trans ?_
  unfold F2; rw [Function.update_self]

theorem W6_keep (c : Dev nD) (G : Out2 (F := F) c) (r : Ref sig .tc) (h5 : r ∉ hostOps3_1_W) (h4 : r ∉ hostOps3_W)
    (h3 : r ≠ main_v15) (h2 : r ≠ main_v14) (h1a : r ≠ main_v13_0) (h1b : r ≠ main_v13_1) (h0 : r ∉ hostOps0_W) :
    W6 m c G (Proc.devRef .tc r) = m ((c : Thread nD τ).loc r) :=
  (StableHlo.after_of_writes_sub hostOps3_1 _ hostOps3_1_writes h5).trans <|
  (StableHlo.after_of_writes_sub hostOps3 _ hostOps3_writes h4).trans <|
  (W4_keep m c G r h3).trans <| (W3_keep m c r h2).trans <| (W2_keep m c r h1a h1b).trans <|
  (StableHlo.after_of_writes_sub hostOps0 _ hostOps0_writes h0).trans rfl

/-- THE FRAME, at any float instance: every argument array ends as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧       r.2.mem ((c.tc : Thread nD τ).loc main_arg1) = m ((c.tc : Thread nD τ).loc main_arg1)
      ∧       r.2.mem ((c.tc : Thread nD τ).loc main_arg2) = m ((c.tc : Thread nD τ).loc main_arg2)
      ∧       r.2.mem ((c.tc : Thread nD τ).loc main_arg3) = m ((c.tc : Thread nD τ).loc main_arg3)
      ∧       r.2.mem ((c.tc : Thread nD τ).loc main_arg4) = m ((c.tc : Thread nD τ).loc main_arg4)
      ∧       r.2.mem ((c.tc : Thread nD τ).loc main_arg5) = m ((c.tc : Thread nD τ).loc main_arg5)
      ∧       r.2.mem ((c.tc : Thread nD τ).loc main_arg6) = m ((c.tc : Thread nD τ).loc main_arg6)
      ∧       r.2.mem ((c.tc : Thread nD τ).loc main_arg7) = m ((c.tc : Thread nD τ).loc main_arg7)
      ∧       r.2.mem ((c.tc : Thread nD τ).loc main_arg8) = m ((c.tc : Thread nD τ).loc main_arg8)
      ∧       r.2.mem ((c.tc : Thread nD τ).loc main_arg9) = m ((c.tc : Thread nD τ).loc main_arg9)
      ∧       r.2.mem ((c.tc : Thread nD τ).loc main_arg10) = m ((c.tc : Thread nD τ).loc main_arg10)
      ∧       r.2.mem ((c.tc : Thread nD τ).loc main_arg11) = m ((c.tc : Thread nD τ).loc main_arg11)
      ∧       r.2.mem ((c.tc : Thread nD τ).loc main_arg12) = m ((c.tc : Thread nD τ).loc main_arg12)
      ∧       r.2.mem ((c.tc : Thread nD τ).loc main_arg13) = m ((c.tc : Thread nD τ).loc main_arg13)) :=
  run_main m ρ fun s h c => by
    obtain ⟨G, -, hs⟩ := h c
    exact ⟨(hs _ (mem_uc main_arg0 (by decide))).trans (W6_keep m c G main_arg0 (by decide) (by decide) (by decide) (by decide) (by decide) (by decide) (by decide)),
      (hs _ (mem_uc main_arg1 (by decide))).trans (W6_keep m c G main_arg1 (by decide) (by decide) (by decide) (by decide) (by decide) (by decide) (by decide)),
      (hs _ (mem_uc main_arg2 (by decide))).trans (W6_keep m c G main_arg2 (by decide) (by decide) (by decide) (by decide) (by decide) (by decide) (by decide)),
      (hs _ (mem_uc main_arg3 (by decide))).trans (W6_keep m c G main_arg3 (by decide) (by decide) (by decide) (by decide) (by decide) (by decide) (by decide)),
      (hs _ (mem_uc main_arg4 (by decide))).trans (W6_keep m c G main_arg4 (by decide) (by decide) (by decide) (by decide) (by decide) (by decide) (by decide)),
      (hs _ (mem_uc main_arg5 (by decide))).trans (W6_keep m c G main_arg5 (by decide) (by decide) (by decide) (by decide) (by decide) (by decide) (by decide)),
      (hs _ (mem_uc main_arg6 (by decide))).trans (W6_keep m c G main_arg6 (by decide) (by decide) (by decide) (by decide) (by decide) (by decide) (by decide)),
      (hs _ (mem_uc main_arg7 (by decide))).trans (W6_keep m c G main_arg7 (by decide) (by decide) (by decide) (by decide) (by decide) (by decide) (by decide)),
      (hs _ (mem_uc main_arg8 (by decide))).trans (W6_keep m c G main_arg8 (by decide) (by decide) (by decide) (by decide) (by decide) (by decide) (by decide)),
      (hs _ (mem_uc main_arg9 (by decide))).trans (W6_keep m c G main_arg9 (by decide) (by decide) (by decide) (by decide) (by decide) (by decide) (by decide)),
      (hs _ (mem_uc main_arg10 (by decide))).trans (W6_keep m c G main_arg10 (by decide) (by decide) (by decide) (by decide) (by decide) (by decide) (by decide)),
      (hs _ (mem_uc main_arg11 (by decide))).trans (W6_keep m c G main_arg11 (by decide) (by decide) (by decide) (by decide) (by decide) (by decide) (by decide)),
      (hs _ (mem_uc main_arg12 (by decide))).trans (W6_keep m c G main_arg12 (by decide) (by decide) (by decide) (by decide) (by decide) (by decide) (by decide)),
      (hs _ (mem_uc main_arg13 (by decide))).trans (W6_keep m c G main_arg13 (by decide) (by decide) (by decide) (by decide) (by decide) (by decide) (by decide))⟩

end Cert.KernelIdeal.Hand

end
-- ==== Proof.LogitsSpec.lean ====
import Idealize.ShloMosaic.PureOps.Ideal
import Idealize.ShloMosaic.Lib.ValueIdx
import proofs.«149668_j82532091560494_2_alg».proof.KernelIdeal

/-! The output projection as one whole-array formula: entry `(0, o)` of the logits is the
contraction of the hidden row with row `o` of the weight matrix, plus the bias entry. -/

open Idealize.ShloMosaic

namespace Cert.Bridge

noncomputable def logits (h : FVec Ideal Cert.KernelIdeal.S1x1024 .f32)
    (W : FVec Ideal Cert.KernelIdeal.S50257x1024 .f32)
    (b : FVec Ideal Cert.KernelIdeal.S1x50257 .f32) : FVec Ideal Cert.KernelIdeal.S1x50257 .f32 :=
  fun i => (∑ k : Fin 1024, h (ValueIdx.ix2 0 k) * W (ValueIdx.ix2 (i 1) k)) + b i

end Cert.Bridge
-- ==== Proof.LibRowRowDot.lean ====
/-
  A contraction of two matrices along their rows' common axis: `[n, k] × [m, k] → [n, m]`, entry `(p, o)` the inner
  product of row `p` of the left operand with row `o` of the right (a product with the right operand's transpose that
  never forms the transpose). Read at an index on the extended reals: for any contraction record with those
  dimension numbers, and for a matrix unit's product into the zero accumulator.
-/
import Idealize.ShloMosaic.PureOps.Ideal.Laws
import Idealize.ShloMosaic.Lib.ValueIdx

noncomputable section

open scoped BigOperators

namespace Cert.LibRowRowDot

open Idealize.ShloMosaic Idealize.ShloMosaic.ValueIdx

/-- The sum over the contraction index is the sum over the one contracted coordinate j, the left operand read at
    (p, j) and the right at (o, j). -/
theorem sum_contr_rows {n k m : ℕ} (D : DotDims ⟨2, ![n, k]⟩ ⟨2, ![m, k]⟩ ⟨2, ![n, m]⟩)
    (hlc : D.lhsContracting = [1]) (hrc : D.rhsContracting = [1]) (hln : D.lhsNonContracting = [0]) (hrn : D.rhsNonContracting = [0])
    (hlb : D.lhsBatch = []) (hrb : D.rhsBatch = [])
    (lhs : (⟨2, ![n, k]⟩ : Shape).Idx → EReal) (rhs : (⟨2, ![m, k]⟩ : Shape).Idx → EReal) (p : Fin n) (o : Fin m) :
    ∑ q : D.contr.Idx, lhs (D.lhsIdx (ix2 p o) q) * rhs (D.rhsIdx (ix2 p o) q) = ∑ j : Fin k, lhs (ix2 p j) * rhs (ix2 o j) := by
  obtain ⟨lc, rc, ln, rn, lb, rb, wf⟩ := D
  simp only at hlc hrc hln hrn hlb hrb
  subst hlc hrc hln hrn hlb hrb
  rw [← Equiv.sum_comp (contrEquiv1 (DotDims.mk [1] [1] [0] [0] [] [] wf) k rfl rfl).symm]
  refine Finset.sum_congr rfl fun j _ => ?_
  have hk := contrEquiv1_symm_val (DotDims.mk [1] [1] [0] [0] [] [] wf) k rfl rfl j
  have el : (DotDims.mk [1] [1] [0] [0] [] [] wf).lhsIdx (ix2 p o) ((contrEquiv1 (DotDims.mk [1] [1] [0] [0] [] [] wf) k rfl rfl).symm j) = ix2 p j :=
    funext fun a => Fin.ext (by
      match a with
      | ⟨0, _⟩ => rfl
      | ⟨1, _⟩ => exact ((DotDims.mk [1] [1] [0] [0] [] [] wf).lhsIdx_val_of_single rfl _ _).trans hk)
  have er : (DotDims.mk [1] [1] [0] [0] [] [] wf).rhsIdx (ix2 p o) ((contrEquiv1 (DotDims.mk [1] [1] [0] [0] [] [] wf) k rfl rfl).symm j) = ix2 o j :=
    funext fun a => Fin.ext (by
      match a with
      | ⟨0, _⟩ => rfl
      | ⟨1, _⟩ => exact ((DotDims.mk [1] [1] [0] [0] [] [] wf).rhsIdx_val_of_single rfl _ _).trans hk)
  rw [el, er]

/-- A matrix unit's product of rows against rows into the zero accumulator, at (p, o). -/
theorem matmul_zero_rows_apply {n k m : ℕ} {φ₁ φ₂ : FTy} (D : DotDims ⟨2, ![n, k]⟩ ⟨2, ![m, k]⟩ ⟨2, ![n, m]⟩)
    (hlc : D.lhsContracting = [1]) (hrc : D.rhsContracting = [1]) (hln : D.lhsNonContracting = [0]) (hrn : D.rhsNonContracting = [0])
    (hlb : D.lhsBatch = []) (hrb : D.rhsBatch = []) (prec : Option ContractPrecision)
    (lhs : FVec Ideal ⟨2, ![n, k]⟩ φ₁) (rhs : FVec Ideal ⟨2, ![m, k]⟩ φ₂) (p : Fin n) (o : Fin m) :
    FloatOps.matmul D prec lhs rhs (constant ⟨2, ![n, m]⟩ .f32 0x00000000#32) (ix2 p o) = ∑ j : Fin k, lhs (ix2 p j) * rhs (ix2 o j) :=
  (Ideal.matmul_constant_zero_apply D prec lhs rhs (ix2 p o)).trans (sum_contr_rows D hlc hrc hln hrn hlb hrb lhs rhs p o)

end Cert.LibRowRowDot

end
-- ==== Proof.KIValue2.lean ====
/- The output projection's result array after the run, at the ideal values: the logits of the hidden row, the matrix and
   the bias row, column by column, whatever the clipped last blocks' staging buffers held past their arrays' ends. -/
import proofs.«149668_j82532091560494_2_alg».proof.Proof.KIRegion2
import proofs.«149668_j82532091560494_2_alg».proof.Proof.LogitsSpec
import proofs.«149668_j82532091560494_2_alg».proof.Proof.LibRowRowDot
import Idealize.ShloMosaic.Lib.Pipeline.Value
import Idealize.ShloMosaic.Lib.ValueIdx
import Idealize.ShloMosaic.Lib.Pipeline.Cells

set_option maxRecDepth 16384

noncomputable section

open scoped BigOperators

namespace Cert.KernelIdeal.Hand

open Cert.KernelIdeal Cert.KernelIdeal.Gen
open Idealize.ShloMosaic Idealize.ShloMosaic.TcCoe Idealize.ShloMosaic.ValueIdx
open Idealize.ShloMosaic.Pipeline (Dat RDat Cfg Window)

/-- One entry of the block of logits a grid point computes: the hidden row against row r of the matrix block, plus
    entry r of the bias block. -/
theorem pay2_apply (v0 : Vec Ideal S1x1024 .f32) (v3 : Vec Ideal S2048x1024 .f32) (v6 : Vec Ideal S1x2048 .f32) (r : Fin 2048) :
    k2_pay1 (F := Ideal) v0 v3 v6 (ix2 0 r) = (∑ k : Fin 1024, v0 (ix2 0 k) * v3 (ix2 r k)) + v6 (ix2 0 r) := by
  unfold k2_pay1
  rw [addf_apply, shapeCast_self, shapeCast_self]
  refine congrArg₂ (· + ·) ?_ rfl
  exact Cert.LibRowRowDot.matmul_zero_rows_apply _ rfl rfl rfl rfl rfl rfl none _ _ 0 r

/-- The printed index maps and cuts of the four windows, decided once over the grid: the hidden row's block is the whole
    row; at point t the matrix block is rows 2048 t onward, the bias block and the result block are columns 2048 t onward,
    and each is cut to the min 2048 (50257 - 2048 t) rows or columns that lie inside its array. -/
theorem idx_facts2 : ∀ t : Fin cfg2.N,
    win2_0.index t (0 : Fin 2) = 0 ∧ win2_0.index t (1 : Fin 2) = 0
    ∧ win2_1.index t (0 : Fin 2) = t.val ∧ win2_1.index t (1 : Fin 2) = 0
    ∧ win2_2.index t (0 : Fin 2) = 0 ∧ win2_2.index t (1 : Fin 2) = t.val
    ∧ win2_3.index t (0 : Fin 2) = 0 ∧ win2_3.index t (1 : Fin 2) = t.val
    ∧ win2_1.xsize (grid2.coords t) (0 : Fin 2) = min 2048 (50257 - 2048 * t.val) ∧ win2_1.xsize (grid2.coords t) (1 : Fin 2) = 1024
    ∧ win2_2.xsize (grid2.coords t) (0 : Fin 2) = 1 ∧ win2_2.xsize (grid2.coords t) (1 : Fin 2) = min 2048 (50257 - 2048 * t.val)
    ∧ win2_3.xsize (grid2.coords t) (0 : Fin 2) = 1 ∧ win2_3.xsize (grid2.coords t) (1 : Fin 2) = min 2048 (50257 - 2048 * t.val) :=
  (by decide +kernel : ∀ t : Fin grid2.N, _)

theorem lt25 (t : Fin cfg2.N) : t.val < 25 := lt_of_lt_of_eq t.isLt N_2

theorem hz2 : (![0, 0] : Fin 2 → Nat) = fun _ => 0 := funext fun a => by fin_cases a <;> rfl

/-- On the part a transfer moves, a filled block is what it was filled with. -/
theorem fill_apply_of_lt {G : Pipeline.Grid} {α : Type} (w : Window sig G) (i : G.Coords) (d : w.block.Idx → α)
    (g : (w.xblock i).Idx → α) (j : w.block.Idx) (h : ∀ a, (j a).val < w.xsize i a) :
    w.fill i d g j = g (fun a => ⟨(j a).val, h a⟩) := by
  unfold Window.fill; rw [dif_pos ((w.moved_iff i j).mpr h)]

variable (V : (c : Dev nD) → (b : Ref sig .tc) → Buf (Elt Ideal) ((c : Thread nD τ).loc b))

/-- The logits of the arrays as the region finds them. -/
def logits2 (c : Dev nD) : Buf (Elt Ideal) ((cfg2.win 3).arr.view.loc (c.tc : Thread nD τ)) :=
  Cert.Bridge.logits (V c (Pipeline.arrRef spec2 0)) (V c (Pipeline.arrRef spec2 1)) (V c (Pipeline.arrRef spec2 2))

/-- What a write-back at point u writes is the logits read through the result's block there, whatever filled out the
    matrix block and the bias block past their arrays' ends. -/
theorem cut_leaves2 (c : Dev nD) (u : Fin cfg2.N) (X : S1x2048.Idx → Elt Ideal .f32) (h : Leaves2 V c u X) :
    (cfg2.win 3).cut (grid2.coords u) X = ((cfg2.win 3).blk u).view.read (Elt Ideal) (logits2 V c) := by
  obtain ⟨d1, d2, rfl⟩ := h
  obtain ⟨e00, e01, e10, e11, e20, e21, e30, e31, x10, x11, x20, x21, x30, x31⟩ := idx_facts2 u
  have hu := lt25 u
  funext j
  have hj0 : (j 0).val < win2_3.xsize (grid2.coords u) 0 := (j 0).isLt
  have hj1 : (j 1).val < win2_3.xsize (grid2.coords u) 1 := (j 1).isLt
  rw [x30] at hj0; rw [x31] at hj1
  have hr : (j 1).val < 2048 := by omega
  have hq : 2048 * u.val + (j 1).val < 50257 := by omega
  show out2_3 _ _ _ (win2_3.xinj (grid2.coords u) j) = logits2 V c (((cfg2.win 3).blk u).view.emb j)
  have hx : win2_3.xinj (grid2.coords u) j = ix2 0 ⟨(j 1).val, hr⟩ := by
    funext a; apply Fin.ext
    match a with
    | ⟨0, _⟩ => show (j 0).val = 0; omega
    | ⟨1, _⟩ => rfl
  have hA : ((cfg2.win 3).blk u).view.emb j = ix2 0 ⟨2048 * u.val + (j 1).val, hq⟩ := by
    funext a; apply Fin.ext
    match a with
    | ⟨0, _⟩ => show win2_3.index u (0 : Fin 2) * 1 + 1 * (j 0).val = 0; omega
    | ⟨1, _⟩ => show win2_3.index u (1 : Fin 2) * 2048 + 1 * (j 1).val = 2048 * u.val + (j 1).val; omega
  rw [hx, hA]
  unfold out2_3
  rw [View.canon_unit_zero hz2]
  simp only [View.ld_unit_zero (S := S1x1024) hz2, View.ld_unit_zero (S := S2048x1024) hz2, View.ld_unit_zero (S := S1x2048) hz2]
  rw [pay2_apply]
  unfold logits2 Cert.Bridge.logits
  refine congrArg₂ (· + ·) (Finset.sum_congr rfl fun k _ => congrArg₂ (· * ·) ?_ ?_) ?_
  · -- the hidden row's block is the whole row
    show V c (Pipeline.arrRef spec2 0) (((cfg2.win 0).blk u).view.emb (ix2 0 k)) = _
    refine congrArg _ ?_
    funext a; apply Fin.ext
    match a with
    | ⟨0, _⟩ => show win2_0.index u (0 : Fin 2) * 1 + 1 * 0 = 0; omega
    | ⟨1, _⟩ => show win2_0.index u (1 : Fin 2) * 1024 + 1 * k.val = k.val; omega
  · -- row r of the matrix block lies inside the matrix: it is row 2048 u + r of the matrix
    have hlt : ∀ a, ((ix2 ⟨(j 1).val, hr⟩ k : S2048x1024.Idx) a).val < win2_1.xsize (grid2.coords u) a := fun a => by
      match a with
      | ⟨0, _⟩ => show (j 1).val < win2_1.xsize (grid2.coords u) (0 : Fin 2); rw [x10]; exact hj1
      | ⟨1, _⟩ => show k.val < win2_1.xsize (grid2.coords u) (1 : Fin 2); rw [x11]; exact k.isLt
    rw [fill_apply_of_lt win2_1 _ _ _ _ hlt]
    show V c (Pipeline.arrRef spec2 1) (((cfg2.win 1).blk u).view.emb _) = _
    refine congrArg _ ?_
    funext a; apply Fin.ext
    match a with
    | ⟨0, _⟩ => show win2_1.index u (0 : Fin 2) * 2048 + 1 * (j 1).val = 2048 * u.val + (j 1).val; omega
    | ⟨1, _⟩ => show win2_1.index u (1 : Fin 2) * 1024 + 1 * k.val = k.val; omega
  · -- entry r of the bias block likewise
    have hlt : ∀ a, ((ix2 0 ⟨(j 1).val, hr⟩ : S1x2048.Idx) a).val < win2_2.xsize (grid2.coords u) a := fun a => by
      match a with
      | ⟨0, _⟩ => show 0 < win2_2.xsize (grid2.coords u) (0 : Fin 2); rw [x20]; exact Nat.one_pos
      | ⟨1, _⟩ => show (j 1).val < win2_2.xsize (grid2.coords u) (1 : Fin 2); rw [x21]; exact hj1
    rw [fill_apply_of_lt win2_2 _ _ _ _ hlt]
    show V c (Pipeline.arrRef spec2 2) (((cfg2.win 2).blk u).view.emb _) = _
    refine congrArg _ ?_
    funext a; apply Fin.ext
    match a with
    | ⟨0, _⟩ => show win2_2.index u (0 : Fin 2) * 1 + 1 * 0 = 0; omega
    | ⟨1, _⟩ => show win2_2.index u (1 : Fin 2) * 2048 + 1 * (j 1).val = 2048 * u.val + (j 1).val; omega

/-- An index of the logits array is under point t's block iff each coordinate is in the block's range inside the array. -/
theorem mem_blk2_3 (t : Fin cfg2.N) (i : S1x50257.Idx) :
    i ∈ ((cfg2.win 3).blk t).view.set ↔ ∀ a : Fin 2, win2_3.index t a * S1x2048.size a ≤ (i a).val
      ∧ (i a).val < win2_3.index t a * S1x2048.size a + win2_3.xsize (grid2.coords t) a := by
  show i ∈ ((View.whole main_v15).slice (win2_3.rect t)).set ↔ _
  rw [View.set_slice_whole, Rect.mem_set_unit]
  exact Iff.rfl

/-- After the write-backs of the points below n, every column below 2048 n of the result array is the logits' column:
    the write-back of point n writes the columns 2048 n onward that lie inside the array and no others. -/
theorem arrAt2_3 (c : Dev nD) : ∀ (n : Nat) (hn : n ≤ cfg2.N) (G : Buf (Elt Ideal) ((cfg2.win 3).arr.view.loc (c.tc : Thread nD τ))),
    (rd2 (F := Ideal) V c).ArrAt 3 n G → ∀ q : Fin 50257, q.val < 2048 * n → G (ix2 0 q) = logits2 V c (ix2 0 q)
  | 0, _, _, _, q, hq => absurd hq (by omega)
  | n + 1, hn, G, h, q, hq => by
    have hN : n < cfg2.N := by omega
    have h25 : cfg2.N = 25 := N_2
    have hs := (rd2 (F := Ideal) V c).ArrAt_succ 3 ⟨n, hN⟩
    rw [if_pos (flush2_3 _)] at hs
    rw [show n + 1 = (⟨n, hN⟩ : Fin cfg2.N).val + 1 from rfl, hs] at h
    obtain ⟨G₀, X, hG₀, ⟨Y, -, hYX⟩, rfl⟩ := h
    obtain ⟨e00, e01, e10, e11, e20, e21, e30, e31, x10, x11, x20, x21, x30, x31⟩ := idx_facts2 ⟨n, hN⟩
    rw [cut_leaves2 V c ⟨n, hN⟩ X ((after2_3 V c _ Y X).mp hYX), View.write_read_eq_piecewise]
    by_cases hlo : 2048 * n ≤ q.val
    · rw [Finset.piecewise_eq_of_mem]
      rw [View.setOn_univ, mem_blk2_3]
      intro a
      match a with
      | ⟨0, _⟩ =>
        show win2_3.index ⟨n, hN⟩ (0 : Fin 2) * 1 ≤ 0 ∧ 0 < win2_3.index ⟨n, hN⟩ (0 : Fin 2) * 1 + win2_3.xsize (grid2.coords ⟨n, hN⟩) (0 : Fin 2)
        rw [e30, x30]; omega
      | ⟨1, _⟩ =>
        show win2_3.index ⟨n, hN⟩ (1 : Fin 2) * 2048 ≤ q.val ∧ q.val < win2_3.index ⟨n, hN⟩ (1 : Fin 2) * 2048 + win2_3.xsize (grid2.coords ⟨n, hN⟩) (1 : Fin 2)
        rw [e31, x31]
        have hq' := q.isLt
        show n * 2048 ≤ q.val ∧ q.val < n * 2048 + min 2048 (50257 - 2048 * n)
        omega
    · rw [Finset.piecewise_eq_of_notMem]
      · exact arrAt2_3 c n (by omega) G₀ hG₀ q (by omega)
      · rw [View.setOn_univ, mem_blk2_3]
        intro hall
        have h1 : win2_3.index ⟨n, hN⟩ (1 : Fin 2) * 2048 ≤ q.val ∧ q.val < win2_3.index ⟨n, hN⟩ (1 : Fin 2) * 2048 + win2_3.xsize (grid2.coords ⟨n, hN⟩) (1 : Fin 2) := hall 1
        rw [e31] at h1
        have h2 : n * 2048 ≤ q.val := h1.1
        omega

/-- The result array after every write-back of the output projection holds the logits of the hidden row, the matrix and the
    bias row as the region finds them: the 25 blocks' columns inside the array are all of its columns. -/
theorem final2_3 (c : Dev nD) (G : Buf (Elt Ideal) ((cfg2.win 3).arr.view.loc (c.tc : Thread nD τ)))
    (h : (rd2 (F := Ideal) V c).ArrAt 3 cfg2.N G) :
    G = Cert.Bridge.logits (V c (Pipeline.arrRef spec2 0)) (V c (Pipeline.arrRef spec2 1)) (V c (Pipeline.arrRef spec2 2)) := by
  have h25 : cfg2.N = 25 := N_2
  funext i
  have hi0 : (i 0).val < 1 := idx2_lt0 i
  have hi1 : (i 1).val < 50257 := idx2_lt1 i
  have e : i = ix2 0 ⟨(i 1).val, hi1⟩ := by
    funext a; apply Fin.ext
    match a with
    | ⟨0, _⟩ => show (i 0).val = 0; omega
    | ⟨1, _⟩ => rfl
  rw [e]
  exact arrAt2_3 V c cfg2.N le_rfl G h _ (by show (i 1).val < 2048 * cfg2.N; omega)

end Cert.KernelIdeal.Hand

end
-- ==== Proof.KIValue.lean ====
/- The three results of the program as functions of the values its first stretch of host operations leaves: the
   attention weights, the new hidden row under a leading unit axis, and the log-softmax of the logits. -/
import proofs.«149668_j82532091560494_2_alg».proof.Proof.KIFrame
import proofs.«149668_j82532091560494_2_alg».proof.Proof.KIValue2
import proofs.«149668_j82532091560494_2_alg».proof.Proof.LogitsSpec
import Idealize.ShloMosaic.Lib.StableHlo.Run
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window BodyObligation cellOf)

variable {F : FTy → Type} [FloatOps F]

/-! # The two stretches of host operations after the regions, as functions of what they read -/

/-- The log-softmax of a row of logits: the row shifted by its maximum, minus the logarithm of the sum of the
    exponentials of the shifted row. -/
def tail16 (l : Vec F S1x50257 .f32) : Vec F S1x50257 .f32 :=
  subf
    (subf l (broadcastInDim S1x50257 ![0, 1] bcast_S1x1_S1x50257_0_1 (broadcastInDim S1x1 ![0] bcast_S1_S1x1_0
      (maximumf (broadcastInDim S1 ![] bcast_S_S1 (constant S_ .f32 0xFF800000#32))
        (Host.reduce FloatOps.maximumf l (constant S_ .f32 0xFF800000#32) reducesTo_S1x50257_S1_d1 h_S_)))))
    (broadcastInDim S1x50257 ![0, 1] bcast_S1x1_S1x50257_0_1 (Host.log (broadcastInDim S1x1 ![0] bcast_S1_S1x1_0
      (Host.reduceAdd (Host.exp
        (subf l (broadcastInDim S1x50257 ![0, 1] bcast_S1x1_S1x50257_0_1 (broadcastInDim S1x1 ![0] bcast_S1_S1x1_0
          (maximumf (broadcastInDim S1 ![] bcast_S_S1 (constant S_ .f32 0xFF800000#32))
            (Host.reduce FloatOps.maximumf l (constant S_ .f32 0xFF800000#32) reducesTo_S1x50257_S1_d1 h_S_))))))
        (constant S_ .f32 0x00000000#32) reducesTo_S1x50257_S1_d1 h_S_))))

/-- The new hidden row with a leading unit axis. -/
def tail17 (h : Vec F S1x1024 .f32) : Vec F S1x1x1024 .f32 :=
  broadcastInDim S1x1x1024 ![1, 2] bcast_S1x1024_S1x1x1024_1_2 h

/-! Reading a buffer at the type its reference carries is the identity. -/

theorem ofBuf_toBuf {T : BufTy} (x : StableHlo.TRef sig T) (v : T.Contents (Elt F)) : x.ofBuf (x.toBuf v) = v := by
  obtain ⟨r, rfl, _, _⟩ := x; rfl

theorem ofBuf_v15 (p q r) (u : Vec F S1x50257 .f32) :
    (StableHlo.TRef.of main_v15 p q r : StableHlo.TRef sig ⟨S1x50257, .f32⟩).ofBuf u = u := rfl

theorem toBuf_v16 (p q r) (v : Vec F S1x50257 .f32) :
    (StableHlo.TRef.of main_v16 p q r : StableHlo.TRef sig ⟨S1x50257, .f32⟩).toBuf v = v := rfl

/-- The log-softmax stretch leaves in its result buffer `tail16` of the logits buffer. -/
theorem after_tail16 (W : Valuation τ sig (Elt F)) :
    (StableHlo.after hostOps3 W (Proc.devRef .tc main_v16) : Vec F S1x50257 .f32) = tail16 (W (Proc.devRef .tc main_v15)) := by
  after_results
  simp only [ofBuf_toBuf]
  rw [ofBuf_v15]
  unfold tail16
  exact toBuf_v16 _ _ _ _

/-- The last stretch leaves in its result buffer `tail17` of the new hidden row's buffer. -/
theorem after_tail17 (W : Valuation τ sig (Elt F)) :
    (StableHlo.after hostOps3_1 W (Proc.devRef .tc main_v17) : Vec F S1x1x1024 .f32) = tail17 (W (Proc.devRef .tc main_v14)) := by
  after_results; rfl

/-! # The regions' outputs, walked back to the values the first stretch leaves -/

section Walk
variable (m : (ℓ : Loc nD τ sig) → Buf (Elt F) ℓ)

/-- After the first region the combined row's array holds its payload of the first stretch's values. -/
theorem V2_x (c : Dev nD) :
    V2 m c main_v13_0 = k0_pay3 (V1 m c main_v6) (V1 m c main_v7) (V1 m c main_arg4) (V1 m c main_v8) (V1 m c main_arg2) (V1 m c main_arg6) (V1 m c main_v9) :=
  (W2_arr m c 7).trans (final0_7 (V1 m) c)

/-- After the first region the attention weights' array holds its payload of the first stretch's values. -/
theorem V2_weights (c : Dev nD) :
    V2 m c main_v13_1 = k0_pay2 (V1 m c main_v6) (V1 m c main_v7) (V1 m c main_arg4) (V1 m c main_v8) :=
  (W2_arr m c 8).trans (final0_8 (V1 m) c)

/-- After the second region the new hidden row's array holds the recurrent cell's payload: of the combined row,
    and of the first stretch's values, which the first region leaves in place. -/
theorem V3_h (c : Dev nD) :
    V3 m c main_v14 = k1_pay1
      (k0_pay3 (V1 m c main_v6) (V1 m c main_v7) (V1 m c main_arg4) (V1 m c main_v8) (V1 m c main_arg2) (V1 m c main_arg6) (V1 m c main_v9))
      (V1 m c main_v7) (V1 m c main_arg8) (V1 m c main_arg9) (V1 m c main_v10) (V1 m c main_v11) := by
  refine (W3_arr m c 6).trans ((final1_6 (V2 m) c).trans ?_)
  rw [show V2 m c (Pipeline.arrRef spec1 0) = _ from V2_x m c,
    show V2 m c (Pipeline.arrRef spec1 1) = V1 m c main_v7 from W2_keep m c main_v7 (by decide) (by decide),
    show V2 m c (Pipeline.arrRef spec1 2) = V1 m c main_arg8 from W2_keep m c main_arg8 (by decide) (by decide),
    show V2 m c (Pipeline.arrRef spec1 3) = V1 m c main_arg9 from W2_keep m c main_arg9 (by decide) (by decide),
    show V2 m c (Pipeline.arrRef spec1 4) = V1 m c main_v10 from W2_keep m c main_v10 (by decide) (by decide),
    show V2 m c (Pipeline.arrRef spec1 5) = V1 m c main_v11 from W2_keep m c main_v11 (by decide) (by decide)]

/-- A buffer neither of the first two regions writes holds, after them, what the first stretch left. -/
theorem V3_keep (c : Dev nD) (r : Ref sig .tc) (h6 : r ≠ main_v14) (h7 : r ≠ main_v13_0) (h8 : r ≠ main_v13_1) :
    V3 m c r = V1 m c r :=
  (W3_keep m c r h6).trans (W2_keep m c r h7 h8)

end Walk

/-! # The results at the end of the run -/

/-- What the run ends with in the three result buffers, at the reals: the attention weights, the new hidden row under
    a leading unit axis, and the log-softmax of the output projection of the new hidden row. -/
theorem ends_results (m : (ℓ : Loc nD τ sig) → Buf (Elt Ideal) ℓ) (c : Dev nD) (s : MemSt nD τ sig (Elt Ideal))
    (h : Ends (F := Ideal) m c s) :
    let xk := k0_pay3 (V1 m c main_v6) (V1 m c main_v7) (V1 m c main_arg4) (V1 m c main_v8) (V1 m c main_arg2) (V1 m c main_arg6) (V1 m c main_v9)
    let hk := k1_pay1 xk (V1 m c main_v7) (V1 m c main_arg8) (V1 m c main_arg9) (V1 m c main_v10) (V1 m c main_v11)
    s.mem ((c.tc : Thread nD τ).loc main_v13_1) = k0_pay2 (V1 m c main_v6) (V1 m c main_v7) (V1 m c main_arg4) (V1 m c main_v8)
    ∧ s.mem ((c.tc : Thread nD τ).loc main_v17) = tail17 hk
    ∧ s.mem ((c.tc : Thread nD τ).loc main_v16) = tail16 (Cert.Bridge.logits hk (V1 m c main_arg12) (V1 m c main_v12)) := by
  obtain ⟨G, hG, hs⟩ := h
  intro xk hk
  have hv14 : W3 m c (Proc.devRef .tc main_v14) = hk := V3_h m c
  refine ⟨?_, ?_, ?_⟩
  · exact (hs _ (mem_uc main_v13_1 (by decide))).trans <|
      (StableHlo.after_of_writes_sub hostOps3_1 _ hostOps3_1_writes (by decide)).trans <|
      (StableHlo.after_of_writes_sub hostOps3 _ hostOps3_writes (by decide)).trans <|
      (W4_keep m c G main_v13_1 (by decide)).trans <| (W3_keep m c main_v13_1 (by decide)).trans <| V2_weights m c
  · refine (hs _ (mem_uc main_v17 (by decide))).trans ?_
    have e14 : W5 m c G (Proc.devRef .tc main_v14) = hk :=
      (StableHlo.after_of_writes_sub hostOps3 _ hostOps3_writes (by decide)).trans <|
      (W4_keep m c G main_v14 (by decide)).trans hv14
    show (StableHlo.after hostOps3_1 (W5 m c G) (Proc.devRef .tc main_v17) : Vec Ideal S1x1x1024 .f32) = _
    rw [after_tail17, e14]
  · refine (hs _ (mem_uc main_v16 (by decide))).trans ?_
    refine (StableHlo.after_of_writes_sub hostOps3_1 _ hostOps3_1_writes (by decide)).trans ?_
    show (StableHlo.after hostOps3 (W4 m c G) (Proc.devRef .tc main_v16) : Vec Ideal S1x50257 .f32) = _
    rw [after_tail16, W4_out, final2_3 (V3 m) c G hG,
      show V3 m c (Pipeline.arrRef spec2 0) = hk from hv14,
      show V3 m c (Pipeline.arrRef spec2 1) = V1 m c main_arg12 from V3_keep m c main_arg12 (by decide) (by decide) (by decide),
      show V3 m c (Pipeline.arrRef spec2 2) = V1 m c main_v12 from V3_keep m c main_v12 (by decide) (by decide) (by decide)]

end Cert.KernelIdeal.Hand

end
-- ==== Proof.KIPrefix.lean ====
/- The values the program's first stretch of host operations leaves, as functions of the launch memory: the token's
   embedding row, the reshaped state and bias rows, and the weight arrays untouched. -/
import proofs.«149668_j82532091560494_2_alg».proof.Proof.KIRun
import Idealize.ShloMosaic.Lib.StableHlo.Run
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window BodyObligation cellOf)

variable {F : FTy → Type} [FloatOps F]

/-! # The first stretch of host operations, as functions of what it reads -/

/-- The embedding row of the token: the token index, wrapped around the table's height when negative, gathers its
    row of the table. -/
def kemb (tok : (⟨S1, .i32⟩ : BufTy).Contents (Elt F)) (tab : (⟨S50257x1024, .f32⟩ : BufTy).Contents (Elt F)) :
    (⟨S1x1024, .f32⟩ : BufTy).Contents (Elt F) :=
  Host.gather gather_S50257x1024_S1x1_S1x1024_1_0_n_n_0_1_11024 tab
    (broadcastInDim S1x1 ![0] bcast_S1_S1x1_0
      (select (cmpi .slt tok (broadcastInDim S1 ![] bcast_S_S1 (constantI S_ 32 0#32)))
        (addi tok (broadcastInDim S1 ![] bcast_S_S1 (constantI S_ 32 50257#32))) tok))

section After
variable (W : Valuation τ sig (Elt F))

theorem after0_v6 : (StableHlo.after hostOps0 W (Proc.devRef .tc main_v6) : (⟨S1x1024, .f32⟩ : BufTy).Contents (Elt F))
    = kemb (W (Proc.devRef .tc main_arg0)) (W (Proc.devRef .tc main_arg3)) := by
  after_results; rfl

theorem after0_v7 : (StableHlo.after hostOps0 W (Proc.devRef .tc main_v7) : Vec F S1x1024 .f32)
    = shapeCast S1x1024 (W (Proc.devRef .tc main_arg1) : Vec F S1x1x1024 .f32) shapeCasts_S1x1x1024_S1x1024 := by
  after_results; rfl

theorem after0_v8 : (StableHlo.after hostOps0 W (Proc.devRef .tc main_v8) : Vec F S1x512 .f32)
    = shapeCast S1x512 (W (Proc.devRef .tc main_arg5) : Vec F S512 .f32) shapeCasts_S512_S1x512 := by
  after_results; rfl

theorem after0_v9 : (StableHlo.after hostOps0 W (Proc.devRef .tc main_v9) : Vec F S1x1024 .f32)
    = shapeCast S1x1024 (W (Proc.devRef .tc main_arg7) : Vec F S1024 .f32) shapeCasts_S1024_S1x1024 := by
  after_results; rfl

theorem after0_v10 : (StableHlo.after hostOps0 W (Proc.devRef .tc main_v10) : Vec F S1x3072 .f32)
    = shapeCast S1x3072 (W (Proc.devRef .tc main_arg10) : Vec F S3072 .f32) shapeCasts_S3072_S1x3072 := by
  after_results; rfl

theorem after0_v11 : (StableHlo.after hostOps0 W (Proc.devRef .tc main_v11) : Vec F S1x3072 .f32)
    = shapeCast S1x3072 (W (Proc.devRef .tc main_arg11) : Vec F S3072 .f32) shapeCasts_S3072_S1x3072 := by
  after_results; rfl

theorem after0_v12 : (StableHlo.after hostOps0 W (Proc.devRef .tc main_v12) : Vec F S1x50257 .f32)
    = shapeCast S1x50257 (W (Proc.devRef .tc main_arg13) : Vec F S50257 .f32) shapeCasts_S50257_S1x50257 := by
  after_results; rfl

end After

/-! # The values the first stretch leaves, from the launch memory -/

section Pre
variable (m : (ℓ : Loc nD τ sig) → Buf (Elt F) ℓ) (c : Dev nD)

theorem pre_v6 : (V1 m c main_v6 : Vec F S1x1024 .f32)
    = kemb (m ((c.tc : Thread nD τ).loc main_arg0)) (m ((c.tc : Thread nD τ).loc main_arg3)) := after0_v6 (W0 m c)
theorem pre_v7 : (V1 m c main_v7 : Vec F S1x1024 .f32)
    = shapeCast S1x1024 (m ((c.tc : Thread nD τ).loc main_arg1) : Vec F S1x1x1024 .f32) shapeCasts_S1x1x1024_S1x1024 := after0_v7 (W0 m c)
theorem pre_v8 : (V1 m c main_v8 : Vec F S1x512 .f32)
    = shapeCast S1x512 (m ((c.tc : Thread nD τ).loc main_arg5) : Vec F S512 .f32) shapeCasts_S512_S1x512 := after0_v8 (W0 m c)
theorem pre_v9 : (V1 m c main_v9 : Vec F S1x1024 .f32)
    = shapeCast S1x1024 (m ((c.tc : Thread nD τ).loc main_arg7) : Vec F S1024 .f32) shapeCasts_S1024_S1x1024 := after0_v9 (W0 m c)
theorem pre_v10 : (V1 m c main_v10 : Vec F S1x3072 .f32)
    = shapeCast S1x3072 (m ((c.tc : Thread nD τ).loc main_arg10) : Vec F S3072 .f32) shapeCasts_S3072_S1x3072 := after0_v10 (W0 m c)
theorem pre_v11 : (V1 m c main_v11 : Vec F S1x3072 .f32)
    = shapeCast S1x3072 (m ((c.tc : Thread nD τ).loc main_arg11) : Vec F S3072 .f32) shapeCasts_S3072_S1x3072 := after0_v11 (W0 m c)
theorem pre_v12 : (V1 m c main_v12 : Vec F S1x50257 .f32)
    = shapeCast S1x50257 (m ((c.tc : Thread nD τ).loc main_arg13) : Vec F S50257 .f32) shapeCasts_S50257_S1x50257 := after0_v12 (W0 m c)

/-- The weight arrays, which the first stretch does not write, are as launched. -/
theorem pre_arg2 : V1 m c main_arg2 = m ((c.tc : Thread nD τ).loc main_arg2) :=
  StableHlo.after_of_writes_sub hostOps0 _ hostOps0_writes (by decide)
theorem pre_arg4 : V1 m c main_arg4 = m ((c.tc : Thread nD τ).loc main_arg4) :=
  StableHlo.after_of_writes_sub hostOps0 _ hostOps0_writes (by decide)
theorem pre_arg6 : V1 m c main_arg6 = m ((c.tc : Thread nD τ).loc main_arg6) :=
  StableHlo.after_of_writes_sub hostOps0 _ hostOps0_writes (by decide)
theorem pre_arg8 : V1 m c main_arg8 = m ((c.tc : Thread nD τ).loc main_arg8) :=
  StableHlo.after_of_writes_sub hostOps0 _ hostOps0_writes (by decide)
theorem pre_arg9 : V1 m c main_arg9 = m ((c.tc : Thread nD τ).loc main_arg9) :=
  StableHlo.after_of_writes_sub hostOps0 _ hostOps0_writes (by decide)
theorem pre_arg12 : V1 m c main_arg12 = m ((c.tc : Thread nD τ).loc main_arg12) :=
  StableHlo.after_of_writes_sub hostOps0 _ hostOps0_writes (by decide)

end Pre

end Cert.KernelIdeal.Hand

end
-- ==== Proof.RefImports.lean ====
/- The reference's run and its stage-by-stage reads, brought into scope for the bridge modules. -/
import proofs.«149668_j82532091560494_2_alg».proof.Proof.RefRunP
import proofs.«149668_j82532091560494_2_alg».proof.Proof.RefReadP
-- ==== Proof.StageSpec.lean ====
import Idealize.ShloMosaic.PureOps.Ideal
import Idealize.ShloMosaic.Lib.ValueIdx

/-! The decoder step as plain formulas on the extended reals, one function per stage, each read entry by
entry: attention scores, their softmax along the row, the attended context, the combined and rectified
input, the gate pre-activations and the gated recurrent update. A row vector is a `[1, n]` array. -/

open Idealize.ShloMosaic Idealize.ShloMosaic.ValueIdx

namespace Cert.Bridge

noncomputable section

/-- A real matrix with `r` rows and `c` columns. -/
abbrev Mat (r c : ℕ) : Type := (⟨2, ![r, c]⟩ : Shape).Idx → EReal

/-- Scores: entry `o` contracts the joined row `[e, h]` with row `o` of the weights, plus the bias. -/
def score (e h : Mat 1 1024) (W : Mat 512 2048) (b : Mat 1 512) : Mat 1 512 := fun i =>
  (∑ j : Fin 1024, e (ix2 0 j) * W (ix2 (i 1) (Fin.castAdd 1024 j))
    + ∑ j : Fin 1024, h (ix2 0 j) * W (ix2 (i 1) (Fin.natAdd 1024 j))) + b i

theorem score_apply (e h : Mat 1 1024) (W : Mat 512 2048) (b : Mat 1 512) (q : Fin 512) :
    score e h W b (ix2 0 q)
      = (∑ j : Fin 1024, e (ix2 0 j) * W (ix2 q (Fin.castAdd 1024 j))
          + ∑ j : Fin 1024, h (ix2 0 j) * W (ix2 q (Fin.natAdd 1024 j))) + b (ix2 0 q) := rfl

/-- The row's maximum, folded from the word of minus infinity and joined once more with it. -/
def rowMax (s : Mat 1 512) : EReal :=
  max (Ideal.ofBits .f32 0xFF800000#32)
    ((Finset.univ : Finset (Fin 512)).fold max (Ideal.ofBits .f32 0xFF800000#32) (fun o => s (ix2 0 o)))

/-- Softmax along the row, shifted by the row's maximum. -/
def softmaxRow (s : Mat 1 512) : Mat 1 512 := fun i =>
  Ideal.div (Ideal.exp (s i - rowMax s)) (∑ o : Fin 512, Ideal.exp (s (ix2 0 o) - rowMax s))

/-- The attended context: the weights' row times the encoder matrix. -/
def ctx (w : Mat 1 512) (enc : Mat 512 1024) : Mat 1 1024 := fun i =>
  ∑ k : Fin 512, w (ix2 0 k) * enc (ix2 k (i 1))

theorem ctx_apply (w : Mat 1 512) (enc : Mat 512 1024) (q : Fin 1024) :
    ctx w enc (ix2 0 q) = ∑ k : Fin 512, w (ix2 0 k) * enc (ix2 k q) := rfl

/-- The combined input: the joined row `[e, a]` against row `o` of the weights, plus the bias, rectified. -/
def comb (e a : Mat 1 1024) (W : Mat 1024 2048) (b : Mat 1 1024) : Mat 1 1024 := fun i =>
  max ((∑ j : Fin 1024, e (ix2 0 j) * W (ix2 (i 1) (Fin.castAdd 1024 j))
        + ∑ j : Fin 1024, a (ix2 0 j) * W (ix2 (i 1) (Fin.natAdd 1024 j))) + b i)
    (Ideal.ofBits .f32 0x00000000#32)

theorem comb_apply (e a : Mat 1 1024) (W : Mat 1024 2048) (b : Mat 1 1024) (q : Fin 1024) :
    comb e a W b (ix2 0 q)
      = max ((∑ j : Fin 1024, e (ix2 0 j) * W (ix2 q (Fin.castAdd 1024 j))
              + ∑ j : Fin 1024, a (ix2 0 j) * W (ix2 q (Fin.natAdd 1024 j))) + b (ix2 0 q))
          (Ideal.ofBits .f32 0x00000000#32) := rfl

/-- Gate pre-activations: the row against each of the `3072` weight rows, plus the bias. -/
def gates (x : Mat 1 1024) (W : Mat 3072 1024) (b : Mat 1 3072) : Mat 1 3072 := fun i =>
  (∑ k : Fin 1024, x (ix2 0 k) * W (ix2 (i 1) k)) + b i

theorem gates_apply (x : Mat 1 1024) (W : Mat 3072 1024) (b : Mat 1 3072) (o : Fin 3072) :
    gates x W b (ix2 0 o) = (∑ k : Fin 1024, x (ix2 0 k) * W (ix2 o k)) + b (ix2 0 o) := rfl

/-- Column `q` of the third of a `3072`-wide row that starts at `off`. -/
def col3 (off : ℕ) (hoff : off + 1024 ≤ 3072) (q : Fin 1024) : Fin 3072 := ⟨off + q.val, by omega⟩

/-- The gated recurrent update from the input-side and hidden-side pre-activations. -/
def gru (gi gh : Mat 1 3072) (h : Mat 1 1024) : Mat 1 1024 := fun i =>
  (Ideal.ofBits .f32 0x3F800000#32
      - Ideal.logistic (gi (ix2 0 (col3 1024 (by norm_num) (i 1))) + gh (ix2 0 (col3 1024 (by norm_num) (i 1)))))
    * Ideal.tanh (gi (ix2 0 (col3 2048 (by norm_num) (i 1)))
        + Ideal.logistic (gi (ix2 0 (col3 0 (by norm_num) (i 1))) + gh (ix2 0 (col3 0 (by norm_num) (i 1))))
          * gh (ix2 0 (col3 2048 (by norm_num) (i 1))))
    + Ideal.logistic (gi (ix2 0 (col3 1024 (by norm_num) (i 1))) + gh (ix2 0 (col3 1024 (by norm_num) (i 1)))) * h i

theorem gru_apply (gi gh : Mat 1 3072) (h : Mat 1 1024) (q : Fin 1024) :
    gru gi gh h (ix2 0 q)
      = (Ideal.ofBits .f32 0x3F800000#32
          - Ideal.logistic (gi (ix2 0 (col3 1024 (by norm_num) q)) + gh (ix2 0 (col3 1024 (by norm_num) q))))
        * Ideal.tanh (gi (ix2 0 (col3 2048 (by norm_num) q))
            + Ideal.logistic (gi (ix2 0 (col3 0 (by norm_num) q)) + gh (ix2 0 (col3 0 (by norm_num) q)))
              * gh (ix2 0 (col3 2048 (by norm_num) q)))
        + Ideal.logistic (gi (ix2 0 (col3 1024 (by norm_num) q)) + gh (ix2 0 (col3 1024 (by norm_num) q))) * h (ix2 0 q) := rfl

end

end Cert.Bridge
-- ==== Proof.KernelStages.lean ====
import proofs.«149668_j82532091560494_2_alg».proof.Proof.Gen.KernelIdeal.Skeleton
import Idealize.ShloMosaic.PureOps.Ideal

/-! The kernel bodies' arithmetic cut into stages, each a function of the values it reads, at the ideal
values; and each body's value as the composition of its stages. -/

open Idealize.ShloMosaic Cert.KernelIdeal Cert.KernelIdeal.Gen

namespace Cert.Bridge

noncomputable section

/-- Attention scores: the joined row against the weight rows, plus the bias row. -/
def kScore (v0 v3 : FVec Ideal S1x1024 .f32) (v7 : FVec Ideal S512x2048 .f32) (v10 : FVec Ideal S1x512 .f32) : FVec Ideal S1x512 .f32 :=
  have v4 : FVec Ideal S1x1024 .f32 := shapeCast S1x1024 v3 shapeCasts_S1x1024_S1x1024
  have v5 : FVec Ideal S1x1024 .bf16 := truncf .bf16 v4 bitsLt_bf16_f32
  have v6 : FVec Ideal S1x2048 .bf16 := concatenate S1x2048 1 [⟨S1x1024, k0_pay1 v0⟩, ⟨S1x1024, v5⟩] concatenates_S1x1024_S1x1024_S1x2048_d1
  have v8 : FVec Ideal S512x2048 .bf16 := truncf .bf16 v7 bitsLt_bf16_f32
  have cst : FVec Ideal S1x512 .f32 := constant S1x512 .f32 0x00000000#32
  have v9 : FVec Ideal S1x512 .f32 := matmul dot_S1x2048_S512x2048_S1x512_1_1_0_0_n_n none v6 v8 cst
  have v11 : FVec Ideal S1x512 .f32 := shapeCast S1x512 v10 shapeCasts_S1x512_S1x512
  have v12 : FVec Ideal S1x512 .f32 := addf v9 v11
  v12

/-- Softmax of a score row. -/
def kSoft (v12 : FVec Ideal S1x512 .f32) : FVec Ideal S1x512 .f32 :=
  have v13 : FVec Ideal S1 .f32 := multiReduction .maximumf [1] S1 v12 0xFF800000#32 reduces_S1x512_S1 (.inl rfl) rfl
  have cst_8 : Ideal .f32 := Scalar.ofBits .f32 0xFF800000#32
  have v14 : FVec Ideal S1 .f32 := broadcast S1 cst_8
  have v15 : FVec Ideal S1 .f32 := maximumf v14 v13
  have v16 : FVec Ideal S1x1 .f32 := shapeCast S1x1 v15 shapeCasts_S1_S1x1
  have v17 : FVec Ideal S1x512 .f32 := broadcastTo S1x512 v16 broadcasts_S1x1_S1x512
  have v18 : FVec Ideal S1x512 .f32 := subf v12 v17
  have v19 : FVec Ideal S1x512 .f32 := exp v18
  have v20 : FVec Ideal S1 .f32 := multiReduction .add [1] S1 v19 0x00000000#32 reduces_S1x512_S1 (.inl rfl) rfl
  have v21 : FVec Ideal S1x1 .f32 := shapeCast S1x1 v20 shapeCasts_S1_S1x1
  have v22 : FVec Ideal S1x512 .f32 := broadcastTo S1x512 v21 broadcasts_S1x1_S1x512
  have v23 : FVec Ideal S1x512 .f32 := divf v19 v22
  v23

/-- The attention weights are the softmax of the scores. -/
theorem k0_pay2_eq (v0 v3 : FVec Ideal S1x1024 .f32) (v7 : FVec Ideal S512x2048 .f32) (v10 : FVec Ideal S1x512 .f32) :
    k0_pay2 (F := Ideal) v0 v3 v7 v10 = kSoft (kScore v0 v3 v7 v10) := rfl

/-- The attended context: the weight row times the encoder matrix. -/
def kCtx (w : FVec Ideal S1x512 .f32) (v24 : FVec Ideal S512x1024 .f32) : FVec Ideal S1x1024 .f32 :=
  have v25 : FVec Ideal S512x1024 .bf16 := truncf .bf16 v24 bitsLt_bf16_f32
  have v26 : FVec Ideal S1x512 .bf16 := truncf .bf16 w bitsLt_bf16_f32
  have cst_12 : FVec Ideal S1x1024 .f32 := constant S1x1024 .f32 0x00000000#32
  have v27 : FVec Ideal S1x1024 .f32 := matmul dot_S1x512_S512x1024_S1x1024_1_0_0_1_n_n none v26 v25 cst_12
  v27

/-- The combined input: the joined row against the weight rows, plus the bias row, rectified. -/
def kComb (v0 v27 : FVec Ideal S1x1024 .f32) (v30 : FVec Ideal S1024x2048 .f32) (v33 : FVec Ideal S1x1024 .f32) : FVec Ideal S1x1024 .f32 :=
  have v28 : FVec Ideal S1x1024 .bf16 := truncf .bf16 v27 bitsLt_bf16_f32
  have v29 : FVec Ideal S1x2048 .bf16 := concatenate S1x2048 1 [⟨S1x1024, k0_pay1 v0⟩, ⟨S1x1024, v28⟩] concatenates_S1x1024_S1x1024_S1x2048_d1
  have v31 : FVec Ideal S1024x2048 .bf16 := truncf .bf16 v30 bitsLt_bf16_f32
  have cst_15 : FVec Ideal S1x1024 .f32 := constant S1x1024 .f32 0x00000000#32
  have v32 : FVec Ideal S1x1024 .f32 := matmul dot_S1x2048_S1024x2048_S1x1024_1_1_0_0_n_n none v29 v31 cst_15
  have v34 : FVec Ideal S1x1024 .f32 := shapeCast S1x1024 v33 shapeCasts_S1x1024_S1x1024
  have v35 : FVec Ideal S1x1024 .f32 := addf v32 v34
  have cst_18 : Ideal .f32 := Scalar.ofBits .f32 0x00000000#32
  have v36 : FVec Ideal S1x1024 .f32 := broadcast S1x1024 cst_18
  have v37 : FVec Ideal S1x1024 .f32 := maximumf v35 v36
  v37

theorem k0_pay3_eq (v0 v3 : FVec Ideal S1x1024 .f32) (v7 : FVec Ideal S512x2048 .f32) (v10 : FVec Ideal S1x512 .f32)
    (v24 : FVec Ideal S512x1024 .f32) (v30 : FVec Ideal S1024x2048 .f32) (v33 : FVec Ideal S1x1024 .f32) :
    k0_pay3 (F := Ideal) v0 v3 v7 v10 v24 v30 v33 = kComb v0 (kCtx (k0_pay2 (F := Ideal) v0 v3 v7 v10) v24) v30 v33 := rfl

/-- Gate pre-activations of one side: the row against the weight rows, plus the bias row. -/
def kGates (v0 : FVec Ideal S1x1024 .f32) (v6 : FVec Ideal S3072x1024 .f32) (v11 : FVec Ideal S1x3072 .f32) : FVec Ideal S1x3072 .f32 :=
  have v1 : FVec Ideal S1x1024 .f32 := shapeCast S1x1024 v0 shapeCasts_S1x1024_S1x1024
  have v2 : FVec Ideal S1x1024 .bf16 := truncf .bf16 v1 bitsLt_bf16_f32
  have v7 : FVec Ideal S3072x1024 .bf16 := truncf .bf16 v6 bitsLt_bf16_f32
  have cst : FVec Ideal S1x3072 .f32 := constant S1x3072 .f32 0x00000000#32
  have v10 : FVec Ideal S1x3072 .f32 := matmul dot_S1x1024_S3072x1024_S1x3072_1_1_0_0_n_n none v2 v7 cst
  have v12 : FVec Ideal S1x3072 .f32 := shapeCast S1x3072 v11 shapeCasts_S1x3072_S1x3072
  have v13 : FVec Ideal S1x3072 .f32 := addf v10 v12
  v13

/-- The gated update from the two sides' pre-activations and the previous state. -/
def kGru (v13 v17 : FVec Ideal S1x3072 .f32) (v3 : FVec Ideal S1x1024 .f32) : FVec Ideal S1x1024 .f32 :=
  have v4 : FVec Ideal S1x1024 .f32 := shapeCast S1x1024 v3 shapeCasts_S1x1024_S1x1024
  have v18 : FVec Ideal S1x1024 .f32 := extractStridedSlice S1x1024 ![0, 0] v13 slices_S1x3072_o0_0_S1x1024
  have v19 : FVec Ideal S1x1024 .f32 := extractStridedSlice S1x1024 ![0, 1024] v13 slices_S1x3072_o0_1024_S1x1024
  have v20 : FVec Ideal S1x1024 .f32 := extractStridedSlice S1x1024 ![0, 2048] v13 slices_S1x3072_o0_2048_S1x1024
  have v21 : FVec Ideal S1x1024 .f32 := extractStridedSlice S1x1024 ![0, 0] v17 slices_S1x3072_o0_0_S1x1024
  have v22 : FVec Ideal S1x1024 .f32 := extractStridedSlice S1x1024 ![0, 1024] v17 slices_S1x3072_o0_1024_S1x1024
  have v23 : FVec Ideal S1x1024 .f32 := extractStridedSlice S1x1024 ![0, 2048] v17 slices_S1x3072_o0_2048_S1x1024
  have v24 : FVec Ideal S1x1024 .f32 := addf v18 v21
  have v25 : FVec Ideal S1x1024 .f32 := logistic v24
  have v26 : FVec Ideal S1x1024 .f32 := addf v19 v22
  have v27 : FVec Ideal S1x1024 .f32 := logistic v26
  have v28 : FVec Ideal S1x1024 .f32 := mulf v25 v23
  have v29 : FVec Ideal S1x1024 .f32 := addf v20 v28
  have v30 : FVec Ideal S1x1024 .f32 := tanh v29
  have cst_12 : Ideal .f32 := Scalar.ofBits .f32 0x3F800000#32
  have v31 : FVec Ideal S1x1024 .f32 := broadcast S1x1024 cst_12
  have v32 : FVec Ideal S1x1024 .f32 := subf v31 v27
  have v33 : FVec Ideal S1x1024 .f32 := mulf v32 v30
  have v34 : FVec Ideal S1x1024 .f32 := mulf v27 v4
  have v35 : FVec Ideal S1x1024 .f32 := addf v33 v34
  v35

theorem k1_pay1_eq (v0 v3 : FVec Ideal S1x1024 .f32) (v6 v8 : FVec Ideal S3072x1024 .f32) (v11 v15 : FVec Ideal S1x3072 .f32) :
    k1_pay1 (F := Ideal) v0 v3 v6 v8 v11 v15 = kGru (kGates v0 v6 v11) (kGates v3 v8 v15) v3 := rfl

end

end Cert.Bridge
-- ==== Proof.LibConcatColumns.lean ====
/-
  TWO MATRICES JOINED SIDE BY SIDE, READ AT AN INDEX. The concatenation along axis 1 of an [n, a] matrix and an
  [n, b] matrix into [n, c]: entry (p, k) of the result is the left matrix's (p, k) for a column k of the left
  piece, and the right matrix's (p, k) at result column a + k. General in the extents and in the element type.
-/
import Idealize.ShloMosaic.Lib.Pipeline.Value
import Idealize.ShloMosaic.Lib.ValueIdx

namespace Cert.LibConcatColumns

open Idealize.ShloMosaic Idealize.ShloMosaic.ValueIdx

variable {α : Type} {n a b c : ℕ}

/-- A column of the left piece: the result's entry there is the left matrix's entry. -/
theorem concat_cols_left (x₁ : (⟨2, ![n, a]⟩ : Shape).Idx → α) (x₂ : (⟨2, ![n, b]⟩ : Shape).Idx → α)
    (h : Shape.Concatenates [(⟨2, ![n, a]⟩ : Shape), ⟨2, ![n, b]⟩] ⟨2, ![n, c]⟩ 1) (p : Fin n) (k : Fin a) (hk : k.val < c) :
    concatenate (⟨2, ![n, c]⟩ : Shape) 1 [⟨⟨2, ![n, a]⟩, x₁⟩, ⟨⟨2, ![n, b]⟩, x₂⟩] h (ix2 p (⟨k.val, hk⟩ : Fin c)) = x₁ (ix2 p k) :=
  concatenate_pair_apply_left (1 : Fin 2) x₁ x₂ h (ix2 p (⟨k.val, hk⟩ : Fin c)) rfl (ix2 p k)
    (fun d => match d with | ⟨0, _⟩ => rfl | ⟨1, _⟩ => rfl)

/-- A column of the right piece: the result's entry at column a + k is the right matrix's entry at column k. -/
theorem concat_cols_right (x₁ : (⟨2, ![n, a]⟩ : Shape).Idx → α) (x₂ : (⟨2, ![n, b]⟩ : Shape).Idx → α)
    (h : Shape.Concatenates [(⟨2, ![n, a]⟩ : Shape), ⟨2, ![n, b]⟩] ⟨2, ![n, c]⟩ 1) (p : Fin n) (k : Fin b) (hk : a + k.val < c) :
    concatenate (⟨2, ![n, c]⟩ : Shape) 1 [⟨⟨2, ![n, a]⟩, x₁⟩, ⟨⟨2, ![n, b]⟩, x₂⟩] h (ix2 p (⟨a + k.val, hk⟩ : Fin c)) = x₂ (ix2 p k) :=
  concatenate_pair_apply_right (1 : Fin 2) x₁ x₂ h (ix2 p (⟨a + k.val, hk⟩ : Fin c)) rfl rfl (ix2 p k)
    (fun d => match d with
      | ⟨0, _⟩ => fun _ => rfl
      | ⟨1, _⟩ => fun hne => absurd rfl hne)
    (show k.val + a = a + k.val from Nat.add_comm _ _)

end Cert.LibConcatColumns
-- ==== Proof.LibSplitContraction.lean ====
/-
  A contraction against two matrices joined side by side splits into the two pieces' contractions.

  For an [n, a] matrix x₁ and an [n, b] matrix x₂ joined along the columns into [n, a + b], and any weights w on the
  a + b columns, row p of the join contracted with w is the contraction of row p of x₁ with the first a weights plus
  the contraction of row p of x₂ with the last b weights:
      sum_{k < a + b} join(p, k) * w(k)  =  sum_{j < a} x₁(p, j) * w(j)  +  sum_{j < b} x₂(p, j) * w(a + j).
  Only the commutative-monoid structure of the sum is used (no distributivity), so it holds on the extended reals.
  General in the extents and the element type.
-/
import Idealize.ShloMosaic.Lib.Pipeline.Value
import Idealize.ShloMosaic.Lib.ValueIdx
import proofs.«149668_j82532091560494_2_alg».proof.Proof.LibConcatColumns

namespace Cert.LibSplitContraction

open Idealize.ShloMosaic Idealize.ShloMosaic.ValueIdx

variable {α : Type} [AddCommMonoid α] [Mul α] {n a b : ℕ}

theorem sum_concat_cols (x₁ : (⟨2, ![n, a]⟩ : Shape).Idx → α) (x₂ : (⟨2, ![n, b]⟩ : Shape).Idx → α)
    (h : Shape.Concatenates [(⟨2, ![n, a]⟩ : Shape), ⟨2, ![n, b]⟩] ⟨2, ![n, a + b]⟩ 1) (w : Fin (a + b) → α) (p : Fin n) :
    ∑ k : Fin (a + b), concatenate (⟨2, ![n, a + b]⟩ : Shape) 1 [⟨⟨2, ![n, a]⟩, x₁⟩, ⟨⟨2, ![n, b]⟩, x₂⟩] h (ix2 p k) * w k
      = ∑ j : Fin a, x₁ (ix2 p j) * w (Fin.castAdd b j) + ∑ j : Fin b, x₂ (ix2 p j) * w (Fin.natAdd a j) := by
  rw [Fin.sum_univ_add]
  refine congrArg₂ (· + ·) (Finset.sum_congr rfl fun j _ => ?_) (Finset.sum_congr rfl fun j _ => ?_)
  · exact congrArg (· * w (Fin.castAdd b j))
      (Cert.LibConcatColumns.concat_cols_left x₁ x₂ h p j (Nat.lt_of_lt_of_le j.isLt (Nat.le_add_right a b)))
  · exact congrArg (· * w (Fin.natAdd a j))
      (Cert.LibConcatColumns.concat_cols_right x₁ x₂ h p j (Nat.add_lt_add_left j.isLt a))

end Cert.LibSplitContraction
-- ==== Proof.KScore.lean ====
import proofs.«149668_j82532091560494_2_alg».proof.Proof.KernelStages
import proofs.«149668_j82532091560494_2_alg».proof.Proof.StageSpec
import proofs.«149668_j82532091560494_2_alg».proof.Proof.LibRowRowDot
import proofs.«149668_j82532091560494_2_alg».proof.Proof.LibSplitContraction
import Idealize.ShloMosaic.Lib.Pipeline.Value

/-! The kernel's attention scores are the score formula: the product of the joined row with the weight
rows splits at the join into the two pieces' sums. -/

open Idealize.ShloMosaic Idealize.ShloMosaic.ValueIdx Cert.KernelIdeal Cert.KernelIdeal.Gen

namespace Cert.Bridge

theorem kScore_eq (e h0 : FVec Ideal S1x1024 .f32) (aW : FVec Ideal S512x2048 .f32) (b8 : FVec Ideal S1x512 .f32) :
    kScore e h0 aW b8 = score e h0 aW b8 := by
  funext i
  obtain ⟨p, q, rfl⟩ : ∃ (p : Fin 1) (q : Fin 512), i = ix2 p q := ⟨i 0, i 1, eq_ix2 i⟩
  obtain rfl : p = 0 := Subsingleton.elim _ _
  rw [score_apply]
  unfold kScore k0_pay1
  rw [shapeCast_self e, shapeCast_self h0, shapeCast_self b8]
  refine congrArg₂ (· + ·) ?_ rfl
  refine (LibRowRowDot.matmul_zero_rows_apply dot_S1x2048_S512x2048_S1x512_1_1_0_0_n_n rfl rfl rfl rfl rfl rfl none _ _ (0 : Fin 1) q).trans ?_
  exact LibSplitContraction.sum_concat_cols (a := 1024) (b := 1024) _ _ concatenates_S1x1024_S1x1024_S1x2048_d1
    (fun k => aW (ix2 q k)) (0 : Fin 1)

end Cert.Bridge
-- ==== Proof.LibRowReduce.lean ====
/-
  Reductions along the rows of a matrix, read at one row.

  For an [n, d] matrix reduced over its second axis into an [n] vector, the entry at row p is the reduction of the
  entries (p, 0), …, (p, d-1): a sum for an add-reduction, the fold of `max` from the start value for a
  maximum-reduction.  Stated for the kernel's vector reductions and for the host's one-operand reduce, at the
  extended reals, for any extents and float format.
-/
import Idealize.ShloMosaic.PureOps.Ideal.Laws
import Idealize.ShloMosaic.Lib.ValueIdx

noncomputable section
namespace Cert.LibRowReduce
open Idealize.ShloMosaic Idealize.ShloMosaic.ValueIdx

variable {φ : FTy}

/-- Row p with the coordinate o put back on the reduced axis is the entry (p, o). -/
theorem lift_row {n d : ℕ} (h : (⟨2, ![n, d]⟩ : Shape).Reduces [1] ⟨1, ![n]⟩) (p : Fin n) (o : Fin d) :
    h.lift (ix1 p) o = ix2 p o :=
  funext fun a => Fin.ext (by
    match a with
    | ⟨0, _⟩ => rfl
    | ⟨1, _⟩ => rfl)

/-- A vector add-reduction along the rows: the row's sum. -/
theorem multiReduction_add_row {n d : ℕ} (src : FVec Ideal ⟨2, ![n, d]⟩ φ) (acc : BitVec φ.bits)
    (h : (⟨2, ![n, d]⟩ : Shape).Reduces [1] ⟨1, ![n]⟩) (hφ : FKind.Formats φ) (hacc : acc = FKind.add.neutral φ hφ) (p : Fin n) :
    multiReduction .add [1] ⟨1, ![n]⟩ src acc h hφ hacc (ix1 p) = ∑ o : Fin d, src (ix2 p o) :=
  (Ideal.multiReduction_add_single src acc h hφ hacc (ix1 p)).trans
    (Finset.sum_congr rfl fun o _ => congrArg src (lift_row h p o))

/-- A vector maximum-reduction along the rows: the fold of `max` over the row from the accumulator's value. -/
theorem multiReduction_max_row {n d : ℕ} (src : FVec Ideal ⟨2, ![n, d]⟩ φ) (acc : BitVec φ.bits)
    (h : (⟨2, ![n, d]⟩ : Shape).Reduces [1] ⟨1, ![n]⟩) (hφ : FKind.Formats φ) (hacc : acc = FKind.maximumf.neutral φ hφ) (p : Fin n) :
    multiReduction .maximumf [1] ⟨1, ![n]⟩ src acc h hφ hacc (ix1 p)
      = (Finset.univ : Finset (Fin d)).fold max (Ideal.ofBits φ acc) (fun o => src (ix2 p o)) :=
  (Ideal.multiReduction_maximumf_single src acc h hφ hacc (ix1 p)).trans
    (congrArg (Finset.fold max (Ideal.ofBits φ acc) · Finset.univ) (funext fun o => congrArg src (lift_row h p o)))

/-- The host's add-reduce along the rows: the start value plus the row's sum. -/
theorem hostReduceAdd_row {n d : ℕ} {u : Shape} (x : FVec Ideal ⟨2, ![n, d]⟩ φ) (init : u.Idx → Ideal φ)
    (h' : (⟨2, ![n, d]⟩ : Shape).ReducesTo [1] ⟨1, ![n]⟩) (h : (⟨2, ![n, d]⟩ : Shape).Reduces [1] ⟨1, ![n]⟩) (hu : 0 < u.numel) (p : Fin n) :
    Host.reduceAdd x init h' hu (ix1 p) = init (Shape.Idx.first hu) + ∑ o : Fin d, x (ix2 p o) :=
  (Ideal.hostReduceAdd_single h' h x (init (Shape.Idx.first hu)) (ix1 p)).trans
    (congrArg (init (Shape.Idx.first hu) + ·) (Finset.sum_congr rfl fun o _ => congrArg x (lift_row h p o)))

/-- The host's maximum-reduce along the rows: the fold of `max` over the row from the start value. -/
theorem hostReduce_max_row {n d : ℕ} {u : Shape} (x : FVec Ideal ⟨2, ![n, d]⟩ φ) (init : u.Idx → Ideal φ)
    (h' : (⟨2, ![n, d]⟩ : Shape).ReducesTo [1] ⟨1, ![n]⟩) (h : (⟨2, ![n, d]⟩ : Shape).Reduces [1] ⟨1, ![n]⟩) (hu : 0 < u.numel) (p : Fin n) :
    Host.reduce (FloatOps.maximumf (F := Ideal) (φ := φ)) x init h' hu (ix1 p)
      = (Finset.univ : Finset (Fin d)).fold max (init (Shape.Idx.first hu)) (fun o => x (ix2 p o)) :=
  (Host.reduce_eq_fold_single (FloatOps.maximumf (F := Ideal) (φ := φ)) x init h' h hu (ix1 p)).trans
    (congrArg (Finset.fold max (init (Shape.Idx.first hu)) · Finset.univ) (funext fun o => congrArg x (lift_row h p o)))

end Cert.LibRowReduce
end
-- ==== Proof.LibKeepdims.lean ====
/-
  Two layout operations of a "keep the reduced axis" column, read at an index: a vector [a] cast to a column [a, 1],
  and a column [a, 1] broadcast along a second axis to [a, b]. General in the extents and in the element type.
-/
import Idealize.ShloMosaic.Lib.Pipeline.Value
import Idealize.ShloMosaic.Lib.ValueIdx

noncomputable section

namespace Cert.LibKeepdims

open Idealize.ShloMosaic Idealize.ShloMosaic.ValueIdx

variable {α : Type}

/-- An `[a]` array cast to the column `[a, 1]` reads, at `(i, 0)`, the operand at `i`: both sit at row-major
    position `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` broadcast to `[a, b]` reads, at `(p, c)`, the column's entry of row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ =>
    show (0 : Fin 1).val = if (1 : ℕ) = 1 then 0 else c.val
    rw [if_pos rfl]; rfl

end Cert.LibKeepdims

end
-- ==== Proof.KSoft.lean ====
import proofs.«149668_j82532091560494_2_alg».proof.Proof.KernelStages
import proofs.«149668_j82532091560494_2_alg».proof.Proof.StageSpec
import proofs.«149668_j82532091560494_2_alg».proof.Proof.LibRowReduce
import proofs.«149668_j82532091560494_2_alg».proof.Proof.LibKeepdims
import Idealize.ShloMosaic.Lib.Pipeline.Value
import Idealize.ShloMosaic.Lib.ValueLayout
import Idealize.ShloMosaic.PureOps.Ideal.Laws

/-! The kernel's softmax of a score row is the softmax formula: the row's maximum and the row's sum are each computed once, kept as a one-entry column and spread back over the row. -/

open Idealize.ShloMosaic Idealize.ShloMosaic.ValueIdx Cert.KernelIdeal Cert.KernelIdeal.Gen

namespace Cert.Bridge

noncomputable section

/-- The row's maximum spread over the row. -/
def kRowMax (v12 : FVec Ideal S1x512 .f32) : FVec Ideal S1x512 .f32 :=
  have v13 : FVec Ideal S1 .f32 := multiReduction .maximumf [1] S1 v12 0xFF800000#32 reduces_S1x512_S1 (.inl rfl) rfl
  have cst_8 : Ideal .f32 := Scalar.ofBits .f32 0xFF800000#32
  have v14 : FVec Ideal S1 .f32 := broadcast S1 cst_8
  have v15 : FVec Ideal S1 .f32 := maximumf v14 v13
  have v16 : FVec Ideal S1x1 .f32 := shapeCast S1x1 v15 shapeCasts_S1_S1x1
  have v17 : FVec Ideal S1x512 .f32 := broadcastTo S1x512 v16 broadcasts_S1x1_S1x512
  v17

/-- The row's sum spread over the row. -/
def kRowSum (v19 : FVec Ideal S1x512 .f32) : FVec Ideal S1x512 .f32 :=
  have v20 : FVec Ideal S1 .f32 := multiReduction .add [1] S1 v19 0x00000000#32 reduces_S1x512_S1 (.inl rfl) rfl
  have v21 : FVec Ideal S1x1 .f32 := shapeCast S1x1 v20 shapeCasts_S1_S1x1
  have v22 : FVec Ideal S1x512 .f32 := broadcastTo S1x512 v21 broadcasts_S1x1_S1x512
  v22

theorem kSoft_split (s : FVec Ideal S1x512 .f32) :
    kSoft s = divf (exp (subf s (kRowMax s))) (kRowSum (exp (subf s (kRowMax s)))) := rfl

theorem kRowMax_apply (s : FVec Ideal S1x512 .f32) (c : Fin 512) : kRowMax s (ix2 0 c) = rowMax s := by
  unfold kRowMax rowMax
  refine (LibKeepdims.broadcastTo_a1_ab_apply _ broadcasts_S1x1_S1x512 (0 : Fin 1) c).trans ?_
  refine (LibKeepdims.shapeCast_a_a1_apply _ shapeCasts_S1_S1x1 (0 : Fin 1) (0 : Fin 1)).trans ?_
  refine congrArg (max (Ideal.ofBits .f32 0xFF800000#32)) ?_
  exact LibRowReduce.multiReduction_max_row s 0xFF800000#32 reduces_S1x512_S1 (.inl rfl) rfl (0 : Fin 1)

theorem kRowSum_apply (t : FVec Ideal S1x512 .f32) (c : Fin 512) : kRowSum t (ix2 0 c) = ∑ o : Fin 512, t (ix2 0 o) := by
  unfold kRowSum
  refine (LibKeepdims.broadcastTo_a1_ab_apply _ broadcasts_S1x1_S1x512 (0 : Fin 1) c).trans ?_
  refine (LibKeepdims.shapeCast_a_a1_apply _ shapeCasts_S1_S1x1 (0 : Fin 1) (0 : Fin 1)).trans ?_
  exact LibRowReduce.multiReduction_add_row t 0x00000000#32 reduces_S1x512_S1 (.inl rfl) rfl (0 : Fin 1)

theorem kSoft_eq (s : FVec Ideal S1x512 .f32) : kSoft s = softmaxRow s := by
  funext i
  obtain ⟨p, q, rfl⟩ : ∃ (p : Fin 1) (q : Fin 512), i = ix2 p q := ⟨i 0, i 1, eq_ix2 i⟩
  obtain rfl : p = 0 := Subsingleton.elim _ _
  rw [kSoft_split]
  show Ideal.div (Ideal.exp (s (ix2 0 q) - kRowMax s (ix2 0 q))) (kRowSum (exp (subf s (kRowMax s))) (ix2 0 q)) = _
  rw [kRowSum_apply, kRowMax_apply]
  unfold softmaxRow
  refine congrArg (Ideal.div _) (Finset.sum_congr rfl fun o _ => ?_)
  show Ideal.exp (s (ix2 0 o) - kRowMax s (ix2 0 o)) = _
  rw [kRowMax_apply]

end

end Cert.Bridge
-- ==== Proof.LibPlainDot.lean ====
/-
  A plain matrix product, read at one entry.

  A contraction with the dimension numbers of "rows of an [n, k] matrix against columns of a [k, d] matrix" (contract
  axis 1 of the left with axis 0 of the right, no batch axis) sums, at entry (p, o), the products of row p of the left
  operand with column o of the right: the sum over j of lhs(p, j) · rhs(j, o).  This holds for any record of those
  dimension numbers, whatever its extents and formats, and gives the same reading of a matrix unit's product into the
  zero accumulator and of the host's dot_general, on the extended reals.
-/
import Idealize.ShloMosaic.PureOps.Ideal.Laws
import Idealize.ShloMosaic.Lib.ValueIdx

noncomputable section

namespace Cert.LibPlainDot

open Idealize.ShloMosaic Idealize.ShloMosaic.ValueIdx

/-- The sum over the contraction index is the sum over the one contracted coordinate j, the left operand read at
    (p, j) and the right at (j, o). -/
theorem sum_contr_plain {n k d : ℕ} (D : DotDims ⟨2, ![n, k]⟩ ⟨2, ![k, d]⟩ ⟨2, ![n, d]⟩)
    (hlc : D.lhsContracting = [1]) (hrc : D.rhsContracting = [0]) (hln : D.lhsNonContracting = [0]) (hrn : D.rhsNonContracting = [1])
    (hlb : D.lhsBatch = []) (hrb : D.rhsBatch = [])
    (lhs : (⟨2, ![n, k]⟩ : Shape).Idx → EReal) (rhs : (⟨2, ![k, d]⟩ : Shape).Idx → EReal) (p : Fin n) (o : Fin d) :
    ∑ q : D.contr.Idx, lhs (D.lhsIdx (ix2 p o) q) * rhs (D.rhsIdx (ix2 p o) q) = ∑ j : Fin k, lhs (ix2 p j) * rhs (ix2 j o) := by
  obtain ⟨lc, rc, ln, rn, lb, rb, wf⟩ := D
  simp only at hlc hrc hln hrn hlb hrb
  subst hlc hrc hln hrn hlb hrb
  rw [← Equiv.sum_comp (contrEquiv1 (DotDims.mk [1] [0] [0] [1] [] [] wf) k rfl rfl).symm]
  refine Finset.sum_congr rfl fun j _ => ?_
  have hk := contrEquiv1_symm_val (DotDims.mk [1] [0] [0] [1] [] [] wf) k rfl rfl j
  have el : (DotDims.mk [1] [0] [0] [1] [] [] wf).lhsIdx (ix2 p o) ((contrEquiv1 (DotDims.mk [1] [0] [0] [1] [] [] wf) k rfl rfl).symm j) = ix2 p j :=
    funext fun a => Fin.ext (by
      match a with
      | ⟨0, _⟩ => rfl
      | ⟨1, _⟩ => exact ((DotDims.mk [1] [0] [0] [1] [] [] wf).lhsIdx_val_of_single rfl _ _).trans hk)
  have er : (DotDims.mk [1] [0] [0] [1] [] [] wf).rhsIdx (ix2 p o) ((contrEquiv1 (DotDims.mk [1] [0] [0] [1] [] [] wf) k rfl rfl).symm j) = ix2 j o :=
    funext fun a => Fin.ext (by
      match a with
      | ⟨0, _⟩ => exact ((DotDims.mk [1] [0] [0] [1] [] [] wf).rhsIdx_val_of_single rfl _ _).trans hk
      | ⟨1, _⟩ => rfl)
  rw [el, er]

/-- A matrix unit's product into the zero accumulator, at (p, o). -/
theorem matmul_zero_apply {n k d : ℕ} {φ₁ φ₂ : FTy} (D : DotDims ⟨2, ![n, k]⟩ ⟨2, ![k, d]⟩ ⟨2, ![n, d]⟩)
    (hlc : D.lhsContracting = [1]) (hrc : D.rhsContracting = [0]) (hln : D.lhsNonContracting = [0]) (hrn : D.rhsNonContracting = [1])
    (hlb : D.lhsBatch = []) (hrb : D.rhsBatch = []) (prec : Option ContractPrecision)
    (lhs : FVec Ideal ⟨2, ![n, k]⟩ φ₁) (rhs : FVec Ideal ⟨2, ![k, d]⟩ φ₂) (p : Fin n) (o : Fin d) :
    FloatOps.matmul D prec lhs rhs (constant ⟨2, ![n, d]⟩ .f32 0x00000000#32) (ix2 p o) = ∑ j : Fin k, lhs (ix2 p j) * rhs (ix2 j o) :=
  (Ideal.matmul_constant_zero_apply D prec lhs rhs (ix2 p o)).trans (sum_contr_plain D hlc hrc hln hrn hlb hrb lhs rhs p o)

/-- The host's dot_general, at (p, o). -/
theorem dotGeneral_apply {n k d : ℕ} {φ₁ φ₂ : FTy} (D : DotDims ⟨2, ![n, k]⟩ ⟨2, ![k, d]⟩ ⟨2, ![n, d]⟩)
    (hlc : D.lhsContracting = [1]) (hrc : D.rhsContracting = [0]) (hln : D.lhsNonContracting = [0]) (hrn : D.rhsNonContracting = [1])
    (hlb : D.lhsBatch = []) (hrb : D.rhsBatch = []) (prec : Option ContractPrecision) (sched : HostSchedule)
    (lhs : FVec Ideal ⟨2, ![n, k]⟩ φ₁) (rhs : FVec Ideal ⟨2, ![k, d]⟩ φ₂) (p : Fin n) (o : Fin d) :
    FloatOps.dotGeneral D prec sched lhs rhs (ix2 p o) = ∑ j : Fin k, lhs (ix2 p j) * rhs (ix2 j o) :=
  (Ideal.dotGeneral_apply D prec sched lhs rhs (ix2 p o)).trans (sum_contr_plain D hlc hrc hln hrn hlb hrb lhs rhs p o)

end Cert.LibPlainDot

end
-- ==== Proof.KCtxComb.lean ====
import proofs.«149668_j82532091560494_2_alg».proof.Proof.KernelStages
import proofs.«149668_j82532091560494_2_alg».proof.Proof.StageSpec
import proofs.«149668_j82532091560494_2_alg».proof.Proof.LibRowRowDot
import proofs.«149668_j82532091560494_2_alg».proof.Proof.LibPlainDot
import proofs.«149668_j82532091560494_2_alg».proof.Proof.LibSplitContraction
import Idealize.ShloMosaic.Lib.Pipeline.Value
import Idealize.ShloMosaic.Lib.ValueLayout
import Idealize.ShloMosaic.PureOps.Ideal.Laws

/-! The kernel's attended context and combined input are the context and combination formulas. -/

open Idealize.ShloMosaic Idealize.ShloMosaic.ValueIdx Cert.KernelIdeal Cert.KernelIdeal.Gen

namespace Cert.Bridge

theorem kCtx_eq (w : FVec Ideal S1x512 .f32) (enc : FVec Ideal S512x1024 .f32) : kCtx w enc = ctx w enc := by
  funext i
  obtain ⟨p, q, rfl⟩ : ∃ (p : Fin 1) (q : Fin 1024), i = ix2 p q := ⟨i 0, i 1, eq_ix2 i⟩
  obtain rfl : p = 0 := Subsingleton.elim _ _
  rw [ctx_apply]
  unfold kCtx
  exact LibPlainDot.matmul_zero_apply dot_S1x512_S512x1024_S1x1024_1_0_0_1_n_n rfl rfl rfl rfl rfl rfl none _ _ (0 : Fin 1) q

theorem kComb_eq (e a : FVec Ideal S1x1024 .f32) (cW : FVec Ideal S1024x2048 .f32) (b9 : FVec Ideal S1x1024 .f32) :
    kComb e a cW b9 = comb e a cW b9 := by
  funext i
  obtain ⟨p, q, rfl⟩ : ∃ (p : Fin 1) (q : Fin 1024), i = ix2 p q := ⟨i 0, i 1, eq_ix2 i⟩
  obtain rfl : p = 0 := Subsingleton.elim _ _
  rw [comb_apply]
  unfold kComb k0_pay1
  rw [shapeCast_self e, shapeCast_self b9]
  refine congrArg₂ max (congrArg₂ (· + ·) ?_ rfl) rfl
  refine (LibRowRowDot.matmul_zero_rows_apply dot_S1x2048_S1024x2048_S1x1024_1_1_0_0_n_n rfl rfl rfl rfl rfl rfl none _ _ (0 : Fin 1) q).trans ?_
  exact LibSplitContraction.sum_concat_cols (a := 1024) (b := 1024) _ _ concatenates_S1x1024_S1x1024_S1x2048_d1
    (fun k => cW (ix2 q k)) (0 : Fin 1)

end Cert.Bridge
-- ==== Proof.KGru.lean ====
import proofs.«149668_j82532091560494_2_alg».proof.Proof.KernelStages
import proofs.«149668_j82532091560494_2_alg».proof.Proof.StageSpec
import proofs.«149668_j82532091560494_2_alg».proof.Proof.LibRowRowDot
import Idealize.ShloMosaic.Lib.Pipeline.Value
import Idealize.ShloMosaic.Lib.ValueLayout
import Idealize.ShloMosaic.PureOps.Ideal.Laws

/-! The kernel's gate pre-activations and gated update are the gate and update formulas: each third of the wide row is a slice read at the shifted column. -/

open Idealize.ShloMosaic Idealize.ShloMosaic.ValueIdx Cert.KernelIdeal Cert.KernelIdeal.Gen

namespace Cert.Bridge

theorem kGates_eq (x : FVec Ideal S1x1024 .f32) (W : FVec Ideal S3072x1024 .f32) (b : FVec Ideal S1x3072 .f32) :
    kGates x W b = gates x W b := by
  funext i
  obtain ⟨p, o, rfl⟩ : ∃ (p : Fin 1) (o : Fin 3072), i = ix2 p o := ⟨i 0, i 1, eq_ix2 i⟩
  obtain rfl : p = 0 := Subsingleton.elim _ _
  rw [gates_apply]
  unfold kGates
  rw [shapeCast_self x, shapeCast_self b]
  refine congrArg₂ (· + ·) ?_ rfl
  exact LibRowRowDot.matmul_zero_rows_apply dot_S1x1024_S3072x1024_S1x3072_1_1_0_0_n_n rfl rfl rfl rfl rfl rfl none _ _ (0 : Fin 1) o

theorem kGru_eq (gi gh : FVec Ideal S1x3072 .f32) (h : FVec Ideal S1x1024 .f32) : kGru gi gh h = gru gi gh h := by
  funext i
  obtain ⟨p, q, rfl⟩ : ∃ (p : Fin 1) (q : Fin 1024), i = ix2 p q := ⟨i 0, i 1, eq_ix2 i⟩
  obtain rfl : p = 0 := Subsingleton.elim _ _
  rw [gru_apply]
  unfold kGru
  rw [shapeCast_self h]
  refine congrArg₂ (· + ·)
    (congrArg₂ (· * ·)
      (congrArg₂ (· - ·) rfl (congrArg Ideal.logistic (congrArg₂ (· + ·) ?_ ?_)))
      (congrArg Ideal.tanh (congrArg₂ (· + ·) ?_
        (congrArg₂ (· * ·) (congrArg Ideal.logistic (congrArg₂ (· + ·) ?_ ?_)) ?_))))
    (congrArg₂ (· * ·) (congrArg Ideal.logistic (congrArg₂ (· + ·) ?_ ?_)) rfl)
  all_goals exact slice2_axis1_apply _ _ _ (0 : Fin 1) q _ rfl

end Cert.Bridge
-- ==== Proof.LibBiasRow.lean ====
/-
  A bias vector laid along the rows of a matrix, read at an entry.

  A vector [D] reshaped to the one-row matrix [1, D] has the vector's element k at (0, k); that row spread over N rows has,
  at (p, k), the row's element (0, k).  Together: adding a bias vector to every row of an [N, D] matrix adds element k of the
  vector at column k.  General in the extents and the element type.
-/
import Idealize.ShloMosaic.Lib.ValueIdx
import Idealize.ShloMosaic.Lib.Pipeline.Value

noncomputable section

namespace Cert.LibBiasRow

open Idealize.ShloMosaic Idealize.ShloMosaic.ValueIdx

/-- A vector reshaped to a one-row matrix: element (u, k) of the row is element k of the vector. -/
theorem vec_as_row_apply {α : Type} {D : ℕ} (h : (⟨1, ![D]⟩ : Shape).ShapeCasts ⟨2, ![1, D]⟩)
    (v : (⟨1, ![D]⟩ : Shape).Idx → α) (u : Fin 1) (k : Fin D) :
    shapeCast ⟨2, ![1, D]⟩ v h (ix2 u k) = v (ix1 k) := by
  refine (shapeCast_addUnit_apply (n := 1) ![D] v h (ix2 u k)).trans (congrArg v ?_)
  funext a
  match a with
  | ⟨0, _⟩ => rfl

/-- A one-row matrix spread over N rows: element (p, k) is the row's element (0, k) (the first axis is a unit axis; the
    second is read at the column, also when D = 1). -/
theorem row_spread_apply {α : Type} {N D : ℕ} (h : (⟨2, ![1, D]⟩ : Shape).Broadcasts ⟨2, ![N, D]⟩)
    (v : (⟨2, ![1, D]⟩ : Shape).Idx → α) (p : Fin N) (k : Fin D) :
    broadcastTo ⟨2, ![N, D]⟩ v h (ix2 p k) = v (ix2 (0 : Fin 1) k) :=
  broadcastTo_apply v h (ix2 p k) (ix2 (0 : Fin 1) k) (fun a => by
    match a with
    | ⟨0, _⟩ => rfl
    | ⟨1, _⟩ =>
      show k.val = if D = 1 then 0 else k.val
      split
      · have := k.isLt; omega
      · rfl)

/-- The two together: a vector reshaped to a row and spread over N rows reads, at (p, k), the vector's element k. -/
theorem vec_spread_apply {α : Type} {N D : ℕ} (h₁ : (⟨1, ![D]⟩ : Shape).ShapeCasts ⟨2, ![1, D]⟩)
    (h₂ : (⟨2, ![1, D]⟩ : Shape).Broadcasts ⟨2, ![N, D]⟩) (v : (⟨1, ![D]⟩ : Shape).Idx → α) (p : Fin N) (k : Fin D) :
    broadcastTo ⟨2, ![N, D]⟩ (shapeCast ⟨2, ![1, D]⟩ v h₁) h₂ (ix2 p k) = v (ix1 k) :=
  (row_spread_apply h₂ _ p k).trans (vec_as_row_apply h₁ v 0 k)

end Cert.LibBiasRow

end
-- ==== Proof.RScore.lean ====
import proofs.«149668_j82532091560494_2_alg».proof.Proof.RefImports
import proofs.«149668_j82532091560494_2_alg».proof.Proof.Gen.KernelIdeal
import proofs.«149668_j82532091560494_2_alg».proof.Proof.StageSpec
import proofs.«149668_j82532091560494_2_alg».proof.Proof.LibSplitContraction
import proofs.«149668_j82532091560494_2_alg».proof.Proof.LibBiasRow
import Idealize.ShloMosaic.Lib.Pipeline.Value
import Idealize.ShloMosaic.Lib.ValueLayout

/-! The reference's attention scores are the score formula of the gathered row, the previous state, the weights and the bias row. -/

open Idealize.ShloMosaic Idealize.ShloMosaic.ValueIdx Cert.ReferenceIdeal Cert.ReferenceIdeal.Gen Cert.ReferenceIdeal.ReadP

namespace Cert.Bridge

theorem rScore_eq (x0 : (⟨S1, .i32⟩ : BufTy).Contents (Elt Ideal)) (x1 : (⟨S1x1x1024, .f32⟩ : BufTy).Contents (Elt Ideal)) (x3 : (⟨S50257x1024, .f32⟩ : BufTy).Contents (Elt Ideal)) (x4 : (⟨S512x2048, .f32⟩ : BufTy).Contents (Elt Ideal)) (x5 : (⟨S512, .f32⟩ : BufTy).Contents (Elt Ideal)) :
    val_main_v12 (F := Ideal) x0 x1 x3 x4 x5
      = score (val_main_v6 (F := Ideal) x0 x3) (val_main_v7 (F := Ideal) x1) x4
          (shapeCast Cert.KernelIdeal.S1x512 x5 Cert.KernelIdeal.Gen.shapeCasts_S512_S1x512) := by
  funext i
  obtain ⟨p, q, rfl⟩ : ∃ (p : Fin 1) (q : Fin 512), i = ix2 p q := ⟨i 0, i 1, eq_ix2 i⟩
  obtain rfl : p = 0 := Subsingleton.elim _ _
  rw [score_apply, val_main_v12_apply, val_main_v10_apply, val_main_v11_apply]
  have hl : ∀ k : Fin 2048, lidx_main_v10 (ix2 (0 : Fin 1) q) k = ix2 0 k := fun k => funext fun a => Fin.ext (by match a with | ⟨0, _⟩ => rfl | ⟨1, _⟩ => rfl)
  have hr : ∀ k : Fin 2048, val_main_v9 (F := Ideal) x4 (ridx_main_v10 (ix2 (0 : Fin 1) q) k) = x4 (ix2 q k) := fun k => by
    rw [val_main_v9_apply]
    exact congrArg x4 (funext fun a => Fin.ext (by match a with | ⟨0, _⟩ => rfl | ⟨1, _⟩ => rfl))
  simp only [hl, hr]
  refine congrArg₂ (· + ·) ?_ ?_
  · unfold val_main_v8
    exact LibSplitContraction.sum_concat_cols (a := 1024) (b := 1024) _ _ concatenates_S1x1024_S1x1024_S1x2048_d1
      (fun k => x4 (ix2 q k)) (0 : Fin 1)
  · refine Eq.trans (congrArg x5 ?_) (LibBiasRow.vec_as_row_apply Cert.KernelIdeal.Gen.shapeCasts_S512_S1x512 x5 (0 : Fin 1) q).symm
    exact funext fun a => Fin.ext (by match a with | ⟨0, _⟩ => rfl)

end Cert.Bridge
-- ==== Proof.RSoft.lean ====
import proofs.«149668_j82532091560494_2_alg».proof.Proof.RefImports
import proofs.«149668_j82532091560494_2_alg».proof.Proof.Gen.KernelIdeal
import proofs.«149668_j82532091560494_2_alg».proof.Proof.StageSpec
import proofs.«149668_j82532091560494_2_alg».proof.Proof.LibRowReduce
import Idealize.ShloMosaic.Lib.Pipeline.Value
import Idealize.ShloMosaic.Lib.ValueLayout

/-! The reference's attention weights are the softmax formula of its scores. -/

open Idealize.ShloMosaic Idealize.ShloMosaic.ValueIdx Cert.ReferenceIdeal Cert.ReferenceIdeal.Gen Cert.ReferenceIdeal.ReadP

namespace Cert.Bridge

theorem rRowMax (x0 : (⟨S1, .i32⟩ : BufTy).Contents (Elt Ideal)) (x1 : (⟨S1x1x1024, .f32⟩ : BufTy).Contents (Elt Ideal)) (x3 : (⟨S50257x1024, .f32⟩ : BufTy).Contents (Elt Ideal)) (x4 : (⟨S512x2048, .f32⟩ : BufTy).Contents (Elt Ideal)) (x5 : (⟨S512, .f32⟩ : BufTy).Contents (Elt Ideal)) (c : Fin 512) :
    val_main_v17 (F := Ideal) x0 x1 x3 x4 x5 (ix2 (0 : Fin 1) c) = rowMax (val_main_v12 (F := Ideal) x0 x1 x3 x4 x5) := by
  have hi : idx_main_v16 (idx_main_v17 (ix2 (0 : Fin 1) c)) = ix1 (0 : Fin 1) := funext fun a => Fin.ext (by match a with | ⟨0, _⟩ => rfl)
  rw [val_main_v17_apply, val_main_v16_apply, hi, val_main_v15_apply, val_main_v14_apply, val_main_cst_1_apply]
  unfold val_main_v13 rowMax
  refine congrArg (max (Ideal.ofBits .f32 0xFF800000#32)) ?_
  exact LibRowReduce.hostReduce_max_row (val_main_v12 (F := Ideal) x0 x1 x3 x4 x5) (val_main_cst (F := Ideal))
    reducesTo_S1x512_S1_d1 (by decide) h_S_ (0 : Fin 1)

theorem rExp (x0 : (⟨S1, .i32⟩ : BufTy).Contents (Elt Ideal)) (x1 : (⟨S1x1x1024, .f32⟩ : BufTy).Contents (Elt Ideal)) (x3 : (⟨S50257x1024, .f32⟩ : BufTy).Contents (Elt Ideal)) (x4 : (⟨S512x2048, .f32⟩ : BufTy).Contents (Elt Ideal)) (x5 : (⟨S512, .f32⟩ : BufTy).Contents (Elt Ideal)) (c : Fin 512) :
    val_main_v19 (F := Ideal) x0 x1 x3 x4 x5 (ix2 (0 : Fin 1) c)
      = Ideal.exp (val_main_v12 (F := Ideal) x0 x1 x3 x4 x5 (ix2 0 c) - rowMax (val_main_v12 (F := Ideal) x0 x1 x3 x4 x5)) := by
  rw [val_main_v19_apply, val_main_v18_apply, rRowMax]
  rfl

theorem rSoft_eq (x0 : (⟨S1, .i32⟩ : BufTy).Contents (Elt Ideal)) (x1 : (⟨S1x1x1024, .f32⟩ : BufTy).Contents (Elt Ideal)) (x3 : (⟨S50257x1024, .f32⟩ : BufTy).Contents (Elt Ideal)) (x4 : (⟨S512x2048, .f32⟩ : BufTy).Contents (Elt Ideal)) (x5 : (⟨S512, .f32⟩ : BufTy).Contents (Elt Ideal)) :
    val_main_v23 (F := Ideal) x0 x1 x3 x4 x5 = softmaxRow (val_main_v12 (F := Ideal) x0 x1 x3 x4 x5) := by
  funext i
  obtain ⟨p, q, rfl⟩ : ∃ (p : Fin 1) (q : Fin 512), i = ix2 p q := ⟨i 0, i 1, eq_ix2 i⟩
  obtain rfl : p = 0 := Subsingleton.elim _ _
  rw [val_main_v23_apply, val_main_v22_apply, val_main_v21_apply, val_main_v20_apply, val_main_cst_2_apply, rExp]
  unfold softmaxRow
  refine congrArg (Ideal.div _) ?_
  show Ideal.ofBits .f32 0x00000000#32 + _ = _
  rw [Ideal.ofBits_zero_f32, zero_add]
  refine Finset.sum_congr rfl fun o _ => ?_
  have ho : idx_main_v20 (idx_main_v21 (idx_main_v22 (ix2 (0 : Fin 1) q))) o = ix2 (0 : Fin 1) o := funext fun a => Fin.ext (by match a with | ⟨0, _⟩ => rfl | ⟨1, _⟩ => rfl)
  rw [ho, rExp]

end Cert.Bridge
-- ==== Proof.RCtxComb.lean ====
import proofs.«149668_j82532091560494_2_alg».proof.Proof.RefImports
import proofs.«149668_j82532091560494_2_alg».proof.Proof.Gen.KernelIdeal
import proofs.«149668_j82532091560494_2_alg».proof.Proof.StageSpec
import proofs.«149668_j82532091560494_2_alg».proof.Proof.LibSplitContraction
import proofs.«149668_j82532091560494_2_alg».proof.Proof.LibBiasRow
import Idealize.ShloMosaic.Lib.Pipeline.Value
import Idealize.ShloMosaic.Lib.ValueLayout

/-! The reference's attended context and combined input are the context and combination formulas. -/

open Idealize.ShloMosaic Idealize.ShloMosaic.ValueIdx Cert.ReferenceIdeal Cert.ReferenceIdeal.Gen Cert.ReferenceIdeal.ReadP

namespace Cert.Bridge

theorem rCtx_eq (x0 : (⟨S1, .i32⟩ : BufTy).Contents (Elt Ideal)) (x1 : (⟨S1x1x1024, .f32⟩ : BufTy).Contents (Elt Ideal)) (x2 : (⟨S512x1024, .f32⟩ : BufTy).Contents (Elt Ideal)) (x3 : (⟨S50257x1024, .f32⟩ : BufTy).Contents (Elt Ideal)) (x4 : (⟨S512x2048, .f32⟩ : BufTy).Contents (Elt Ideal)) (x5 : (⟨S512, .f32⟩ : BufTy).Contents (Elt Ideal)) :
    val_main_v24 (F := Ideal) x0 x1 x2 x3 x4 x5 = ctx (val_main_v23 (F := Ideal) x0 x1 x3 x4 x5) x2 := by
  funext i
  obtain ⟨p, q, rfl⟩ : ∃ (p : Fin 1) (q : Fin 1024), i = ix2 p q := ⟨i 0, i 1, eq_ix2 i⟩
  obtain rfl : p = 0 := Subsingleton.elim _ _
  rw [ctx_apply, val_main_v24_apply]
  refine Finset.sum_congr rfl fun k _ => ?_
  have hl : lidx_main_v24 (ix2 (0 : Fin 1) q) k = ix2 (0 : Fin 1) k := funext fun a => Fin.ext (by match a with | ⟨0, _⟩ => rfl | ⟨1, _⟩ => rfl)
  have hr : ridx_main_v24 (ix2 (0 : Fin 1) q) k = ix2 k q := funext fun a => Fin.ext (by match a with | ⟨0, _⟩ => rfl | ⟨1, _⟩ => rfl)
  rw [hl, hr]

theorem rComb_eq (x0 : (⟨S1, .i32⟩ : BufTy).Contents (Elt Ideal)) (x1 : (⟨S1x1x1024, .f32⟩ : BufTy).Contents (Elt Ideal)) (x2 : (⟨S512x1024, .f32⟩ : BufTy).Contents (Elt Ideal)) (x3 : (⟨S50257x1024, .f32⟩ : BufTy).Contents (Elt Ideal)) (x4 : (⟨S512x2048, .f32⟩ : BufTy).Contents (Elt Ideal)) (x5 : (⟨S512, .f32⟩ : BufTy).Contents (Elt Ideal)) (x6 : (⟨S1024x2048, .f32⟩ : BufTy).Contents (Elt Ideal)) (x7 : (⟨S1024, .f32⟩ : BufTy).Contents (Elt Ideal)) :
    val_main_v30 (F := Ideal) x0 x1 x2 x3 x4 x5 x6 x7
      = comb (val_main_v6 (F := Ideal) x0 x3) (val_main_v24 (F := Ideal) x0 x1 x2 x3 x4 x5) x6
          (shapeCast Cert.KernelIdeal.S1x1024 x7 Cert.KernelIdeal.Gen.shapeCasts_S1024_S1x1024) := by
  funext i
  obtain ⟨p, q, rfl⟩ : ∃ (p : Fin 1) (q : Fin 1024), i = ix2 p q := ⟨i 0, i 1, eq_ix2 i⟩
  obtain rfl : p = 0 := Subsingleton.elim _ _
  rw [comb_apply, val_main_v30_apply, val_main_v29_apply, val_main_v27_apply, val_main_v28_apply,
    val_main_call0_v0_apply, val_main_call0_cst_apply]
  have hl : ∀ k : Fin 2048, lidx_main_v27 (ix2 (0 : Fin 1) q) k = ix2 0 k := fun k => funext fun a => Fin.ext (by match a with | ⟨0, _⟩ => rfl | ⟨1, _⟩ => rfl)
  have hr : ∀ k : Fin 2048, val_main_v26 (F := Ideal) x6 (ridx_main_v27 (ix2 (0 : Fin 1) q) k) = x6 (ix2 q k) := fun k => by
    rw [val_main_v26_apply]
    exact congrArg x6 (funext fun a => Fin.ext (by match a with | ⟨0, _⟩ => rfl | ⟨1, _⟩ => rfl))
  simp only [hl, hr]
  refine congrArg₂ max (congrArg₂ (· + ·) ?_ ?_) rfl
  · unfold val_main_v25
    exact LibSplitContraction.sum_concat_cols (a := 1024) (b := 1024) _ _ concatenates_S1x1024_S1x1024_S1x2048_d1
      (fun k => x6 (ix2 q k)) (0 : Fin 1)
  · refine Eq.trans (congrArg x7 ?_) (LibBiasRow.vec_as_row_apply Cert.KernelIdeal.Gen.shapeCasts_S1024_S1x1024 x7 (0 : Fin 1) q).symm
    exact funext fun a => Fin.ext (by match a with | ⟨0, _⟩ => rfl)

end Cert.Bridge
-- ==== Proof.RGru.lean ====
import proofs.«149668_j82532091560494_2_alg».proof.Proof.RefImports
import proofs.«149668_j82532091560494_2_alg».proof.Proof.Gen.KernelIdeal
import proofs.«149668_j82532091560494_2_alg».proof.Proof.StageSpec
import proofs.«149668_j82532091560494_2_alg».proof.Proof.LibBiasRow
import Idealize.ShloMosaic.Lib.Pipeline.Value
import Idealize.ShloMosaic.Lib.ValueLayout

/-! The reference's gate pre-activations and gated update are the gate and update formulas; its sigmoid, spelt negate, exponential, one plus, one over, is the logistic function. -/

open Idealize.ShloMosaic Idealize.ShloMosaic.ValueIdx Cert.ReferenceIdeal Cert.ReferenceIdeal.Gen Cert.ReferenceIdeal.ReadP

namespace Cert.Bridge

theorem one_f32 : Ideal.ofBits .f32 0x3F800000#32 = 1 := IdealRules.sign_bit.ideal_onePat .f32

/-- One over one plus the exponential of the negation, with the ones as float words, is the logistic function. -/
theorem sigmoid_words (x : EReal) :
    Ideal.div (Ideal.ofBits .f32 0x3F800000#32) (Ideal.ofBits .f32 0x3F800000#32 + Ideal.exp (-x)) = Ideal.logistic x := by
  rw [one_f32]; rfl

theorem rGatesI_eq (x0 : (⟨S1, .i32⟩ : BufTy).Contents (Elt Ideal)) (x1 : (⟨S1x1x1024, .f32⟩ : BufTy).Contents (Elt Ideal)) (x2 : (⟨S512x1024, .f32⟩ : BufTy).Contents (Elt Ideal)) (x3 : (⟨S50257x1024, .f32⟩ : BufTy).Contents (Elt Ideal)) (x4 : (⟨S512x2048, .f32⟩ : BufTy).Contents (Elt Ideal)) (x5 : (⟨S512, .f32⟩ : BufTy).Contents (Elt Ideal)) (x6 : (⟨S1024x2048, .f32⟩ : BufTy).Contents (Elt Ideal)) (x7 : (⟨S1024, .f32⟩ : BufTy).Contents (Elt Ideal)) (x8 : (⟨S3072x1024, .f32⟩ : BufTy).Contents (Elt Ideal)) (x10 : (⟨S3072, .f32⟩ : BufTy).Contents (Elt Ideal)) :
    val_main_v34 (F := Ideal) x0 x1 x2 x3 x4 x5 x6 x7 x8 x10
      = gates (val_main_v30 (F := Ideal) x0 x1 x2 x3 x4 x5 x6 x7) x8
          (shapeCast Cert.KernelIdeal.S1x3072 x10 Cert.KernelIdeal.Gen.shapeCasts_S3072_S1x3072) := by
  funext i
  obtain ⟨p, o, rfl⟩ : ∃ (p : Fin 1) (o : Fin 3072), i = ix2 p o := ⟨i 0, i 1, eq_ix2 i⟩
  obtain rfl : p = 0 := Subsingleton.elim _ _
  rw [gates_apply, val_main_v34_apply, val_main_v32_apply, val_main_v33_apply]
  refine congrArg₂ (· + ·) (Finset.sum_congr rfl fun k _ => ?_) ?_
  · have hl : lidx_main_v32 (ix2 (0 : Fin 1) o) k = ix2 (0 : Fin 1) k := funext fun a => Fin.ext (by match a with | ⟨0, _⟩ => rfl | ⟨1, _⟩ => rfl)
    rw [hl, val_main_v31_apply]
    exact congrArg _ (congrArg x8 (funext fun a => Fin.ext (by match a with | ⟨0, _⟩ => rfl | ⟨1, _⟩ => rfl)))
  · refine Eq.trans (congrArg x10 ?_) (LibBiasRow.vec_as_row_apply Cert.KernelIdeal.Gen.shapeCasts_S3072_S1x3072 x10 (0 : Fin 1) o).symm
    exact funext fun a => Fin.ext (by match a with | ⟨0, _⟩ => rfl)

theorem rGatesH_eq (x1 : (⟨S1x1x1024, .f32⟩ : BufTy).Contents (Elt Ideal)) (x9 : (⟨S3072x1024, .f32⟩ : BufTy).Contents (Elt Ideal)) (x11 : (⟨S3072, .f32⟩ : BufTy).Contents (Elt Ideal)) :
    val_main_v38 (F := Ideal) x1 x9 x11
      = gates (val_main_v7 (F := Ideal) x1) x9
          (shapeCast Cert.KernelIdeal.S1x3072 x11 Cert.KernelIdeal.Gen.shapeCasts_S3072_S1x3072) := by
  funext i
  obtain ⟨p, o, rfl⟩ : ∃ (p : Fin 1) (o : Fin 3072), i = ix2 p o := ⟨i 0, i 1, eq_ix2 i⟩
  obtain rfl : p = 0 := Subsingleton.elim _ _
  rw [gates_apply, val_main_v38_apply, val_main_v36_apply, val_main_v37_apply]
  refine congrArg₂ (· + ·) (Finset.sum_congr rfl fun k _ => ?_) ?_
  · have hl : lidx_main_v36 (ix2 (0 : Fin 1) o) k = ix2 (0 : Fin 1) k := funext fun a => Fin.ext (by match a with | ⟨0, _⟩ => rfl | ⟨1, _⟩ => rfl)
    rw [hl, val_main_v35_apply]
    exact congrArg _ (congrArg x9 (funext fun a => Fin.ext (by match a with | ⟨0, _⟩ => rfl | ⟨1, _⟩ => rfl)))
  · refine Eq.trans (congrArg x11 ?_) (LibBiasRow.vec_as_row_apply Cert.KernelIdeal.Gen.shapeCasts_S3072_S1x3072 x11 (0 : Fin 1) o).symm
    exact funext fun a => Fin.ext (by match a with | ⟨0, _⟩ => rfl)

/-- The reset gate. -/
theorem rR (x0 : (⟨S1, .i32⟩ : BufTy).Contents (Elt Ideal)) (x1 : (⟨S1x1x1024, .f32⟩ : BufTy).Contents (Elt Ideal)) (x2 : (⟨S512x1024, .f32⟩ : BufTy).Contents (Elt Ideal)) (x3 : (⟨S50257x1024, .f32⟩ : BufTy).Contents (Elt Ideal)) (x4 : (⟨S512x2048, .f32⟩ : BufTy).Contents (Elt Ideal)) (x5 : (⟨S512, .f32⟩ : BufTy).Contents (Elt Ideal)) (x6 : (⟨S1024x2048, .f32⟩ : BufTy).Contents (Elt Ideal)) (x7 : (⟨S1024, .f32⟩ : BufTy).Contents (Elt Ideal)) (x8 x9 : (⟨S3072x1024, .f32⟩ : BufTy).Contents (Elt Ideal)) (x10 x11 : (⟨S3072, .f32⟩ : BufTy).Contents (Elt Ideal)) (q : Fin 1024) :
    val_main_v51 (F := Ideal) x0 x1 x2 x3 x4 x5 x6 x7 x8 x9 x10 x11 (ix2 (0 : Fin 1) q) = Ideal.logistic ((val_main_v34 (F := Ideal) x0 x1 x2 x3 x4 x5 x6 x7 x8 x10) (ix2 0 (col3 0 (by norm_num) q)) + (val_main_v38 (F := Ideal) x1 x9 x11) (ix2 0 (col3 0 (by norm_num) q))) := by
  have h1 : idx_main_v39 (ix2 (0 : Fin 1) q) = ix2 0 (col3 0 (by norm_num) q) :=
    funext fun a => Fin.ext (by match a with | ⟨0, _⟩ => rfl | ⟨1, _⟩ => exact (Nat.zero_add _).symm)
  have h2 : idx_main_v42 (ix2 (0 : Fin 1) q) = ix2 0 (col3 0 (by norm_num) q) :=
    funext fun a => Fin.ext (by match a with | ⟨0, _⟩ => rfl | ⟨1, _⟩ => exact (Nat.zero_add _).symm)
  rw [val_main_v51_apply, val_main_v50_apply, val_main_cst_4_apply, val_main_v49_apply, val_main_v48_apply,
    val_main_cst_3_apply, val_main_v47_apply, val_main_v46_apply, val_main_v45_apply, val_main_v39_apply,
    val_main_v42_apply, h1, h2]
  exact sigmoid_words _

/-- The update gate. -/
theorem rZ (x0 : (⟨S1, .i32⟩ : BufTy).Contents (Elt Ideal)) (x1 : (⟨S1x1x1024, .f32⟩ : BufTy).Contents (Elt Ideal)) (x2 : (⟨S512x1024, .f32⟩ : BufTy).Contents (Elt Ideal)) (x3 : (⟨S50257x1024, .f32⟩ : BufTy).Contents (Elt Ideal)) (x4 : (⟨S512x2048, .f32⟩ : BufTy).Contents (Elt Ideal)) (x5 : (⟨S512, .f32⟩ : BufTy).Contents (Elt Ideal)) (x6 : (⟨S1024x2048, .f32⟩ : BufTy).Contents (Elt Ideal)) (x7 : (⟨S1024, .f32⟩ : BufTy).Contents (Elt Ideal)) (x8 x9 : (⟨S3072x1024, .f32⟩ : BufTy).Contents (Elt Ideal)) (x10 x11 : (⟨S3072, .f32⟩ : BufTy).Contents (Elt Ideal)) (q : Fin 1024) :
    val_main_v58 (F := Ideal) x0 x1 x2 x3 x4 x5 x6 x7 x8 x9 x10 x11 (ix2 (0 : Fin 1) q) = Ideal.logistic ((val_main_v34 (F := Ideal) x0 x1 x2 x3 x4 x5 x6 x7 x8 x10) (ix2 0 (col3 1024 (by norm_num) q)) + (val_main_v38 (F := Ideal) x1 x9 x11) (ix2 0 (col3 1024 (by norm_num) q))) := by
  have h1 : idx_main_v40 (ix2 (0 : Fin 1) q) = ix2 0 (col3 1024 (by norm_num) q) := funext fun a => Fin.ext (by match a with | ⟨0, _⟩ => rfl | ⟨1, _⟩ => rfl)
  have h2 : idx_main_v43 (ix2 (0 : Fin 1) q) = ix2 0 (col3 1024 (by norm_num) q) := funext fun a => Fin.ext (by match a with | ⟨0, _⟩ => rfl | ⟨1, _⟩ => rfl)
  rw [val_main_v58_apply, val_main_v57_apply, val_main_cst_6_apply, val_main_v56_apply, val_main_v55_apply,
    val_main_cst_5_apply, val_main_v54_apply, val_main_v53_apply, val_main_v52_apply, val_main_v40_apply,
    val_main_v43_apply, h1, h2]
  exact sigmoid_words _

theorem rGru_eq (x0 : (⟨S1, .i32⟩ : BufTy).Contents (Elt Ideal)) (x1 : (⟨S1x1x1024, .f32⟩ : BufTy).Contents (Elt Ideal)) (x2 : (⟨S512x1024, .f32⟩ : BufTy).Contents (Elt Ideal)) (x3 : (⟨S50257x1024, .f32⟩ : BufTy).Contents (Elt Ideal)) (x4 : (⟨S512x2048, .f32⟩ : BufTy).Contents (Elt Ideal)) (x5 : (⟨S512, .f32⟩ : BufTy).Contents (Elt Ideal)) (x6 : (⟨S1024x2048, .f32⟩ : BufTy).Contents (Elt Ideal)) (x7 : (⟨S1024, .f32⟩ : BufTy).Contents (Elt Ideal)) (x8 x9 : (⟨S3072x1024, .f32⟩ : BufTy).Contents (Elt Ideal)) (x10 x11 : (⟨S3072, .f32⟩ : BufTy).Contents (Elt Ideal)) :
    val_main_v66 (F := Ideal) x0 x1 x2 x3 x4 x5 x6 x7 x8 x9 x10 x11 = gru (val_main_v34 (F := Ideal) x0 x1 x2 x3 x4 x5 x6 x7 x8 x10) (val_main_v38 (F := Ideal) x1 x9 x11) (val_main_v7 (F := Ideal) x1) := by
  funext i
  obtain ⟨p, q, rfl⟩ : ∃ (p : Fin 1) (q : Fin 1024), i = ix2 p q := ⟨i 0, i 1, eq_ix2 i⟩
  obtain rfl : p = 0 := Subsingleton.elim _ _
  have h1 : idx_main_v41 (ix2 (0 : Fin 1) q) = ix2 0 (col3 2048 (by norm_num) q) := funext fun a => Fin.ext (by match a with | ⟨0, _⟩ => rfl | ⟨1, _⟩ => rfl)
  have h2 : idx_main_v44 (ix2 (0 : Fin 1) q) = ix2 0 (col3 2048 (by norm_num) q) := funext fun a => Fin.ext (by match a with | ⟨0, _⟩ => rfl | ⟨1, _⟩ => rfl)
  rw [gru_apply, val_main_v66_apply, val_main_v64_apply, val_main_v65_apply, val_main_v63_apply, val_main_v62_apply,
    val_main_cst_7_apply, val_main_v61_apply, val_main_v60_apply, val_main_v59_apply, val_main_v41_apply,
    val_main_v44_apply, h1, h2, rR, rZ]
  rfl

end Cert.Bridge
-- ==== Proof.RTail.lean ====
import proofs.«149668_j82532091560494_2_alg».proof.Proof.RefImports
import proofs.«149668_j82532091560494_2_alg».proof.Proof.Gen.KernelIdeal
import proofs.«149668_j82532091560494_2_alg».proof.Proof.StageSpec
import proofs.«149668_j82532091560494_2_alg».proof.Proof.LogitsSpec
import proofs.«149668_j82532091560494_2_alg».proof.Proof.LibBiasRow
import Idealize.ShloMosaic.Lib.Pipeline.Value
import Idealize.ShloMosaic.Lib.ValueLayout

/-! The reference's logits are the whole-array projection formula of its new state; its log-softmax is one function of the logits, and its returned state one broadcast of the new state. -/

open Idealize.ShloMosaic Idealize.ShloMosaic.ValueIdx Cert.ReferenceIdeal Cert.ReferenceIdeal.Gen Cert.ReferenceIdeal.ReadP

namespace Cert.Bridge

noncomputable section

theorem logits_apply (h : FVec Ideal Cert.KernelIdeal.S1x1024 .f32) (W : FVec Ideal Cert.KernelIdeal.S50257x1024 .f32)
    (b : FVec Ideal Cert.KernelIdeal.S1x50257 .f32) (o : Fin 50257) :
    logits h W b (ix2 0 o) = (∑ k : Fin 1024, h (ix2 0 k) * W (ix2 o k)) + b (ix2 0 o) := rfl

theorem rLogits_eq (x0 : (⟨S1, .i32⟩ : BufTy).Contents (Elt Ideal)) (x1 : (⟨S1x1x1024, .f32⟩ : BufTy).Contents (Elt Ideal)) (x2 : (⟨S512x1024, .f32⟩ : BufTy).Contents (Elt Ideal)) (x3 : (⟨S50257x1024, .f32⟩ : BufTy).Contents (Elt Ideal)) (x4 : (⟨S512x2048, .f32⟩ : BufTy).Contents (Elt Ideal)) (x5 : (⟨S512, .f32⟩ : BufTy).Contents (Elt Ideal)) (x6 : (⟨S1024x2048, .f32⟩ : BufTy).Contents (Elt Ideal)) (x7 : (⟨S1024, .f32⟩ : BufTy).Contents (Elt Ideal)) (x8 x9 : (⟨S3072x1024, .f32⟩ : BufTy).Contents (Elt Ideal)) (x10 x11 : (⟨S3072, .f32⟩ : BufTy).Contents (Elt Ideal)) (x12 : (⟨S50257x1024, .f32⟩ : BufTy).Contents (Elt Ideal)) (x13 : (⟨S50257, .f32⟩ : BufTy).Contents (Elt Ideal)) :
    val_main_v70 (F := Ideal) x0 x1 x2 x3 x4 x5 x6 x7 x8 x9 x10 x11 x12 x13
      = logits (val_main_v66 (F := Ideal) x0 x1 x2 x3 x4 x5 x6 x7 x8 x9 x10 x11) x12
          (shapeCast Cert.KernelIdeal.S1x50257 x13 Cert.KernelIdeal.Gen.shapeCasts_S50257_S1x50257) := by
  funext i
  obtain ⟨p, o, rfl⟩ : ∃ (p : Fin 1) (o : Fin 50257), i = ix2 p o := ⟨i 0, i 1, eq_ix2 i⟩
  obtain rfl : p = 0 := Subsingleton.elim _ _
  rw [logits_apply, val_main_v70_apply, val_main_v68_apply, val_main_v69_apply]
  refine congrArg₂ (· + ·) (Finset.sum_congr rfl fun k _ => ?_) ?_
  · have hl : lidx_main_v68 (ix2 (0 : Fin 1) o) k = ix2 (0 : Fin 1) k := funext fun a => Fin.ext (by match a with | ⟨0, _⟩ => rfl | ⟨1, _⟩ => rfl)
    rw [hl, val_main_v67_apply]
    exact congrArg _ (congrArg x12 (funext fun a => Fin.ext (by match a with | ⟨0, _⟩ => rfl | ⟨1, _⟩ => rfl)))
  · refine Eq.trans (congrArg x13 ?_) (LibBiasRow.vec_as_row_apply Cert.KernelIdeal.Gen.shapeCasts_S50257_S1x50257 x13 (0 : Fin 1) o).symm
    exact funext fun a => Fin.ext (by match a with | ⟨0, _⟩ => rfl)

/-- The log-softmax along the row as the reference spells it: subtract the row's maximum, then subtract the
    logarithm of the row's sum of exponentials. One function of its operand. -/
def LSM (z : FVec Ideal S1x50257 .f32) : FVec Ideal S1x50257 .f32 :=
  have c0 : FVec Ideal S1 .f32 := Host.reduce FloatOps.maximumf z (constant S_ .f32 0xFF800000#32 : FVec Ideal S_ .f32) reducesTo_S1x50257_S1_d1 h_S_
  have c2 : FVec Ideal S1 .f32 := maximumf (broadcastInDim S1 ![] bcast_S_S1 (constant S_ .f32 0xFF800000#32 : FVec Ideal S_ .f32) : FVec Ideal S1 .f32) c0
  have c3 : FVec Ideal S1x1 .f32 := broadcastInDim S1x1 ![0] bcast_S1_S1x1_0 c2
  have c4 : FVec Ideal S1x50257 .f32 := broadcastInDim S1x50257 ![0, 1] bcast_S1x1_S1x50257_0_1 c3
  have c5 : FVec Ideal S1x50257 .f32 := subf z c4
  have c6 : FVec Ideal S1x50257 .f32 := Host.exp c5
  have c7 : FVec Ideal S1 .f32 := Host.reduceAdd c6 (constant S_ .f32 0x00000000#32 : FVec Ideal S_ .f32) reducesTo_S1x50257_S1_d1 h_S_
  have c8 : FVec Ideal S1x1 .f32 := broadcastInDim S1x1 ![0] bcast_S1_S1x1_0 c7
  have c9 : FVec Ideal S1x1 .f32 := Host.log c8
  have c10 : FVec Ideal S1x50257 .f32 := broadcastInDim S1x50257 ![0, 1] bcast_S1x1_S1x50257_0_1 c9
  subf c5 c10

theorem rLSM_eq (x0 : (⟨S1, .i32⟩ : BufTy).Contents (Elt Ideal)) (x1 : (⟨S1x1x1024, .f32⟩ : BufTy).Contents (Elt Ideal)) (x2 : (⟨S512x1024, .f32⟩ : BufTy).Contents (Elt Ideal)) (x3 : (⟨S50257x1024, .f32⟩ : BufTy).Contents (Elt Ideal)) (x4 : (⟨S512x2048, .f32⟩ : BufTy).Contents (Elt Ideal)) (x5 : (⟨S512, .f32⟩ : BufTy).Contents (Elt Ideal)) (x6 : (⟨S1024x2048, .f32⟩ : BufTy).Contents (Elt Ideal)) (x7 : (⟨S1024, .f32⟩ : BufTy).Contents (Elt Ideal)) (x8 x9 : (⟨S3072x1024, .f32⟩ : BufTy).Contents (Elt Ideal)) (x10 x11 : (⟨S3072, .f32⟩ : BufTy).Contents (Elt Ideal)) (x12 : (⟨S50257x1024, .f32⟩ : BufTy).Contents (Elt Ideal)) (x13 : (⟨S50257, .f32⟩ : BufTy).Contents (Elt Ideal)) :
    val_main_v71 (F := Ideal) x0 x1 x2 x3 x4 x5 x6 x7 x8 x9 x10 x11 x12 x13 = LSM (val_main_v70 (F := Ideal) x0 x1 x2 x3 x4 x5 x6 x7 x8 x9 x10 x11 x12 x13) := rfl

/-- The returned state: the new state with a leading unit axis. -/
def B (h : FVec Ideal S1x1024 .f32) : FVec Ideal S1x1x1024 .f32 :=
  broadcastInDim S1x1x1024 ![1, 2] bcast_S1x1024_S1x1x1024_1_2 h

theorem rB_eq (x0 : (⟨S1, .i32⟩ : BufTy).Contents (Elt Ideal)) (x1 : (⟨S1x1x1024, .f32⟩ : BufTy).Contents (Elt Ideal)) (x2 : (⟨S512x1024, .f32⟩ : BufTy).Contents (Elt Ideal)) (x3 : (⟨S50257x1024, .f32⟩ : BufTy).Contents (Elt Ideal)) (x4 : (⟨S512x2048, .f32⟩ : BufTy).Contents (Elt Ideal)) (x5 : (⟨S512, .f32⟩ : BufTy).Contents (Elt Ideal)) (x6 : (⟨S1024x2048, .f32⟩ : BufTy).Contents (Elt Ideal)) (x7 : (⟨S1024, .f32⟩ : BufTy).Contents (Elt Ideal)) (x8 x9 : (⟨S3072x1024, .f32⟩ : BufTy).Contents (Elt Ideal)) (x10 x11 : (⟨S3072, .f32⟩ : BufTy).Contents (Elt Ideal)) :
    val_main_v72 (F := Ideal) x0 x1 x2 x3 x4 x5 x6 x7 x8 x9 x10 x11 = B (val_main_v66 (F := Ideal) x0 x1 x2 x3 x4 x5 x6 x7 x8 x9 x10 x11) := rfl

end

end Cert.Bridge
-- ==== Proof.Assembly.lean ====
import proofs.«149668_j82532091560494_2_alg».proof.Proof.RefImports
import proofs.«149668_j82532091560494_2_alg».proof.Proof.Gen.KernelIdeal
import proofs.«149668_j82532091560494_2_alg».proof.Proof.LogitsSpec
import proofs.«149668_j82532091560494_2_alg».proof.Proof.StageSpec
import proofs.«149668_j82532091560494_2_alg».proof.Proof.KernelStages
import proofs.«149668_j82532091560494_2_alg».proof.Proof.KScore
import proofs.«149668_j82532091560494_2_alg».proof.Proof.KSoft
import proofs.«149668_j82532091560494_2_alg».proof.Proof.KCtxComb
import proofs.«149668_j82532091560494_2_alg».proof.Proof.KGru
import proofs.«149668_j82532091560494_2_alg».proof.Proof.RScore
import proofs.«149668_j82532091560494_2_alg».proof.Proof.RSoft
import proofs.«149668_j82532091560494_2_alg».proof.Proof.RCtxComb
import proofs.«149668_j82532091560494_2_alg».proof.Proof.RGru
import proofs.«149668_j82532091560494_2_alg».proof.Proof.RTail

/-! The reference's three results as its own prefix stages, then the kernel bodies' values, then its own
suffix stages: the attention weights are the first body's weights; the returned state is the broadcast of the
second body's value; the log-probabilities are the log-softmax of the whole-array projection of that value. -/

open Idealize.ShloMosaic Idealize.ShloMosaic.ValueIdx Idealize.SL.Sem Cert.ReferenceIdeal Cert.ReferenceIdeal.Gen Cert.ReferenceIdeal.ReadP

namespace Cert.Bridge

/-- The attention weights, over the arguments. -/
theorem weights_eq (x0 : (⟨S1, .i32⟩ : BufTy).Contents (Elt Ideal)) (x1 : (⟨S1x1x1024, .f32⟩ : BufTy).Contents (Elt Ideal)) (x3 : (⟨S50257x1024, .f32⟩ : BufTy).Contents (Elt Ideal)) (x4 : (⟨S512x2048, .f32⟩ : BufTy).Contents (Elt Ideal)) (x5 : (⟨S512, .f32⟩ : BufTy).Contents (Elt Ideal)) :
    (val_main_v23 (F := Ideal) x0 x1 x3 x4 x5) = (Cert.KernelIdeal.Gen.k0_pay2 (F := Ideal) (val_main_v6 (F := Ideal) x0 x3) (val_main_v7 (F := Ideal) x1) x4 (shapeCast Cert.KernelIdeal.S1x512 x5 Cert.KernelIdeal.Gen.shapeCasts_S512_S1x512)) :=
  calc (val_main_v23 (F := Ideal) x0 x1 x3 x4 x5)
      = softmaxRow (val_main_v12 (F := Ideal) x0 x1 x3 x4 x5) := rSoft_eq x0 x1 x3 x4 x5
    _ = softmaxRow (score (val_main_v6 (F := Ideal) x0 x3) (val_main_v7 (F := Ideal) x1) x4 (shapeCast Cert.KernelIdeal.S1x512 x5 Cert.KernelIdeal.Gen.shapeCasts_S512_S1x512)) := congrArg softmaxRow (rScore_eq x0 x1 x3 x4 x5)
    _ = softmaxRow (kScore (val_main_v6 (F := Ideal) x0 x3) (val_main_v7 (F := Ideal) x1) x4 (shapeCast Cert.KernelIdeal.S1x512 x5 Cert.KernelIdeal.Gen.shapeCasts_S512_S1x512)) := congrArg softmaxRow (kScore_eq _ _ _ _).symm
    _ = kSoft (kScore (val_main_v6 (F := Ideal) x0 x3) (val_main_v7 (F := Ideal) x1) x4 (shapeCast Cert.KernelIdeal.S1x512 x5 Cert.KernelIdeal.Gen.shapeCasts_S512_S1x512)) := (kSoft_eq _).symm
    _ = (Cert.KernelIdeal.Gen.k0_pay2 (F := Ideal) (val_main_v6 (F := Ideal) x0 x3) (val_main_v7 (F := Ideal) x1) x4 (shapeCast Cert.KernelIdeal.S1x512 x5 Cert.KernelIdeal.Gen.shapeCasts_S512_S1x512)) := (k0_pay2_eq _ _ _ _).symm

/-- The recurrent cell's input, over the arguments. -/
theorem input_eq (x0 : (⟨S1, .i32⟩ : BufTy).Contents (Elt Ideal)) (x1 : (⟨S1x1x1024, .f32⟩ : BufTy).Contents (Elt Ideal)) (x2 : (⟨S512x1024, .f32⟩ : BufTy).Contents (Elt Ideal)) (x3 : (⟨S50257x1024, .f32⟩ : BufTy).Contents (Elt Ideal)) (x4 : (⟨S512x2048, .f32⟩ : BufTy).Contents (Elt Ideal)) (x5 : (⟨S512, .f32⟩ : BufTy).Contents (Elt Ideal)) (x6 : (⟨S1024x2048, .f32⟩ : BufTy).Contents (Elt Ideal)) (x7 : (⟨S1024, .f32⟩ : BufTy).Contents (Elt Ideal)) :
    (val_main_v30 (F := Ideal) x0 x1 x2 x3 x4 x5 x6 x7) = (Cert.KernelIdeal.Gen.k0_pay3 (F := Ideal) (val_main_v6 (F := Ideal) x0 x3) (val_main_v7 (F := Ideal) x1) x4 (shapeCast Cert.KernelIdeal.S1x512 x5 Cert.KernelIdeal.Gen.shapeCasts_S512_S1x512) x2 x6 (shapeCast Cert.KernelIdeal.S1x1024 x7 Cert.KernelIdeal.Gen.shapeCasts_S1024_S1x1024)) :=
  calc (val_main_v30 (F := Ideal) x0 x1 x2 x3 x4 x5 x6 x7)
      = comb (val_main_v6 (F := Ideal) x0 x3) (val_main_v24 (F := Ideal) x0 x1 x2 x3 x4 x5) x6 (shapeCast Cert.KernelIdeal.S1x1024 x7 Cert.KernelIdeal.Gen.shapeCasts_S1024_S1x1024) := rComb_eq x0 x1 x2 x3 x4 x5 x6 x7
    _ = comb (val_main_v6 (F := Ideal) x0 x3) (ctx (val_main_v23 (F := Ideal) x0 x1 x3 x4 x5) x2) x6 (shapeCast Cert.KernelIdeal.S1x1024 x7 Cert.KernelIdeal.Gen.shapeCasts_S1024_S1x1024) := congrArg (fun a => comb (val_main_v6 (F := Ideal) x0 x3) a x6 (shapeCast Cert.KernelIdeal.S1x1024 x7 Cert.KernelIdeal.Gen.shapeCasts_S1024_S1x1024)) (rCtx_eq x0 x1 x2 x3 x4 x5)
    _ = comb (val_main_v6 (F := Ideal) x0 x3) (ctx (Cert.KernelIdeal.Gen.k0_pay2 (F := Ideal) (val_main_v6 (F := Ideal) x0 x3) (val_main_v7 (F := Ideal) x1) x4 (shapeCast Cert.KernelIdeal.S1x512 x5 Cert.KernelIdeal.Gen.shapeCasts_S512_S1x512)) x2) x6 (shapeCast Cert.KernelIdeal.S1x1024 x7 Cert.KernelIdeal.Gen.shapeCasts_S1024_S1x1024) := congrArg (fun w => comb (val_main_v6 (F := Ideal) x0 x3) (ctx w x2) x6 (shapeCast Cert.KernelIdeal.S1x1024 x7 Cert.KernelIdeal.Gen.shapeCasts_S1024_S1x1024)) (weights_eq x0 x1 x3 x4 x5)
    _ = comb (val_main_v6 (F := Ideal) x0 x3) (kCtx (Cert.KernelIdeal.Gen.k0_pay2 (F := Ideal) (val_main_v6 (F := Ideal) x0 x3) (val_main_v7 (F := Ideal) x1) x4 (shapeCast Cert.KernelIdeal.S1x512 x5 Cert.KernelIdeal.Gen.shapeCasts_S512_S1x512)) x2) x6 (shapeCast Cert.KernelIdeal.S1x1024 x7 Cert.KernelIdeal.Gen.shapeCasts_S1024_S1x1024) := congrArg (fun a => comb (val_main_v6 (F := Ideal) x0 x3) a x6 (shapeCast Cert.KernelIdeal.S1x1024 x7 Cert.KernelIdeal.Gen.shapeCasts_S1024_S1x1024)) (kCtx_eq _ _).symm
    _ = kComb (val_main_v6 (F := Ideal) x0 x3) (kCtx (Cert.KernelIdeal.Gen.k0_pay2 (F := Ideal) (val_main_v6 (F := Ideal) x0 x3) (val_main_v7 (F := Ideal) x1) x4 (shapeCast Cert.KernelIdeal.S1x512 x5 Cert.KernelIdeal.Gen.shapeCasts_S512_S1x512)) x2) x6 (shapeCast Cert.KernelIdeal.S1x1024 x7 Cert.KernelIdeal.Gen.shapeCasts_S1024_S1x1024) := (kComb_eq _ _ _ _).symm
    _ = (Cert.KernelIdeal.Gen.k0_pay3 (F := Ideal) (val_main_v6 (F := Ideal) x0 x3) (val_main_v7 (F := Ideal) x1) x4 (shapeCast Cert.KernelIdeal.S1x512 x5 Cert.KernelIdeal.Gen.shapeCasts_S512_S1x512) x2 x6 (shapeCast Cert.KernelIdeal.S1x1024 x7 Cert.KernelIdeal.Gen.shapeCasts_S1024_S1x1024)) := (k0_pay3_eq _ _ _ _ _ _ _).symm

/-- The new state, over the arguments. -/
theorem state_eq (x0 : (⟨S1, .i32⟩ : BufTy).Contents (Elt Ideal)) (x1 : (⟨S1x1x1024, .f32⟩ : BufTy).Contents (Elt Ideal)) (x2 : (⟨S512x1024, .f32⟩ : BufTy).Contents (Elt Ideal)) (x3 : (⟨S50257x1024, .f32⟩ : BufTy).Contents (Elt Ideal)) (x4 : (⟨S512x2048, .f32⟩ : BufTy).Contents (Elt Ideal)) (x5 : (⟨S512, .f32⟩ : BufTy).Contents (Elt Ideal)) (x6 : (⟨S1024x2048, .f32⟩ : BufTy).Contents (Elt Ideal)) (x7 : (⟨S1024, .f32⟩ : BufTy).Contents (Elt Ideal)) (x8 x9 : (⟨S3072x1024, .f32⟩ : BufTy).Contents (Elt Ideal)) (x10 x11 : (⟨S3072, .f32⟩ : BufTy).Contents (Elt Ideal)) :
    (val_main_v66 (F := Ideal) x0 x1 x2 x3 x4 x5 x6 x7 x8 x9 x10 x11) = (Cert.KernelIdeal.Gen.k1_pay1 (F := Ideal) (Cert.KernelIdeal.Gen.k0_pay3 (F := Ideal) (val_main_v6 (F := Ideal) x0 x3) (val_main_v7 (F := Ideal) x1) x4 (shapeCast Cert.KernelIdeal.S1x512 x5 Cert.KernelIdeal.Gen.shapeCasts_S512_S1x512) x2 x6 (shapeCast Cert.KernelIdeal.S1x1024 x7 Cert.KernelIdeal.Gen.shapeCasts_S1024_S1x1024)) (val_main_v7 (F := Ideal) x1) x8 x9 (shapeCast Cert.KernelIdeal.S1x3072 x10 Cert.KernelIdeal.Gen.shapeCasts_S3072_S1x3072) (shapeCast Cert.KernelIdeal.S1x3072 x11 Cert.KernelIdeal.Gen.shapeCasts_S3072_S1x3072)) :=
  calc (val_main_v66 (F := Ideal) x0 x1 x2 x3 x4 x5 x6 x7 x8 x9 x10 x11)
      = gru (val_main_v34 (F := Ideal) x0 x1 x2 x3 x4 x5 x6 x7 x8 x10) (val_main_v38 (F := Ideal) x1 x9 x11) (val_main_v7 (F := Ideal) x1) := rGru_eq x0 x1 x2 x3 x4 x5 x6 x7 x8 x9 x10 x11
    _ = gru (gates (val_main_v30 (F := Ideal) x0 x1 x2 x3 x4 x5 x6 x7) x8 (shapeCast Cert.KernelIdeal.S1x3072 x10 Cert.KernelIdeal.Gen.shapeCasts_S3072_S1x3072)) (gates (val_main_v7 (F := Ideal) x1) x9 (shapeCast Cert.KernelIdeal.S1x3072 x11 Cert.KernelIdeal.Gen.shapeCasts_S3072_S1x3072)) (val_main_v7 (F := Ideal) x1) :=
        congrArg₂ (fun a b => gru a b (val_main_v7 (F := Ideal) x1)) (rGatesI_eq x0 x1 x2 x3 x4 x5 x6 x7 x8 x10) (rGatesH_eq x1 x9 x11)
    _ = gru (gates (Cert.KernelIdeal.Gen.k0_pay3 (F := Ideal) (val_main_v6 (F := Ideal) x0 x3) (val_main_v7 (F := Ideal) x1) x4 (shapeCast Cert.KernelIdeal.S1x512 x5 Cert.KernelIdeal.Gen.shapeCasts_S512_S1x512) x2 x6 (shapeCast Cert.KernelIdeal.S1x1024 x7 Cert.KernelIdeal.Gen.shapeCasts_S1024_S1x1024)) x8 (shapeCast Cert.KernelIdeal.S1x3072 x10 Cert.KernelIdeal.Gen.shapeCasts_S3072_S1x3072)) (gates (val_main_v7 (F := Ideal) x1) x9 (shapeCast Cert.KernelIdeal.S1x3072 x11 Cert.KernelIdeal.Gen.shapeCasts_S3072_S1x3072)) (val_main_v7 (F := Ideal) x1) :=
        congrArg (fun x => gru (gates x x8 (shapeCast Cert.KernelIdeal.S1x3072 x10 Cert.KernelIdeal.Gen.shapeCasts_S3072_S1x3072)) (gates (val_main_v7 (F := Ideal) x1) x9 (shapeCast Cert.KernelIdeal.S1x3072 x11 Cert.KernelIdeal.Gen.shapeCasts_S3072_S1x3072)) (val_main_v7 (F := Ideal) x1)) (input_eq x0 x1 x2 x3 x4 x5 x6 x7)
    _ = gru (kGates (Cert.KernelIdeal.Gen.k0_pay3 (F := Ideal) (val_main_v6 (F := Ideal) x0 x3) (val_main_v7 (F := Ideal) x1) x4 (shapeCast Cert.KernelIdeal.S1x512 x5 Cert.KernelIdeal.Gen.shapeCasts_S512_S1x512) x2 x6 (shapeCast Cert.KernelIdeal.S1x1024 x7 Cert.KernelIdeal.Gen.shapeCasts_S1024_S1x1024)) x8 (shapeCast Cert.KernelIdeal.S1x3072 x10 Cert.KernelIdeal.Gen.shapeCasts_S3072_S1x3072)) (kGates (val_main_v7 (F := Ideal) x1) x9 (shapeCast Cert.KernelIdeal.S1x3072 x11 Cert.KernelIdeal.Gen.shapeCasts_S3072_S1x3072)) (val_main_v7 (F := Ideal) x1) :=
        congrArg₂ (fun a b => gru a b (val_main_v7 (F := Ideal) x1)) (kGates_eq _ _ _).symm (kGates_eq _ _ _).symm
    _ = kGru (kGates (Cert.KernelIdeal.Gen.k0_pay3 (F := Ideal) (val_main_v6 (F := Ideal) x0 x3) (val_main_v7 (F := Ideal) x1) x4 (shapeCast Cert.KernelIdeal.S1x512 x5 Cert.KernelIdeal.Gen.shapeCasts_S512_S1x512) x2 x6 (shapeCast Cert.KernelIdeal.S1x1024 x7 Cert.KernelIdeal.Gen.shapeCasts_S1024_S1x1024)) x8 (shapeCast Cert.KernelIdeal.S1x3072 x10 Cert.KernelIdeal.Gen.shapeCasts_S3072_S1x3072)) (kGates (val_main_v7 (F := Ideal) x1) x9 (shapeCast Cert.KernelIdeal.S1x3072 x11 Cert.KernelIdeal.Gen.shapeCasts_S3072_S1x3072)) (val_main_v7 (F := Ideal) x1) := (kGru_eq _ _ _).symm
    _ = (Cert.KernelIdeal.Gen.k1_pay1 (F := Ideal) (Cert.KernelIdeal.Gen.k0_pay3 (F := Ideal) (val_main_v6 (F := Ideal) x0 x3) (val_main_v7 (F := Ideal) x1) x4 (shapeCast Cert.KernelIdeal.S1x512 x5 Cert.KernelIdeal.Gen.shapeCasts_S512_S1x512) x2 x6 (shapeCast Cert.KernelIdeal.S1x1024 x7 Cert.KernelIdeal.Gen.shapeCasts_S1024_S1x1024)) (val_main_v7 (F := Ideal) x1) x8 x9 (shapeCast Cert.KernelIdeal.S1x3072 x10 Cert.KernelIdeal.Gen.shapeCasts_S3072_S1x3072) (shapeCast Cert.KernelIdeal.S1x3072 x11 Cert.KernelIdeal.Gen.shapeCasts_S3072_S1x3072)) := (k1_pay1_eq _ _ _ _ _ _).symm

noncomputable section
variable (m : (ℓ : Loc nD τ sig) → Buf (Elt Ideal) ℓ) (c : Dev nD)

/-- The reference's gathered embedding row (its gather stage of the token and the embedding table). -/
abbrev e : FVec Ideal Cert.KernelIdeal.S1x1024 .f32 := val_main_v6 (F := Ideal) (m ((c.tc : Thread nD τ).loc main_arg0)) (m ((c.tc : Thread nD τ).loc main_arg3))
/-- The previous state as a row (the reference's reshape stage). -/
abbrev h0 : FVec Ideal Cert.KernelIdeal.S1x1024 .f32 := val_main_v7 (F := Ideal) (m ((c.tc : Thread nD τ).loc main_arg1))
/-- The attention bias as a row. -/
abbrev b8 : FVec Ideal Cert.KernelIdeal.S1x512 .f32 := shapeCast Cert.KernelIdeal.S1x512 (m ((c.tc : Thread nD τ).loc main_arg5)) Cert.KernelIdeal.Gen.shapeCasts_S512_S1x512
/-- The combination bias as a row. -/
abbrev b9 : FVec Ideal Cert.KernelIdeal.S1x1024 .f32 := shapeCast Cert.KernelIdeal.S1x1024 (m ((c.tc : Thread nD τ).loc main_arg7)) Cert.KernelIdeal.Gen.shapeCasts_S1024_S1x1024
/-- The input-side gate bias as a row. -/
abbrev b10 : FVec Ideal Cert.KernelIdeal.S1x3072 .f32 := shapeCast Cert.KernelIdeal.S1x3072 (m ((c.tc : Thread nD τ).loc main_arg10)) Cert.KernelIdeal.Gen.shapeCasts_S3072_S1x3072
/-- The hidden-side gate bias as a row. -/
abbrev b11 : FVec Ideal Cert.KernelIdeal.S1x3072 .f32 := shapeCast Cert.KernelIdeal.S1x3072 (m ((c.tc : Thread nD τ).loc main_arg11)) Cert.KernelIdeal.Gen.shapeCasts_S3072_S1x3072
/-- The projection bias as a row. -/
abbrev b12 : FVec Ideal Cert.KernelIdeal.S1x50257 .f32 := shapeCast Cert.KernelIdeal.S1x50257 (m ((c.tc : Thread nD τ).loc main_arg13)) Cert.KernelIdeal.Gen.shapeCasts_S50257_S1x50257
/-- The new state: the second body's value at the first body's value. -/
abbrev hNew : FVec Ideal Cert.KernelIdeal.S1x1024 .f32 :=
  Cert.KernelIdeal.Gen.k1_pay1 (F := Ideal)
    (Cert.KernelIdeal.Gen.k0_pay3 (F := Ideal) (e m c) (h0 m c) (m ((c.tc : Thread nD τ).loc main_arg4)) (b8 m c) (m ((c.tc : Thread nD τ).loc main_arg2)) (m ((c.tc : Thread nD τ).loc main_arg6)) (b9 m c))
    (h0 m c) (m ((c.tc : Thread nD τ).loc main_arg8)) (m ((c.tc : Thread nD τ).loc main_arg9)) (b10 m c) (b11 m c)

/-- (R23) The reference's attention weights are the first body's weights. -/
theorem R23 :
    Cert.ReferenceIdeal.ValueP.res_main_v23 m c
      = Cert.KernelIdeal.Gen.k0_pay2 (F := Ideal) (e m c) (h0 m c) (m ((c.tc : Thread nD τ).loc main_arg4)) (b8 m c) :=
  (val_main_v23_eq m c).trans (weights_eq _ _ _ _ _)

/-- (R72) The reference's returned state is the broadcast of the new state. -/
theorem R72 : Cert.ReferenceIdeal.ValueP.res_main_v72 m c = B (hNew m c) :=
  (val_main_v72_eq m c).trans ((rB_eq _ _ _ _ _ _ _ _ _ _ _ _).trans (congrArg B (state_eq _ _ _ _ _ _ _ _ _ _ _ _)))

/-- (R71) The reference's log-probabilities are the log-softmax of the whole-array projection of the new state. -/
theorem R71 :
    Cert.ReferenceIdeal.ValueP.res_main_v71 m c = LSM (logits (hNew m c) (m ((c.tc : Thread nD τ).loc main_arg12)) (b12 m c)) :=
  (val_main_v71_eq m c).trans ((rLSM_eq _ _ _ _ _ _ _ _ _ _ _ _ _ _).trans (congrArg LSM
    ((rLogits_eq _ _ _ _ _ _ _ _ _ _ _ _ _ _).trans
      (congrArg (fun h => logits h (m ((c.tc : Thread nD τ).loc main_arg12)) (b12 m c)) (state_eq _ _ _ _ _ _ _ _ _ _ _ _)))))

end

end Cert.Bridge
-- ==== Proof.KICross.lean ====
import proofs.«149668_j82532091560494_2_alg».proof.Proof.Assembly
import proofs.«149668_j82532091560494_2_alg».proof.Proof.KIValue
import proofs.«149668_j82532091560494_2_alg».proof.Proof.KIPrefix

/-! The two programs apply the same host operations before and after the kernel bodies, each with its own copies of
the shape facts and of the gather record: the token's embedding row, the log-softmax of the logits and the returned
state are the same functions on both sides. -/

open Idealize.ShloMosaic

namespace Cert.Bridge

/-- The wrapped-index gather of the embedding row is the same function in both programs. -/
theorem kemb_eq (tok : (⟨Cert.KernelIdeal.S1, .i32⟩ : BufTy).Contents (Elt Ideal))
    (tab : (⟨Cert.KernelIdeal.S50257x1024, .f32⟩ : BufTy).Contents (Elt Ideal)) :
    Cert.KernelIdeal.Hand.kemb (F := Ideal) tok tab = Cert.ReferenceIdeal.ReadP.val_main_v6 (F := Ideal) tok tab := by
  unfold Cert.KernelIdeal.Hand.kemb Cert.ReferenceIdeal.ReadP.val_main_v6 Cert.ReferenceIdeal.ReadP.val_main_v5
    Cert.ReferenceIdeal.ReadP.val_main_v4 Cert.ReferenceIdeal.ReadP.val_main_v3 Cert.ReferenceIdeal.ReadP.val_main_v2
    Cert.ReferenceIdeal.ReadP.val_main_v1 Cert.ReferenceIdeal.ReadP.val_main_v0 Cert.ReferenceIdeal.ReadP.val_main_c
    Cert.ReferenceIdeal.ReadP.val_main_c_0
  rfl

/-- The log-softmax of the logits is the same function in both programs. -/
theorem tail16_eq (l : FVec Ideal Cert.KernelIdeal.S1x50257 .f32) :
    Cert.KernelIdeal.Hand.tail16 (F := Ideal) l = LSM l := by
  unfold Cert.KernelIdeal.Hand.tail16 LSM
  rfl

/-- The returned state is the same broadcast in both programs. -/
theorem tail17_eq (h : FVec Ideal Cert.KernelIdeal.S1x1024 .f32) :
    Cert.KernelIdeal.Hand.tail17 (F := Ideal) h = B h := by
  unfold Cert.KernelIdeal.Hand.tail17 B
  rfl

end Cert.Bridge
-- ==== Proof.LibConcatCongr.lean ====
/-
  A TWO-PIECE CONCATENATION RESPECTS EQUALITY OF ITS PIECES, in the form of a congruence rule for the simplifier. Each
  piece of a concatenation is the second component of a pair whose first component is the piece's shape, so a
  rewriting pass does not enter it on its own; with this rule it does, and a chain of host operations that ends in a
  concatenation is read in one pass.
-/
import Idealize.ShloMosaic.PureOps.ShapeOps

namespace Cert.LibConcatCongr

open Idealize.ShloMosaic

/-- Two pieces joined along an axis: equal pieces give equal joins. (Not tagged here: a module that wants the
    simplifier to use it says so locally.) -/
theorem concatenate_pair_congr {α : Type} {t s₁ s₂ : Shape} (a : Fin t.rank) (x₁ x₁' : s₁.Idx → α)
    (x₂ x₂' : s₂.Idx → α) (h : Shape.Concatenates [s₁, s₂] t a) (e₁ : x₁ = x₁') (e₂ : x₂ = x₂') :
    concatenate t a [⟨s₁, x₁⟩, ⟨s₂, x₂⟩] h = concatenate t a [⟨s₁, x₁'⟩, ⟨s₂, x₂'⟩] h := by
  subst e₁ e₂; rfl

end Cert.LibConcatCongr
-- ==== Proof.Algebraic.lean ====
/-
  The two idealized programs compute the same three results.

  Reading the kernel program at the extended reals: its first stretch of host operations gathers the embedding row
  of the token and reshapes the previous state and the five bias vectors into rows; the first region's body is the
  attention step (scores of the joined row against the attention matrix plus bias, their softmax, the context as the
  weighted sum of the encoder rows, the combination layer floored at zero), the second region's body is the gated
  recurrent step, the third region's 25 blocks make up the projection of the new state onto the vocabulary plus
  bias, and the last host operations take the log-softmax of that row and return the new state. The reference
  computes the same stages with host operations only. Stage by stage both sides are one function on the extended
  reals (a matrix unit's product into a zero accumulator and a host contraction are the same sum, a change of float
  format is the identity, the logistic function is 1 / (1 + exp (-x)) on both sides); no law used needs the inputs
  to be finite. This module joins the kernel's end state, read back region by region, to the reference's results
  stated over the kernel bodies' own functions.
-/
import proofs.«149668_j82532091560494_2_alg».proof.Defs
import proofs.«149668_j82532091560494_2_alg».proof.Proof.Gen.KernelIdeal
import proofs.«149668_j82532091560494_2_alg».proof.Proof.Gen.ReferenceIdeal
import proofs.«149668_j82532091560494_2_alg».proof.Proof.Gen.Pre_finite_inputs
import proofs.«149668_j82532091560494_2_alg».proof.Proof.KIValue
import proofs.«149668_j82532091560494_2_alg».proof.Proof.KIPrefix
import proofs.«149668_j82532091560494_2_alg».proof.Proof.KIFrame
import proofs.«149668_j82532091560494_2_alg».proof.Proof.KICross
import proofs.«149668_j82532091560494_2_alg».proof.Proof.Assembly
import proofs.«149668_j82532091560494_2_alg».proof.Proof.RefRunThmP

set_option maxRecDepth 16384

noncomputable section

namespace Cert.Bridge

open Idealize.ShloMosaic Idealize.ShloMosaic.TcCoe Idealize.SL.Sem
open Cert.KernelIdeal.Hand (V1 tail16 tail17 kemb)

/-- From memories that agree on the arguments, the kernel program's values after its first host stretch are the
    reference-side inputs: the gathered row, the state row, the bias rows, and the weight arrays themselves. -/
theorem inputs_agree (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ) (c : Dev Cert.KernelIdeal.nD)
    (a0 : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0))
    (a1 : m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1))
    (a2 : m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2))
    (a3 : m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3))
    (a4 : m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4))
    (a5 : m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5))
    (a6 : m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6))
    (a7 : m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7))
    (a8 : m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8))
    (a9 : m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9))
    (a10 : m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10))
    (a11 : m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11))
    (a12 : m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12))
    (a13 : m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)) :
    V1 m c Cert.KernelIdeal.main_v6 = e m' c ∧ V1 m c Cert.KernelIdeal.main_v7 = h0 m' c ∧ V1 m c Cert.KernelIdeal.main_v8 = b8 m' c
    ∧ V1 m c Cert.KernelIdeal.main_v9 = b9 m' c ∧ V1 m c Cert.KernelIdeal.main_v10 = b10 m' c ∧ V1 m c Cert.KernelIdeal.main_v11 = b11 m' c
    ∧ V1 m c Cert.KernelIdeal.main_v12 = b12 m' c
    ∧ V1 m c Cert.KernelIdeal.main_arg2 = m' ((c.tc : Thread Cert.ReferenceIdeal.nD Cert.ReferenceIdeal.τ).loc Cert.ReferenceIdeal.main_arg2) ∧ V1 m c Cert.KernelIdeal.main_arg4 = m' ((c.tc : Thread Cert.ReferenceIdeal.nD Cert.ReferenceIdeal.τ).loc Cert.ReferenceIdeal.main_arg4)
    ∧ V1 m c Cert.KernelIdeal.main_arg6 = m' ((c.tc : Thread Cert.ReferenceIdeal.nD Cert.ReferenceIdeal.τ).loc Cert.ReferenceIdeal.main_arg6) ∧ V1 m c Cert.KernelIdeal.main_arg8 = m' ((c.tc : Thread Cert.ReferenceIdeal.nD Cert.ReferenceIdeal.τ).loc Cert.ReferenceIdeal.main_arg8)
    ∧ V1 m c Cert.KernelIdeal.main_arg9 = m' ((c.tc : Thread Cert.ReferenceIdeal.nD Cert.ReferenceIdeal.τ).loc Cert.ReferenceIdeal.main_arg9) ∧ V1 m c Cert.KernelIdeal.main_arg12 = m' ((c.tc : Thread Cert.ReferenceIdeal.nD Cert.ReferenceIdeal.τ).loc Cert.ReferenceIdeal.main_arg12) := by
  refine ⟨?_, ?_, ?_, ?_, ?_, ?_, ?_, ?_, ?_, ?_, ?_, ?_, ?_⟩
  · rw [Cert.KernelIdeal.Hand.pre_v6 m c, kemb_eq]; show _ = Cert.ReferenceIdeal.ReadP.val_main_v6 _ _; rw [a0, a3]
  · rw [Cert.KernelIdeal.Hand.pre_v7 m c]; show _ = Cert.ReferenceIdeal.ReadP.val_main_v7 _; rw [a1]; rfl
  · rw [Cert.KernelIdeal.Hand.pre_v8 m c]; show _ = shapeCast _ _ _; rw [a5]
  · rw [Cert.KernelIdeal.Hand.pre_v9 m c]; show _ = shapeCast _ _ _; rw [a7]
  · rw [Cert.KernelIdeal.Hand.pre_v10 m c]; show _ = shapeCast _ _ _; rw [a10]
  · rw [Cert.KernelIdeal.Hand.pre_v11 m c]; show _ = shapeCast _ _ _; rw [a11]
  · rw [Cert.KernelIdeal.Hand.pre_v12 m c]; show _ = shapeCast _ _ _; rw [a13]
  · rw [Cert.KernelIdeal.Hand.pre_arg2 m c, a2]
  · rw [Cert.KernelIdeal.Hand.pre_arg4 m c, a4]
  · rw [Cert.KernelIdeal.Hand.pre_arg6 m c, a6]
  · rw [Cert.KernelIdeal.Hand.pre_arg8 m c, a8]
  · rw [Cert.KernelIdeal.Hand.pre_arg9 m c, a9]
  · rw [Cert.KernelIdeal.Hand.pre_arg12 m c, a12]

/-- At the extended reals the idealized kernel program and the idealized reference, run from memories that agree
    on the arguments, end with equal results: the kernel's end state read back (`ends_results`) is the reference's
    results (`R71`, `R72`, `R23`) once the inputs are identified (`inputs_agree`). -/
theorem algebraic : Cert.algebraic_KernelIdeal_ReferenceIdeal (hKernelIdeal := Cert.KernelIdeal.Gen.facts)
    (hReferenceIdeal := Cert.ReferenceIdeal.Gen.facts) (hPre_finite_inputs := Cert.Pre_finite_inputs.Gen.facts) := by
  intro m ρ m' ρ' _ hagree
  refine ⟨fun c => Cert.ReferenceIdeal.ValueP.res_main_v71 m' c, fun c => Cert.ReferenceIdeal.ValueP.res_main_v72 m' c,
    fun c => Cert.ReferenceIdeal.ValueP.res_main_v23 m' c, ?_, Cert.ReferenceIdeal.ValueP.run (F := Ideal) m' ρ'⟩
  refine Cert.KernelIdeal.Hand.run_main m ρ (fun s h c => ?_)
  have hr := Cert.KernelIdeal.Hand.ends_results m c s (h c)
  dsimp only at hr
  obtain ⟨r13, r17, r16⟩ := hr
  obtain ⟨G, -, hs⟩ := h c
  obtain ⟨a0, a1, a2, a3, a4, a5, a6, a7, a8, a9, a10, a11, a12, a13⟩ := hagree c
  obtain ⟨E6, E7, E8, E9, E10, E11, E12, A2, A4, A6, A8, A9, A12⟩ := inputs_agree m m' c a0 a1 a2 a3 a4 a5 a6 a7 a8 a9 a10 a11 a12 a13
  rw [E6, E7, E8, E9, E10, E11, E12, A2, A4, A6, A8, A9, A12] at r16
  rw [E6, E7, E8, E9, E10, E11, A2, A4, A6, A8, A9] at r17
  rw [E6, E7, E8, A4] at r13
  refine ⟨r16.trans ?_, r17.trans ?_, r13.trans (R23 m' c).symm,
    (hs _ (Cert.KernelIdeal.Hand.mem_uc Cert.KernelIdeal.main_arg0 (by decide))).trans (Cert.KernelIdeal.Hand.W6_keep m c G Cert.KernelIdeal.main_arg0 (by decide) (by decide) (by decide) (by decide) (by decide) (by decide) (by decide)),
    (hs _ (Cert.KernelIdeal.Hand.mem_uc Cert.KernelIdeal.main_arg1 (by decide))).trans (Cert.KernelIdeal.Hand.W6_keep m c G Cert.KernelIdeal.main_arg1 (by decide) (by decide) (by decide) (by decide) (by decide) (by decide) (by decide)),
    (hs _ (Cert.KernelIdeal.Hand.mem_uc Cert.KernelIdeal.main_arg2 (by decide))).trans (Cert.KernelIdeal.Hand.W6_keep m c G Cert.KernelIdeal.main_arg2 (by decide) (by decide) (by decide) (by decide) (by decide) (by decide) (by decide)),
    (hs _ (Cert.KernelIdeal.Hand.mem_uc Cert.KernelIdeal.main_arg3 (by decide))).trans (Cert.KernelIdeal.Hand.W6_keep m c G Cert.KernelIdeal.main_arg3 (by decide) (by decide) (by decide) (by decide) (by decide) (by decide) (by decide)),
    (hs _ (Cert.KernelIdeal.Hand.mem_uc Cert.KernelIdeal.main_arg4 (by decide))).trans (Cert.KernelIdeal.Hand.W6_keep m c G Cert.KernelIdeal.main_arg4 (by decide) (by decide) (by decide) (by decide) (by decide) (by decide) (by decide)),
    (hs _ (Cert.KernelIdeal.Hand.mem_uc Cert.KernelIdeal.main_arg5 (by decide))).trans (Cert.KernelIdeal.Hand.W6_keep m c G Cert.KernelIdeal.main_arg5 (by decide) (by decide) (by decide) (by decide) (by decide) (by decide) (by decide)),
    (hs _ (Cert.KernelIdeal.Hand.mem_uc Cert.KernelIdeal.main_arg6 (by decide))).trans (Cert.KernelIdeal.Hand.W6_keep m c G Cert.KernelIdeal.main_arg6 (by decide) (by decide) (by decide) (by decide) (by decide) (by decide) (by decide)),
    (hs _ (Cert.KernelIdeal.Hand.mem_uc Cert.KernelIdeal.main_arg7 (by decide))).trans (Cert.KernelIdeal.Hand.W6_keep m c G Cert.KernelIdeal.main_arg7 (by decide) (by decide) (by decide) (by decide) (by decide) (by decide) (by decide)),
    (hs _ (Cert.KernelIdeal.Hand.mem_uc Cert.KernelIdeal.main_arg8 (by decide))).trans (Cert.KernelIdeal.Hand.W6_keep m c G Cert.KernelIdeal.main_arg8 (by decide) (by decide) (by decide) (by decide) (by decide) (by decide) (by decide)),
    (hs _ (Cert.KernelIdeal.Hand.mem_uc Cert.KernelIdeal.main_arg9 (by decide))).trans (Cert.KernelIdeal.Hand.W6_keep m c G Cert.KernelIdeal.main_arg9 (by decide) (by decide) (by decide) (by decide) (by decide) (by decide) (by decide)),
    (hs _ (Cert.KernelIdeal.Hand.mem_uc Cert.KernelIdeal.main_arg10 (by decide))).trans (Cert.KernelIdeal.Hand.W6_keep m c G Cert.KernelIdeal.main_arg10 (by decide) (by decide) (by decide) (by decide) (by decide) (by decide) (by decide)),
    (hs _ (Cert.KernelIdeal.Hand.mem_uc Cert.KernelIdeal.main_arg11 (by decide))).trans (Cert.KernelIdeal.Hand.W6_keep m c G Cert.KernelIdeal.main_arg11 (by decide) (by decide) (by decide) (by decide) (by decide) (by decide) (by decide)),
    (hs _ (Cert.KernelIdeal.Hand.mem_uc Cert.KernelIdeal.main_arg12 (by decide))).trans (Cert.KernelIdeal.Hand.W6_keep m c G Cert.KernelIdeal.main_arg12 (by decide) (by decide) (by decide) (by decide) (by decide) (by decide) (by decide)),
    (hs _ (Cert.KernelIdeal.Hand.mem_uc Cert.KernelIdeal.main_arg13 (by decide))).trans (Cert.KernelIdeal.Hand.W6_keep m c G Cert.KernelIdeal.main_arg13 (by decide) (by decide) (by decide) (by decide) (by decide) (by decide) (by decide))⟩
  · exact (tail16_eq _).trans (R71 m' c).symm
  · exact (tail17_eq _).trans (R72 m' c).symm

end Cert.Bridge

end
-- ==== Proof.lean ====
/-
  The certificate of one decoder step: an embedding lookup, attention over 512 encoder rows, a combination layer, a
  gated recurrent step on a state of width 1024, and a projection onto a vocabulary of 50257 followed by a
  log-softmax. The kernel program runs the attention and combination in one region, the recurrent step in a second,
  and the projection in a third, whose 25 blocks of 2048 vocabulary entries overhang the arrays at the last block.

  The five claims:
  * the word-level program runs to the end from any memory, nothing faulting, and leaves its arguments as launched;
  * so does the idealized program (one proof serves both: it is stated at any float instance). Because the last
    blocks overhang, what the third region's body computes from the staging buffers' tails is not determined by the
    arguments at word level, so the run is carried with relational proof data: the logits array ends at SOME
    contents the 25 write-backs may leave, and the host operations after it run from whatever those are;
  * the reference, a line of host operations, runs and leaves its arguments as launched;
  * the idealization rewrote nothing, so there is nothing to preserve;
  * at the extended reals those contents ARE determined — a matrix product's entry depends on its own row only — and
    the three results of the idealized kernel program equal the reference's (`Cert.Bridge.algebraic`).
-/
import proofs.«149668_j82532091560494_2_alg».proof.Defs
import proofs.«149668_j82532091560494_2_alg».proof.Proof.Gen.Kernel
import proofs.«149668_j82532091560494_2_alg».proof.Proof.Gen.KernelIdeal
import proofs.«149668_j82532091560494_2_alg».proof.Proof.Gen.ReferenceIdeal
import proofs.«149668_j82532091560494_2_alg».proof.Proof.Gen.Pre_finite_inputs
import proofs.«149668_j82532091560494_2_alg».proof.Proof.KFrame
import proofs.«149668_j82532091560494_2_alg».proof.Proof.KIFrame
import proofs.«149668_j82532091560494_2_alg».proof.Proof.Algebraic
import proofs.«149668_j82532091560494_2_alg».proof.Proof.RefRunThmP
import Idealize.ShloMosaic.Adequacy
import Idealize.ShloMosaic.Init

noncomputable section

namespace Cert.Proof

open Idealize.ShloMosaic Idealize.SL.Sem

theorem claim : Cert.Claim :=
  ⟨Cert.Kernel.Gen.facts, Cert.KernelIdeal.Gen.facts, Cert.ReferenceIdeal.Gen.facts, Cert.Pre_finite_inputs.Gen.facts,
    fun m ρ _ => Cert.Kernel.Hand.frame m ρ,
    fun m ρ _ => Cert.KernelIdeal.Hand.frame m ρ,
    fun m ρ _ => (θ_run Cert.ReferenceIdeal.defs _ _).mono (fun _ h c => (h c).2.2.2)
      (Cert.ReferenceIdeal.ValueP.run (F := Ideal) m ρ),
    trivial,
    Cert.Bridge.algebraic⟩

end Cert.Proof

end
